-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x20000x2 : Shape := ⟨3, ![32, 20000, 2]⟩
abbrev S32x10000x2 : Shape := ⟨3, ![32, 10000, 2]⟩
abbrev S64x2 : Shape := ⟨2, ![64, 2]⟩
abbrev S1 : Shape := ⟨1, ![1]⟩
abbrev S_ : Shape := ⟨0, ![]⟩

class Facts : Prop where
  bcast_S_S32x20000x2 : S_.BroadcastsInDim S32x20000x2 (![] : Fin 0 → Fin S32x20000x2.rank)
  reducesTo_S32x20000x2_S_d0_1_2 : S32x20000x2.ReducesTo [0, 1, 2] S_
  h_S_ : 0 < S_.numel
  bcast_S_S32x10000x2 : S_.BroadcastsInDim S32x10000x2 (![] : Fin 0 → Fin S32x10000x2.rank)
  reducesTo_S32x10000x2_S_d0_1_2 : S32x10000x2.ReducesTo [0, 1, 2] S_
  bcast_S_S64x2 : S_.BroadcastsInDim S64x2 (![] : Fin 0 → Fin S64x2.rank)
  reducesTo_S64x2_S_d0_1 : S64x2.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x2 .f32) (main_arg5 : FVec F S1 .f32) (main_v13 : IVec S_ 1) (main_v16 : IVec S32x10000x2 1) : IVec S_ 1 :=
  let main_c_5 : IVec S_ 1 := constantI S_ 1 1#1
  let main_v17 : IVec S_ 1 := (fun x v => Host.reduce IntOp.andi x v reducesTo_S32x10000x2_S_d0_1_2 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S32x20000x2 .f32) (main_arg1 : FVec F S32x20000x2 .f32) (main_arg2 : FVec F S32x10000x2 .f32) (main_arg3 : FVec F S32x10000x2 .f32) (main_arg4 : FVec F S64x2 .f32) (main_arg5 : FVec F S1 .f32) : IVec S_ 1 :=
  let main_v0 : FVec F S32x20000x2 .f32 := Host.absf main_arg0
  let main_cst : FVec F S_ .f32 := constant S_ .f32 0x7F800000#32
  let main_v1 : FVec F S32x20000x2 .f32 := broadcastInDim S32x20000x2 ![] bcast_S_S32x20000x2 main_cst
  let main_v2 : IVec S32x20000x2 1 := cmpf .olt main_v0 main_v1
  let main_c : IVec S_ 1 := constantI S_ 1 1#1
  let main_v3 : IVec S_ 1 := (fun x v => Host.reduce IntOp.andi x v reducesTo_S32x20000x2_S_d0_1_2 h_S_) main_v2 main_c
  let main_v4 : FVec F S32x20000x2 .f32 := Host.absf main_arg1
  let main_cst_0 : FVec F S_ .f32 := constant S_ .f32 0x7F800000#32
  let main_v5 : FVec F S32x20000x2 .f32 := broadcastInDim S32x20000x2 ![] bcast_S_S32x20000x2 main_cst_0
  let main_v6 : IVec S32x20000x2 1 := cmpf .olt main_v4 main_v5
  let main_c_1 : IVec S_ 1 := constantI S_ 1 1#1
  let main_v7 : IVec S_ 1 := (fun x v => Host.reduce IntOp.andi x v reducesTo_S32x20000x2_S_d0_1_2 h_S_) main_v6 main_c_1
  let main_v8 : IVec S_ 1 := andi main_v3 main_v7
  let main_v9 : FVec F S32x10000x2 .f32 := Host.absf main_arg2
  let main_cst_2 : FVec F S_ .f32 := constant S_ .f32 0x7F800000#32
  let main_v10 : FVec F S32x10000x2 .f32 := broadcastInDim S32x10000x2 ![] bcast_S_S32x10000x2 main_cst_2
  let main_v11 : IVec S32x10000x2 1 := cmpf .olt main_v9 main_v10
  let main_c_3 : IVec S_ 1 := constantI S_ 1 1#1
  let main_v12 : IVec S_ 1 := (fun x v => Host.reduce IntOp.andi x v reducesTo_S32x10000x2_S_d0_1_2 h_S_) main_v11 main_c_3
  let main_v13 : IVec S_ 1 := andi main_v8 main_v12
  let main_v14 : FVec F S32x10000x2 .f32 := Host.absf main_arg3
  let main_cst_4 : FVec F S_ .f32 := constant S_ .f32 0x7F800000#32
  let main_v15 : FVec F S32x10000x2 .f32 := broadcastInDim S32x10000x2 ![] bcast_S_S32x10000x2 main_cst_4
  let main_v16 : IVec S32x10000x2 1 := cmpf .olt main_v14 main_v15
  fn_part1 (F := F) main_arg4 main_arg5 main_v13 main_v16
-- ==== Kernel.lean ====
abbrev S32x20000x2 : Shape := ⟨3, ![32, 20000, 2]⟩
abbrev S32x10000x2 : Shape := ⟨3, ![32, 10000, 2]⟩
abbrev S64x2 : Shape := ⟨2, ![64, 2]⟩
abbrev S1 : Shape := ⟨1, ![1]⟩
abbrev S_ : Shape := ⟨0, ![]⟩
abbrev S1x1 : Shape := ⟨2, ![1, 1]⟩
abbrev S32x64 : Shape := ⟨2, ![32, 64]⟩
abbrev S16x200x2 : Shape := ⟨3, ![16, 200, 2]⟩
abbrev S16x64 : Shape := ⟨2, ![16, 64]⟩
abbrev S64x1 : Shape := ⟨2, ![64, 1]⟩
abbrev S64 : Shape := ⟨1, ![64]⟩
abbrev S16x200x1 : Shape := ⟨3, ![16, 200, 1]⟩
abbrev S16x200 : Shape := ⟨2, ![16, 200]⟩
abbrev S1x1x64 : Shape := ⟨3, ![1, 1, 64]⟩
abbrev S16x200x64 : Shape := ⟨3, ![16, 200, 64]⟩
abbrev S32x128 : Shape := ⟨2, ![32, 128]⟩

abbrev nBuf : Space → Nat
  | .hbm => 25
  | .vmem => 32
  | .smem => 0
  | _ => 0

abbrev bufTy : (tb : Table) → Fin (tcTables nBuf tb) → BufTy
  | .hbm, ⟨0, _⟩ => ⟨S32x20000x2, .f32⟩
  | .hbm, ⟨1, _⟩ => ⟨S32x20000x2, .f32⟩
  | .hbm, ⟨2, _⟩ => ⟨S32x10000x2, .f32⟩
  | .hbm, ⟨3, _⟩ => ⟨S32x10000x2, .f32⟩
  | .hbm, ⟨4, _⟩ => ⟨S64x2, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x128, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S16x200x2, .f32⟩
  | .local _ .vmem, ⟨1, _⟩ => ⟨S16x200x2, .f32⟩
  | .local _ .vmem, ⟨2, _⟩ => ⟨S16x200x2, .f32⟩
  | .local _ .vmem, ⟨3, _⟩ => ⟨S16x200x2, .f32⟩
  | .local _ .vmem, ⟨4, _⟩ => ⟨S64x2, .f32⟩
  | .local _ .vmem, ⟨5, _⟩ => ⟨S1x1, .f32⟩
  | .local _ .vmem, ⟨6, _⟩ => ⟨S16x64, .f32⟩
  | .local _ .vmem, ⟨7, _⟩ => ⟨S16x64, .f32⟩
  | .local _ .vmem, ⟨8, _⟩ => ⟨S16x64, .f32⟩
  | .local _ .vmem, ⟨9, _⟩ => ⟨S16x64, .f32⟩
  | .local _ .vmem, ⟨10, _⟩ => ⟨S16x64, .f32⟩
  | .local _ .vmem, ⟨11, _⟩ => ⟨S16x64, .f32⟩
  | .local _ .vmem, ⟨12, _⟩ => ⟨S16x200x2, .f32⟩
  | .local _ .vmem, ⟨13, _⟩ => ⟨S16x200x2, .f32⟩
  | .local _ .vmem, ⟨14, _⟩ => ⟨S64x2, .f32⟩
  | .local _ .vmem, ⟨15, _⟩ => ⟨S1x1, .f32⟩
  | .local _ .vmem, ⟨16, _⟩ => ⟨S16x64, .f32⟩
  | .local _ .vmem, ⟨17, _⟩ => ⟨S16x64, .f32⟩
  | .local _ .vmem, ⟨18, _⟩ => ⟨S16x64, .f32⟩
  | .local _ .vmem, ⟨19, _⟩ => ⟨S16x64, .f32⟩
  | .local _ .vmem, ⟨20, _⟩ => ⟨S16x64, .f32⟩
  | .local _ .vmem, ⟨21, _⟩ => ⟨S16x64, .f32⟩
  | .local _ .vmem, ⟨22, _⟩ => ⟨S16x200x2, .f32⟩
  | .local _ .vmem, ⟨23, _⟩ => ⟨S16x200x2, .f32⟩
  | .local _ .vmem, ⟨24, _⟩ => ⟨S64x2, .f32⟩
  | .local _ .vmem, ⟨25, _⟩ => ⟨S1x1, .f32⟩
  | .local _ .vmem, ⟨26, _⟩ => ⟨S16x64, .f32⟩
  | .local _ .vmem, ⟨27, _⟩ => ⟨S16x64, .f32⟩
  | .local _ .vmem, ⟨28, _⟩ => ⟨S16x64, .f32⟩
  | .local _ .vmem, ⟨29, _⟩ => ⟨S16x64, .f32⟩
  | .local _ .vmem, ⟨30, _⟩ => ⟨S16x64, .f32⟩
  | .local _ .vmem, ⟨31, _⟩ => ⟨S16x64, .f32⟩
  | _, _ => ⟨S32x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v82 : BitVec 1 := Scalar.cmpi .eq arg1 c99_i32
  let v83 : BitVec 32 := Scalar.extui v82
  let c0_i32_27 : BitVec 32 := 0#32
  let v84 : BitVec 1 := Scalar.cmpi .ne v83 c0_i32_27
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x200x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x200x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v81 : BitVec 1 := Scalar.cmpi .eq arg1 c49_i32
  let v82 : BitVec 32 := Scalar.extui v81
  let c0_i32_26 : BitVec 32 := 0#32
  let v83 : BitVec 1 := Scalar.cmpi .ne v82 c0_i32_26
  v83

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x200x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 50], ![false, false]⟩

def k2_cond2 (i : grid2.Coords) : BitVec 1 :=
  let arg1 : BitVec 32 := BitVec.ofNat 32 (i 1).val
  let c49_i32 : BitVec 32 := 49#32
  let v81 : BitVec 1 := Scalar.cmpi .eq arg1 c49_i32
  let v82 : BitVec 32 := Scalar.extui v81
  let c0_i32_26 : BitVec 32 := 0#32
  let v83 : BitVec 1 := Scalar.cmpi .ne v82 c0_i32_26
  v83

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S16x200x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S16x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S16x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S1_S_ : S1.ShapeCasts S_
  shapeCasts_S_S1x1 : S_.ShapeCasts S1x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64x2_S64x2_0_0 : ∀ a, (![0, 0] : Fin 2 → Nat) a + S64x2.size a ≤ S64x2.size a
  h_S64x2 : 0 < S64x2.numel
  slices_S64x2_o0_0_S64x1 : S64x2.Slices ![0, 0] S64x1
  shapeCasts_S64x1_S64 : S64x1.ShapeCasts S64
  slices_S64x2_o0_1_S64x1 : S64x2.Slices ![0, 1] S64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S16x200x2_S16x200x2_0_0_0 : ∀ a, (![0, 0, 0] : Fin 3 → Nat) a + S16x200x2.size a ≤ S16x200x2.size a
  h_S16x200x2 : 0 < S16x200x2.numel
  slices_S16x200x2_o0_0_0_S16x200x1 : S16x200x2.Slices ![0, 0, 0] S16x200x1
  shapeCasts_S16x200x1_S16x200 : S16x200x1.ShapeCasts S16x200
  slices_S16x200x2_o0_0_1_S16x200x1 : S16x200x2.Slices ![0, 0, 1] S16x200x1
  shapeCasts_S16x200_S16x200x1 : S16x200.ShapeCasts S16x200x1
  shapeCasts_S64_S1x1x64 : S64.ShapeCasts S1x1x64
  broadcasts_S16x200x1_S16x200x64 : S16x200x1.Broadcasts S16x200x64
  broadcasts_S1x1x64_S16x200x64 : S1x1x64.Broadcasts S16x200x64
  reduces_S16x200x64_S16x64 : S16x200x64.Reduces [1] S16x64
  concatenates_S32x64_S32x64_S32x128_d1 : Shape.Concatenates [S32x64, S32x64] S32x128 1
  reducesTo_S32x64_S_d0_1 : S32x64.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x2.size a ≤ S32x20000x2.size a
  hwx0_0 : ∀ i : grid0.Coords, EltTy.bits .f32 = 32 ∨ (Rect.block (s := S32x20000x2) S16x200x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x200x2.size a ≤ S32x20000x2.size a
  hwx0_1 : ∀ i : grid0.Coords, EltTy.bits .f32 = 32 ∨ (Rect.block (s := S32x20000x2) S16x200x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S32x64.size a
  hwx0_4 : ∀ i : grid0.Coords, EltTy.bits .f32 = 32 ∨ (Rect.block (s := S32x64) S16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S32x64.size a
  hwx0_5 : ∀ i : grid0.Coords, EltTy.bits .f32 = 32 ∨ (Rect.block (s := S32x64) S16x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x200x2.size a ≤ S32x10000x2.size a
  hwx1_0 : ∀ i : grid1.Coords, EltTy.bits .f32 = 32 ∨ (Rect.block (s := S32x10000x2) S16x200x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2.size a ≤ S64x2.size a
  hwx1_1 : ∀ i : grid1.Coords, EltTy.bits .f32 = 32 ∨ (Rect.block (s := S64x2) S64x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S32x64.size a
  hwx1_3 : ∀ i : grid1.Coords, EltTy.bits .f32 = 32 ∨ (Rect.block (s := S32x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S32x64.size a
  hwx1_4 : ∀ i : grid1.Coords, EltTy.bits .f32 = 32 ∨ (Rect.block (s := S32x64) S16x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x200x2.size a ≤ S32x10000x2.size a
  hwx2_0 : ∀ i : grid2.Coords, EltTy.bits .f32 = 32 ∨ (Rect.block (s := S32x10000x2) S16x200x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S32x64.size a
  hwx2_3 : ∀ i : grid2.Coords, EltTy.bits .f32 = 32 ∨ (Rect.block (s := S32x64) S16x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x64.size a ≤ S32x64.size a
  hwx2_4 : ∀ i : grid2.Coords, EltTy.bits .f32 = 32 ∨ (Rect.block (s := S32x64) S16x64.size (cc2_transform_4 i) (hinb2_4 i)).WholeWords (EltTy.packing .f32)

variable [Facts₀]

abbrev win0_0 : Pipeline.Window sig grid0 :=
  Pipeline.Window.ofSpec (Memref.whole main_arg0) S16x200x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x200x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S16x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S16x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg2) S16x200x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S16x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S16x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg3) S16x200x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5_0) S16x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5_1) S16x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

class Facts : Prop extends Facts₀ where

variable [Facts]
-- ==== ReferenceIdeal.lean ====
abbrev S32x20000x2 : Shape := ⟨3, ![32, 20000, 2]⟩
abbrev S32x10000x2 : Shape := ⟨3, ![32, 10000, 2]⟩
abbrev S64x2 : Shape := ⟨2, ![64, 2]⟩
abbrev S1 : Shape := ⟨1, ![1]⟩
abbrev S32x10000x1 : Shape := ⟨3, ![32, 10000, 1]⟩
abbrev S32x10000 : Shape := ⟨2, ![32, 10000]⟩
abbrev S_ : Shape := ⟨0, ![]⟩
abbrev S32x40000x2 : Shape := ⟨3, ![32, 40000, 2]⟩
abbrev S32x40000x1x2 : Shape := ⟨4, ![32, 40000, 1, 2]⟩
abbrev S1x1x64x2 : Shape := ⟨4, ![1, 1, 64, 2]⟩
abbrev S32x40000x64x2 : Shape := ⟨4, ![32, 40000, 64, 2]⟩
abbrev S32x40000x64 : Shape := ⟨3, ![32, 40000, 64]⟩
abbrev S32x64 : Shape := ⟨2, ![32, 64]⟩
abbrev S32x128 : Shape := ⟨2, ![32, 128]⟩

abbrev nBuf : Space → Nat
  | .hbm => 102
  | .vmem => 0
  | .smem => 0
  | _ => 0

abbrev bufTy : (tb : Table) → Fin (tcTables nBuf tb) → BufTy
  | .hbm, ⟨0, _⟩ => ⟨S32x20000x2, .f32⟩
  | .hbm, ⟨1, _⟩ => ⟨S32x20000x2, .f32⟩
  | .hbm, ⟨2, _⟩ => ⟨S32x10000x2, .f32⟩
  | .hbm, ⟨3, _⟩ => ⟨S32x10000x2, .f32⟩
  | .hbm, ⟨4, _⟩ => ⟨S64x2, .f32⟩
  | .hbm, ⟨5, _⟩ => ⟨S1, .f32⟩
  | .hbm, ⟨6, _⟩ => ⟨S32x10000x1, .f32⟩
  | .hbm, ⟨7, _⟩ => ⟨S32x10000, .f32⟩
  | .hbm, ⟨8, _⟩ => ⟨S32x10000x1, .f32⟩
  | .hbm, ⟨9, _⟩ => ⟨S32x10000, .f32⟩
  | .hbm, ⟨10, _⟩ => ⟨S32x10000x1, .f32⟩
  | .hbm, ⟨11, _⟩ => ⟨S32x10000, .f32⟩
  | .hbm, ⟨12, _⟩ => ⟨S32x10000x1, .f32⟩
  | .hbm, ⟨13, _⟩ => ⟨S32x10000, .f32⟩
  | .hbm, ⟨14, _⟩ => ⟨S_, .f32⟩
  | .hbm, ⟨15, _⟩ => ⟨S32x10000, .f32⟩
  | .hbm, ⟨16, _⟩ => ⟨S32x10000, .f32⟩
  | .hbm, ⟨17, _⟩ => ⟨S32x10000x1, .f32⟩
  | .hbm, ⟨18, _⟩ => ⟨S32x10000x1, .f32⟩
  | .hbm, ⟨19, _⟩ => ⟨S32x10000x2, .f32⟩
  | .hbm, ⟨20, _⟩ => ⟨S_, .f32⟩
  | .hbm, ⟨21, _⟩ => ⟨S32x10000, .f32⟩
  | .hbm, ⟨22, _⟩ => ⟨S32x10000, .f32⟩
  | .hbm, ⟨23, _⟩ => ⟨S32x10000x1, .f32⟩
  | .hbm, ⟨24, _⟩ => ⟨S32x10000x1, .f32⟩
  | .hbm, ⟨25, _⟩ => ⟨S32x10000x2, .f32⟩
  | .hbm, ⟨26, _⟩ => ⟨S_, .f32⟩
  | .hbm, ⟨27, _⟩ => ⟨S32x10000, .f32⟩
  | .hbm, ⟨28, _⟩ => ⟨S32x10000, .f32⟩
  | .hbm, ⟨29, _⟩ => ⟨S32x10000x1, .f32⟩
  | .hbm, ⟨30, _⟩ => ⟨S32x10000x1, .f32⟩
  | .hbm, ⟨31, _⟩ => ⟨S32x10000x2, .f32⟩
  | .hbm, ⟨32, _⟩ => ⟨S_, .f32⟩
  | .hbm, ⟨33, _⟩ => ⟨S32x10000, .f32⟩
  | .hbm, ⟨34, _⟩ => ⟨S32x10000, .f32⟩
  | .hbm, ⟨35, _⟩ => ⟨S32x10000x1, .f32⟩
  | .hbm, ⟨36, _⟩ => ⟨S32x10000x1, .f32⟩
  | .hbm, ⟨37, _⟩ => ⟨S32x10000x2, .f32⟩
  | .hbm, ⟨38, _⟩ => ⟨S32x40000x2, .f32⟩
  | .hbm, ⟨39, _⟩ => ⟨S32x40000x2, .f32⟩
  | .hbm, ⟨40, _⟩ => ⟨S32x40000x1x2, .f32⟩
  | .hbm, ⟨41, _⟩ => ⟨S1x1x64x2, .f32⟩
  | .hbm, ⟨42, _⟩ => ⟨S32x40000x64x2, .f32⟩
  | .hbm, ⟨43, _⟩ => ⟨S32x40000x64x2, .f32⟩
  | .hbm, ⟨44, _⟩ => ⟨S32x40000x64x2, .f32⟩
  | .hbm, ⟨45, _⟩ => ⟨S32x40000x64x2, .f32⟩
  | .hbm, ⟨46, _⟩ => ⟨S_, .f32⟩
  | .hbm, ⟨47, _⟩ => ⟨S32x40000x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x40000x64, .f32⟩
  | .hbm, ⟨52, _⟩ => ⟨S32x40000x64, .f32⟩
  | .hbm, ⟨53, _⟩ => ⟨S_, .f32⟩
  | .hbm, ⟨54, _⟩ => ⟨S32x40000x64, .f32⟩
  | .hbm, ⟨55, _⟩ => ⟨S32x40000x64, .f32⟩
  | .hbm, ⟨56, _⟩ => ⟨S32x40000x64, .f32⟩
  | .hbm, ⟨57, _⟩ => ⟨S32x40000x64, .f32⟩
  | .hbm, ⟨58, _⟩ => ⟨S32x40000x64, .f32⟩
  | .hbm, ⟨59, _⟩ => ⟨S_, .f32⟩
  | .hbm, ⟨60, _⟩ => ⟨S32x40000x64, .f32⟩
  | .hbm, ⟨61, _⟩ => ⟨S32x40000x64, .f32⟩
  | .hbm, ⟨62, _⟩ => ⟨S_, .f32⟩
  | .hbm, ⟨63, _⟩ => ⟨S32x40000x64, .f32⟩
  | .hbm, ⟨64, _⟩ => ⟨S32x40000x64, .f32⟩
  | .hbm, ⟨65, _⟩ => ⟨S32x40000x64, .f32⟩
  | .hbm, ⟨66, _⟩ => ⟨S_, .f32⟩
  | .hbm, ⟨67, _⟩ => ⟨S32x64, .f32⟩
  | .hbm, ⟨68, _⟩ => ⟨S32x40000x1x2, .f32⟩
  | .hbm, ⟨69, _⟩ => ⟨S1x1x64x2, .f32⟩
  | .hbm, ⟨70, _⟩ => ⟨S32x40000x64x2, .f32⟩
  | .hbm, ⟨71, _⟩ => ⟨S32x40000x64x2, .f32⟩
  | .hbm, ⟨72, _⟩ => ⟨S32x40000x64x2, .f32⟩
  | .hbm, ⟨73, _⟩ => ⟨S32x40000x64x2, .f32⟩
  | .hbm, ⟨74, _⟩ => ⟨S_, .f32⟩
  | .hbm, ⟨75, _⟩ => ⟨S32x40000x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32x40000x64, .f32⟩
  | .hbm, ⟨80, _⟩ => ⟨S32x40000x64, .f32⟩
  | .hbm, ⟨81, _⟩ => ⟨S_, .f32⟩
  | .hbm, ⟨82, _⟩ => ⟨S32x40000x64, .f32⟩
  | .hbm, ⟨83, _⟩ => ⟨S32x40000x64, .f32⟩
  | .hbm, ⟨84, _⟩ => ⟨S32x40000x64, .f32⟩
  | .hbm, ⟨85, _⟩ => ⟨S32x40000x64, .f32⟩
  | .hbm, ⟨86, _⟩ => ⟨S32x40000x64, .f32⟩
  | .hbm, ⟨87, _⟩ => ⟨S_, .f32⟩
  | .hbm, ⟨88, _⟩ => ⟨S32x40000x64, .f32⟩
  | .hbm, ⟨89, _⟩ => ⟨S32x40000x64, .f32⟩
  | .hbm, ⟨90, _⟩ => ⟨S_, .f32⟩
  | .hbm, ⟨91, _⟩ => ⟨S32x40000x64, .f32⟩
  | .hbm, ⟨92, _⟩ => ⟨S32x40000x64, .f32⟩
  | .hbm, ⟨93, _⟩ => ⟨S32x40000x64, .f32⟩
  | .hbm, ⟨94, _⟩ => ⟨S_, .f32⟩
  | .hbm, ⟨95, _⟩ => ⟨S32x64, .f32⟩
  | .hbm, ⟨96, _⟩ => ⟨S32x64, .f32⟩
  | .hbm, ⟨97, _⟩ => ⟨S32x64, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S32x128, .f32⟩
  | _, _ => ⟨S32x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  slices_S32x10000x2_S32x10000x1_0_0_0 : S32x10000x2.Slices ![0, 0, 0] S32x10000x1
  shapeCasts_S32x10000x1_S32x10000 : S32x10000x1.ShapeCasts S32x10000
  slices_S32x10000x2_S32x10000x1_0_0_1 : S32x10000x2.Slices ![0, 0, 1] S32x10000x1
  bcast_S_S32x10000 : S_.BroadcastsInDim S32x10000 (![] : Fin 0 → Fin S32x10000.rank)
  bcast_S32x10000_S32x10000x1_0_1 : S32x10000.BroadcastsInDim S32x10000x1 (![0, 1] : Fin 2 → Fin S32x10000x1.rank)
  concatenates_S32x10000x1_S32x10000x1_S32x10000x2_d2 : Shape.Concatenates [S32x10000x1, S32x10000x1] S32x10000x2 2
  concatenates_S32x20000x2_S32x10000x2_S32x10000x2_S32x40000x2_d1 : Shape.Concatenates [S32x20000x2, S32x10000x2, S32x10000x2] S32x40000x2 1
  bcast_S32x40000x2_S32x40000x1x2_0_1_3 : S32x40000x2.BroadcastsInDim S32x40000x1x2 (![0, 1, 3] : Fin 3 → Fin S32x40000x1x2.rank)
  bcast_S64x2_S1x1x64x2_2_3 : S64x2.BroadcastsInDim S1x1x64x2 (![2, 3] : Fin 2 → Fin S1x1x64x2.rank)
  bcast_S32x40000x1x2_S32x40000x64x2_0_1_2_3 : S32x40000x1x2.BroadcastsInDim S32x40000x64x2 (![0, 1, 2, 3] : Fin 4 → Fin S32x40000x64x2.rank)
  bcast_S1x1x64x2_S32x40000x64x2_0_1_2_3 : S1x1x64x2.BroadcastsInDim S32x40000x64x2 (![0, 1, 2, 3] : Fin 4 → Fin S32x40000x64x2.rank)
  reducesTo_S32x40000x64x2_S32x40000x64_d3 : S32x40000x64x2.ReducesTo [3] S32x40000x64
  h_S_ : 0 < S_.numel
  shapeCasts_S1_S_ : S1.ShapeCasts S_
  bcast_S_S32x40000x64 : S_.BroadcastsInDim S32x40000x64 (![] : Fin 0 → Fin S32x40000x64.rank)
  reducesTo_S32x40000x64_S32x64_d1 : S32x40000x64.ReducesTo [1] S32x64
  reducesTo_S32x64_S_d0_1 : S32x64.ReducesTo [0, 1] S_
  concatenates_S32x64_S32x64_S32x128_d1 : Shape.Concatenates [S32x64, S32x64] S32x128 1

variable [Facts₀]

class Facts : Prop extends Facts₀ where

variable [Facts]
-- ==== Proof.K.R0Base.lean ====
import proofs.«126384_j71554155151373_1_alg».proof.Proof.Gen.Kernel.Launch
import proofs.«126384_j71554155151373_1_alg».proof.Proof.Gen.Kernel.Skeleton
import proofs.«126384_j71554155151373_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the direct kernel, grid 2 × 100): what its three cases share

Point `t` of the grid has coordinates `(t / 100, t % 100)`. The body zeroes its two accumulators where the
second coordinate is `0`, adds the tile's partial sums at every point, and copies the accumulators to the two
output blocks where the second coordinate is `99`. -/

/-! ## The body's two branch conditions, in closed form over the grid -/

/-- The first conditional's condition (the accumulators are zeroed): the second coordinate is `0`. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- The second conditional's condition (the accumulators are copied out): the second coordinate is `99`. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy-out condition fails the two output windows are idle and not written back; -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- where it holds they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point `t`, and its wholeness. -/
abbrev ms0_0 (t : Fin cfg0.N) : Memref sig .tc .vmem S16x200x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x200x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x64 .f32 := win0_5.stage (cfg0.slots t 5)
abbrev hs0_5 (t : Fin cfg0.N) : (ms0_5 t).IsWhole := hstage0_5 ((cfg0.slots t 5).cast nbuf0_5)

/-- The two accumulators: whole scoped buffers of the kernel's own, carried from point to point. -/
abbrev scr0 : Memref sig .tc .vmem S16x64 .f32 := Memref.whole cc0_scratch0
abbrev scr1 : Memref sig .tc .vmem S16x64 .f32 := Memref.whole cc0_scratch1
/-- The views through which what the accumulators and the output buffers hold is stated. -/
abbrev VS0 : View sig .tc .vmem S16x64 .f32 := scr0.view
abbrev VS1 : View sig .tc .vmem S16x64 .f32 := scr1.view
abbrev VO4 : View sig .tc .vmem S16x64 .f32 := (Memref.whole cc0_stg4_0 : Memref sig .tc .vmem S16x64 .f32).view
abbrev VO5 : View sig .tc .vmem S16x64 .f32 := (Memref.whole cc0_stg5_0 : Memref sig .tc .vmem S16x64 .f32).view

/-! ## The class invariant, the two accumulators apart -/

/-- Every scoped buffer of the core that is neither a staging buffer of this region nor one of its two
    accumulators, at some contents each: the other regions' staging buffers and accumulators. The region never
    opens it. -/
abbrev restScoped0 (c : Dev nD) : sProp 𝕄 :=
  Pipeline.scopedRestBut (Ix := Unit) (Name := ℕ) (U := UR sig nD τ) (Lvl := ℕ) (Val := Elt F) spec0 c [cc0_scratch0, cc0_scratch1]

/-- The class invariant: the two accumulators owned at some contents, the other scoped buffers, and the
    generator register at some state. -/
theorem PhiA0_eq (c : Dev nD) :
    (Pipeline.ΦA spec0 c : sProp 𝕄)
      = iprop(iprop(iprop((∃ d, owns (c : Thread nD τ) scr0 fullShare d) ∗ (∃ d, owns (c : Thread nD τ) scr1 fullShare d))
          ∗ restScoped0 c) ∗ (∃ r, prngReg c r)) := by
  unfold Pipeline.ΦA
  rw [Pipeline.scopedRest_split_of_list spec0 c [cc0_scratch0, cc0_scratch1] (by decide) (by decide)]
  simp only [scr0, scr1, owns_whole]; try rfl

section
variable (V : (c : Dev nD) → (b : Ref sig .tc) → Buf (Elt F) ((c : Thread nD τ).loc b))

/-! ## The windows' blocks at the region-entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved): for any proof data whose array is `V`'s and whose body leaves the block in
    place. Windows 0 and 1 (the tiles, fetched at every point): -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Windows 2 and 3 (the centers and the radius: a constant block index, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

end Cert.Kernel.Hand

end
-- ==== Proof.K.R0RunA.lean ====
import proofs.«126384_j71554155151373_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the first case: the accumulators are zeroed, the tile's sums added, nothing copied out -/

set_option maxHeartbeats 1000000 in
/-- The pieces the body's stores leave in the two accumulators (last first) at a point whose second coordinate is
    `0`, with the proof that on whole memrefs — the four inputs' at their contents, the two outputs' at contents
    handed back untouched, the accumulators' at anything — the body runs to the continuation holding the inputs'
    and outputs' as they were and each accumulator with its pieces written. The pieces are found by the run. -/
noncomputable def kernelRun0_A (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : cond0_0 i) (hc1 : ¬cond0_1 i) (x2 : Vec F S16x200x2 .f32) (x3 : Vec F S16x200x2 .f32) (x4 : Vec F S64x2 .f32) (x5 : Vec F S1x1 .f32) :
    Σ' (LS0 : List (View.Piece (Elt F) S16x64 .f32)), { LS1 : List (View.Piece (Elt F) S16x64 .f32) //
      ∀ (xi6 xi7 : Vec F S16x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, fun xi6 xi7 E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    iexists _; iexact HS1

end Cert.Kernel.Hand

end
-- ==== Proof.K.R0RunB.lean ====
import proofs.«126384_j71554155151373_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the middle case: the tile's sums are added to the carried accumulators, nothing copied out -/

set_option maxHeartbeats 1000000 in
/-- The pieces the body's stores leave in the two accumulators (last first) at a point whose second coordinate is
    neither `0` nor `99`, with the proof that on whole memrefs — the four inputs' at their contents, the two
    outputs' at contents handed back untouched, the accumulators' at what the point before left (`xs0`, `xs1`) —
    the body runs to the continuation holding the inputs' and outputs' as they were and each accumulator with its
    pieces written. The pieces are found by the run. -/
noncomputable def kernelRun0_B (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : ¬cond0_0 i) (hc1 : ¬cond0_1 i) (x2 : Vec F S16x200x2 .f32) (x3 : Vec F S16x200x2 .f32) (x4 : Vec F S64x2 .f32) (x5 : Vec F S1x1 .f32) (xs0 xs1 : Vec F S16x64 .f32) :
    Σ' (LS0 : List (View.Piece (Elt F) S16x64 .f32)), { LS1 : List (View.Piece (Elt F) S16x64 .f32) //
      ∀ (xi6 xi7 : Vec F S16x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs0 ∗ owns (c : Thread nD τ) arg9 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, fun xi6 xi7 E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hfs0; obtain rfl := harg9.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    iexists _; iexact HS1

end Cert.Kernel.Hand

end
-- ==== Proof.K.R0RunC.lean ====
import proofs.«126384_j71554155151373_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the last case: the tile's sums are added to the carried accumulators, which are then copied to
the two output blocks -/

set_option maxHeartbeats 1000000 in
/-- The pieces the body's stores leave in the two output buffers and the two accumulators (last first) at a point
    whose second coordinate is `99`, with the proof that on whole memrefs — the four inputs' at their contents,
    the two outputs' at anything, the accumulators' at what the point before left (`xs0`, `xs1`) — the body runs
    to the continuation holding the inputs' as they were and each output buffer and each accumulator with its pieces
    written. The pieces are found by the run. -/
noncomputable def kernelRun0_C (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : ¬cond0_0 i) (hc1 : cond0_1 i) (x2 : Vec F S16x200x2 .f32) (x3 : Vec F S16x200x2 .f32) (x4 : Vec F S64x2 .f32) (x5 : Vec F S1x1 .f32) (xs0 xs1 : Vec F S16x64 .f32) :
    Σ' (L6 : List (View.Piece (Elt F) S16x64 .f32)), Σ' (L7 : List (View.Piece (Elt F) S16x64 .f32)), Σ' (LS0 : List (View.Piece (Elt F) S16x64 .f32)), { LS1 : List (View.Piece (Elt F) S16x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, ?_, ?_, fun E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5
    obtain rfl := harg8.eq_unread hfs0; obtain rfl := harg9.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.Kernel.Hand

end
-- ==== Proof.K.R0Frame.lean ====
import proofs.«126384_j71554155151373_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, the accumulation, the invariant, the proof data, the body obligation -/

/-! ## Each case's pieces cover the buffers they are written to, and what they leave there -/

section Cases
variable (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
  (x2 : Vec F S16x200x2 .f32) (x3 : Vec F S16x200x2 .f32) (x4 : Vec F S64x2 .f32) (x5 : Vec F S1x1 .f32)

/-- First case: each accumulator is tiled by its pieces. -/
theorem scover0_A_0 (hc0 : cond0_0 i) (hc1 : ¬cond0_1 i) (y : S16x64.Idx) :
    ∃ pc ∈ (kernelRun0_A c i arg2 harg2 arg3 harg3 arg4 harg4 arg5 harg5 arg6 harg6 arg7 harg7 arg8 harg8 arg9 harg9 hc0 hc1 x2 x3 x4 x5).1, y ∈ pc.1.set :=
  View.cover_of_tiledL (kernelRun0_A c i arg2 harg2 arg3 harg3 arg4 harg4 arg5 harg5 arg6 harg6 arg7 harg7 arg8 harg8 arg9 harg9 hc0 hc1 x2 x3 x4 x5).1 S16x64.size (by sl_kernel_rfl) y
theorem scover0_A_1 (hc0 : cond0_0 i) (hc1 : ¬cond0_1 i) (y : S16x64.Idx) :
    ∃ pc ∈ (kernelRun0_A c i arg2 harg2 arg3 harg3 arg4 harg4 arg5 harg5 arg6 harg6 arg7 harg7 arg8 harg8 arg9 harg9 hc0 hc1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x2 x3 x4 x5).2.1 S16x64.size (by sl_kernel_rfl) y
/-- What the first case leaves in each accumulator: its pieces read back. -/
def sout0_A_0 (hc0 : cond0_0 i) (hc1 : ¬cond0_1 i) : Vec F S16x64 .f32 :=
  VS0.read (Elt F) (VS0.writes (Elt F) VS0.junk (kernelRun0_A c i arg2 harg2 arg3 harg3 arg4 harg4 arg5 harg5 arg6 harg6 arg7 harg7 arg8 harg8 arg9 harg9 hc0 hc1 x2 x3 x4 x5).1)
def sout0_A_1 (hc0 : cond0_0 i) (hc1 : ¬cond0_1 i) : Vec F S16x64 .f32 :=
  VS1.read (Elt F) (VS1.writes (Elt F) VS1.junk (kernelRun0_A c i arg2 harg2 arg3 harg3 arg4 harg4 arg5 harg5 arg6 harg6 arg7 harg7 arg8 harg8 arg9 harg9 hc0 hc1 x2 x3 x4 x5).2.1)

variable (xs0 xs1 : Vec F S16x64 .f32)

/-- Middle case: each accumulator is tiled by its pieces. -/
theorem scover0_B_0 (hc0 : ¬cond0_0 i) (hc1 : ¬cond0_1 i) (y : S16x64.Idx) :
    ∃ pc ∈ (kernelRun0_B c i arg2 harg2 arg3 harg3 arg4 harg4 arg5 harg5 arg6 harg6 arg7 harg7 arg8 harg8 arg9 harg9 hc0 hc1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 hc0 hc1 x2 x3 x4 x5 xs0 xs1).1 S16x64.size (by sl_kernel_rfl) y
theorem scover0_B_1 (hc0 : ¬cond0_0 i) (hc1 : ¬cond0_1 i) (y : S16x64.Idx) :
    ∃ pc ∈ (kernelRun0_B c i arg2 harg2 arg3 harg3 arg4 harg4 arg5 harg5 arg6 harg6 arg7 harg7 arg8 harg8 arg9 harg9 hc0 hc1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 hc0 hc1 x2 x3 x4 x5 xs0 xs1).2.1 S16x64.size (by sl_kernel_rfl) y
/-- What the middle case leaves in each accumulator, over what the point before left. -/
def sout0_B_0 (hc0 : ¬cond0_0 i) (hc1 : ¬cond0_1 i) : Vec F S16x64 .f32 :=
  VS0.read (Elt F) (VS0.writes (Elt F) VS0.junk (kernelRun0_B c i arg2 harg2 arg3 harg3 arg4 harg4 arg5 harg5 arg6 harg6 arg7 harg7 arg8 harg8 arg9 harg9 hc0 hc1 x2 x3 x4 x5 xs0 xs1).1)
def sout0_B_1 (hc0 : ¬cond0_0 i) (hc1 : ¬cond0_1 i) : Vec F S16x64 .f32 :=
  VS1.read (Elt F) (VS1.writes (Elt F) VS1.junk (kernelRun0_B c i arg2 harg2 arg3 harg3 arg4 harg4 arg5 harg5 arg6 harg6 arg7 harg7 arg8 harg8 arg9 harg9 hc0 hc1 x2 x3 x4 x5 xs0 xs1).2.1)

/-- Last case: each output buffer and each accumulator is tiled by its pieces. -/
theorem cover0_C_4 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).1 S16x64.size (by sl_kernel_rfl) y
theorem cover0_C_5 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.1 S16x64.size (by sl_kernel_rfl) y
theorem scover0_C_0 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.2.1 S16x64.size (by sl_kernel_rfl) y
theorem scover0_C_1 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.2.2.1 S16x64.size (by sl_kernel_rfl) y
/-- What the last case leaves in each output buffer and each accumulator, over what the point before left. -/
def out0_C_4 (hc0 : ¬cond0_0 i) (hc1 : cond0_1 i) : Vec F S16x64 .f32 :=
  VO4.read (Elt F) (VO4.writes (Elt F) VO4.junk (kernelRun0_C c i arg2 harg2 arg3 harg3 arg4 harg4 arg5 harg5 arg6 harg6 arg7 harg7 arg8 harg8 arg9 harg9 hc0 hc1 x2 x3 x4 x5 xs0 xs1).1)
def out0_C_5 (hc0 : ¬cond0_0 i) (hc1 : cond0_1 i) : Vec F S16x64 .f32 :=
  VO5.read (Elt F) (VO5.writes (Elt F) VO5.junk (kernelRun0_C c i arg2 harg2 arg3 harg3 arg4 harg4 arg5 harg5 arg6 harg6 arg7 harg7 arg8 harg8 arg9 harg9 hc0 hc1 x2 x3 x4 x5 xs0 xs1).2.1)
def sout0_C_0 (hc0 : ¬cond0_0 i) (hc1 : cond0_1 i) : Vec F S16x64 .f32 :=
  VS0.read (Elt F) (VS0.writes (Elt F) VS0.junk (kernelRun0_C c i arg2 harg2 arg3 harg3 arg4 harg4 arg5 harg5 arg6 harg6 arg7 harg7 arg8 harg8 arg9 harg9 hc0 hc1 x2 x3 x4 x5 xs0 xs1).2.2.1)
def sout0_C_1 (hc0 : ¬cond0_0 i) (hc1 : cond0_1 i) : Vec F S16x64 .f32 :=
  VS1.read (Elt F) (VS1.writes (Elt F) VS1.junk (kernelRun0_C c i arg2 harg2 arg3 harg3 arg4 harg4 arg5 harg5 arg6 harg6 arg7 harg7 arg8 harg8 arg9 harg9 hc0 hc1 x2 x3 x4 x5 xs0 xs1).2.2.2.1)

end Cases

section
variable (V : (c : Dev nD) → (b : Ref sig .tc) → Buf (Elt F) ((c : Thread nD τ).loc b))

/-! ## The accumulation -/

/-- The four buffers after a point: output window 4's staging buffer, output window 5's, the two accumulators. -/
abbrev Four (F : FTy → Type) : Type := Vec F S16x64 .f32 × Vec F S16x64 .f32 × Vec F S16x64 .f32 × Vec F S16x64 .f32

/-- The closed forms as the cases' hypotheses at a point. -/
theorem hc0_of (t : Fin cfg0.N) (h0 : t.val % 100 = 0) : cond0_0 (grid0.coords t) := (hcond0_0 t).mpr h0
theorem nhc0_of (t : Fin cfg0.N) (h0 : ¬t.val % 100 = 0) : ¬cond0_0 (grid0.coords t) := fun h => h0 ((hcond0_0 t).mp h)
theorem hc1_of (t : Fin cfg0.N) (h1 : t.val % 100 = 99) : cond0_1 (grid0.coords t) := (hcond0_1 t).mpr h1
theorem nhc1_of (t : Fin cfg0.N) (h1 : ¬t.val % 100 = 99) : ¬cond0_1 (grid0.coords t) := fun h => h1 ((hcond0_1 t).mp h)
theorem nhc1_of0 (t : Fin cfg0.N) (h0 : t.val % 100 = 0) : ¬cond0_1 (grid0.coords t) :=
  nhc1_of t (by omega)

/-- A point of the first case: the outputs' components are placeholders nothing consults (the windows are idle
    there and not written back), the accumulators' are the case's. -/
def stepA (c : Dev nD) (t : Fin cfg0.N) (h0 : t.val % 100 = 0) : Four F :=
  (VO4.read (Elt F) VO4.junk, VO5.read (Elt F) VO5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) (hc0_of t h0) (nhc1_of0 t h0),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) (hc0_of t h0) (nhc1_of0 t h0))

/-- A point of the middle case, over what the point before left in the accumulators. -/
def stepB (c : Dev nD) (t : Fin cfg0.N) (h0 : ¬t.val % 100 = 0) (h1 : ¬t.val % 100 = 99) (p : Four F) : Four F :=
  (VO4.read (Elt F) VO4.junk, VO5.read (Elt F) VO5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (nhc1_of t h1),
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (nhc1_of t h1))

/-- A point of the last case, over what the point before left in the accumulators. -/
def stepC (c : Dev nD) (t : Fin cfg0.N) (h0 : ¬t.val % 100 = 0) (h1 : t.val % 100 = 99) (p : Four F) : Four F :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1))

/-- THE ACCUMULATION: what the two output buffers and the two accumulators hold after the body at position `n`.
    The case is the one the closed forms select at `n`; the middle and last cases start from what position
    `n - 1` left in the accumulators, the first case from nothing (it overwrites them whole). -/
def acc0 (c : Dev nD) : (n : ℕ) → n < cfg0.N → Four F
  | 0, hn => stepA V c ⟨0, hn⟩ (Nat.zero_mod _)
  | n + 1, hn =>
    if h0 : (n + 1) % 100 = 0 then stepA V c ⟨n + 1, hn⟩ h0
    else if h1 : (n + 1) % 100 = 99 then stepC V c ⟨n + 1, hn⟩ h0 h1 (acc0 c n (Nat.lt_of_succ_lt hn))
    else stepB V c ⟨n + 1, hn⟩ h0 h1 (acc0 c n (Nat.lt_of_succ_lt hn))

theorem pred_lt (t : Fin cfg0.N) : t.val - 1 < cfg0.N := Nat.lt_of_le_of_lt (Nat.sub_le _ _) t.isLt

theorem acc0_A (c : Dev nD) (t : Fin cfg0.N) (h0 : t.val % 100 = 0) : acc0 V c t.val t.isLt = stepA V c t h0 := by
  obtain ⟨n, hn⟩ := t
  cases n with
  | zero => rfl
  | succ n => exact dif_pos h0

theorem acc0_B (c : Dev nD) (t : Fin cfg0.N) (h0 : ¬t.val % 100 = 0) (h1 : ¬t.val % 100 = 99) :
    acc0 V c t.val t.isLt = stepB V c t h0 h1 (acc0 V c (t.val - 1) (pred_lt t)) := by
  obtain ⟨n, hn⟩ := t
  cases n with
  | zero => exact absurd (Nat.zero_mod _) h0
  | succ n => exact (dif_neg h0).trans (dif_neg h1)

theorem acc0_C (c : Dev nD) (t : Fin cfg0.N) (h0 : ¬t.val % 100 = 0) (h1 : t.val % 100 = 99) :
    acc0 V c t.val t.isLt = stepC V c t h0 h1 (acc0 V c (t.val - 1) (pred_lt t)) := by
  obtain ⟨n, hn⟩ := t
  cases n with
  | zero => exact absurd (Nat.zero_mod _) h0
  | succ n => exact (dif_neg h0).trans (dif_pos h1)

/-! ## The invariant -/

/-- Before position `n`: at the region's entry the class invariant (the accumulators at anything); afterwards the
    accumulators at what position `n - 1` left in them, the other scoped buffers unopened, the generator register at
    some state. -/
def PhiS (c : Dev nD) : (n : ℕ) → n ≤ cfg0.N → sProp 𝕄
  | 0, _ => Pipeline.ΦA spec0 c
  | n + 1, hn => iprop(iprop(iprop(owns (c : Thread nD τ) scr0 fullShare (acc0 V c n hn).2.2.1 ∗ owns (c : Thread nD τ) scr1 fullShare (acc0 V c n hn).2.2.2)
      ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scr0 fullShare (acc0 V c n hn).2.2.1 ∗ owns (c : Thread nD τ) scr1 fullShare (acc0 V c n hn).2.2.2)
      ∗ restScoped0 c) ∗ (∃ r, prngReg c r)) := rfl

theorem PhiS_pos (c : Dev nD) (n : ℕ) (h : n ≤ cfg0.N) (hz : n ≠ 0) :
    PhiS V c n h = iprop(iprop(iprop(owns (c : Thread nD τ) scr0 fullShare (acc0 V c (n - 1) (by omega)).2.2.1 ∗ owns (c : Thread nD τ) scr1 fullShare (acc0 V c (n - 1) (by omega)).2.2.2)
      ∗ restScoped0 c) ∗ (∃ r, prngReg c r)) := by
  cases n with
  | zero => exact absurd rfl hz
  | succ n => rfl

/-! ## The proof data -/

/-- The proof data of the region on core `c`: the arrays as the region finds them; after the body at point `t` each
    input's buffer at its block, each output's at its component of the accumulation; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2.1 := by dsimp only [dat0]

theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the closed forms say which case the point is in.
    The invariant hands the body the accumulators at what the point before left (at anything at the region's entry;
    a later point of the first case forgets what they hold, since the case overwrites them whole) and takes them back
    at this point's contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 200 := lt_of_lt_of_eq t.isLt (show cfg0.N = 200 from N_0)
  by_cases h0 : t.val % 100 = 0
  · have hc0 := hc0_of t h0
    have hc1 := nhc1_of0 t h0
    rw [Dat.leavesExact_idle (dat0 V c) 4 t (idleAt0_4 t hc1) (noFlush0_4 t hc1)]
    rw [Dat.leavesExact_idle (dat0 V c) 5 t (idleAt0_5 t hc1) (noFlush0_5 t hc1)]
    rw [acc0_A V c t h0]
    unfold stepA sout0_A_0 sout0_A_1; (try dsimp only)
    by_cases hz : t.val = 0
    · rw [PhiS_castSucc V c t, PhiS_zero V c _ _ hz, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 := nhc0_of t h0
    have hz : t.val ≠ 0 := fun h => h0 (by rw [h])
    by_cases h1 : t.val % 100 = 99
    · have hc1 := hc1_of t h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [acc0_C V c t h0 h1]
      unfold stepC out0_C_4 out0_C_5 sout0_C_0 sout0_C_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · have hc1 := nhc1_of t h1
      rw [Dat.leavesExact_idle (dat0 V c) 4 t (idleAt0_4 t hc1) (noFlush0_4 t hc1)]
      rw [Dat.leavesExact_idle (dat0 V c) 5 t (idleAt0_5 t hc1) (noFlush0_5 t hc1)]
      rw [acc0_B V c t h0 h1]
      unfold stepB sout0_B_0 sout0_B_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end

end Cert.Kernel.Hand

end
-- ==== Proof.K.R1Base.lean ====
import proofs.«126384_j71554155151373_1_alg».proof.Proof.Gen.Kernel.Launch
import proofs.«126384_j71554155151373_1_alg».proof.Proof.Gen.Kernel.Skeleton
import proofs.«126384_j71554155151373_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the pair kernel on the ext points (`main_arg2`), what its three cases share

The grid is 2 × 50: point `t` has coordinates `(t / 50, t % 50)`. The body zeroes its two
accumulators where the second coordinate is 0, adds the tile's partial sums at every point, and
copies the accumulators to the two output blocks where the second coordinate is 49. -/

/-! ## The body's branch conditions -/

/-- The first conditional's condition (zero the accumulators), from the grid coordinates. -/
abbrev cond1_0 (i : grid1.Coords) : Prop := (Scalar.cmpi .ne (Scalar.extui (Scalar.cmpi .eq (BitVec.ofNat 32 (i 1).val) 0#32)) 0#32) = 1#1
/-- It holds exactly where the second coordinate is 0. -/
theorem hcond1_0 : ∀ t : Fin cfg1.N, cond1_0 (grid1.coords t) ↔ t.val % 50 = 0 :=
  (by decide +kernel : ∀ t : Fin grid1.N, cond1_0 (grid1.coords t) ↔ t.val % 50 = 0)

/-- The second conditional's condition (copy the accumulators out). -/
abbrev cond1_1 (i : grid1.Coords) : Prop := k1_cond2 i = 1#1
/-- It holds exactly where the second coordinate is 49. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional is not taken the two outputs are idle and not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- Where it is taken they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called on -/

/-- One staging buffer of each output window, through which its contents are stated. -/
abbrev VO1_3 : View sig .tc .vmem S16x64 .f32 := (Memref.whole cc1_stg3_0 : Memref sig .tc .vmem S16x64 .f32).view
abbrev VO1_4 : View sig .tc .vmem S16x64 .f32 := (Memref.whole cc1_stg4_0 : Memref sig .tc .vmem S16x64 .f32).view
/-- Each window's current staging memref at point `t`, and its wholeness. -/
abbrev ms1_0 (t : Fin cfg1.N) : Memref sig .tc .vmem S16x200x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S16x64 .f32 := Memref.whole cc1_scratch0
abbrev scM1_1 : Memref sig .tc .vmem S16x64 .f32 := Memref.whole cc1_scratch1
abbrev VS1_0 : View sig .tc .vmem S16x64 .f32 := scM1_0.view
abbrev VS1_1 : View sig .tc .vmem S16x64 .f32 := scM1_1.view

/-! ## The region's invariant, the two accumulators apart -/

/-- The core's scoped buffers that are neither a staging buffer of this region nor one of its two accumulators, each
    at some contents: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The class invariant: the two accumulators at some contents, the untouched rest, the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest1 (F := F) c) ∗ (∃ r, prngReg c r)) := by
  unfold Pipeline.ΦA; rw [scopedRest1_eq]; simp only [scM1_0, scM1_1, owns_whole]; unfold Rest1
  refine BI.Entails.antisymm (show _ ⊢ (_ : sProp 𝕄) from ?_) (show _ ⊢ (_ : sProp 𝕄) from ?_)
  · iintro ⟨⟨A0, A1, A2, A3, A4, A5, A6, A7, A8, A9, A10, A11, S0, S1, A14, A15, A16, A17, A18, A19, A20, A21, A22, A23⟩, Hg⟩
    isplitr [Hg]
    swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    iexact A23
  · iintro ⟨⟨S0, S1, A0, A1, A2, A3, A4, A5, A6, A7, A8, A9, A10, A11, A14, A15, A16, A17, A18, A19, A20, A21, A22, A23⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    iexact A23

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

end Cert.Kernel.Hand

end
-- ==== Proof.K.R1RunA.lean ====
import proofs.«126384_j71554155151373_1_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the first case: the accumulators zeroed, then the tile's partial sums added; nothing copied out -/

set_option maxHeartbeats 1000000 in
/-- Where the first conditional is taken and the second is not: on whole memrefs — the three inputs at their
    contents, the two outputs at contents handed back untouched, the two accumulators at anything — the body runs
    to the continuation holding the inputs and the outputs as they were and each accumulator with the pieces the
    run stored into it written (last first): the witness the run finds. -/
noncomputable def kernelRun1_A (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, fun xi3 xi4 E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R1RunB.lean ====
import proofs.«126384_j71554155151373_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the middle case: the tile's partial sums added to the carried accumulators; nothing copied out -/

set_option maxHeartbeats 1000000 in
/-- Where neither conditional is taken: on whole memrefs — the three inputs at their contents, the two outputs at
    contents handed back untouched, the two accumulators at what the point before left — the body runs to the
    continuation holding the inputs and the outputs as they were and each accumulator with the pieces the run stored
    into it written (last first): the witness the run finds. -/
noncomputable def kernelRun1_B (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, fun xi3 xi4 E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R1RunC.lean ====
import proofs.«126384_j71554155151373_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the last case: the tile's partial sums added to the carried accumulators, which are then copied to the two outputs -/

set_option maxHeartbeats 1000000 in
/-- Where the first conditional is not taken and the second is: on whole memrefs — the three inputs at their
    contents, the two outputs at anything, the two accumulators at what the point before left — the body runs to the
    continuation holding the inputs as they were and each output and each accumulator with the pieces the run
    stored into it written (last first): the witness the run finds. -/
noncomputable def kernelRun1_C (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) :
    Σ' (L3 : List (View.Piece (Elt F) S16x64 .f32)) (L4 : List (View.Piece (Elt F) S16x64 .f32)) (LS0 : List (View.Piece (Elt F) S16x64 .f32)), { LS1 : List (View.Piece (Elt F) S16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, ?_, ?_, fun E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R1Frame.lean ====
import proofs.«126384_j71554155151373_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case leaves, the accumulation, the proof data and the body obligation -/

/-! ## What each case leaves -/

/-- the first case's pieces for each accumulator tile it (checked by evaluation), so they cover it. -/
theorem scover1_A_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) (y : S16x64.Idx) : ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S16x64.size (by sl_kernel_rfl) y
theorem scover1_A_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) (y : S16x64.Idx) : ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S16x64.size (by sl_kernel_rfl) y

/-- What the first case leaves in each accumulator: its pieces read back. -/
def sout1_A_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) : Vec F S16x64 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)
def sout1_A_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) : Vec F S16x64 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- the middle case's pieces for each accumulator tile it (checked by evaluation), so they cover it. -/
theorem scover1_B_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) (y : S16x64.Idx) : ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S16x64.size (by sl_kernel_rfl) y
theorem scover1_B_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) (y : S16x64.Idx) : ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S16x64.size (by sl_kernel_rfl) y

/-- What the middle case leaves in each accumulator: its pieces read back. -/
def sout1_B_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) : Vec F S16x64 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).1)
def sout1_B_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) : Vec F S16x64 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.1)

/-- the last case's pieces for each accumulator tile it (checked by evaluation), so they cover it. -/
theorem scover1_C_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.1 S16x64.size (by sl_kernel_rfl) y
theorem scover1_C_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.2.1 S16x64.size (by sl_kernel_rfl) y

/-- What the last case leaves in each accumulator: its pieces read back. -/
def sout1_C_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1).2.2.1)
def sout1_C_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1).2.2.2.1)

/-- The last case's pieces for each output tile its block, so they cover it. -/
theorem cover1_C_3 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL (kernelRun1_C c i arg2 harg2 arg3 harg3 arg4 harg4 arg5 harg5 arg6 harg6 arg7 harg7 arg8 harg8 hc0 hc1 x0 x1 x2 xs0 xs1).1 S16x64.size (by sl_kernel_rfl) y
theorem cover1_C_4 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL (kernelRun1_C c i arg2 harg2 arg3 harg3 arg4 harg4 arg5 harg5 arg6 harg6 arg7 harg7 arg8 harg8 hc0 hc1 x0 x1 x2 xs0 xs1).2.1 S16x64.size (by sl_kernel_rfl) y

/-- What the last case leaves in each output's staging buffer: its pieces read back. -/
def out1_C_3 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1).1)
def out1_C_4 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 xs0 xs1).2.1)

section
variable (V : (c : Dev nD) → (b : Ref sig .tc) → Buf (Elt F) ((c : Thread nD τ).loc b))

/-! ## The accumulation -/

/-- The first case at point `t`, run at the point's memrefs and input blocks: (output 3's staging buffer, output 4's,
    accumulator 0, accumulator 1). The outputs are idle there; their components repeat the accumulators' and are
    never consulted. -/
def accA (c : Dev nD) (t : Fin cfg1.N) (h0 : t.val % 50 = 0) (h1 : ¬t.val % 50 = 49) :
    Vec F S16x64 .f32 × Vec F S16x64 .f32 × Vec F S16x64 .f32 × Vec F S16x64 .f32 :=
  (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t))

/-- The middle case at point `t`, over the accumulators `s0`, `s1` the point before left. -/
def accB (c : Dev nD) (t : Fin cfg1.N) (h0 : ¬t.val % 50 = 0) (h1 : ¬t.val % 50 = 49) (s0 s1 : Vec F S16x64 .f32) :
    Vec F S16x64 .f32 × Vec F S16x64 .f32 × Vec F S16x64 .f32 × Vec F S16x64 .f32 :=
  (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1)

/-- The last case at point `t`, over the accumulators `s0`, `s1` the point before left. -/
def accC (c : Dev nD) (t : Fin cfg1.N) (h0 : ¬t.val % 50 = 0) (h1 : t.val % 50 = 49) (s0 s1 : Vec F S16x64 .f32) :
    Vec F S16x64 .f32 × Vec F S16x64 .f32 × Vec F S16x64 .f32 × Vec F S16x64 .f32 :=
  (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1)

/-- THE ACCUMULATION. What the two outputs' staging buffers and the two accumulators hold after the body at position
    `n`: the case the closed forms select at `n`, over the accumulators the point before left. -/
def acc1 (c : Dev nD) : (n : ℕ) → n < cfg1.N → Vec F S16x64 .f32 × Vec F S16x64 .f32 × Vec F S16x64 .f32 × Vec F S16x64 .f32
  | 0, hn => accA V c ⟨0, hn⟩ (Nat.zero_mod _) (by show ¬((0 : ℕ) % 50 = 49); decide)
  | n + 1, hn =>
    if h0 : (n + 1) % 50 = 0 then
      if h1 : (n + 1) % 50 = 49 then False.elim (by omega)
      else accA V c ⟨n + 1, hn⟩ h0 h1
    else
      if h1 : (n + 1) % 50 = 49 then
        accC V c ⟨n + 1, hn⟩ h0 h1 (acc1 c n (Nat.lt_of_succ_lt hn)).2.2.1 (acc1 c n (Nat.lt_of_succ_lt hn)).2.2.2
      else
        accB V c ⟨n + 1, hn⟩ h0 h1 (acc1 c n (Nat.lt_of_succ_lt hn)).2.2.1 (acc1 c n (Nat.lt_of_succ_lt hn)).2.2.2

/-- `acc1` at a point of the first case. -/
theorem acc1_A (c : Dev nD) (t : Fin cfg1.N) (h0 : t.val % 50 = 0) (h1 : ¬t.val % 50 = 49) :
    acc1 V c t.val t.isLt = accA V c t h0 h1 := by
  obtain ⟨n, hn⟩ := t
  cases n with
  | zero => exact rfl
  | succ n => exact (dif_pos h0).trans ((dif_neg h1).trans rfl)

/-- `acc1` at a point of the middle case: over what the point before left. -/
theorem acc1_B (c : Dev nD) (t : Fin cfg1.N) (h0 : ¬t.val % 50 = 0) (h1 : ¬t.val % 50 = 49) :
    acc1 V c t.val t.isLt = accB V c t h0 h1 (acc1 V c (t.val - 1) (Nat.lt_of_le_of_lt (Nat.sub_le _ _) t.isLt)).2.2.1
      (acc1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `acc1` at a point of the last case: over what the point before left. -/
theorem acc1_C (c : Dev nD) (t : Fin cfg1.N) (h0 : ¬t.val % 50 = 0) (h1 : t.val % 50 = 49) :
    acc1 V c t.val t.isLt = accC V c t h0 h1 (acc1 V c (t.val - 1) (Nat.lt_of_le_of_lt (Nat.sub_le _ _) t.isLt)).2.2.1
      (acc1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the class's (every scoped buffer that is no
    staging buffer at anything, the generator register at some state); afterwards the same with the two accumulators
    at what the point before left in them. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn).2.2.1 ∗ owns (c : Thread nD τ) scM1_1 fullShare (acc1 V c n hn).2.2.2 ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn).2.2.1 ∗ owns (c : Thread nD τ) scM1_1 fullShare (acc1 V c n hn).2.2.2 ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)).2.2.1 ∗ owns (c : Thread nD τ) scM1_1 fullShare (acc1 V c (n - 1) (by omega)).2.2.2 ∗ Rest1 (F := F) c) ∗ (∃ r, prngReg c r)) := by
  cases n with
  | zero => exact absurd rfl hz
  | succ n => rfl

/-! ## The proof data -/

/-- The proof data of the region on core `c`: the arrays as the region finds them (`V`); after the body at point `t`
    each input's buffer at its block and the two outputs' at `acc1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (acc1 V c t.val t.isLt).1
    | ⟨4, _⟩ => (acc1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the two accumulators at what the point before left (at anything before the first point;
    the first case overwrites them whole before reading them) and takes them back at this point's contents; the rest
    of the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1),
      Dat.leavesExact_idle (dat1 V c) 4 t (idleAt1_4 t hc1) (noFlush1_4 t hc1)]
    rw [acc1_A V c t h0 h1]
    unfold accA sout1_A_0 sout1_A_1; (try dsimp only)
    by_cases hz : t.val = 0
    · rw [PhiS1_castSucc V c t, PhiS1_zero V c _ _ hz, PhiA1_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ hc0 hc1 (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ hc0 hc1 (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬cond1_0 (grid1.coords t) := fun h => h0 ((hcond1_0 t).mp h)
    by_cases h1 : t.val % 50 = 49
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [acc1_C V c t h0 h1]
      unfold accC out1_C_3 out1_C_4 sout1_C_0 sout1_C_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [acc1_B V c t h0 h1]
      unfold accB sout1_B_0 sout1_B_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ hc0 hc1 (iblk1 V c 0 t) (iblk1 V c 1 t) (iblk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

example (c : Dev nD) (w : Fin cfg1.W) : (dat1 V c).q w = fullShare := rfl
example (c : Dev nD) (t : Fin (cfg1.N + 1)) : (dat1 V c).owed t = 0 := rfl

end

end Cert.Kernel.Hand

end
-- ==== Proof.K.R2Base.lean ====
import proofs.«126384_j71554155151373_1_alg».proof.Proof.Gen.Kernel.Launch
import proofs.«126384_j71554155151373_1_alg».proof.Proof.Gen.Kernel.Skeleton
import proofs.«126384_j71554155151373_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the pair kernel on `main_arg3`, what its three cases share

The grid is 2 × 50: point `t` has coordinates `(t / 50, t % 50)`. The body zeroes its two
accumulators where the second coordinate is 0, adds the tile's partial sums at every point, and
copies the accumulators to the two output blocks where the second coordinate is 49. -/

/-! ## The body's branch conditions -/

/-- The first conditional's condition (zero the accumulators), from the grid coordinates. -/
abbrev cond2_0 (i : grid2.Coords) : Prop := (Scalar.cmpi .ne (Scalar.extui (Scalar.cmpi .eq (BitVec.ofNat 32 (i 1).val) 0#32)) 0#32) = 1#1
/-- It holds exactly where the second coordinate is 0. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second conditional's condition (copy the accumulators out). -/
abbrev cond2_1 (i : grid2.Coords) : Prop := k2_cond2 i = 1#1
/-- It holds exactly where the second coordinate is 49. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second conditional is not taken the two outputs are idle and not written back. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
/-- Where it is taken they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The memrefs the body is called on -/

/-- One staging buffer of each output window, through which its contents are stated. -/
abbrev VO2_3 : View sig .tc .vmem S16x64 .f32 := (Memref.whole cc2_stg3_0 : Memref sig .tc .vmem S16x64 .f32).view
abbrev VO2_4 : View sig .tc .vmem S16x64 .f32 := (Memref.whole cc2_stg4_0 : Memref sig .tc .vmem S16x64 .f32).view
/-- Each window's current staging memref at point `t`, and its wholeness. -/
abbrev ms2_0 (t : Fin cfg2.N) : Memref sig .tc .vmem S16x200x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x64 .f32 := win2_4.stage (cfg2.slots t 4)
abbrev hs2_4 (t : Fin cfg2.N) : (ms2_4 t).IsWhole := hstage2_4 ((cfg2.slots t 4).cast nbuf2_4)
/-- The two accumulators: whole scoped buffers of the kernel's own. -/
abbrev scM2_0 : Memref sig .tc .vmem S16x64 .f32 := Memref.whole cc2_scratch0
abbrev scM2_1 : Memref sig .tc .vmem S16x64 .f32 := Memref.whole cc2_scratch1
abbrev VS2_0 : View sig .tc .vmem S16x64 .f32 := scM2_0.view
abbrev VS2_1 : View sig .tc .vmem S16x64 .f32 := scM2_1.view

/-! ## The region's invariant, the two accumulators apart -/

/-- The core's scoped buffers that are neither a staging buffer of this region nor one of its two accumulators, each
    at some contents: what the body never touches. -/
def Rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The class invariant: the two accumulators at some contents, the untouched rest, the generator register. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Rest2 (F := F) c) ∗ (∃ r, prngReg c r)) := by
  unfold Pipeline.ΦA; rw [scopedRest2_eq]; simp only [scM2_0, scM2_1, owns_whole]; unfold Rest2
  refine BI.Entails.antisymm (show _ ⊢ (_ : sProp 𝕄) from ?_) (show _ ⊢ (_ : sProp 𝕄) from ?_)
  · iintro ⟨⟨A0, A1, A2, A3, A4, A5, A6, A7, A8, A9, A10, A11, A12, A13, A14, A15, A16, A17, A18, A19, A20, A21, S0, S1⟩, Hg⟩
    isplitr [Hg]
    swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21
  · iintro ⟨⟨S0, S1, A0, A1, A2, A3, A4, A5, A6, A7, A8, A9, A10, A11, A12, A13, A14, A15, A16, A17, A18, A19, A20, A21⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [S0]; · iexact S0
    iexact S1

section
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not,
    the block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

end Cert.Kernel.Hand

end
-- ==== Proof.K.R2RunA.lean ====
import proofs.«126384_j71554155151373_1_alg».proof.Proof.K.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the first case: the accumulators zeroed, then the tile's partial sums added; nothing copied out -/

set_option maxHeartbeats 1000000 in
/-- Where the first conditional is taken and the second is not: on whole memrefs — the three inputs at their
    contents, the two outputs at contents handed back untouched, the two accumulators at anything — the body runs
    to the continuation holding the inputs and the outputs as they were and each accumulator with the pieces the
    run stored into it written (last first): the witness the run finds. -/
noncomputable def kernelRun2_A (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, fun xi3 xi4 E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R2RunB.lean ====
import proofs.«126384_j71554155151373_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the middle case: the tile's partial sums added to the carried accumulators; nothing copied out -/

set_option maxHeartbeats 1000000 in
/-- Where neither conditional is taken: on whole memrefs — the three inputs at their contents, the two outputs at
    contents handed back untouched, the two accumulators at what the point before left — the body runs to the
    continuation holding the inputs and the outputs as they were and each accumulator with the pieces the run stored
    into it written (last first): the witness the run finds. -/
noncomputable def kernelRun2_B (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, fun xi3 xi4 E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R2RunC.lean ====
import proofs.«126384_j71554155151373_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the last case: the tile's partial sums added to the carried accumulators, which are then copied to the two outputs -/

set_option maxHeartbeats 1000000 in
/-- Where the first conditional is not taken and the second is: on whole memrefs — the three inputs at their
    contents, the two outputs at anything, the two accumulators at what the point before left — the body runs to the
    continuation holding the inputs as they were and each output and each accumulator with the pieces the run
    stored into it written (last first): the witness the run finds. -/
noncomputable def kernelRun2_C (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) :
    Σ' (L3 : List (View.Piece (Elt F) S16x64 .f32)) (L4 : List (View.Piece (Elt F) S16x64 .f32)) (LS0 : List (View.Piece (Elt F) S16x64 .f32)), { LS1 : List (View.Piece (Elt F) S16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, ?_, ?_, fun E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R2Frame.lean ====
import proofs.«126384_j71554155151373_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what each case leaves, the accumulation, the proof data and the body obligation -/

/-! ## What each case leaves -/

/-- the first case's pieces for each accumulator tile it (checked by evaluation), so they cover it. -/
theorem scover2_A_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) (y : S16x64.Idx) : ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S16x64.size (by sl_kernel_rfl) y
theorem scover2_A_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) (y : S16x64.Idx) : ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S16x64.size (by sl_kernel_rfl) y

/-- What the first case leaves in each accumulator: its pieces read back. -/
def sout2_A_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) : Vec F S16x64 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).1)
def sout2_A_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) : Vec F S16x64 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.1)

/-- the middle case's pieces for each accumulator tile it (checked by evaluation), so they cover it. -/
theorem scover2_B_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) (y : S16x64.Idx) : ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S16x64.size (by sl_kernel_rfl) y
theorem scover2_B_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) (y : S16x64.Idx) : ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S16x64.size (by sl_kernel_rfl) y

/-- What the middle case leaves in each accumulator: its pieces read back. -/
def sout2_B_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) : Vec F S16x64 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).1)
def sout2_B_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) : Vec F S16x64 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.1)

/-- the last case's pieces for each accumulator tile it (checked by evaluation), so they cover it. -/
theorem scover2_C_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.1 S16x64.size (by sl_kernel_rfl) y
theorem scover2_C_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.2.1 S16x64.size (by sl_kernel_rfl) y

/-- What the last case leaves in each accumulator: its pieces read back. -/
def sout2_C_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1).2.2.1)
def sout2_C_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1).2.2.2.1)

/-- The last case's pieces for each output tile its block, so they cover it. -/
theorem cover2_C_3 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).1, y ∈ pc.1.set :=
  View.cover_of_tiledL (kernelRun2_C c i arg2 harg2 arg3 harg3 arg4 harg4 arg5 harg5 arg6 harg6 arg7 harg7 arg8 harg8 hc0 hc1 x0 x1 x2 xs0 xs1).1 S16x64.size (by sl_kernel_rfl) y
theorem cover2_C_4 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.1, y ∈ pc.1.set :=
  View.cover_of_tiledL (kernelRun2_C c i arg2 harg2 arg3 harg3 arg4 harg4 arg5 harg5 arg6 harg6 arg7 harg7 arg8 harg8 hc0 hc1 x0 x1 x2 xs0 xs1).2.1 S16x64.size (by sl_kernel_rfl) y

/-- What the last case leaves in each output's staging buffer: its pieces read back. -/
def out2_C_3 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1).1)
def out2_C_4 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 xs0 xs1).2.1)

section
variable (V : (c : Dev nD) → (b : Ref sig .tc) → Buf (Elt F) ((c : Thread nD τ).loc b))

/-! ## The accumulation -/

/-- The first case at point `t`, run at the point's memrefs and input blocks: (output 3's staging buffer, output 4's,
    accumulator 0, accumulator 1). The outputs are idle there; their components repeat the accumulators' and are
    never consulted. -/
def acc2A (c : Dev nD) (t : Fin cfg2.N) (h0 : t.val % 50 = 0) (h1 : ¬t.val % 50 = 49) :
    Vec F S16x64 .f32 × Vec F S16x64 .f32 × Vec F S16x64 .f32 × Vec F S16x64 .f32 :=
  (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t))

/-- The middle case at point `t`, over the accumulators `s0`, `s1` the point before left. -/
def acc2B (c : Dev nD) (t : Fin cfg2.N) (h0 : ¬t.val % 50 = 0) (h1 : ¬t.val % 50 = 49) (s0 s1 : Vec F S16x64 .f32) :
    Vec F S16x64 .f32 × Vec F S16x64 .f32 × Vec F S16x64 .f32 × Vec F S16x64 .f32 :=
  (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1)

/-- The last case at point `t`, over the accumulators `s0`, `s1` the point before left. -/
def acc2C (c : Dev nD) (t : Fin cfg2.N) (h0 : ¬t.val % 50 = 0) (h1 : t.val % 50 = 49) (s0 s1 : Vec F S16x64 .f32) :
    Vec F S16x64 .f32 × Vec F S16x64 .f32 × Vec F S16x64 .f32 × Vec F S16x64 .f32 :=
  (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1, out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1,
   sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1)

/-- THE ACCUMULATION. What the two outputs' staging buffers and the two accumulators hold after the body at position
    `n`: the case the closed forms select at `n`, over the accumulators the point before left. -/
def acc2 (c : Dev nD) : (n : ℕ) → n < cfg2.N → Vec F S16x64 .f32 × Vec F S16x64 .f32 × Vec F S16x64 .f32 × Vec F S16x64 .f32
  | 0, hn => acc2A V c ⟨0, hn⟩ (Nat.zero_mod _) (by show ¬((0 : ℕ) % 50 = 49); decide)
  | n + 1, hn =>
    if h0 : (n + 1) % 50 = 0 then
      if h1 : (n + 1) % 50 = 49 then False.elim (by omega)
      else acc2A V c ⟨n + 1, hn⟩ h0 h1
    else
      if h1 : (n + 1) % 50 = 49 then
        acc2C V c ⟨n + 1, hn⟩ h0 h1 (acc2 c n (Nat.lt_of_succ_lt hn)).2.2.1 (acc2 c n (Nat.lt_of_succ_lt hn)).2.2.2
      else
        acc2B V c ⟨n + 1, hn⟩ h0 h1 (acc2 c n (Nat.lt_of_succ_lt hn)).2.2.1 (acc2 c n (Nat.lt_of_succ_lt hn)).2.2.2

/-- `acc2` at a point of the first case. -/
theorem acc2_A (c : Dev nD) (t : Fin cfg2.N) (h0 : t.val % 50 = 0) (h1 : ¬t.val % 50 = 49) :
    acc2 V c t.val t.isLt = acc2A V c t h0 h1 := by
  obtain ⟨n, hn⟩ := t
  cases n with
  | zero => exact rfl
  | succ n => exact (dif_pos h0).trans ((dif_neg h1).trans rfl)

/-- `acc2` at a point of the middle case: over what the point before left. -/
theorem acc2_B (c : Dev nD) (t : Fin cfg2.N) (h0 : ¬t.val % 50 = 0) (h1 : ¬t.val % 50 = 49) :
    acc2 V c t.val t.isLt = acc2B V c t h0 h1 (acc2 V c (t.val - 1) (Nat.lt_of_le_of_lt (Nat.sub_le _ _) t.isLt)).2.2.1
      (acc2 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `acc2` at a point of the last case: over what the point before left. -/
theorem acc2_C (c : Dev nD) (t : Fin cfg2.N) (h0 : ¬t.val % 50 = 0) (h1 : t.val % 50 = 49) :
    acc2 V c t.val t.isLt = acc2C V c t h0 h1 (acc2 V c (t.val - 1) (Nat.lt_of_le_of_lt (Nat.sub_le _ _) t.isLt)).2.2.1
      (acc2 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the class's (every scoped buffer that is no
    staging buffer at anything, the generator register at some state); afterwards the same with the two accumulators
    at what the point before left in them. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn).2.2.1 ∗ owns (c : Thread nD τ) scM2_1 fullShare (acc2 V c n hn).2.2.2 ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn).2.2.1 ∗ owns (c : Thread nD τ) scM2_1 fullShare (acc2 V c n hn).2.2.2 ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)).2.2.1 ∗ owns (c : Thread nD τ) scM2_1 fullShare (acc2 V c (n - 1) (by omega)).2.2.2 ∗ Rest2 (F := F) c) ∗ (∃ r, prngReg c r)) := by
  cases n with
  | zero => exact absurd rfl hz
  | succ n => rfl

/-! ## The proof data -/

/-- The proof data of the region on core `c`: the arrays as the region finds them (`V`); after the body at point `t`
    each input's buffer at its block and the two outputs' at `acc2`'s components; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val t.isLt).1
    | ⟨4, _⟩ => (acc2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (acc2 V c t.val t.isLt).1 := by dsimp only [dat2]
theorem after2_4 (c : Dev nD) (t : Fin cfg2.N) : (dat2 V c).after 4 t = (acc2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the two accumulators at what the point before left (at anything before the first point;
    the first case overwrites them whole before reading them) and takes them back at this point's contents; the rest
    of the invariant and the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 100 := lt_of_lt_of_eq t.isLt (show cfg2.N = 100 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 50 = 0
  · have h1 : ¬t.val % 50 = 49 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1),
      Dat.leavesExact_idle (dat2 V c) 4 t (idleAt2_4 t hc1) (noFlush2_4 t hc1)]
    rw [acc2_A V c t h0 h1]
    unfold acc2A sout2_A_0 sout2_A_1; (try dsimp only)
    by_cases hz : t.val = 0
    · rw [PhiS2_castSucc V c t, PhiS2_zero V c _ _ hz, PhiA2_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ hc0 hc1 (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_A_0 c _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ hc0 hc1 (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_A_0 c _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬cond2_0 (grid2.coords t) := fun h => h0 ((hcond2_0 t).mp h)
    by_cases h1 : t.val % 50 = 49
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [acc2_C V c t h0 h1]
      unfold acc2C out2_C_3 out2_C_4 sout2_C_0 sout2_C_1; (try dsimp only)
      rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ hc0 hc1 (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [acc2_B V c t h0 h1]
      unfold acc2B sout2_B_0 sout2_B_1; (try dsimp only)
      rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ hc0 hc1 (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout2 (c : Dev nD) : (dat2 V c).Φ (Fin.last cfg2.N) ⊢ Pipeline.ΦA spec2 c :=
  Phi_out2 V c _ (by rw [Fin.val_last]; have : cfg2.N = 100 := N_2; omega)

example (c : Dev nD) (w : Fin cfg2.W) : (dat2 V c).q w = fullShare := rfl
example (c : Dev nD) (t : Fin (cfg2.N + 1)) : (dat2 V c).owed t = 0 := rfl

end

end Cert.Kernel.Hand

end
-- ==== Proof.K.Run.lean ====
/-
  The program's run, given each of its three kernel regions' own proof (`Half0`, `Half1`, `Half2`).

  @main is: three host operations (the radius reshaped, its absolute value, reshaped to a 1×1 block); the three kernel
  regions one after the other; ten host operations on the regions' six outputs. The contents of every unscoped buffer at
  the five boundaries between these items are named here as a fold from the launch memory: a host stretch applies its
  operations, a region replaces its windows' arrays by what its pipeline leaves (the inputs unchanged, each output with
  the write-backs of its blocks folded in) and touches nothing else. Each region is entered with every unscoped buffer held
  at the boundary's contents beside the core's generator register and its (empty) debts, and left in the same form at the
  next boundary, so the segments chain; the launch makes the first state and the last is read against the final memory.
  The conclusion: every weakly fair execution terminates with EVERY unscoped buffer at the last boundary's contents.
  The frame claim and the value of the two results are read off it.
-/
import proofs.«126384_j71554155151373_1_alg».proof.Proof.Gen.Kernel.Launch
import proofs.«126384_j71554155151373_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-- The TensorCore buffers' contents on every core: what a region's proof is stated at. -/
abbrev Contents (F : FTy → Type) [FloatOps F] : Type := (c : Dev nD) → (b : Ref sig .tc) → Buf (Elt F) ((c : Thread nD τ).loc b)

/-- What region 0's own proof supplies, at any contents `V` the region may be entered from: the pipeline's proof data with
    its arrays read off `V`, full shares, nothing owed; the body's obligation at every grid point; and that its invariant
    starts from, and ends in, the scoped buffers it does not stage held at some contents beside the generator register. -/
structure Half0 (F : FTy → Type) [FloatOps F] where
  dat : Contents F → (c : Dev nD) → Dat τ (Elt F) Unit ℕ (UR sig nD τ) ℕ cfg0 c
  A_eq : ∀ V c (w : Fin cfg0.W), (dat V c).A w = V c (Pipeline.arrRef spec0 w)
  q_eq : ∀ V c (w : Fin cfg0.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What region 1's own proof supplies, at any contents `V` the region may be entered from: the pipeline's proof data with
    its arrays read off `V`, full shares, nothing owed; the body's obligation at every grid point; and that its invariant
    starts from, and ends in, the scoped buffers it does not stage held at some contents beside the generator register. -/
structure Half1 (F : FTy → Type) [FloatOps F] where
  dat : Contents F → (c : Dev nD) → Dat τ (Elt F) Unit ℕ (UR sig nD τ) ℕ cfg1 c
  A_eq : ∀ V c (w : Fin cfg1.W), (dat V c).A w = V c (Pipeline.arrRef spec1 w)
  q_eq : ∀ V c (w : Fin cfg1.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What region 2's own proof supplies, at any contents `V` the region may be entered from: the pipeline's proof data with
    its arrays read off `V`, full shares, nothing owed; the body's obligation at every grid point; and that its invariant
    starts from, and ends in, the scoped buffers it does not stage held at some contents beside the generator register. -/
structure Half2 (F : FTy → Type) [FloatOps F] where
  dat : Contents F → (c : Dev nD) → Dat τ (Elt F) Unit ℕ (UR sig nD τ) ℕ cfg2 c
  A_eq : ∀ V c (w : Fin cfg2.W), (dat V c).A w = V c (Pipeline.arrRef spec2 w)
  q_eq : ∀ V c (w : Fin cfg2.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable {F : FTy → Type} [FloatOps F]

local notation "𝕄" => MT nD τ sig Unit (Elt F) ℕ (UR sig nD τ) ℕ

variable (H0 : Half0 F) (H1 : Half1 F) (H2 : Half2 F)
variable (m : (ℓ : Loc nD τ sig) → Buf (Elt F) ℓ) (ρ : Dev nD → PrngReg)

/-! ## The buffers' contents at the boundaries -/

/-- At launch. -/
abbrev bnd0 : Dev nD → Valuation τ sig (Elt F) := fun c b => m (c, b)
/-- After the three host operations on the radius: region 0's entry. -/
abbrev bnd1 : Dev nD → Valuation τ sig (Elt F) := fun c => StableHlo.after hostOps0 (bnd0 m c)
/-- The same read at the TensorCore's references. -/
abbrev at1 : Contents F := fun c b => bnd1 m c b

/-! ## Region 0: what it leaves behind -/

/-- After region 0: its windows' arrays at what the pipeline leaves (an input as entered, an output with its
    write-backs folded in), every other buffer as entered. -/
def bnd2 (c : Dev nD) : Valuation τ sig (Elt F) :=
  Pipeline.withArrays spec0 c (bnd1 m c) fun w => (H0.dat (at1 m) c).arrAt w cfg0.N
theorem bnd2_arr (c : Dev nD) (w : Fin cfg0.W) :
    bnd2 H0 m c (Proc.devRef .tc (Pipeline.arrRef spec0 w)) = (H0.dat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 H0 m c (Proc.devRef .tc b) = bnd1 m c (Proc.devRef .tc b) := by
  unfold bnd2; exact Pipeline.withArrays_of_ne spec0 c _ _ b hb
/-- The same read at the TensorCore's references. -/
abbrev at2 : Contents F := fun c b => bnd2 H0 m c b
theorem left0 (c : Dev nD) (w : Fin cfg0.W) :
    (H0.dat (at1 m) c).arrAt w cfg0.N = at2 H0 m c (Pipeline.arrRef spec0 w) := (bnd2_arr H0 m c w).symm
theorem kept0 (c : Dev nD) : ∀ b, b ∉ Finset.univ.image (Pipeline.arrRef spec0) → at2 H0 m c b = at1 m c b :=
  fun b hb => bnd2_of_ne H0 m c b fun w e => hb (Finset.mem_image.mpr ⟨w, Finset.mem_univ _, e⟩)
/-- An input window of region 0 keeps its array. -/
theorem bnd2_in (c : Dev nD) (w : Fin cfg0.W) (hin : (cfg0.win w).isOut = false) :
    bnd2 H0 m c (Proc.devRef .tc (Pipeline.arrRef spec0 w)) = bnd1 m c (Proc.devRef .tc (Pipeline.arrRef spec0 w)) :=
  (bnd2_arr H0 m c w).trans (((H0.dat (at1 m) c).arrAt_in w hin _).trans (H0.A_eq (at1 m) c w))

/-! ## Region 1: what it leaves behind -/

/-- After region 1: its windows' arrays at what the pipeline leaves (an input as entered, an output with its
    write-backs folded in), every other buffer as entered. -/
def bnd3 (c : Dev nD) : Valuation τ sig (Elt F) :=
  Pipeline.withArrays spec1 c (bnd2 H0 m c) fun w => (H1.dat (at2 H0 m) c).arrAt w cfg1.N
theorem bnd3_arr (c : Dev nD) (w : Fin cfg1.W) :
    bnd3 H0 H1 m c (Proc.devRef .tc (Pipeline.arrRef spec1 w)) = (H1.dat (at2 H0 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 H0 H1 m c (Proc.devRef .tc b) = bnd2 H0 m c (Proc.devRef .tc b) := by
  unfold bnd3; exact Pipeline.withArrays_of_ne spec1 c _ _ b hb
/-- The same read at the TensorCore's references. -/
abbrev at3 : Contents F := fun c b => bnd3 H0 H1 m c b
theorem left1 (c : Dev nD) (w : Fin cfg1.W) :
    (H1.dat (at2 H0 m) c).arrAt w cfg1.N = at3 H0 H1 m c (Pipeline.arrRef spec1 w) := (bnd3_arr H0 H1 m c w).symm
theorem kept1 (c : Dev nD) : ∀ b, b ∉ Finset.univ.image (Pipeline.arrRef spec1) → at3 H0 H1 m c b = at2 H0 m c b :=
  fun b hb => bnd3_of_ne H0 H1 m c b fun w e => hb (Finset.mem_image.mpr ⟨w, Finset.mem_univ _, e⟩)
/-- An input window of region 1 keeps its array. -/
theorem bnd3_in (c : Dev nD) (w : Fin cfg1.W) (hin : (cfg1.win w).isOut = false) :
    bnd3 H0 H1 m c (Proc.devRef .tc (Pipeline.arrRef spec1 w)) = bnd2 H0 m c (Proc.devRef .tc (Pipeline.arrRef spec1 w)) :=
  (bnd3_arr H0 H1 m c w).trans (((H1.dat (at2 H0 m) c).arrAt_in w hin _).trans (H1.A_eq (at2 H0 m) c w))

/-! ## Region 2: what it leaves behind -/

/-- After region 2: its windows' arrays at what the pipeline leaves (an input as entered, an output with its
    write-backs folded in), every other buffer as entered. -/
def bnd4 (c : Dev nD) : Valuation τ sig (Elt F) :=
  Pipeline.withArrays spec2 c (bnd3 H0 H1 m c) fun w => (H2.dat (at3 H0 H1 m) c).arrAt w cfg2.N
theorem bnd4_arr (c : Dev nD) (w : Fin cfg2.W) :
    bnd4 H0 H1 H2 m c (Proc.devRef .tc (Pipeline.arrRef spec2 w)) = (H2.dat (at3 H0 H1 m) c).arrAt w cfg2.N := by
  unfold bnd4; exact Pipeline.withArrays_arr spec2 launch2.win.arr_inj c _ _ w
theorem bnd4_of_ne (c : Dev nD) (b : Ref sig .tc) (hb : ∀ w, Pipeline.arrRef spec2 w ≠ b) :
    bnd4 H0 H1 H2 m c (Proc.devRef .tc b) = bnd3 H0 H1 m c (Proc.devRef .tc b) := by
  unfold bnd4; exact Pipeline.withArrays_of_ne spec2 c _ _ b hb
/-- The same read at the TensorCore's references. -/
abbrev at4 : Contents F := fun c b => bnd4 H0 H1 H2 m c b
theorem left2 (c : Dev nD) (w : Fin cfg2.W) :
    (H2.dat (at3 H0 H1 m) c).arrAt w cfg2.N = at4 H0 H1 H2 m c (Pipeline.arrRef spec2 w) := (bnd4_arr H0 H1 H2 m c w).symm
theorem kept2 (c : Dev nD) : ∀ b, b ∉ Finset.univ.image (Pipeline.arrRef spec2) → at4 H0 H1 H2 m c b = at3 H0 H1 m c b :=
  fun b hb => bnd4_of_ne H0 H1 H2 m c b fun w e => hb (Finset.mem_image.mpr ⟨w, Finset.mem_univ _, e⟩)
/-- An input window of region 2 keeps its array. -/
theorem bnd4_in (c : Dev nD) (w : Fin cfg2.W) (hin : (cfg2.win w).isOut = false) :
    bnd4 H0 H1 H2 m c (Proc.devRef .tc (Pipeline.arrRef spec2 w)) = bnd3 H0 H1 m c (Proc.devRef .tc (Pipeline.arrRef spec2 w)) :=
  (bnd4_arr H0 H1 H2 m c w).trans (((H2.dat (at3 H0 H1 m) c).arrAt_in w hin _).trans (H2.A_eq (at3 H0 H1 m) c w))

/-- After the ten host operations on the regions' outputs: the end. -/
abbrev bnd5 : Dev nD → Valuation τ sig (Elt F) := fun c => StableHlo.after hostOps3 (bnd4 H0 H1 H2 m c)

/-! ## The proof data of the three pipelines, and what rides beside the buffers -/

/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => H0.dat (at1 m) c
  | ⟨1, _⟩ => fun c => H1.dat (at2 H0 m) c
  | ⟨2, _⟩ => fun c => H2.dat (at3 H0 H1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `bnd1`, left with them at `bnd2`. Its windows' arrays
    are split out of the unscoped buffers and put back at what the pipeline leaves; the generator register goes into the
    region's invariant and comes back; the core owes nothing; the kernel has no semaphore of its own. -/
def reg0 : Pipeline.RegionSeg (pcfgs (F := F)) adm (pdats H0 H1 H2 m) () defs₀ 𝒱₀ L lv 0 where
  win := launch0.win.to₀
  block_pos := launch0.block_pos
  stage_whole := launch0.stage_whole
  K := PEmpty
  osem k := k.elim
  ho := Pipeline.OwnSemFacts.none _
  hbody c := (H0.body (at1 m) c).loose
  hwaits := Pipeline.hwaits_of_owed_zero _ _ _ _ L lv 0 fun c t => H0.owed_eq (at1 m) c t
  pre c := iprop(StableHlo.held (c : Thread nD τ) (Pipeline.ucRefs τ sig) (bnd1 m c) ∗ R c)
  post c := iprop(StableHlo.held (c : Thread nD τ) (Pipeline.ucRefs τ sig) (bnd2 H0 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats H0 H1 H2 m) launch0.win launch0.arr_whole c
      ((pdats H0 H1 H2 m 0 c).share_full fun w => H0.q_eq (at1 m) c w) (at1 m c) fun w => H0.A_eq (at1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 0 c).owed 0 = 0 from H0.owed_eq (at1 m) c 0,
        show (pdats H0 H1 H2 m 0 c).recorded 0 = Set.univ from H0.recorded_eq (at1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats H0 H1 H2 m 0 c).Φ 0 := by
      have h' := H0.hin (at1 m) c; unfold Pipeline.ΦA at h'; exact h'
    iintro ⟨Hp, -, Hr⟩
    iapply h
    isplitl [Hr]; · iexact Hr
    iexact Hp
  hout c := by
    have h : (pdats H0 H1 H2 m 0 c).Φ (Fin.last _) ⊢ (iprop(Pipeline.scopedRest spec0 c ∗ ∃ r, prngReg c r) : sProp 𝕄) := by
      have h' := H0.hout (at1 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m) ((pdats H0 H1 H2 m 0 c).share_full fun w => H0.q_eq (at1 m) c w)
      (at1 m c) (at2 H0 m c) ((pdats H0 H1 H2 m 0 c).arrAt · cfg0.N) (left0 H0 m c) (kept0 H0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 0 c).owed (Fin.last _) = 0 from H0.owed_eq (at1 m) c _]
    icases HO with ⟨%W, -, HO⟩; iexists W; iexact HO

set_option backward.isDefEq.respectTransparency.types false in
/-- Region 1 as a segment: entered with every unscoped buffer at `bnd2`, left with them at `bnd3`. Its windows' arrays
    are split out of the unscoped buffers and put back at what the pipeline leaves; the generator register goes into the
    region's invariant and comes back; the core owes nothing; the kernel has no semaphore of its own. -/
def reg1 : Pipeline.RegionSeg (pcfgs (F := F)) adm (pdats H0 H1 H2 m) () defs₀ 𝒱₀ L lv 1 where
  win := launch1.win.to₀
  block_pos := launch1.block_pos
  stage_whole := launch1.stage_whole
  K := PEmpty
  osem k := k.elim
  ho := Pipeline.OwnSemFacts.none _
  hbody c := (H1.body (at2 H0 m) c).loose
  hwaits := Pipeline.hwaits_of_owed_zero _ _ _ _ L lv 1 fun c t => H1.owed_eq (at2 H0 m) c t
  pre c := iprop(StableHlo.held (c : Thread nD τ) (Pipeline.ucRefs τ sig) (bnd2 H0 m c) ∗ R c)
  post c := iprop(StableHlo.held (c : Thread nD τ) (Pipeline.ucRefs τ sig) (bnd3 H0 H1 m c) ∗ R c)
  X c := iprop(∃ r, prngReg c r)
  Y c := iprop(∃ r, prngReg c r)
  Z c := Pipeline.unscopedRest (Ix := Unit) (Name := ℕ) (U := UR sig nD τ) (Lvl := ℕ) spec1 c (at2 H0 m c)
  hentry c := by
    rw [Pipeline.ownSems0_none]
    have hsplit := Pipeline.arrays_of_unscopedBufs (p := 1) (pcfgs (F := F)) adm (pdats H0 H1 H2 m) launch1.win launch1.arr_whole c
      ((pdats H0 H1 H2 m 1 c).share_full fun w => H1.q_eq (at2 H0 m) c w) (at2 H0 m c) fun w => H1.A_eq (at2 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 1 c).owed 0 = 0 from H1.owed_eq (at2 H0 m) c 0,
        show (pdats H0 H1 H2 m 1 c).recorded 0 = Set.univ from H1.recorded_eq (at2 H0 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats H0 H1 H2 m 1 c).Φ 0 := by
      have h' := H1.hin (at2 H0 m) c; unfold Pipeline.ΦA at h'; exact h'
    iintro ⟨Hp, -, Hr⟩
    iapply h
    isplitl [Hr]; · iexact Hr
    iexact Hp
  hout c := by
    have h : (pdats H0 H1 H2 m 1 c).Φ (Fin.last _) ⊢ (iprop(Pipeline.scopedRest spec1 c ∗ ∃ r, prngReg c r) : sProp 𝕄) := by
      have h' := H1.hout (at2 H0 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m) ((pdats H0 H1 H2 m 1 c).share_full fun w => H1.q_eq (at2 H0 m) c w)
      (at2 H0 m c) (at3 H0 H1 m c) ((pdats H0 H1 H2 m 1 c).arrAt · cfg1.N) (left1 H0 H1 m c) (kept1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 1 c).owed (Fin.last _) = 0 from H1.owed_eq (at2 H0 m) c _]
    icases HO with ⟨%W, -, HO⟩; iexists W; iexact HO

set_option backward.isDefEq.respectTransparency.types false in
/-- Region 2 as a segment: entered with every unscoped buffer at `bnd3`, left with them at `bnd4`. Its windows' arrays
    are split out of the unscoped buffers and put back at what the pipeline leaves; the generator register goes into the
    region's invariant and comes back; the core owes nothing; the kernel has no semaphore of its own. -/
def reg2 : Pipeline.RegionSeg (pcfgs (F := F)) adm (pdats H0 H1 H2 m) () defs₀ 𝒱₀ L lv 2 where
  win := launch2.win.to₀
  block_pos := launch2.block_pos
  stage_whole := launch2.stage_whole
  K := PEmpty
  osem k := k.elim
  ho := Pipeline.OwnSemFacts.none _
  hbody c := (H2.body (at3 H0 H1 m) c).loose
  hwaits := Pipeline.hwaits_of_owed_zero _ _ _ _ L lv 2 fun c t => H2.owed_eq (at3 H0 H1 m) c t
  pre c := iprop(StableHlo.held (c : Thread nD τ) (Pipeline.ucRefs τ sig) (bnd3 H0 H1 m c) ∗ R c)
  post c := iprop(StableHlo.held (c : Thread nD τ) (Pipeline.ucRefs τ sig) (bnd4 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c (at3 H0 H1 m c)
  hentry c := by
    rw [Pipeline.ownSems0_none]
    have hsplit := Pipeline.arrays_of_unscopedBufs (p := 2) (pcfgs (F := F)) adm (pdats H0 H1 H2 m) launch2.win launch2.arr_whole c
      ((pdats H0 H1 H2 m 2 c).share_full fun w => H2.q_eq (at3 H0 H1 m) c w) (at3 H0 H1 m c) fun w => H2.A_eq (at3 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 2 c).owed 0 = 0 from H2.owed_eq (at3 H0 H1 m) c 0,
        show (pdats H0 H1 H2 m 2 c).recorded 0 = Set.univ from H2.recorded_eq (at3 H0 H1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats H0 H1 H2 m 2 c).Φ 0 := by
      have h' := H2.hin (at3 H0 H1 m) c; unfold Pipeline.ΦA at h'; exact h'
    iintro ⟨Hp, -, Hr⟩
    iapply h
    isplitl [Hr]; · iexact Hr
    iexact Hp
  hout c := by
    have h : (pdats H0 H1 H2 m 2 c).Φ (Fin.last _) ⊢ (iprop(Pipeline.scopedRest spec2 c ∗ ∃ r, prngReg c r) : sProp 𝕄) := by
      have h' := H2.hout (at3 H0 H1 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m) ((pdats H0 H1 H2 m 2 c).share_full fun w => H2.q_eq (at3 H0 H1 m) c w)
      (at3 H0 H1 m c) (at4 H0 H1 H2 m c) ((pdats H0 H1 H2 m 2 c).arrAt · cfg2.N) (left2 H0 H1 H2 m c) (kept2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 2 c).owed (Fin.last _) = 0 from H2.owed_eq (at3 H0 H1 m) c _]
    icases HO with ⟨%W, -, HO⟩; iexists W; iexact HO

/-! ## @main as segments, and the run -/

/-- @main's five segments in order. -/
abbrev segs : List (Pipeline.Seg (pcfgs (F := F)) adm (pdats H0 H1 H2 m) () defs₀ 𝒱₀ L lv) :=
  [ .host (hseg hostOps0 hostOps0_sub hostOps0_fresh (bnd0 m)),
    .region (reg0 H0 H1 H2 m),
    .region (reg1 H0 H1 H2 m),
    .region (reg2 H0 H1 H2 m),
    .host (hseg hostOps3 hostOps3_sub hostOps3_fresh (bnd4 H0 H1 H2 m)) ]
/-- @main is the run of the segments. -/
theorem main_run (c : Dev nD) : main (F := F) c = Pipeline.Seg.run (segs H0 H1 H2 m) := (main_chain c).trans (by chain_rfl)

set_option backward.isDefEq.respectTransparency.types false in
/-- THE RUN. From any memory with zero counters every weakly fair execution of @main terminates, nothing faulting, and in
    every final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd5 H0 H1 H2 m c b) :=
  Pipeline.θ_run_regions_kit (pcfgs (F := F)) adm (pdats H0 H1 H2 m) () cellOf_inj emb₁ defs₀ 𝒱₀ L lv m ρ main (segs H0 H1 H2 m)
    (fun c Q => by rw [main_run H0 H1 H2 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c))
    (Tₙ := fun c => iprop(StableHlo.held (c : Thread nD τ) (Pipeline.ucRefs τ sig) (bnd5 H0 H1 H2 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (bnd5 H0 H1 H2 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd5 H0 H1 H2 m c b)
    (hfin := fun c s' => by
      iintro ⟨⟨Hh, -⟩, HSI⟩
      unfold StableHlo.held
      imodintro
      iapply (pointsTo_read_all (Pipeline.ucRefs τ sig) (fun b => (((c : Thread nD τ)).1, b)) (bnd5 H0 H1 H2 m c) s')
      isplitl [Hh] <;> iassumption)
    (hQ := fun s h c => h c)

end Cert.Kernel.Hand

end
-- ==== Proof.K.Ends.lean ====
/-
  The ends of the run: each argument array's buffer, followed back through the five boundaries, holds at the end what it
  held at launch (a host stretch does not write it; a region stages it as an input window, whose array the pipeline never
  writes, or does not stage it); so the run's conclusion gives the frame claim. The regions' inputs are followed the same
  way to where they come from: the point arrays and the centers to the launch memory, the radius block to the first host
  stretch's result.
-/
import proofs.«126384_j71554155151373_1_alg».proof.Proof.K.Run

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (H0 : Half0 F) (H1 : Half1 F) (H2 : Half2 F)
variable (m : (ℓ : Loc nD τ sig) → Buf (Elt F) ℓ) (ρ : Dev nD → PrngReg)

/-- `main_arg0` reaches the end as launched: no host operation writes it, and a region stages it as an input or not at all. -/
theorem end_main_arg0 (c : Dev nD) : bnd5 H0 H1 H2 m c (Proc.devRef .tc main_arg0) = m ((c : Thread nD τ).loc main_arg0) :=
  (StableHlo.after_of_writes_sub hostOps3 _ hostOps3_writes (by decide)).trans <|
  (bnd4_of_ne H0 H1 H2 m c main_arg0 (by decide)).trans <|
  (bnd3_of_ne H0 H1 m c main_arg0 (by decide)).trans <|
  (bnd2_in H0 m c 0 rfl).trans <|
  (StableHlo.after_of_writes_sub hostOps0 _ hostOps0_writes (by decide)).trans rfl

/-- `main_arg1` reaches the end as launched: no host operation writes it, and a region stages it as an input or not at all. -/
theorem end_main_arg1 (c : Dev nD) : bnd5 H0 H1 H2 m c (Proc.devRef .tc main_arg1) = m ((c : Thread nD τ).loc main_arg1) :=
  (StableHlo.after_of_writes_sub hostOps3 _ hostOps3_writes (by decide)).trans <|
  (bnd4_of_ne H0 H1 H2 m c main_arg1 (by decide)).trans <|
  (bnd3_of_ne H0 H1 m c main_arg1 (by decide)).trans <|
  (bnd2_in H0 m c 1 rfl).trans <|
  (StableHlo.after_of_writes_sub hostOps0 _ hostOps0_writes (by decide)).trans rfl

/-- `main_arg2` reaches the end as launched: no host operation writes it, and a region stages it as an input or not at all. -/
theorem end_main_arg2 (c : Dev nD) : bnd5 H0 H1 H2 m c (Proc.devRef .tc main_arg2) = m ((c : Thread nD τ).loc main_arg2) :=
  (StableHlo.after_of_writes_sub hostOps3 _ hostOps3_writes (by decide)).trans <|
  (bnd4_of_ne H0 H1 H2 m c main_arg2 (by decide)).trans <|
  (bnd3_in H0 H1 m c 0 rfl).trans <|
  (bnd2_of_ne H0 m c main_arg2 (by decide)).trans <|
  (StableHlo.after_of_writes_sub hostOps0 _ hostOps0_writes (by decide)).trans rfl

/-- `main_arg3` reaches the end as launched: no host operation writes it, and a region stages it as an input or not at all. -/
theorem end_main_arg3 (c : Dev nD) : bnd5 H0 H1 H2 m c (Proc.devRef .tc main_arg3) = m ((c : Thread nD τ).loc main_arg3) :=
  (StableHlo.after_of_writes_sub hostOps3 _ hostOps3_writes (by decide)).trans <|
  (bnd4_in H0 H1 H2 m c 0 rfl).trans <|
  (bnd3_of_ne H0 H1 m c main_arg3 (by decide)).trans <|
  (bnd2_of_ne H0 m c main_arg3 (by decide)).trans <|
  (StableHlo.after_of_writes_sub hostOps0 _ hostOps0_writes (by decide)).trans rfl

/-- `main_arg4` reaches the end as launched: no host operation writes it, and a region stages it as an input or not at all. -/
theorem end_main_arg4 (c : Dev nD) : bnd5 H0 H1 H2 m c (Proc.devRef .tc main_arg4) = m ((c : Thread nD τ).loc main_arg4) :=
  (StableHlo.after_of_writes_sub hostOps3 _ hostOps3_writes (by decide)).trans <|
  (bnd4_in H0 H1 H2 m c 1 rfl).trans <|
  (bnd3_in H0 H1 m c 1 rfl).trans <|
  (bnd2_in H0 m c 2 rfl).trans <|
  (StableHlo.after_of_writes_sub hostOps0 _ hostOps0_writes (by decide)).trans rfl

/-- `main_arg5` reaches the end as launched: no host operation writes it, and a region stages it as an input or not at all. -/
theorem end_main_arg5 (c : Dev nD) : bnd5 H0 H1 H2 m c (Proc.devRef .tc main_arg5) = m ((c : Thread nD τ).loc main_arg5) :=
  (StableHlo.after_of_writes_sub hostOps3 _ hostOps3_writes (by decide)).trans <|
  (bnd4_of_ne H0 H1 H2 m c main_arg5 (by decide)).trans <|
  (bnd3_of_ne H0 H1 m c main_arg5 (by decide)).trans <|
  (bnd2_of_ne H0 m c main_arg5 (by decide)).trans <|
  (StableHlo.after_of_writes_sub hostOps0 _ hostOps0_writes (by decide)).trans rfl

include H0 H1 H2 in
/-- THE FRAME, given the three regions' own proofs: every weakly fair execution terminates, nothing faulting, and every
    argument array ends as launched. -/
theorem frame_of_halves : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (end_main_arg0 H0 H1 H2 m c),
     (h c _ (mem_uc main_arg1 (by decide))).trans (end_main_arg1 H0 H1 H2 m c),
     (h c _ (mem_uc main_arg2 (by decide))).trans (end_main_arg2 H0 H1 H2 m c),
     (h c _ (mem_uc main_arg3 (by decide))).trans (end_main_arg3 H0 H1 H2 m c),
     (h c _ (mem_uc main_arg4 (by decide))).trans (end_main_arg4 H0 H1 H2 m c),
     (h c _ (mem_uc main_arg5 (by decide))).trans (end_main_arg5 H0 H1 H2 m c)⟩)
    (run_all H0 H1 H2 m ρ)

end Cert.Kernel.Hand

end
-- ==== Proof.K.Halves.lean ====
/-
  The three regions' own proofs handed to the run, and the program's frame: every weakly fair execution terminates, nothing
  faulting, with every argument array as launched.
-/
import proofs.«126384_j71554155151373_1_alg».proof.Proof.K.R0Frame
import proofs.«126384_j71554155151373_1_alg».proof.Proof.K.R1Frame
import proofs.«126384_j71554155151373_1_alg».proof.Proof.K.R2Frame
import proofs.«126384_j71554155151373_1_alg».proof.Proof.K.Ends

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- Region 0 (the direct kernel on the up and down points). -/
def half0 : Half0 F where
  dat := dat0
  A_eq := A_eq0
  q_eq := fun _ _ _ => rfl
  owed_eq := fun _ _ _ => rfl
  recorded_eq := fun _ _ _ => rfl
  body := body_obligation0
  hin := hin0
  hout := hout0

/-- Region 1 (the pair kernel on the first derived array). -/
def half1 : Half1 F where
  dat := dat1
  A_eq := A_eq1
  q_eq := fun _ _ _ => rfl
  owed_eq := fun _ _ _ => rfl
  recorded_eq := fun _ _ _ => rfl
  body := body_obligation1
  hin := hin1
  hout := hout1

/-- Region 2 (the pair kernel on the second derived array). -/
def half2 : Half2 F where
  dat := dat2
  A_eq := A_eq2
  q_eq := fun _ _ _ => rfl
  owed_eq := fun _ _ _ => rfl
  recorded_eq := fun _ _ _ => rfl
  body := body_obligation2
  hin := hin2
  hout := hout2

/-- THE FRAME of the program, at any float instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_halves half0 half1 half2 m ρ

end Cert.Kernel.Hand

end
-- ==== Proof.KI.R0Base.lean ====
import proofs.«126384_j71554155151373_1_alg».proof.Proof.Gen.KernelIdeal.Launch
import proofs.«126384_j71554155151373_1_alg».proof.Proof.Gen.KernelIdeal.Skeleton
import proofs.«126384_j71554155151373_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the direct kernel, grid 2 × 100): what its three cases share

Point `t` of the grid has coordinates `(t / 100, t % 100)`. The body zeroes its two accumulators where the
second coordinate is `0`, adds the tile's partial sums at every point, and copies the accumulators to the two
output blocks where the second coordinate is `99`. -/

/-! ## The body's two branch conditions, in closed form over the grid -/

/-- The first conditional's condition (the accumulators are zeroed): the second coordinate is `0`. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- The second conditional's condition (the accumulators are copied out): the second coordinate is `99`. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy-out condition fails the two output windows are idle and not written back; -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- where it holds they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- Each window's current staging memref at point `t`, and its wholeness. -/
abbrev ms0_0 (t : Fin cfg0.N) : Memref sig .tc .vmem S16x200x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x200x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x64 .f32 := win0_5.stage (cfg0.slots t 5)
abbrev hs0_5 (t : Fin cfg0.N) : (ms0_5 t).IsWhole := hstage0_5 ((cfg0.slots t 5).cast nbuf0_5)

/-- The two accumulators: whole scoped buffers of the kernel's own, carried from point to point. -/
abbrev scr0 : Memref sig .tc .vmem S16x64 .f32 := Memref.whole cc0_scratch0
abbrev scr1 : Memref sig .tc .vmem S16x64 .f32 := Memref.whole cc0_scratch1
/-- The views through which what the accumulators and the output buffers hold is stated. -/
abbrev VS0 : View sig .tc .vmem S16x64 .f32 := scr0.view
abbrev VS1 : View sig .tc .vmem S16x64 .f32 := scr1.view
abbrev VO4 : View sig .tc .vmem S16x64 .f32 := (Memref.whole cc0_stg4_0 : Memref sig .tc .vmem S16x64 .f32).view
abbrev VO5 : View sig .tc .vmem S16x64 .f32 := (Memref.whole cc0_stg5_0 : Memref sig .tc .vmem S16x64 .f32).view

/-! ## The class invariant, the two accumulators apart -/

/-- Every scoped buffer of the core that is neither a staging buffer of this region nor one of its two
    accumulators, at some contents each: the other regions' staging buffers and accumulators. The region never
    opens it. -/
abbrev restScoped0 (c : Dev nD) : sProp 𝕄 :=
  Pipeline.scopedRestBut (Ix := Unit) (Name := ℕ) (U := UR sig nD τ) (Lvl := ℕ) (Val := Elt F) spec0 c [cc0_scratch0, cc0_scratch1]

/-- The class invariant: the two accumulators owned at some contents, the other scoped buffers, and the
    generator register at some state. -/
theorem PhiA0_eq (c : Dev nD) :
    (Pipeline.ΦA spec0 c : sProp 𝕄)
      = iprop(iprop(iprop((∃ d, owns (c : Thread nD τ) scr0 fullShare d) ∗ (∃ d, owns (c : Thread nD τ) scr1 fullShare d))
          ∗ restScoped0 c) ∗ (∃ r, prngReg c r)) := by
  unfold Pipeline.ΦA
  rw [Pipeline.scopedRest_split_of_list spec0 c [cc0_scratch0, cc0_scratch1] (by decide) (by decide)]
  simp only [scr0, scr1, owns_whole]; try rfl

section
variable (V : (c : Dev nD) → (b : Ref sig .tc) → Buf (Elt F) ((c : Thread nD τ).loc b))

/-! ## The windows' blocks at the region-entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved): for any proof data whose array is `V`'s and whose body leaves the block in
    place. Windows 0 and 1 (the tiles, fetched at every point): -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Windows 2 and 3 (the centers and the radius: a constant block index, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

end Cert.KernelIdeal.Hand

end
-- ==== Proof.KI.R0RunA.lean ====
import proofs.«126384_j71554155151373_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the first case: the accumulators are zeroed, the tile's sums added, nothing copied out -/

set_option maxHeartbeats 1000000 in
/-- The pieces the body's stores leave in the two accumulators (last first) at a point whose second coordinate is
    `0`, with the proof that on whole memrefs — the four inputs' at their contents, the two outputs' at contents
    handed back untouched, the accumulators' at anything — the body runs to the continuation holding the inputs'
    and outputs' as they were and each accumulator with its pieces written. The pieces are found by the run. -/
noncomputable def kernelRun0_A (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : cond0_0 i) (hc1 : ¬cond0_1 i) (x2 : Vec F S16x200x2 .f32) (x3 : Vec F S16x200x2 .f32) (x4 : Vec F S64x2 .f32) (x5 : Vec F S1x1 .f32) :
    Σ' (LS0 : List (View.Piece (Elt F) S16x64 .f32)), { LS1 : List (View.Piece (Elt F) S16x64 .f32) //
      ∀ (xi6 xi7 : Vec F S16x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, fun xi6 xi7 E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    iexists _; iexact HS1

end Cert.KernelIdeal.Hand

end
-- ==== Proof.KI.R0RunB.lean ====
import proofs.«126384_j71554155151373_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the middle case: the tile's sums are added to the carried accumulators, nothing copied out -/

set_option maxHeartbeats 1000000 in
/-- The pieces the body's stores leave in the two accumulators (last first) at a point whose second coordinate is
    neither `0` nor `99`, with the proof that on whole memrefs — the four inputs' at their contents, the two
    outputs' at contents handed back untouched, the accumulators' at what the point before left (`xs0`, `xs1`) —
    the body runs to the continuation holding the inputs' and outputs' as they were and each accumulator with its
    pieces written. The pieces are found by the run. -/
noncomputable def kernelRun0_B (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : ¬cond0_0 i) (hc1 : ¬cond0_1 i) (x2 : Vec F S16x200x2 .f32) (x3 : Vec F S16x200x2 .f32) (x4 : Vec F S64x2 .f32) (x5 : Vec F S1x1 .f32) (xs0 xs1 : Vec F S16x64 .f32) :
    Σ' (LS0 : List (View.Piece (Elt F) S16x64 .f32)), { LS1 : List (View.Piece (Elt F) S16x64 .f32) //
      ∀ (xi6 xi7 : Vec F S16x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs0 ∗ owns (c : Thread nD τ) arg9 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, fun xi6 xi7 E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hfs0; obtain rfl := harg9.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    iexists _; iexact HS1

end Cert.KernelIdeal.Hand

end
-- ==== Proof.KI.R0RunC.lean ====
import proofs.«126384_j71554155151373_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the last case: the tile's sums are added to the carried accumulators, which are then copied to
the two output blocks -/

set_option maxHeartbeats 1000000 in
/-- The pieces the body's stores leave in the two output buffers and the two accumulators (last first) at a point
    whose second coordinate is `99`, with the proof that on whole memrefs — the four inputs' at their contents,
    the two outputs' at anything, the accumulators' at what the point before left (`xs0`, `xs1`) — the body runs
    to the continuation holding the inputs' as they were and each output buffer and each accumulator with its pieces
    written. The pieces are found by the run. -/
noncomputable def kernelRun0_C (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
    (hc0 : ¬cond0_0 i) (hc1 : cond0_1 i) (x2 : Vec F S16x200x2 .f32) (x3 : Vec F S16x200x2 .f32) (x4 : Vec F S64x2 .f32) (x5 : Vec F S1x1 .f32) (xs0 xs1 : Vec F S16x64 .f32) :
    Σ' (L6 : List (View.Piece (Elt F) S16x64 .f32)), Σ' (L7 : List (View.Piece (Elt F) S16x64 .f32)), Σ' (LS0 : List (View.Piece (Elt F) S16x64 .f32)), { LS1 : List (View.Piece (Elt F) S16x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__direct_kernel i arg2 harg2 arg3 harg3 arg4 harg4 arg5 harg5 arg6 harg6 arg7 harg7 arg8 harg8 arg9 harg9) K } := by
  refine ⟨?_, ?_, ?_, ?_, fun E K => ?run⟩
  case run =>
    simp only [cc0__direct_kernel_eq_skeleton]; unfold cc0__direct_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5
    obtain rfl := harg8.eq_unread hfs0; obtain rfl := harg9.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.R0Frame.lean ====
import proofs.«126384_j71554155151373_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, the accumulation, the invariant, the proof data, the body obligation -/

/-! ## Each case's pieces cover the buffers they are written to, and what they leave there -/

section Cases
variable (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
  (x2 : Vec F S16x200x2 .f32) (x3 : Vec F S16x200x2 .f32) (x4 : Vec F S64x2 .f32) (x5 : Vec F S1x1 .f32)

/-- First case: each accumulator is tiled by its pieces. -/
theorem scover0_A_0 (hc0 : cond0_0 i) (hc1 : ¬cond0_1 i) (y : S16x64.Idx) :
    ∃ pc ∈ (kernelRun0_A c i arg2 harg2 arg3 harg3 arg4 harg4 arg5 harg5 arg6 harg6 arg7 harg7 arg8 harg8 arg9 harg9 hc0 hc1 x2 x3 x4 x5).1, y ∈ pc.1.set :=
  View.cover_of_tiledL (kernelRun0_A c i arg2 harg2 arg3 harg3 arg4 harg4 arg5 harg5 arg6 harg6 arg7 harg7 arg8 harg8 arg9 harg9 hc0 hc1 x2 x3 x4 x5).1 S16x64.size (by sl_kernel_rfl) y
theorem scover0_A_1 (hc0 : cond0_0 i) (hc1 : ¬cond0_1 i) (y : S16x64.Idx) :
    ∃ pc ∈ (kernelRun0_A c i arg2 harg2 arg3 harg3 arg4 harg4 arg5 harg5 arg6 harg6 arg7 harg7 arg8 harg8 arg9 harg9 hc0 hc1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x2 x3 x4 x5).2.1 S16x64.size (by sl_kernel_rfl) y
/-- What the first case leaves in each accumulator: its pieces read back. -/
def sout0_A_0 (hc0 : cond0_0 i) (hc1 : ¬cond0_1 i) : Vec F S16x64 .f32 :=
  VS0.read (Elt F) (VS0.writes (Elt F) VS0.junk (kernelRun0_A c i arg2 harg2 arg3 harg3 arg4 harg4 arg5 harg5 arg6 harg6 arg7 harg7 arg8 harg8 arg9 harg9 hc0 hc1 x2 x3 x4 x5).1)
def sout0_A_1 (hc0 : cond0_0 i) (hc1 : ¬cond0_1 i) : Vec F S16x64 .f32 :=
  VS1.read (Elt F) (VS1.writes (Elt F) VS1.junk (kernelRun0_A c i arg2 harg2 arg3 harg3 arg4 harg4 arg5 harg5 arg6 harg6 arg7 harg7 arg8 harg8 arg9 harg9 hc0 hc1 x2 x3 x4 x5).2.1)

variable (xs0 xs1 : Vec F S16x64 .f32)

/-- Middle case: each accumulator is tiled by its pieces. -/
theorem scover0_B_0 (hc0 : ¬cond0_0 i) (hc1 : ¬cond0_1 i) (y : S16x64.Idx) :
    ∃ pc ∈ (kernelRun0_B c i arg2 harg2 arg3 harg3 arg4 harg4 arg5 harg5 arg6 harg6 arg7 harg7 arg8 harg8 arg9 harg9 hc0 hc1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 hc0 hc1 x2 x3 x4 x5 xs0 xs1).1 S16x64.size (by sl_kernel_rfl) y
theorem scover0_B_1 (hc0 : ¬cond0_0 i) (hc1 : ¬cond0_1 i) (y : S16x64.Idx) :
    ∃ pc ∈ (kernelRun0_B c i arg2 harg2 arg3 harg3 arg4 harg4 arg5 harg5 arg6 harg6 arg7 harg7 arg8 harg8 arg9 harg9 hc0 hc1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 hc0 hc1 x2 x3 x4 x5 xs0 xs1).2.1 S16x64.size (by sl_kernel_rfl) y
/-- What the middle case leaves in each accumulator, over what the point before left. -/
def sout0_B_0 (hc0 : ¬cond0_0 i) (hc1 : ¬cond0_1 i) : Vec F S16x64 .f32 :=
  VS0.read (Elt F) (VS0.writes (Elt F) VS0.junk (kernelRun0_B c i arg2 harg2 arg3 harg3 arg4 harg4 arg5 harg5 arg6 harg6 arg7 harg7 arg8 harg8 arg9 harg9 hc0 hc1 x2 x3 x4 x5 xs0 xs1).1)
def sout0_B_1 (hc0 : ¬cond0_0 i) (hc1 : ¬cond0_1 i) : Vec F S16x64 .f32 :=
  VS1.read (Elt F) (VS1.writes (Elt F) VS1.junk (kernelRun0_B c i arg2 harg2 arg3 harg3 arg4 harg4 arg5 harg5 arg6 harg6 arg7 harg7 arg8 harg8 arg9 harg9 hc0 hc1 x2 x3 x4 x5 xs0 xs1).2.1)

/-- Last case: each output buffer and each accumulator is tiled by its pieces. -/
theorem cover0_C_4 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).1 S16x64.size (by sl_kernel_rfl) y
theorem cover0_C_5 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.1 S16x64.size (by sl_kernel_rfl) y
theorem scover0_C_0 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.2.1 S16x64.size (by sl_kernel_rfl) y
theorem scover0_C_1 (hc0 : ¬cond0_0 i) (hc1 : cond0_1 i) (y : S16x64.Idx) :
    ∃ pc ∈ (kernelRun0_C c i arg2 harg2 arg3 harg3 arg4 harg4 arg5 harg5 arg6 harg6 arg7 harg7 arg8 harg8 arg9 harg9 hc0 hc1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 xs0 xs1).2.2.2.1 S16x64.size (by sl_kernel_rfl) y
/-- What the last case leaves in each output buffer and each accumulator, over what the point before left. -/
def out0_C_4 (hc0 : ¬cond0_0 i) (hc1 : cond0_1 i) : Vec F S16x64 .f32 :=
  VO4.read (Elt F) (VO4.writes (Elt F) VO4.junk (kernelRun0_C c i arg2 harg2 arg3 harg3 arg4 harg4 arg5 harg5 arg6 harg6 arg7 harg7 arg8 harg8 arg9 harg9 hc0 hc1 x2 x3 x4 x5 xs0 xs1).1)
def out0_C_5 (hc0 : ¬cond0_0 i) (hc1 : cond0_1 i) : Vec F S16x64 .f32 :=
  VO5.read (Elt F) (VO5.writes (Elt F) VO5.junk (kernelRun0_C c i arg2 harg2 arg3 harg3 arg4 harg4 arg5 harg5 arg6 harg6 arg7 harg7 arg8 harg8 arg9 harg9 hc0 hc1 x2 x3 x4 x5 xs0 xs1).2.1)
def sout0_C_0 (hc0 : ¬cond0_0 i) (hc1 : cond0_1 i) : Vec F S16x64 .f32 :=
  VS0.read (Elt F) (VS0.writes (Elt F) VS0.junk (kernelRun0_C c i arg2 harg2 arg3 harg3 arg4 harg4 arg5 harg5 arg6 harg6 arg7 harg7 arg8 harg8 arg9 harg9 hc0 hc1 x2 x3 x4 x5 xs0 xs1).2.2.1)
def sout0_C_1 (hc0 : ¬cond0_0 i) (hc1 : cond0_1 i) : Vec F S16x64 .f32 :=
  VS1.read (Elt F) (VS1.writes (Elt F) VS1.junk (kernelRun0_C c i arg2 harg2 arg3 harg3 arg4 harg4 arg5 harg5 arg6 harg6 arg7 harg7 arg8 harg8 arg9 harg9 hc0 hc1 x2 x3 x4 x5 xs0 xs1).2.2.2.1)

end Cases

section
variable (V : (c : Dev nD) → (b : Ref sig .tc) → Buf (Elt F) ((c : Thread nD τ).loc b))

/-! ## The accumulation -/

/-- The four buffers after a point: output window 4's staging buffer, output window 5's, the two accumulators. -/
abbrev Four (F : FTy → Type) : Type := Vec F S16x64 .f32 × Vec F S16x64 .f32 × Vec F S16x64 .f32 × Vec F S16x64 .f32

/-- The closed forms as the cases' hypotheses at a point. -/
theorem hc0_of (t : Fin cfg0.N) (h0 : t.val % 100 = 0) : cond0_0 (grid0.coords t) := (hcond0_0 t).mpr h0
theorem nhc0_of (t : Fin cfg0.N) (h0 : ¬t.val % 100 = 0) : ¬cond0_0 (grid0.coords t) := fun h => h0 ((hcond0_0 t).mp h)
theorem hc1_of (t : Fin cfg0.N) (h1 : t.val % 100 = 99) : cond0_1 (grid0.coords t) := (hcond0_1 t).mpr h1
theorem nhc1_of (t : Fin cfg0.N) (h1 : ¬t.val % 100 = 99) : ¬cond0_1 (grid0.coords t) := fun h => h1 ((hcond0_1 t).mp h)
theorem nhc1_of0 (t : Fin cfg0.N) (h0 : t.val % 100 = 0) : ¬cond0_1 (grid0.coords t) :=
  nhc1_of t (by omega)

/-- A point of the first case: the outputs' components are placeholders nothing consults (the windows are idle
    there and not written back), the accumulators' are the case's. -/
def stepA (c : Dev nD) (t : Fin cfg0.N) (h0 : t.val % 100 = 0) : Four F :=
  (VO4.read (Elt F) VO4.junk, VO5.read (Elt F) VO5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) (hc0_of t h0) (nhc1_of0 t h0),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) (hc0_of t h0) (nhc1_of0 t h0))

/-- A point of the middle case, over what the point before left in the accumulators. -/
def stepB (c : Dev nD) (t : Fin cfg0.N) (h0 : ¬t.val % 100 = 0) (h1 : ¬t.val % 100 = 99) (p : Four F) : Four F :=
  (VO4.read (Elt F) VO4.junk, VO5.read (Elt F) VO5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (nhc1_of t h1),
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (nhc1_of t h1))

/-- A point of the last case, over what the point before left in the accumulators. -/
def stepC (c : Dev nD) (t : Fin cfg0.N) (h0 : ¬t.val % 100 = 0) (h1 : t.val % 100 = 99) (p : Four F) : Four F :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1),
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scr0 (Memref.isWhole_whole _) scr1 (Memref.isWhole_whole _) (iblk0 V c 0 t) (iblk0 V c 1 t) (iblk0 V c 2 t) (iblk0 V c 3 t) p.2.2.1 p.2.2.2 (nhc0_of t h0) (hc1_of t h1))

/-- THE ACCUMULATION: what the two output buffers and the two accumulators hold after the body at position `n`.
    The case is the one the closed forms select at `n`; the middle and last cases start from what position
    `n - 1` left in the accumulators, the first case from nothing (it overwrites them whole). -/
def acc0 (c : Dev nD) : (n : ℕ) → n < cfg0.N → Four F
  | 0, hn => stepA V c ⟨0, hn⟩ (Nat.zero_mod _)
  | n + 1, hn =>
    if h0 : (n + 1) % 100 = 0 then stepA V c ⟨n + 1, hn⟩ h0
    else if h1 : (n + 1) % 100 = 99 then stepC V c ⟨n + 1, hn⟩ h0 h1 (acc0 c n (Nat.lt_of_succ_lt hn))
    else stepB V c ⟨n + 1, hn⟩ h0 h1 (acc0 c n (Nat.lt_of_succ_lt hn))

theorem pred_lt (t : Fin cfg0.N) : t.val - 1 < cfg0.N := Nat.lt_of_le_of_lt (Nat.sub_le _ _) t.isLt

theorem acc0_A (c : Dev nD) (t : Fin cfg0.N) (h0 : t.val % 100 = 0) : acc0 V c t.val t.isLt = stepA V c t h0 := by
  obtain ⟨n, hn⟩ := t
  cases n with
  | zero => rfl
  | succ n => exact dif_pos h0

theorem acc0_B (c : Dev nD) (t : Fin cfg0.N) (h0 : ¬t.val % 100 = 0) (h1 : ¬t.val % 100 = 99) :
    acc0 V c t.val t.isLt = stepB V c t h0 h1 (acc0 V c (t.val - 1) (pred_lt t)) := by
  obtain ⟨n, hn⟩ := t
  cases n with
  | zero => exact absurd (Nat.zero_mod _) h0
  | succ n => exact (dif_neg h0).trans (dif_neg h1)

theorem acc0_C (c : Dev nD) (t : Fin cfg0.N) (h0 : ¬t.val % 100 = 0) (h1 : t.val % 100 = 99) :
    acc0 V c t.val t.isLt = stepC V c t h0 h1 (acc0 V c (t.val - 1) (pred_lt t)) := by
  obtain ⟨n, hn⟩ := t
  cases n with
  | zero => exact absurd (Nat.zero_mod _) h0
  | succ n => exact (dif_neg h0).trans (dif_pos h1)

/-! ## The invariant -/

/-- Before position `n`: at the region's entry the class invariant (the accumulators at anything); afterwards the
    accumulators at what position `n - 1` left in them, the other scoped buffers unopened, the generator register at
    some state. -/
def PhiS (c : Dev nD) : (n : ℕ) → n ≤ cfg0.N → sProp 𝕄
  | 0, _ => Pipeline.ΦA spec0 c
  | n + 1, hn => iprop(iprop(iprop(owns (c : Thread nD τ) scr0 fullShare (acc0 V c n hn).2.2.1 ∗ owns (c : Thread nD τ) scr1 fullShare (acc0 V c n hn).2.2.2)
      ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scr0 fullShare (acc0 V c n hn).2.2.1 ∗ owns (c : Thread nD τ) scr1 fullShare (acc0 V c n hn).2.2.2)
      ∗ restScoped0 c) ∗ (∃ r, prngReg c r)) := rfl

theorem PhiS_pos (c : Dev nD) (n : ℕ) (h : n ≤ cfg0.N) (hz : n ≠ 0) :
    PhiS V c n h = iprop(iprop(iprop(owns (c : Thread nD τ) scr0 fullShare (acc0 V c (n - 1) (by omega)).2.2.1 ∗ owns (c : Thread nD τ) scr1 fullShare (acc0 V c (n - 1) (by omega)).2.2.2)
      ∗ restScoped0 c) ∗ (∃ r, prngReg c r)) := by
  cases n with
  | zero => exact absurd rfl hz
  | succ n => rfl

/-! ## The proof data -/

/-- The proof data of the region on core `c`: the arrays as the region finds them; after the body at point `t` each
    input's buffer at its block, each output's at its component of the accumulation; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2.1 := by dsimp only [dat0]

theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the closed forms say which case the point is in.
    The invariant hands the body the accumulators at what the point before left (at anything at the region's entry;
    a later point of the first case forgets what they hold, since the case overwrites them whole) and takes them back
    at this point's contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 200 := lt_of_lt_of_eq t.isLt (show cfg0.N = 200 from N_0)
  by_cases h0 : t.val % 100 = 0
  · have hc0 := hc0_of t h0
    have hc1 := nhc1_of0 t h0
    rw [Dat.leavesExact_idle (dat0 V c) 4 t (idleAt0_4 t hc1) (noFlush0_4 t hc1)]
    rw [Dat.leavesExact_idle (dat0 V c) 5 t (idleAt0_5 t hc1) (noFlush0_5 t hc1)]
    rw [acc0_A V c t h0]
    unfold stepA sout0_A_0 sout0_A_1; (try dsimp only)
    by_cases hz : t.val = 0
    · rw [PhiS_castSucc V c t, PhiS_zero V c _ _ hz, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 := nhc0_of t h0
    have hz : t.val ≠ 0 := fun h => h0 (by rw [h])
    by_cases h1 : t.val % 100 = 99
    · have hc1 := hc1_of t h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [acc0_C V c t h0 h1]
      unfold stepC out0_C_4 out0_C_5 sout0_C_0 sout0_C_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · have hc1 := nhc1_of t h1
      rw [Dat.leavesExact_idle (dat0 V c) 4 t (idleAt0_4 t hc1) (noFlush0_4 t hc1)]
      rw [Dat.leavesExact_idle (dat0 V c) 5 t (idleAt0_5 t hc1) (noFlush0_5 t hc1)]
      rw [acc0_B V c t h0 h1]
      unfold stepB sout0_B_0 sout0_B_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end

end Cert.KernelIdeal.Hand

end
-- ==== Proof.KI.R1Base.lean ====
import proofs.«126384_j71554155151373_1_alg».proof.Proof.Gen.KernelIdeal.Launch
import proofs.«126384_j71554155151373_1_alg».proof.Proof.Gen.KernelIdeal.Skeleton
import proofs.«126384_j71554155151373_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the pair kernel on the ext points (`main_arg2`), what its three cases share

The grid is 2 × 50: point `t` has coordinates `(t / 50, t % 50)`. The body zeroes its two
accumulators where the second coordinate is 0, adds the tile's partial sums at every point, and
copies the accumulators to the two output blocks where the second coordinate is 49. -/

/-! ## The body's branch conditions -/

/-- The first conditional's condition (zero the accumulators), from the grid coordinates. -/
abbrev cond1_0 (i : grid1.Coords) : Prop := (Scalar.cmpi .ne (Scalar.extui (Scalar.cmpi .eq (BitVec.ofNat 32 (i 1).val) 0#32)) 0#32) = 1#1
/-- It holds exactly where the second coordinate is 0. -/
theorem hcond1_0 : ∀ t : Fin cfg1.N, cond1_0 (grid1.coords t) ↔ t.val % 50 = 0 :=
  (by decide +kernel : ∀ t : Fin grid1.N, cond1_0 (grid1.coords t) ↔ t.val % 50 = 0)

/-- The second conditional's condition (copy the accumulators out). -/
abbrev cond1_1 (i : grid1.Coords) : Prop := k1_cond2 i = 1#1
/-- It holds exactly where the second coordinate is 49. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional is not taken the two outputs are idle and not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- Where it is taken they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called on -/

/-- One staging buffer of each output window, through which its contents are stated. -/
abbrev VO1_3 : View sig .tc .vmem S16x64 .f32 := (Memref.whole cc1_stg3_0 : Memref sig .tc .vmem S16x64 .f32).view
abbrev VO1_4 : View sig .tc .vmem S16x64 .f32 := (Memref.whole cc1_stg4_0 : Memref sig .tc .vmem S16x64 .f32).view
/-- Each window's current staging memref at point `t`, and its wholeness. -/
abbrev ms1_0 (t : Fin cfg1.N) : Memref sig .tc .vmem S16x200x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S16x64 .f32 := Memref.whole cc1_scratch0
abbrev scM1_1 : Memref sig .tc .vmem S16x64 .f32 := Memref.whole cc1_scratch1
abbrev VS1_0 : View sig .tc .vmem S16x64 .f32 := scM1_0.view
abbrev VS1_1 : View sig .tc .vmem S16x64 .f32 := scM1_1.view

/-! ## The region's invariant, the two accumulators apart -/

/-- The core's scoped buffers that are neither a staging buffer of this region nor one of its two accumulators, each
    at some contents: what the body never touches. -/
def Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The class invariant: the two accumulators at some contents, the untouched rest, the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest1 (F := F) c) ∗ (∃ r, prngReg c r)) := by
  unfold Pipeline.ΦA; rw [scopedRest1_eq]; simp only [scM1_0, scM1_1, owns_whole]; unfold Rest1
  refine BI.Entails.antisymm (show _ ⊢ (_ : sProp 𝕄) from ?_) (show _ ⊢ (_ : sProp 𝕄) from ?_)
  · iintro ⟨⟨A0, A1, A2, A3, A4, A5, A6, A7, A8, A9, A10, A11, S0, S1, A14, A15, A16, A17, A18, A19, A20, A21, A22, A23⟩, Hg⟩
    isplitr [Hg]
    swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    iexact A23
  · iintro ⟨⟨S0, S1, A0, A1, A2, A3, A4, A5, A6, A7, A8, A9, A10, A11, A14, A15, A16, A17, A18, A19, A20, A21, A22, A23⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    iexact A23

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

end Cert.KernelIdeal.Hand

end
-- ==== Proof.KI.R1RunA.lean ====
import proofs.«126384_j71554155151373_1_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the first case: the accumulators zeroed, then the tile's partial sums added; nothing copied out -/

set_option maxHeartbeats 1000000 in
/-- Where the first conditional is taken and the second is not: on whole memrefs — the three inputs at their
    contents, the two outputs at contents handed back untouched, the two accumulators at anything — the body runs
    to the continuation holding the inputs and the outputs as they were and each accumulator with the pieces the
    run stored into it written (last first): the witness the run finds. -/
noncomputable def kernelRun1_A (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, fun xi3 xi4 E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R1RunB.lean ====
import proofs.«126384_j71554155151373_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the middle case: the tile's partial sums added to the carried accumulators; nothing copied out -/

set_option maxHeartbeats 1000000 in
/-- Where neither conditional is taken: on whole memrefs — the three inputs at their contents, the two outputs at
    contents handed back untouched, the two accumulators at what the point before left — the body runs to the
    continuation holding the inputs and the outputs as they were and each accumulator with the pieces the run stored
    into it written (last first): the witness the run finds. -/
noncomputable def kernelRun1_B (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, fun xi3 xi4 E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R1RunC.lean ====
import proofs.«126384_j71554155151373_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the last case: the tile's partial sums added to the carried accumulators, which are then copied to the two outputs -/

set_option maxHeartbeats 1000000 in
/-- Where the first conditional is not taken and the second is: on whole memrefs — the three inputs at their
    contents, the two outputs at anything, the two accumulators at what the point before left — the body runs to the
    continuation holding the inputs as they were and each output and each accumulator with the pieces the run
    stored into it written (last first): the witness the run finds. -/
noncomputable def kernelRun1_C (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) :
    Σ' (L3 : List (View.Piece (Elt F) S16x64 .f32)) (L4 : List (View.Piece (Elt F) S16x64 .f32)) (LS0 : List (View.Piece (Elt F) S16x64 .f32)), { LS1 : List (View.Piece (Elt F) S16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__pair_kernel i arg2 harg2 arg3 harg3 arg4 harg4 arg5 harg5 arg6 harg6 arg7 harg7 arg8 harg8) K } := by
  refine ⟨?_, ?_, ?_, ?_, fun E K => ?run⟩
  case run =>
    simp only [cc1__pair_kernel_eq_skeleton]; unfold cc1__pair_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R1Frame.lean ====
import proofs.«126384_j71554155151373_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case leaves, the accumulation, the proof data and the body obligation -/

/-! ## What each case leaves -/

/-- the first case's pieces for each accumulator tile it (checked by evaluation), so they cover it. -/
theorem scover1_A_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) (y : S16x64.Idx) : ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S16x64.size (by sl_kernel_rfl) y
theorem scover1_A_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) (y : S16x64.Idx) : ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S16x64.size (by sl_kernel_rfl) y

/-- What the first case leaves in each accumulator: its pieces read back. -/
def sout1_A_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) : Vec F S16x64 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)
def sout1_A_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i)
    (x0 : Vec F S16x200x2 .f32) (x1 : Vec F S64x2 .f32) (x2 : Vec F S1x1 .f32) : Vec F S16x64 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- the middle case's pieces for each accumulator tile it (checked by evaluation), so they cover it. -/
theorem scover1_B_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) (y : S16x64.Idx) : ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S16x64.size (by sl_kernel_rfl) y
theorem scover1_B_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) (y : S16x64.Idx) : ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S16x64.size (by sl_kernel_rfl) y

/-- What the middle case leaves in each accumulator: its pieces read back. -/
def sout1_B_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) : Vec F S16x64 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).1)
def sout1_B_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i)
    (x0 : Vec F S16x200x2 .f32) (x1 : Vec F S64x2 .f32) (x2 : Vec F S1x1 .f32) (xs0 xs1 : Vec F S16x64 .f32) : Vec F S16x64 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.1)

/-- the last case's pieces for each accumulator tile it (checked by evaluation), so they cover it. -/
theorem scover1_C_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.1 S16x64.size (by sl_kernel_rfl) y
theorem scover1_C_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.2.1 S16x64.size (by sl_kernel_rfl) y

/-- What the last case leaves in each accumulator: its pieces read back. -/
def sout1_C_0 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1).2.2.1)
def sout1_C_1 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1).2.2.2.1)

/-- The last case's pieces for each output tile its block, so they cover it. -/
theorem cover1_C_3 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL (kernelRun1_C c i arg2 harg2 arg3 harg3 arg4 harg4 arg5 harg5 arg6 harg6 arg7 harg7 arg8 harg8 hc0 hc1 x0 x1 x2 xs0 xs1).1 S16x64.size (by sl_kernel_rfl) y
theorem cover1_C_4 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) (y : S16x64.Idx) : ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL (kernelRun1_C c i arg2 harg2 arg3 harg3 arg4 harg4 arg5 harg5 arg6 harg6 arg7 harg7 arg8 harg8 hc0 hc1 x0 x1 x2 xs0 xs1).2.1 S16x64.size (by sl_kernel_rfl) y

/-- What the last case leaves in each output's staging buffer: its pieces read back. -/
def out1_C_3 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1).1)
def out1_C_4 (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i)
    (x0 : Vec F S16x200x2 .f32) (x1 : Vec F S64x2 .f32) (x2 : Vec F S1x1 .f32) (xs0 xs1 : Vec F S16x64 .f32) : Vec F S16x64 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 xs0 xs1).2.1)

section
variable (V : (c : Dev nD) → (b : Ref sig .tc) → Buf (Elt F) ((c : Thread nD τ).loc b))

/-! ## The accumulation -/

/-- The first case at point `t`, run at the point's memrefs and input blocks: (output 3's staging buffer, output 4's,
    accumulator 0, accumulator 1). The outputs are idle there; their components repeat the accumulators' and are
    never consulted. -/
def accA (c : Dev nD) (t : Fin cfg1.N) (h0 : t.val % 50 = 0) (h1 : ¬t.val % 50 = 49) :
    Vec F S16x64 .f32 × Vec F S16x64 .f32 × Vec F S16x64 .f32 × Vec F S16x64 .f32 :=
  (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t))

/-- The middle case at point `t`, over the accumulators `s0`, `s1` the point before left. -/
def accB (c : Dev nD) (t : Fin cfg1.N) (h0 : ¬t.val % 50 = 0) (h1 : ¬t.val % 50 = 49) (s0 s1 : Vec F S16x64 .f32) :
    Vec F S16x64 .f32 × Vec F S16x64 .f32 × Vec F S16x64 .f32 × Vec F S16x64 .f32 :=
  (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) s0 s1)

/-- The last case at point `t`, over the accumulators `s0`, `s1` the point before left. -/
def accC (c : Dev nD) (t : Fin cfg1.N) (h0 : ¬t.val % 50 = 0) (h1 : t.val % 50 = 49) (s0 s1 : Vec F S16x64 .f32) :
    Vec F S16x64 .f32 × Vec F S16x64 .f32 × Vec F S16x64 .f32 × Vec F S16x64 .f32 :=
  (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) s0 s1)

/-- THE ACCUMULATION. What the two outputs' staging buffers and the two accumulators hold after the body at position
    `n`: the case the closed forms select at `n`, over the accumulators the point before left. -/
def acc1 (c : Dev nD) : (n : ℕ) → n < cfg1.N → Vec F S16x64 .f32 × Vec F S16x64 .f32 × Vec F S16x64 .f32 × Vec F S16x64 .f32
  | 0, hn => accA V c ⟨0, hn⟩ (Nat.zero_mod _) (by show ¬((0 : ℕ) % 50 = 49); decide)
  | n + 1, hn =>
    if h0 : (n + 1) % 50 = 0 then
      if h1 : (n + 1) % 50 = 49 then False.elim (by omega)
      else accA V c ⟨n + 1, hn⟩ h0 h1
    else
      if h1 : (n + 1) % 50 = 49 then
        accC V c ⟨n + 1, hn⟩ h0 h1 (acc1 c n (Nat.lt_of_succ_lt hn)).2.2.1 (acc1 c n (Nat.lt_of_succ_lt hn)).2.2.2
      else
        accB V c ⟨n + 1, hn⟩ h0 h1 (acc1 c n (Nat.lt_of_succ_lt hn)).2.2.1 (acc1 c n (Nat.lt_of_succ_lt hn)).2.2.2

/-- `acc1` at a point of the first case. -/
theorem acc1_A (c : Dev nD) (t : Fin cfg1.N) (h0 : t.val % 50 = 0) (h1 : ¬t.val % 50 = 49) :
    acc1 V c t.val t.isLt = accA V c t h0 h1 := by
  obtain ⟨n, hn⟩ := t
  cases n with
  | zero => exact rfl
  | succ n => exact (dif_pos h0).trans ((dif_neg h1).trans rfl)

/-- `acc1` at a point of the middle case: over what the point before left. -/
theorem acc1_B (c : Dev nD) (t : Fin cfg1.N) (h0 : ¬t.val % 50 = 0) (h1 : ¬t.val % 50 = 49) :
    acc1 V c t.val t.isLt = accB V c t h0 h1 (acc1 V c (t.val - 1) (Nat.lt_of_le_of_lt (Nat.sub_le _ _) t.isLt)).2.2.1
      (acc1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `acc1` at a point of the last case: over what the point before left. -/
theorem acc1_C (c : Dev nD) (t : Fin cfg1.N) (h0 : ¬t.val % 50 = 0) (h1 : t.val % 50 = 49) :
    acc1 V c t.val t.isLt = accC V c t h0 h1 (acc1 V c (t.val - 1) (Nat.lt_of_le_of_lt (Nat.sub_le _ _) t.isLt)).2.2.1
      (acc1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the class's (every scoped buffer that is no
    staging buffer at anything, the generator register at some state); afterwards the same with the two accumulators
    at what the point before left in them. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn).2.2.1 ∗ owns (c : Thread nD τ) scM1_1 fullShare (acc1 V c n hn).2.2.2 ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn).2.2.1 ∗ owns (c : Thread nD τ) scM1_1 fullShare (acc1 V c n hn).2.2.2 ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)).2.2.1 ∗ owns (c : Thread nD τ) scM1_1 fullShare (acc1 V c (n - 1) (by omega)).2.2.2 ∗ Rest1 (F := F) c) ∗ (∃ r, prngReg c r)) := by
  cases n with
  | zero => exact absurd rfl hz
  | succ n => rfl

/-! ## The proof data -/

/-- The proof data of the region on core `c`: the arrays as the region finds them (`V`); after the body at point `t`
    each input's buffer at its block and the two outputs' at `acc1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (acc1 V c t.val t.isLt).1
    | ⟨4, _⟩ => (acc1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the two accumulators at what the point before left (at anything before the first point;
    the first case overwrites them whole before reading them) and takes them back at this point's contents; the rest
    of the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1),
      Dat.leavesExact_idle (dat1 V c) 4 t (idleAt1_4 t hc1) (noFlush1_4 t hc1)]
    rw [acc1_A V c t h0 h1]
    unfold accA sout1_A_0 sout1_A_1; (try dsimp only)
    by_cases hz : t.val = 0
    · rw [PhiS1_castSucc V c t, PhiS1_zero V c _ _ hz, PhiA1_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ hc0 hc1 (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ hc0 hc1 (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬cond1_0 (grid1.coords t) := fun h => h0 ((hcond1_0 t).mp h)
    by_cases h1 : t.val % 50 = 49
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [acc1_C V c t h0 h1]
      unfold accC out1_C_3 out1_C_4 sout1_C_0 sout1_C_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [acc1_B V c t h0 h1]
      unfold accB sout1_B_0 sout1_B_1; (try dsimp only)
      rw [PhiS1_castSucc V c t, PhiS1_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ hc0 hc1 (iblk1 V c 0 t) (iblk1 V c 1 t) (iblk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

example (c : Dev nD) (w : Fin cfg1.W) : (dat1 V c).q w = fullShare := rfl
example (c : Dev nD) (t : Fin (cfg1.N + 1)) : (dat1 V c).owed t = 0 := rfl

end

end Cert.KernelIdeal.Hand

end
-- ==== Proof.KI.R2Base.lean ====
import proofs.«126384_j71554155151373_1_alg».proof.Proof.Gen.KernelIdeal.Launch
import proofs.«126384_j71554155151373_1_alg».proof.Proof.Gen.KernelIdeal.Skeleton
import proofs.«126384_j71554155151373_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the pair kernel on `main_arg3`, what its three cases share

The grid is 2 × 50: point `t` has coordinates `(t / 50, t % 50)`. The body zeroes its two
accumulators where the second coordinate is 0, adds the tile's partial sums at every point, and
copies the accumulators to the two output blocks where the second coordinate is 49. -/

/-! ## The body's branch conditions -/

/-- The first conditional's condition (zero the accumulators), from the grid coordinates. -/
abbrev cond2_0 (i : grid2.Coords) : Prop := (Scalar.cmpi .ne (Scalar.extui (Scalar.cmpi .eq (BitVec.ofNat 32 (i 1).val) 0#32)) 0#32) = 1#1
/-- It holds exactly where the second coordinate is 0. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second conditional's condition (copy the accumulators out). -/
abbrev cond2_1 (i : grid2.Coords) : Prop := k2_cond2 i = 1#1
/-- It holds exactly where the second coordinate is 49. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second conditional is not taken the two outputs are idle and not written back. -/
theorem idleAt2_3 : ∀ t : Fin cfg2.N, ¬cond2_1 (grid2.coords t) → cfg2.idle 3 (grid2.coords t) = true := by decide +kernel
theorem idleAt2_4 : ∀ t : Fin cfg2.N, ¬cond2_1 (grid2.coords t) → cfg2.idle 4 (grid2.coords t) = true := by decide +kernel
theorem noFlush2_3 : ∀ t : Fin cfg2.N, ¬cond2_1 (grid2.coords t) → (cfg2.win 3).flush t = false := by decide +kernel
theorem noFlush2_4 : ∀ t : Fin cfg2.N, ¬cond2_1 (grid2.coords t) → (cfg2.win 4).flush t = false := by decide +kernel
/-- Where it is taken they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The memrefs the body is called on -/

/-- One staging buffer of each output window, through which its contents are stated. -/
abbrev VO2_3 : View sig .tc .vmem S16x64 .f32 := (Memref.whole cc2_stg3_0 : Memref sig .tc .vmem S16x64 .f32).view
abbrev VO2_4 : View sig .tc .vmem S16x64 .f32 := (Memref.whole cc2_stg4_0 : Memref sig .tc .vmem S16x64 .f32).view
/-- Each window's current staging memref at point `t`, and its wholeness. -/
abbrev ms2_0 (t : Fin cfg2.N) : Memref sig .tc .vmem S16x200x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x64 .f32 := win2_4.stage (cfg2.slots t 4)
abbrev hs2_4 (t : Fin cfg2.N) : (ms2_4 t).IsWhole := hstage2_4 ((cfg2.slots t 4).cast nbuf2_4)
/-- The two accumulators: whole scoped buffers of the kernel's own. -/
abbrev scM2_0 : Memref sig .tc .vmem S16x64 .f32 := Memref.whole cc2_scratch0
abbrev scM2_1 : Memref sig .tc .vmem S16x64 .f32 := Memref.whole cc2_scratch1
abbrev VS2_0 : View sig .tc .vmem S16x64 .f32 := scM2_0.view
abbrev VS2_1 : View sig .tc .vmem S16x64 .f32 := scM2_1.view

/-! ## The region's invariant, the two accumulators apart -/

/-- The core's scoped buffers that are neither a staging buffer of this region nor one of its two accumulators, each
    at some contents: what the body never touches. -/
def Rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The class invariant: the two accumulators at some contents, the untouched rest, the generator register. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Rest2 (F := F) c) ∗ (∃ r, prngReg c r)) := by
  unfold Pipeline.ΦA; rw [scopedRest2_eq]; simp only [scM2_0, scM2_1, owns_whole]; unfold Rest2
  refine BI.Entails.antisymm (show _ ⊢ (_ : sProp 𝕄) from ?_) (show _ ⊢ (_ : sProp 𝕄) from ?_)
  · iintro ⟨⟨A0, A1, A2, A3, A4, A5, A6, A7, A8, A9, A10, A11, A12, A13, A14, A15, A16, A17, A18, A19, A20, A21, S0, S1⟩, Hg⟩
    isplitr [Hg]
    swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    iexact A21
  · iintro ⟨⟨S0, S1, A0, A1, A2, A3, A4, A5, A6, A7, A8, A9, A10, A11, A12, A13, A14, A15, A16, A17, A18, A19, A20, A21⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [S0]; · iexact S0
    iexact S1

section
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not,
    the block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

end Cert.KernelIdeal.Hand

end
-- ==== Proof.KI.R2RunA.lean ====
import proofs.«126384_j71554155151373_1_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the first case: the accumulators zeroed, then the tile's partial sums added; nothing copied out -/

set_option maxHeartbeats 1000000 in
/-- Where the first conditional is taken and the second is not: on whole memrefs — the three inputs at their
    contents, the two outputs at contents handed back untouched, the two accumulators at anything — the body runs
    to the continuation holding the inputs and the outputs as they were and each accumulator with the pieces the
    run stored into it written (last first): the witness the run finds. -/
noncomputable def kernelRun2_A (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, fun xi3 xi4 E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R2RunB.lean ====
import proofs.«126384_j71554155151373_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the middle case: the tile's partial sums added to the carried accumulators; nothing copied out -/

set_option maxHeartbeats 1000000 in
/-- Where neither conditional is taken: on whole memrefs — the three inputs at their contents, the two outputs at
    contents handed back untouched, the two accumulators at what the point before left — the body runs to the
    continuation holding the inputs and the outputs as they were and each accumulator with the pieces the run stored
    into it written (last first): the witness the run finds. -/
noncomputable def kernelRun2_B (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) :
    Σ' (LS0 : List (View.Piece (Elt F) S16x64 .f32)), { LS1 : List (View.Piece (Elt F) S16x64 .f32) //
      ∀ (xi3 xi4 : Vec F S16x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, fun xi3 xi4 E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R2RunC.lean ====
import proofs.«126384_j71554155151373_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, the last case: the tile's partial sums added to the carried accumulators, which are then copied to the two outputs -/

set_option maxHeartbeats 1000000 in
/-- Where the first conditional is not taken and the second is: on whole memrefs — the three inputs at their
    contents, the two outputs at anything, the two accumulators at what the point before left — the body runs to the
    continuation holding the inputs as they were and each output and each accumulator with the pieces the run
    stored into it written (last first): the witness the run finds. -/
noncomputable def kernelRun2_C (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) :
    Σ' (L3 : List (View.Piece (Elt F) S16x64 .f32)) (L4 : List (View.Piece (Elt F) S16x64 .f32)) (LS0 : List (View.Piece (Elt F) S16x64 .f32)), { LS1 : List (View.Piece (Elt F) S16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__pair_kernel i arg2 harg2 arg3 harg3 arg4 harg4 arg5 harg5 arg6 harg6 arg7 harg7 arg8 harg8) K } := by
  refine ⟨?_, ?_, ?_, ?_, fun E K => ?run⟩
  case run =>
    simp only [cc2__pair_kernel_eq_skeleton]; unfold cc2__pair_kernel_skel
    simp only [k2_part1_eq_skeleton, k2_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R2Frame.lean ====
import proofs.«126384_j71554155151373_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what each case leaves, the accumulation, the proof data and the body obligation -/

/-! ## What each case leaves -/

/-- the first case's pieces for each accumulator tile it (checked by evaluation), so they cover it. -/
theorem scover2_A_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) (y : S16x64.Idx) : ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S16x64.size (by sl_kernel_rfl) y
theorem scover2_A_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) (y : S16x64.Idx) : ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S16x64.size (by sl_kernel_rfl) y

/-- What the first case leaves in each accumulator: its pieces read back. -/
def sout2_A_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) : Vec F S16x64 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).1)
def sout2_A_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i)
    (x0 : Vec F S16x200x2 .f32) (x1 : Vec F S64x2 .f32) (x2 : Vec F S1x1 .f32) : Vec F S16x64 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.1)

/-- the middle case's pieces for each accumulator tile it (checked by evaluation), so they cover it. -/
theorem scover2_B_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) (y : S16x64.Idx) : ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S16x64.size (by sl_kernel_rfl) y
theorem scover2_B_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) (y : S16x64.Idx) : ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S16x64.size (by sl_kernel_rfl) y

/-- What the middle case leaves in each accumulator: its pieces read back. -/
def sout2_B_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) : Vec F S16x64 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).1)
def sout2_B_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i)
    (x0 : Vec F S16x200x2 .f32) (x1 : Vec F S64x2 .f32) (x2 : Vec F S1x1 .f32) (xs0 xs1 : Vec F S16x64 .f32) : Vec F S16x64 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.1)

/-- the last case's pieces for each accumulator tile it (checked by evaluation), so they cover it. -/
theorem scover2_C_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.1 S16x64.size (by sl_kernel_rfl) y
theorem scover2_C_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1).2.2.2.1 S16x64.size (by sl_kernel_rfl) y

/-- What the last case leaves in each accumulator: its pieces read back. -/
def sout2_C_0 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1).2.2.1)
def sout2_C_1 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1).2.2.2.1)

/-- The last case's pieces for each output tile its block, so they cover it. -/
theorem cover2_C_3 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).1, y ∈ pc.1.set :=
  View.cover_of_tiledL (kernelRun2_C c i arg2 harg2 arg3 harg3 arg4 harg4 arg5 harg5 arg6 harg6 arg7 harg7 arg8 harg8 hc0 hc1 x0 x1 x2 xs0 xs1).1 S16x64.size (by sl_kernel_rfl) y
theorem cover2_C_4 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) (y : S16x64.Idx) : ∃ pc ∈ (kernelRun2_C c i arg2 harg2 arg3 harg3 arg4 harg4 arg5 harg5 arg6 harg6 arg7 harg7 arg8 harg8 hc0 hc1 x0 x1 x2 xs0 xs1).2.1, y ∈ pc.1.set :=
  View.cover_of_tiledL (kernelRun2_C c i arg2 harg2 arg3 harg3 arg4 harg4 arg5 harg5 arg6 harg6 arg7 harg7 arg8 harg8 hc0 hc1 x0 x1 x2 xs0 xs1).2.1 S16x64.size (by sl_kernel_rfl) y

/-- What the last case leaves in each output's staging buffer: its pieces read back. -/
def out2_C_3 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1).1)
def out2_C_4 (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i)
    (x0 : Vec F S16x200x2 .f32) (x1 : Vec F S64x2 .f32) (x2 : Vec F S1x1 .f32) (xs0 xs1 : Vec F S16x64 .f32) : Vec F S16x64 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 xs0 xs1).2.1)

section
variable (V : (c : Dev nD) → (b : Ref sig .tc) → Buf (Elt F) ((c : Thread nD τ).loc b))

/-! ## The accumulation -/

/-- The first case at point `t`, run at the point's memrefs and input blocks: (output 3's staging buffer, output 4's,
    accumulator 0, accumulator 1). The outputs are idle there; their components repeat the accumulators' and are
    never consulted. -/
def acc2A (c : Dev nD) (t : Fin cfg2.N) (h0 : t.val % 50 = 0) (h1 : ¬t.val % 50 = 49) :
    Vec F S16x64 .f32 × Vec F S16x64 .f32 × Vec F S16x64 .f32 × Vec F S16x64 .f32 :=
  (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => h1 ((hcond2_1 t).mp h)) (iblk2 V c 0 t) (iblk2 V c 1 t) (iblk2 V c 2 t))

/-- The middle case at point `t`, over the accumulators `s0`, `s1` the point before left. -/
def acc2B (c : Dev nD) (t : Fin cfg2.N) (h0 : ¬t.val % 50 = 0) (h1 : ¬t.val % 50 = 49) (s0 s1 : Vec F S16x64 .f32) :
    Vec F S16x64 .f32 × Vec F S16x64 .f32 × Vec F S16x64 .f32 × Vec F S16x64 .f32 :=
  (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) s0 s1)

/-- The last case at point `t`, over the accumulators `s0`, `s1` the point before left. -/
def acc2C (c : Dev nD) (t : Fin cfg2.N) (h0 : ¬t.val % 50 = 0) (h1 : t.val % 50 = 49) (s0 s1 : Vec F S16x64 .f32) :
    Vec F S16x64 .f32 × Vec F S16x64 .f32 × Vec F S16x64 .f32 × Vec F S16x64 .f32 :=
  (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1, out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1,
   sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr h1) (iblk2 V c 0 t) (iblk2 V c 1 t) (iblk2 V c 2 t) s0 s1)

/-- THE ACCUMULATION. What the two outputs' staging buffers and the two accumulators hold after the body at position
    `n`: the case the closed forms select at `n`, over the accumulators the point before left. -/
def acc2 (c : Dev nD) : (n : ℕ) → n < cfg2.N → Vec F S16x64 .f32 × Vec F S16x64 .f32 × Vec F S16x64 .f32 × Vec F S16x64 .f32
  | 0, hn => acc2A V c ⟨0, hn⟩ (Nat.zero_mod _) (by show ¬((0 : ℕ) % 50 = 49); decide)
  | n + 1, hn =>
    if h0 : (n + 1) % 50 = 0 then
      if h1 : (n + 1) % 50 = 49 then False.elim (by omega)
      else acc2A V c ⟨n + 1, hn⟩ h0 h1
    else
      if h1 : (n + 1) % 50 = 49 then
        acc2C V c ⟨n + 1, hn⟩ h0 h1 (acc2 c n (Nat.lt_of_succ_lt hn)).2.2.1 (acc2 c n (Nat.lt_of_succ_lt hn)).2.2.2
      else
        acc2B V c ⟨n + 1, hn⟩ h0 h1 (acc2 c n (Nat.lt_of_succ_lt hn)).2.2.1 (acc2 c n (Nat.lt_of_succ_lt hn)).2.2.2

/-- `acc2` at a point of the first case. -/
theorem acc2_A (c : Dev nD) (t : Fin cfg2.N) (h0 : t.val % 50 = 0) (h1 : ¬t.val % 50 = 49) :
    acc2 V c t.val t.isLt = acc2A V c t h0 h1 := by
  obtain ⟨n, hn⟩ := t
  cases n with
  | zero => exact rfl
  | succ n => exact (dif_pos h0).trans ((dif_neg h1).trans rfl)

/-- `acc2` at a point of the middle case: over what the point before left. -/
theorem acc2_B (c : Dev nD) (t : Fin cfg2.N) (h0 : ¬t.val % 50 = 0) (h1 : ¬t.val % 50 = 49) :
    acc2 V c t.val t.isLt = acc2B V c t h0 h1 (acc2 V c (t.val - 1) (Nat.lt_of_le_of_lt (Nat.sub_le _ _) t.isLt)).2.2.1
      (acc2 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `acc2` at a point of the last case: over what the point before left. -/
theorem acc2_C (c : Dev nD) (t : Fin cfg2.N) (h0 : ¬t.val % 50 = 0) (h1 : t.val % 50 = 49) :
    acc2 V c t.val t.isLt = acc2C V c t h0 h1 (acc2 V c (t.val - 1) (Nat.lt_of_le_of_lt (Nat.sub_le _ _) t.isLt)).2.2.1
      (acc2 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the class's (every scoped buffer that is no
    staging buffer at anything, the generator register at some state); afterwards the same with the two accumulators
    at what the point before left in them. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn).2.2.1 ∗ owns (c : Thread nD τ) scM2_1 fullShare (acc2 V c n hn).2.2.2 ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn).2.2.1 ∗ owns (c : Thread nD τ) scM2_1 fullShare (acc2 V c n hn).2.2.2 ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)).2.2.1 ∗ owns (c : Thread nD τ) scM2_1 fullShare (acc2 V c (n - 1) (by omega)).2.2.2 ∗ Rest2 (F := F) c) ∗ (∃ r, prngReg c r)) := by
  cases n with
  | zero => exact absurd rfl hz
  | succ n => rfl

/-! ## The proof data -/

/-- The proof data of the region on core `c`: the arrays as the region finds them (`V`); after the body at point `t`
    each input's buffer at its block and the two outputs' at `acc2`'s components; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val t.isLt).1
    | ⟨4, _⟩ => (acc2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (acc2 V c t.val t.isLt).1 := by dsimp only [dat2]
theorem after2_4 (c : Dev nD) (t : Fin cfg2.N) : (dat2 V c).after 4 t = (acc2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the two accumulators at what the point before left (at anything before the first point;
    the first case overwrites them whole before reading them) and takes them back at this point's contents; the rest
    of the invariant and the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 100 := lt_of_lt_of_eq t.isLt (show cfg2.N = 100 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 50 = 0
  · have h1 : ¬t.val % 50 = 49 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1),
      Dat.leavesExact_idle (dat2 V c) 4 t (idleAt2_4 t hc1) (noFlush2_4 t hc1)]
    rw [acc2_A V c t h0 h1]
    unfold acc2A sout2_A_0 sout2_A_1; (try dsimp only)
    by_cases hz : t.val = 0
    · rw [PhiS2_castSucc V c t, PhiS2_zero V c _ _ hz, PhiA2_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ hc0 hc1 (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_A_0 c _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ hc0 hc1 (iblk2 V c 0 t) (iblk2 V c 1 t) (iblk2 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_A_0 c _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hc0 : ¬cond2_0 (grid2.coords t) := fun h => h0 ((hcond2_0 t).mp h)
    by_cases h1 : t.val % 50 = 49
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [acc2_C V c t h0 h1]
      unfold acc2C out2_C_3 out2_C_4 sout2_C_0 sout2_C_1; (try dsimp only)
      rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ hc0 hc1 (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      rw [acc2_B V c t h0 h1]
      unfold acc2B sout2_B_0 sout2_B_1; (try dsimp only)
      rw [PhiS2_castSucc V c t, PhiS2_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ hc0 hc1 (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover2_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout2 (c : Dev nD) : (dat2 V c).Φ (Fin.last cfg2.N) ⊢ Pipeline.ΦA spec2 c :=
  Phi_out2 V c _ (by rw [Fin.val_last]; have : cfg2.N = 100 := N_2; omega)

example (c : Dev nD) (w : Fin cfg2.W) : (dat2 V c).q w = fullShare := rfl
example (c : Dev nD) (t : Fin (cfg2.N + 1)) : (dat2 V c).owed t = 0 := rfl

end

end Cert.KernelIdeal.Hand

end
-- ==== Proof.KI.Run.lean ====
/-
  The program's run, given each of its three kernel regions' own proof (`Half0`, `Half1`, `Half2`).

  @main is: three host operations (the radius reshaped, its absolute value, reshaped to a 1×1 block); the three kernel
  regions one after the other; ten host operations on the regions' six outputs. The contents of every unscoped buffer at
  the five boundaries between these items are named here as a fold from the launch memory: a host stretch applies its
  operations, a region replaces its windows' arrays by what its pipeline leaves (the inputs unchanged, each output with
  the write-backs of its blocks folded in) and touches nothing else. Each region is entered with every unscoped buffer held
  at the boundary's contents beside the core's generator register and its (empty) debts, and left in the same form at the
  next boundary, so the segments chain; the launch makes the first state and the last is read against the final memory.
  The conclusion: every weakly fair execution terminates with EVERY unscoped buffer at the last boundary's contents.
  The frame claim and the value of the two results are read off it.
-/
import proofs.«126384_j71554155151373_1_alg».proof.Proof.Gen.KernelIdeal.Launch
import proofs.«126384_j71554155151373_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The TensorCore buffers' contents on every core: what a region's proof is stated at. -/
abbrev Contents (F : FTy → Type) [FloatOps F] : Type := (c : Dev nD) → (b : Ref sig .tc) → Buf (Elt F) ((c : Thread nD τ).loc b)

/-- What region 0's own proof supplies, at any contents `V` the region may be entered from: the pipeline's proof data with
    its arrays read off `V`, full shares, nothing owed; the body's obligation at every grid point; and that its invariant
    starts from, and ends in, the scoped buffers it does not stage held at some contents beside the generator register. -/
structure Half0 (F : FTy → Type) [FloatOps F] where
  dat : Contents F → (c : Dev nD) → Dat τ (Elt F) Unit ℕ (UR sig nD τ) ℕ cfg0 c
  A_eq : ∀ V c (w : Fin cfg0.W), (dat V c).A w = V c (Pipeline.arrRef spec0 w)
  q_eq : ∀ V c (w : Fin cfg0.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What region 1's own proof supplies, at any contents `V` the region may be entered from: the pipeline's proof data with
    its arrays read off `V`, full shares, nothing owed; the body's obligation at every grid point; and that its invariant
    starts from, and ends in, the scoped buffers it does not stage held at some contents beside the generator register. -/
structure Half1 (F : FTy → Type) [FloatOps F] where
  dat : Contents F → (c : Dev nD) → Dat τ (Elt F) Unit ℕ (UR sig nD τ) ℕ cfg1 c
  A_eq : ∀ V c (w : Fin cfg1.W), (dat V c).A w = V c (Pipeline.arrRef spec1 w)
  q_eq : ∀ V c (w : Fin cfg1.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What region 2's own proof supplies, at any contents `V` the region may be entered from: the pipeline's proof data with
    its arrays read off `V`, full shares, nothing owed; the body's obligation at every grid point; and that its invariant
    starts from, and ends in, the scoped buffers it does not stage held at some contents beside the generator register. -/
structure Half2 (F : FTy → Type) [FloatOps F] where
  dat : Contents F → (c : Dev nD) → Dat τ (Elt F) Unit ℕ (UR sig nD τ) ℕ cfg2 c
  A_eq : ∀ V c (w : Fin cfg2.W), (dat V c).A w = V c (Pipeline.arrRef spec2 w)
  q_eq : ∀ V c (w : Fin cfg2.W), (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable {F : FTy → Type} [FloatOps F]

local notation "𝕄" => MT nD τ sig Unit (Elt F) ℕ (UR sig nD τ) ℕ

variable (H0 : Half0 F) (H1 : Half1 F) (H2 : Half2 F)
variable (m : (ℓ : Loc nD τ sig) → Buf (Elt F) ℓ) (ρ : Dev nD → PrngReg)

/-! ## The buffers' contents at the boundaries -/

/-- At launch. -/
abbrev bnd0 : Dev nD → Valuation τ sig (Elt F) := fun c b => m (c, b)
/-- After the three host operations on the radius: region 0's entry. -/
abbrev bnd1 : Dev nD → Valuation τ sig (Elt F) := fun c => StableHlo.after hostOps0 (bnd0 m c)
/-- The same read at the TensorCore's references. -/
abbrev at1 : Contents F := fun c b => bnd1 m c b

/-! ## Region 0: what it leaves behind -/

/-- After region 0: its windows' arrays at what the pipeline leaves (an input as entered, an output with its
    write-backs folded in), every other buffer as entered. -/
def bnd2 (c : Dev nD) : Valuation τ sig (Elt F) :=
  Pipeline.withArrays spec0 c (bnd1 m c) fun w => (H0.dat (at1 m) c).arrAt w cfg0.N
theorem bnd2_arr (c : Dev nD) (w : Fin cfg0.W) :
    bnd2 H0 m c (Proc.devRef .tc (Pipeline.arrRef spec0 w)) = (H0.dat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 H0 m c (Proc.devRef .tc b) = bnd1 m c (Proc.devRef .tc b) := by
  unfold bnd2; exact Pipeline.withArrays_of_ne spec0 c _ _ b hb
/-- The same read at the TensorCore's references. -/
abbrev at2 : Contents F := fun c b => bnd2 H0 m c b
theorem left0 (c : Dev nD) (w : Fin cfg0.W) :
    (H0.dat (at1 m) c).arrAt w cfg0.N = at2 H0 m c (Pipeline.arrRef spec0 w) := (bnd2_arr H0 m c w).symm
theorem kept0 (c : Dev nD) : ∀ b, b ∉ Finset.univ.image (Pipeline.arrRef spec0) → at2 H0 m c b = at1 m c b :=
  fun b hb => bnd2_of_ne H0 m c b fun w e => hb (Finset.mem_image.mpr ⟨w, Finset.mem_univ _, e⟩)
/-- An input window of region 0 keeps its array. -/
theorem bnd2_in (c : Dev nD) (w : Fin cfg0.W) (hin : (cfg0.win w).isOut = false) :
    bnd2 H0 m c (Proc.devRef .tc (Pipeline.arrRef spec0 w)) = bnd1 m c (Proc.devRef .tc (Pipeline.arrRef spec0 w)) :=
  (bnd2_arr H0 m c w).trans (((H0.dat (at1 m) c).arrAt_in w hin _).trans (H0.A_eq (at1 m) c w))

/-! ## Region 1: what it leaves behind -/

/-- After region 1: its windows' arrays at what the pipeline leaves (an input as entered, an output with its
    write-backs folded in), every other buffer as entered. -/
def bnd3 (c : Dev nD) : Valuation τ sig (Elt F) :=
  Pipeline.withArrays spec1 c (bnd2 H0 m c) fun w => (H1.dat (at2 H0 m) c).arrAt w cfg1.N
theorem bnd3_arr (c : Dev nD) (w : Fin cfg1.W) :
    bnd3 H0 H1 m c (Proc.devRef .tc (Pipeline.arrRef spec1 w)) = (H1.dat (at2 H0 m) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 H0 H1 m c (Proc.devRef .tc b) = bnd2 H0 m c (Proc.devRef .tc b) := by
  unfold bnd3; exact Pipeline.withArrays_of_ne spec1 c _ _ b hb
/-- The same read at the TensorCore's references. -/
abbrev at3 : Contents F := fun c b => bnd3 H0 H1 m c b
theorem left1 (c : Dev nD) (w : Fin cfg1.W) :
    (H1.dat (at2 H0 m) c).arrAt w cfg1.N = at3 H0 H1 m c (Pipeline.arrRef spec1 w) := (bnd3_arr H0 H1 m c w).symm
theorem kept1 (c : Dev nD) : ∀ b, b ∉ Finset.univ.image (Pipeline.arrRef spec1) → at3 H0 H1 m c b = at2 H0 m c b :=
  fun b hb => bnd3_of_ne H0 H1 m c b fun w e => hb (Finset.mem_image.mpr ⟨w, Finset.mem_univ _, e⟩)
/-- An input window of region 1 keeps its array. -/
theorem bnd3_in (c : Dev nD) (w : Fin cfg1.W) (hin : (cfg1.win w).isOut = false) :
    bnd3 H0 H1 m c (Proc.devRef .tc (Pipeline.arrRef spec1 w)) = bnd2 H0 m c (Proc.devRef .tc (Pipeline.arrRef spec1 w)) :=
  (bnd3_arr H0 H1 m c w).trans (((H1.dat (at2 H0 m) c).arrAt_in w hin _).trans (H1.A_eq (at2 H0 m) c w))

/-! ## Region 2: what it leaves behind -/

/-- After region 2: its windows' arrays at what the pipeline leaves (an input as entered, an output with its
    write-backs folded in), every other buffer as entered. -/
def bnd4 (c : Dev nD) : Valuation τ sig (Elt F) :=
  Pipeline.withArrays spec2 c (bnd3 H0 H1 m c) fun w => (H2.dat (at3 H0 H1 m) c).arrAt w cfg2.N
theorem bnd4_arr (c : Dev nD) (w : Fin cfg2.W) :
    bnd4 H0 H1 H2 m c (Proc.devRef .tc (Pipeline.arrRef spec2 w)) = (H2.dat (at3 H0 H1 m) c).arrAt w cfg2.N := by
  unfold bnd4; exact Pipeline.withArrays_arr spec2 launch2.win.arr_inj c _ _ w
theorem bnd4_of_ne (c : Dev nD) (b : Ref sig .tc) (hb : ∀ w, Pipeline.arrRef spec2 w ≠ b) :
    bnd4 H0 H1 H2 m c (Proc.devRef .tc b) = bnd3 H0 H1 m c (Proc.devRef .tc b) := by
  unfold bnd4; exact Pipeline.withArrays_of_ne spec2 c _ _ b hb
/-- The same read at the TensorCore's references. -/
abbrev at4 : Contents F := fun c b => bnd4 H0 H1 H2 m c b
theorem left2 (c : Dev nD) (w : Fin cfg2.W) :
    (H2.dat (at3 H0 H1 m) c).arrAt w cfg2.N = at4 H0 H1 H2 m c (Pipeline.arrRef spec2 w) := (bnd4_arr H0 H1 H2 m c w).symm
theorem kept2 (c : Dev nD) : ∀ b, b ∉ Finset.univ.image (Pipeline.arrRef spec2) → at4 H0 H1 H2 m c b = at3 H0 H1 m c b :=
  fun b hb => bnd4_of_ne H0 H1 H2 m c b fun w e => hb (Finset.mem_image.mpr ⟨w, Finset.mem_univ _, e⟩)
/-- An input window of region 2 keeps its array. -/
theorem bnd4_in (c : Dev nD) (w : Fin cfg2.W) (hin : (cfg2.win w).isOut = false) :
    bnd4 H0 H1 H2 m c (Proc.devRef .tc (Pipeline.arrRef spec2 w)) = bnd3 H0 H1 m c (Proc.devRef .tc (Pipeline.arrRef spec2 w)) :=
  (bnd4_arr H0 H1 H2 m c w).trans (((H2.dat (at3 H0 H1 m) c).arrAt_in w hin _).trans (H2.A_eq (at3 H0 H1 m) c w))

/-- After the ten host operations on the regions' outputs: the end. -/
abbrev bnd5 : Dev nD → Valuation τ sig (Elt F) := fun c => StableHlo.after hostOps3 (bnd4 H0 H1 H2 m c)

/-! ## The proof data of the three pipelines, and what rides beside the buffers -/

/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => H0.dat (at1 m) c
  | ⟨1, _⟩ => fun c => H1.dat (at2 H0 m) c
  | ⟨2, _⟩ => fun c => H2.dat (at3 H0 H1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at `bnd1`, left with them at `bnd2`. Its windows' arrays
    are split out of the unscoped buffers and put back at what the pipeline leaves; the generator register goes into the
    region's invariant and comes back; the core owes nothing; the kernel has no semaphore of its own. -/
def reg0 : Pipeline.RegionSeg (pcfgs (F := F)) adm (pdats H0 H1 H2 m) () defs₀ 𝒱₀ L lv 0 where
  win := launch0.win.to₀
  block_pos := launch0.block_pos
  stage_whole := launch0.stage_whole
  K := PEmpty
  osem k := k.elim
  ho := Pipeline.OwnSemFacts.none _
  hbody c := (H0.body (at1 m) c).loose
  hwaits := Pipeline.hwaits_of_owed_zero _ _ _ _ L lv 0 fun c t => H0.owed_eq (at1 m) c t
  pre c := iprop(StableHlo.held (c : Thread nD τ) (Pipeline.ucRefs τ sig) (bnd1 m c) ∗ R c)
  post c := iprop(StableHlo.held (c : Thread nD τ) (Pipeline.ucRefs τ sig) (bnd2 H0 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats H0 H1 H2 m) launch0.win launch0.arr_whole c
      ((pdats H0 H1 H2 m 0 c).share_full fun w => H0.q_eq (at1 m) c w) (at1 m c) fun w => H0.A_eq (at1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 0 c).owed 0 = 0 from H0.owed_eq (at1 m) c 0,
        show (pdats H0 H1 H2 m 0 c).recorded 0 = Set.univ from H0.recorded_eq (at1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats H0 H1 H2 m 0 c).Φ 0 := by
      have h' := H0.hin (at1 m) c; unfold Pipeline.ΦA at h'; exact h'
    iintro ⟨Hp, -, Hr⟩
    iapply h
    isplitl [Hr]; · iexact Hr
    iexact Hp
  hout c := by
    have h : (pdats H0 H1 H2 m 0 c).Φ (Fin.last _) ⊢ (iprop(Pipeline.scopedRest spec0 c ∗ ∃ r, prngReg c r) : sProp 𝕄) := by
      have h' := H0.hout (at1 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 m) ((pdats H0 H1 H2 m 0 c).share_full fun w => H0.q_eq (at1 m) c w)
      (at1 m c) (at2 H0 m c) ((pdats H0 H1 H2 m 0 c).arrAt · cfg0.N) (left0 H0 m c) (kept0 H0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 0 c).owed (Fin.last _) = 0 from H0.owed_eq (at1 m) c _]
    icases HO with ⟨%W, -, HO⟩; iexists W; iexact HO

set_option backward.isDefEq.respectTransparency.types false in
/-- Region 1 as a segment: entered with every unscoped buffer at `bnd2`, left with them at `bnd3`. Its windows' arrays
    are split out of the unscoped buffers and put back at what the pipeline leaves; the generator register goes into the
    region's invariant and comes back; the core owes nothing; the kernel has no semaphore of its own. -/
def reg1 : Pipeline.RegionSeg (pcfgs (F := F)) adm (pdats H0 H1 H2 m) () defs₀ 𝒱₀ L lv 1 where
  win := launch1.win.to₀
  block_pos := launch1.block_pos
  stage_whole := launch1.stage_whole
  K := PEmpty
  osem k := k.elim
  ho := Pipeline.OwnSemFacts.none _
  hbody c := (H1.body (at2 H0 m) c).loose
  hwaits := Pipeline.hwaits_of_owed_zero _ _ _ _ L lv 1 fun c t => H1.owed_eq (at2 H0 m) c t
  pre c := iprop(StableHlo.held (c : Thread nD τ) (Pipeline.ucRefs τ sig) (bnd2 H0 m c) ∗ R c)
  post c := iprop(StableHlo.held (c : Thread nD τ) (Pipeline.ucRefs τ sig) (bnd3 H0 H1 m c) ∗ R c)
  X c := iprop(∃ r, prngReg c r)
  Y c := iprop(∃ r, prngReg c r)
  Z c := Pipeline.unscopedRest (Ix := Unit) (Name := ℕ) (U := UR sig nD τ) (Lvl := ℕ) spec1 c (at2 H0 m c)
  hentry c := by
    rw [Pipeline.ownSems0_none]
    have hsplit := Pipeline.arrays_of_unscopedBufs (p := 1) (pcfgs (F := F)) adm (pdats H0 H1 H2 m) launch1.win launch1.arr_whole c
      ((pdats H0 H1 H2 m 1 c).share_full fun w => H1.q_eq (at2 H0 m) c w) (at2 H0 m c) fun w => H1.A_eq (at2 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 1 c).owed 0 = 0 from H1.owed_eq (at2 H0 m) c 0,
        show (pdats H0 H1 H2 m 1 c).recorded 0 = Set.univ from H1.recorded_eq (at2 H0 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats H0 H1 H2 m 1 c).Φ 0 := by
      have h' := H1.hin (at2 H0 m) c; unfold Pipeline.ΦA at h'; exact h'
    iintro ⟨Hp, -, Hr⟩
    iapply h
    isplitl [Hr]; · iexact Hr
    iexact Hp
  hout c := by
    have h : (pdats H0 H1 H2 m 1 c).Φ (Fin.last _) ⊢ (iprop(Pipeline.scopedRest spec1 c ∗ ∃ r, prngReg c r) : sProp 𝕄) := by
      have h' := H1.hout (at2 H0 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 m) ((pdats H0 H1 H2 m 1 c).share_full fun w => H1.q_eq (at2 H0 m) c w)
      (at2 H0 m c) (at3 H0 H1 m c) ((pdats H0 H1 H2 m 1 c).arrAt · cfg1.N) (left1 H0 H1 m c) (kept1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 1 c).owed (Fin.last _) = 0 from H1.owed_eq (at2 H0 m) c _]
    icases HO with ⟨%W, -, HO⟩; iexists W; iexact HO

set_option backward.isDefEq.respectTransparency.types false in
/-- Region 2 as a segment: entered with every unscoped buffer at `bnd3`, left with them at `bnd4`. Its windows' arrays
    are split out of the unscoped buffers and put back at what the pipeline leaves; the generator register goes into the
    region's invariant and comes back; the core owes nothing; the kernel has no semaphore of its own. -/
def reg2 : Pipeline.RegionSeg (pcfgs (F := F)) adm (pdats H0 H1 H2 m) () defs₀ 𝒱₀ L lv 2 where
  win := launch2.win.to₀
  block_pos := launch2.block_pos
  stage_whole := launch2.stage_whole
  K := PEmpty
  osem k := k.elim
  ho := Pipeline.OwnSemFacts.none _
  hbody c := (H2.body (at3 H0 H1 m) c).loose
  hwaits := Pipeline.hwaits_of_owed_zero _ _ _ _ L lv 2 fun c t => H2.owed_eq (at3 H0 H1 m) c t
  pre c := iprop(StableHlo.held (c : Thread nD τ) (Pipeline.ucRefs τ sig) (bnd3 H0 H1 m c) ∗ R c)
  post c := iprop(StableHlo.held (c : Thread nD τ) (Pipeline.ucRefs τ sig) (bnd4 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c (at3 H0 H1 m c)
  hentry c := by
    rw [Pipeline.ownSems0_none]
    have hsplit := Pipeline.arrays_of_unscopedBufs (p := 2) (pcfgs (F := F)) adm (pdats H0 H1 H2 m) launch2.win launch2.arr_whole c
      ((pdats H0 H1 H2 m 2 c).share_full fun w => H2.q_eq (at3 H0 H1 m) c w) (at3 H0 H1 m c) fun w => H2.A_eq (at3 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats H0 H1 H2 m 2 c).owed 0 = 0 from H2.owed_eq (at3 H0 H1 m) c 0,
        show (pdats H0 H1 H2 m 2 c).recorded 0 = Set.univ from H2.recorded_eq (at3 H0 H1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats H0 H1 H2 m 2 c).Φ 0 := by
      have h' := H2.hin (at3 H0 H1 m) c; unfold Pipeline.ΦA at h'; exact h'
    iintro ⟨Hp, -, Hr⟩
    iapply h
    isplitl [Hr]; · iexact Hr
    iexact Hp
  hout c := by
    have h : (pdats H0 H1 H2 m 2 c).Φ (Fin.last _) ⊢ (iprop(Pipeline.scopedRest spec2 c ∗ ∃ r, prngReg c r) : sProp 𝕄) := by
      have h' := H2.hout (at3 H0 H1 m) c; unfold Pipeline.ΦA at h'; exact h'
    rw [Pipeline.ownSems0_none]
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 m) ((pdats H0 H1 H2 m 2 c).share_full fun w => H2.q_eq (at3 H0 H1 m) c w)
      (at3 H0 H1 m c) (at4 H0 H1 H2 m c) ((pdats H0 H1 H2 m 2 c).arrAt · cfg2.N) (left2 H0 H1 H2 m c) (kept2 H0 H1 H2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 m 2 c).owed (Fin.last _) = 0 from H2.owed_eq (at3 H0 H1 m) c _]
    icases HO with ⟨%W, -, HO⟩; iexists W; iexact HO

/-! ## @main as segments, and the run -/

/-- @main's five segments in order. -/
abbrev segs : List (Pipeline.Seg (pcfgs (F := F)) adm (pdats H0 H1 H2 m) () defs₀ 𝒱₀ L lv) :=
  [ .host (hseg hostOps0 hostOps0_sub hostOps0_fresh (bnd0 m)),
    .region (reg0 H0 H1 H2 m),
    .region (reg1 H0 H1 H2 m),
    .region (reg2 H0 H1 H2 m),
    .host (hseg hostOps3 hostOps3_sub hostOps3_fresh (bnd4 H0 H1 H2 m)) ]
/-- @main is the run of the segments. -/
theorem main_run (c : Dev nD) : main (F := F) c = Pipeline.Seg.run (segs H0 H1 H2 m) := (main_chain c).trans (by chain_rfl)

set_option backward.isDefEq.respectTransparency.types false in
/-- THE RUN. From any memory with zero counters every weakly fair execution of @main terminates, nothing faulting, and in
    every final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd5 H0 H1 H2 m c b) :=
  Pipeline.θ_run_regions_kit (pcfgs (F := F)) adm (pdats H0 H1 H2 m) () cellOf_inj emb₁ defs₀ 𝒱₀ L lv m ρ main (segs H0 H1 H2 m)
    (fun c Q => by rw [main_run H0 H1 H2 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c))
    (Tₙ := fun c => iprop(StableHlo.held (c : Thread nD τ) (Pipeline.ucRefs τ sig) (bnd5 H0 H1 H2 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (bnd5 H0 H1 H2 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd5 H0 H1 H2 m c b)
    (hfin := fun c s' => by
      iintro ⟨⟨Hh, -⟩, HSI⟩
      unfold StableHlo.held
      imodintro
      iapply (pointsTo_read_all (Pipeline.ucRefs τ sig) (fun b => (((c : Thread nD τ)).1, b)) (bnd5 H0 H1 H2 m c) s')
      isplitl [Hh] <;> iassumption)
    (hQ := fun s h c => h c)

end Cert.KernelIdeal.Hand

end
-- ==== Proof.KI.Ends.lean ====
/-
  The ends of the run: each argument array's buffer, followed back through the five boundaries, holds at the end what it
  held at launch (a host stretch does not write it; a region stages it as an input window, whose array the pipeline never
  writes, or does not stage it); so the run's conclusion gives the frame claim. The regions' inputs are followed the same
  way to where they come from: the point arrays and the centers to the launch memory, the radius block to the first host
  stretch's result.
-/
import proofs.«126384_j71554155151373_1_alg».proof.Proof.KI.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (H0 : Half0 F) (H1 : Half1 F) (H2 : Half2 F)
variable (m : (ℓ : Loc nD τ sig) → Buf (Elt F) ℓ) (ρ : Dev nD → PrngReg)

/-- `main_arg0` reaches the end as launched: no host operation writes it, and a region stages it as an input or not at all. -/
theorem end_main_arg0 (c : Dev nD) : bnd5 H0 H1 H2 m c (Proc.devRef .tc main_arg0) = m ((c : Thread nD τ).loc main_arg0) :=
  (StableHlo.after_of_writes_sub hostOps3 _ hostOps3_writes (by decide)).trans <|
  (bnd4_of_ne H0 H1 H2 m c main_arg0 (by decide)).trans <|
  (bnd3_of_ne H0 H1 m c main_arg0 (by decide)).trans <|
  (bnd2_in H0 m c 0 rfl).trans <|
  (StableHlo.after_of_writes_sub hostOps0 _ hostOps0_writes (by decide)).trans rfl

/-- `main_arg1` reaches the end as launched: no host operation writes it, and a region stages it as an input or not at all. -/
theorem end_main_arg1 (c : Dev nD) : bnd5 H0 H1 H2 m c (Proc.devRef .tc main_arg1) = m ((c : Thread nD τ).loc main_arg1) :=
  (StableHlo.after_of_writes_sub hostOps3 _ hostOps3_writes (by decide)).trans <|
  (bnd4_of_ne H0 H1 H2 m c main_arg1 (by decide)).trans <|
  (bnd3_of_ne H0 H1 m c main_arg1 (by decide)).trans <|
  (bnd2_in H0 m c 1 rfl).trans <|
  (StableHlo.after_of_writes_sub hostOps0 _ hostOps0_writes (by decide)).trans rfl

/-- `main_arg2` reaches the end as launched: no host operation writes it, and a region stages it as an input or not at all. -/
theorem end_main_arg2 (c : Dev nD) : bnd5 H0 H1 H2 m c (Proc.devRef .tc main_arg2) = m ((c : Thread nD τ).loc main_arg2) :=
  (StableHlo.after_of_writes_sub hostOps3 _ hostOps3_writes (by decide)).trans <|
  (bnd4_of_ne H0 H1 H2 m c main_arg2 (by decide)).trans <|
  (bnd3_in H0 H1 m c 0 rfl).trans <|
  (bnd2_of_ne H0 m c main_arg2 (by decide)).trans <|
  (StableHlo.after_of_writes_sub hostOps0 _ hostOps0_writes (by decide)).trans rfl

/-- `main_arg3` reaches the end as launched: no host operation writes it, and a region stages it as an input or not at all. -/
theorem end_main_arg3 (c : Dev nD) : bnd5 H0 H1 H2 m c (Proc.devRef .tc main_arg3) = m ((c : Thread nD τ).loc main_arg3) :=
  (StableHlo.after_of_writes_sub hostOps3 _ hostOps3_writes (by decide)).trans <|
  (bnd4_in H0 H1 H2 m c 0 rfl).trans <|
  (bnd3_of_ne H0 H1 m c main_arg3 (by decide)).trans <|
  (bnd2_of_ne H0 m c main_arg3 (by decide)).trans <|
  (StableHlo.after_of_writes_sub hostOps0 _ hostOps0_writes (by decide)).trans rfl

/-- `main_arg4` reaches the end as launched: no host operation writes it, and a region stages it as an input or not at all. -/
theorem end_main_arg4 (c : Dev nD) : bnd5 H0 H1 H2 m c (Proc.devRef .tc main_arg4) = m ((c : Thread nD τ).loc main_arg4) :=
  (StableHlo.after_of_writes_sub hostOps3 _ hostOps3_writes (by decide)).trans <|
  (bnd4_in H0 H1 H2 m c 1 rfl).trans <|
  (bnd3_in H0 H1 m c 1 rfl).trans <|
  (bnd2_in H0 m c 2 rfl).trans <|
  (StableHlo.after_of_writes_sub hostOps0 _ hostOps0_writes (by decide)).trans rfl

/-- `main_arg5` reaches the end as launched: no host operation writes it, and a region stages it as an input or not at all. -/
theorem end_main_arg5 (c : Dev nD) : bnd5 H0 H1 H2 m c (Proc.devRef .tc main_arg5) = m ((c : Thread nD τ).loc main_arg5) :=
  (StableHlo.after_of_writes_sub hostOps3 _ hostOps3_writes (by decide)).trans <|
  (bnd4_of_ne H0 H1 H2 m c main_arg5 (by decide)).trans <|
  (bnd3_of_ne H0 H1 m c main_arg5 (by decide)).trans <|
  (bnd2_of_ne H0 m c main_arg5 (by decide)).trans <|
  (StableHlo.after_of_writes_sub hostOps0 _ hostOps0_writes (by decide)).trans rfl

include H0 H1 H2 in
/-- THE FRAME, given the three regions' own proofs: every weakly fair execution terminates, nothing faulting, and every
    argument array ends as launched. -/
theorem frame_of_halves : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (end_main_arg0 H0 H1 H2 m c),
     (h c _ (mem_uc main_arg1 (by decide))).trans (end_main_arg1 H0 H1 H2 m c),
     (h c _ (mem_uc main_arg2 (by decide))).trans (end_main_arg2 H0 H1 H2 m c),
     (h c _ (mem_uc main_arg3 (by decide))).trans (end_main_arg3 H0 H1 H2 m c),
     (h c _ (mem_uc main_arg4 (by decide))).trans (end_main_arg4 H0 H1 H2 m c),
     (h c _ (mem_uc main_arg5 (by decide))).trans (end_main_arg5 H0 H1 H2 m c)⟩)
    (run_all H0 H1 H2 m ρ)

end Cert.KernelIdeal.Hand

end
-- ==== Proof.KI.Halves.lean ====
/-
  The three regions' own proofs handed to the run, and the program's frame: every weakly fair execution terminates, nothing
  faulting, with every argument array as launched.
-/
import proofs.«126384_j71554155151373_1_alg».proof.Proof.KI.R0Frame
import proofs.«126384_j71554155151373_1_alg».proof.Proof.KI.R1Frame
import proofs.«126384_j71554155151373_1_alg».proof.Proof.KI.R2Frame
import proofs.«126384_j71554155151373_1_alg».proof.Proof.KI.Ends

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- Region 0 (the direct kernel on the up and down points). -/
def half0 : Half0 F where
  dat := dat0
  A_eq := A_eq0
  q_eq := fun _ _ _ => rfl
  owed_eq := fun _ _ _ => rfl
  recorded_eq := fun _ _ _ => rfl
  body := body_obligation0
  hin := hin0
  hout := hout0

/-- Region 1 (the pair kernel on the first derived array). -/
def half1 : Half1 F where
  dat := dat1
  A_eq := A_eq1
  q_eq := fun _ _ _ => rfl
  owed_eq := fun _ _ _ => rfl
  recorded_eq := fun _ _ _ => rfl
  body := body_obligation1
  hin := hin1
  hout := hout1

/-- Region 2 (the pair kernel on the second derived array). -/
def half2 : Half2 F where
  dat := dat2
  A_eq := A_eq2
  q_eq := fun _ _ _ => rfl
  owed_eq := fun _ _ _ => rfl
  recorded_eq := fun _ _ _ => rfl
  body := body_obligation2
  hin := hin2
  hout := hout2

/-- THE FRAME of the program, at any float instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_halves half0 half1 half2 m ρ

end Cert.KernelIdeal.Hand

end
-- ==== Proof.Val.Spec.lean ====
/-
  What the two programs compute, as functions of the six argument arrays on the extended reals.

  A point `(a, b)` of the plane, a center `(cx, cy)` and a radius magnitude `r` give the RATIONAL HAT
      hat r a b cx cy = 1 / (1 + d) - 1 / (1 + |r - d|),      d = |a - cx| + |b - cy|   (the L1 distance),
  with `|x| = max x (-x)` and the quotient the extended reals' `Ideal.div`. Each batch row `b` carries 40000 points
  per side: for the UP side the 20000 points of `up`, then for each of the 10000 rows of `ext0` the point
  `(y, 1 - y)` of its second coordinate `y`, then the same of `ext1`; for the DOWN side the points of `down` and the
  points `(x, 1 - x)` of the FIRST coordinates. The readout of a side at `(b, k)` is the sum over its 40000 points of
  the hat at center `k`; stated here as the sum over the direct points plus the two sums over the derived points.
  The results are the two readouts side by side (`joined`) and minus the sum of the squared differences (`penalty`).
-/
import Idealize.ShloMosaic.PureOps.Ideal
import Idealize.ShloMosaic.PureOps.Ideal.Laws
import Idealize.ShloMosaic.PureOps.Vector
import Idealize.ShloMosaic.Lib.ValueIdx

noncomputable section

namespace Cert.Spec

open Idealize.ShloMosaic Idealize.ShloMosaic.ValueIdx

/-- The shapes of the argument arrays and of a readout, as literals. -/
abbrev SDirect : Shape := ⟨3, ![32, 20000, 2]⟩
abbrev SDerived : Shape := ⟨3, ![32, 10000, 2]⟩
abbrev SCenters : Shape := ⟨2, ![64, 2]⟩
abbrev SRadius : Shape := ⟨1, ![1]⟩
abbrev SReadout : Shape := ⟨2, ![32, 64]⟩

/-- The number one, as both programs spell it. -/
abbrev one : EReal := Ideal.ofBits .f32 0x3F800000#32

/-- The L1 distance of `(a, b)` to `(cx, cy)`. -/
def dist (a b cx cy : EReal) : EReal := max (a - cx) (-(a - cx)) + max (b - cy) (-(b - cy))

/-- The rational hat of the point `(a, b)` at the center `(cx, cy)` with radius magnitude `r`. -/
def hat (r a b cx cy : EReal) : EReal :=
  Ideal.div one (one + dist a b cx cy) - Ideal.div one (one + max (r - dist a b cx cy) (-(r - dist a b cx cy)))

/-- The radius magnitude `|radius[0]|`. -/
def rad (radius : SRadius.Idx → EReal) : EReal := max (radius (ix1 0)) (-(radius (ix1 0)))

/-- The sum of the hats of the 20000 direct points of batch row `b` at center `k`. -/
def direct (pts : SDirect.Idx → EReal) (cen : SCenters.Idx → EReal) (r : EReal) (b : Fin 32) (k : Fin 64) : EReal :=
  ∑ p : Fin 20000, hat r (pts (ix3 b p 0)) (pts (ix3 b p 1)) (cen (ix2 k 0)) (cen (ix2 k 1))

/-- The sum of the hats of the 10000 derived points `(e, 1 - e)`, `e` the coordinate `j` of each row of `ext`. -/
def derived (j : Fin 2) (ext : SDerived.Idx → EReal) (cen : SCenters.Idx → EReal) (r : EReal) (b : Fin 32) (k : Fin 64) : EReal :=
  ∑ p : Fin 10000, hat r (ext (ix3 b p j)) (one - ext (ix3 b p j)) (cen (ix2 k 0)) (cen (ix2 k 1))

/-- The UP readout: the direct points of `up`, then the points of the second coordinates of `ext0` and of `ext1`. -/
def upReadout (up : SDirect.Idx → EReal) (ext0 ext1 : SDerived.Idx → EReal) (cen : SCenters.Idx → EReal)
    (radius : SRadius.Idx → EReal) : SReadout.Idx → EReal := fun i =>
  direct up cen (rad radius) ⟨(i 0).val, (i 0).isLt⟩ ⟨(i 1).val, (i 1).isLt⟩
    + derived 1 ext0 cen (rad radius) ⟨(i 0).val, (i 0).isLt⟩ ⟨(i 1).val, (i 1).isLt⟩
    + derived 1 ext1 cen (rad radius) ⟨(i 0).val, (i 0).isLt⟩ ⟨(i 1).val, (i 1).isLt⟩

/-- The DOWN readout: the direct points of `down`, then the points of the first coordinates of `ext0` and of `ext1`. -/
def downReadout (down : SDirect.Idx → EReal) (ext0 ext1 : SDerived.Idx → EReal) (cen : SCenters.Idx → EReal)
    (radius : SRadius.Idx → EReal) : SReadout.Idx → EReal := fun i =>
  direct down cen (rad radius) ⟨(i 0).val, (i 0).isLt⟩ ⟨(i 1).val, (i 1).isLt⟩
    + derived 0 ext0 cen (rad radius) ⟨(i 0).val, (i 0).isLt⟩ ⟨(i 1).val, (i 1).isLt⟩
    + derived 0 ext1 cen (rad radius) ⟨(i 0).val, (i 0).isLt⟩ ⟨(i 1).val, (i 1).isLt⟩

end Cert.Spec

end
-- ==== Proof.KI.Entry.lean ====
/-
  Where the regions' inputs come from and where their outputs end. Each region is entered with the point arrays and the
  centers still holding their launch contents (no host operation writes an argument, and an earlier region only stages them
  as inputs or not at all) and with the 1×1 radius block the first host stretch wrote: the radius reshaped to a scalar, its
  absolute value, reshaped to 1×1 — whose one entry is `|radius[0]|`. After the third region each of the six output arrays
  still holds what its own region's pipeline left in it.
-/
import proofs.«126384_j71554155151373_1_alg».proof.Proof.KI.Run
import proofs.«126384_j71554155151373_1_alg».proof.Proof.Val.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

section Any

variable {F : FTy → Type} [FloatOps F]
variable (H0 : Half0 F) (H1 : Half1 F) (H2 : Half2 F)
variable (m : (ℓ : Loc nD τ sig) → Buf (Elt F) ℓ)

/-! ## Region 0's entry -/

/-- A buffer the first host stretch does not write holds its launch contents at region 0's entry. -/
theorem at1_launch (c : Dev nD) (b : Ref sig .tc) (hb : b ∉ hostOps0_W) : at1 m c b = m ((c : Thread nD τ).loc b) :=
  StableHlo.after_of_writes_sub hostOps0 _ hostOps0_writes hb

/-! ## Region 1's entry -/

theorem at2_points (c : Dev nD) : at2 H0 m c main_arg2 = m ((c : Thread nD τ).loc main_arg2) :=
  (bnd2_of_ne H0 m c main_arg2 (by decide)).trans (at1_launch m c main_arg2 (by decide))
theorem at2_centers (c : Dev nD) : at2 H0 m c main_arg4 = m ((c : Thread nD τ).loc main_arg4) :=
  (bnd2_in H0 m c 2 rfl).trans (at1_launch m c main_arg4 (by decide))
theorem at2_radius (c : Dev nD) : at2 H0 m c main_v2 = at1 m c main_v2 := bnd2_in H0 m c 3 rfl

/-! ## Region 2's entry -/

theorem at3_points (c : Dev nD) : at3 H0 H1 m c main_arg3 = m ((c : Thread nD τ).loc main_arg3) :=
  (bnd3_of_ne H0 H1 m c main_arg3 (by decide)).trans ((bnd2_of_ne H0 m c main_arg3 (by decide)).trans (at1_launch m c main_arg3 (by decide)))
theorem at3_centers (c : Dev nD) : at3 H0 H1 m c main_arg4 = m ((c : Thread nD τ).loc main_arg4) :=
  (bnd3_in H0 H1 m c 1 rfl).trans (at2_centers H0 m c)
theorem at3_radius (c : Dev nD) : at3 H0 H1 m c main_v2 = at1 m c main_v2 :=
  (bnd3_in H0 H1 m c 2 rfl).trans (at2_radius H0 m c)

/-! ## The six outputs at the last boundary before the closing host operations -/

theorem out_v3_0 (c : Dev nD) : bnd4 H0 H1 H2 m c (Proc.devRef .tc main_v3_0) = (H0.dat (at1 m) c).arrAt 4 cfg0.N :=
  (bnd4_of_ne H0 H1 H2 m c main_v3_0 (by decide)).trans ((bnd3_of_ne H0 H1 m c main_v3_0 (by decide)).trans (bnd2_arr H0 m c 4))
theorem out_v3_1 (c : Dev nD) : bnd4 H0 H1 H2 m c (Proc.devRef .tc main_v3_1) = (H0.dat (at1 m) c).arrAt 5 cfg0.N :=
  (bnd4_of_ne H0 H1 H2 m c main_v3_1 (by decide)).trans ((bnd3_of_ne H0 H1 m c main_v3_1 (by decide)).trans (bnd2_arr H0 m c 5))
theorem out_v4_0 (c : Dev nD) : bnd4 H0 H1 H2 m c (Proc.devRef .tc main_v4_0) = (H1.dat (at2 H0 m) c).arrAt 3 cfg1.N :=
  (bnd4_of_ne H0 H1 H2 m c main_v4_0 (by decide)).trans (bnd3_arr H0 H1 m c 3)
theorem out_v4_1 (c : Dev nD) : bnd4 H0 H1 H2 m c (Proc.devRef .tc main_v4_1) = (H1.dat (at2 H0 m) c).arrAt 4 cfg1.N :=
  (bnd4_of_ne H0 H1 H2 m c main_v4_1 (by decide)).trans (bnd3_arr H0 H1 m c 4)
theorem out_v5_0 (c : Dev nD) : bnd4 H0 H1 H2 m c (Proc.devRef .tc main_v5_0) = (H2.dat (at3 H0 H1 m) c).arrAt 3 cfg2.N :=
  bnd4_arr H0 H1 H2 m c 3
theorem out_v5_1 (c : Dev nD) : bnd4 H0 H1 H2 m c (Proc.devRef .tc main_v5_1) = (H2.dat (at3 H0 H1 m) c).arrAt 4 cfg2.N :=
  bnd4_arr H0 H1 H2 m c 4

end Any

/-! ## The radius block, on the extended reals -/

section Radius

variable (m : (ℓ : Loc nD τ sig) → Buf (Elt Ideal) ℓ)

/-- A one-entry array recast to a scalar is its one entry. -/
theorem scalar_of_one {α : Type} (x : S1.Idx → α) (j : S_.Idx) : shapeCast S_ x shapeCasts_S1_S_ j = x (ix1 (0 : Fin 1)) := by
  refine shapeCast_apply x shapeCasts_S1_S_ j (ix1 (0 : Fin 1)) ?_
  have h1 : (S1.rowMajor (ix1 (0 : Fin 1))).val < 1 :=
    Nat.lt_of_lt_of_eq (S1.rowMajor (ix1 (0 : Fin 1))).isLt (by decide : S1.numel = 1)
  have h0 : (S_.rowMajor j).val < 1 := Nat.lt_of_lt_of_eq (S_.rowMajor j).isLt (by decide : S_.numel = 1)
  omega

/-- A scalar recast to a 1×1 array holds the scalar at its one entry. -/
theorem one_of_scalar {α : Type} (x : S_.Idx → α) (j : S1x1.Idx) : shapeCast S1x1 x shapeCasts_S_S1x1 j = x ix0 := by
  refine shapeCast_apply x shapeCasts_S_S1x1 j ix0 ?_
  have h1 : (S_.rowMajor ix0).val < 1 := Nat.lt_of_lt_of_eq (S_.rowMajor ix0).isLt (by decide : S_.numel = 1)
  have h0 : (S1x1.rowMajor j).val < 1 := Nat.lt_of_lt_of_eq (S1x1.rowMajor j).isLt (by decide : S1x1.numel = 1)
  omega

/-- The radius block's one entry is the radius' magnitude. -/
theorem radius_entry (c : Dev nD) :
    at1 m c main_v2 (ix2 0 0) = Cert.Spec.rad (m ((c : Thread nD τ).loc main_arg5)) := by
  have e : (at1 m c main_v2 : S1x1.Idx → EReal)
      = shapeCast S1x1 (Host.absf (F := Ideal) (φ := .f32) (shapeCast S_ (show S1.Idx → Ideal .f32 from m ((c : Thread nD τ).loc main_arg5)) shapeCasts_S1_S_)) shapeCasts_S_S1x1 := by
    show StableHlo.after hostOps0 (fun b => m (c, b)) (Proc.devRef .tc main_v2) = _
    after_results
    rfl
  rw [e, one_of_scalar]
  unfold Cert.Spec.rad
  show FloatOps.hostAbsf _ = _
  rw [Ideal.hostAbsf_def, Ideal.absf_def, scalar_of_one]

end Radius

end Cert.KernelIdeal.Hand

end
-- ==== Proof.Val.Tail.lean ====
/-
  The last steps both programs take on the two readouts `u` (up) and `d` (down), each f32[32, 64]: the first result is the
  two side by side along the second axis, f32[32, 128]; the second is minus the sum, started from zero, of the squared
  differences `(u - d) · (u - d)` over all 32 · 64 entries. Both programs spell these steps with the same operations, so
  the certificate compares the readouts and carries these steps as two functions it never opens.
-/
import proofs.«126384_j71554155151373_1_alg».proof.Proof.Gen.KernelIdeal
import Idealize.ShloMosaic.PureOps.Ideal

noncomputable section

namespace Cert.Tail

open Idealize.ShloMosaic Cert.KernelIdeal Cert.KernelIdeal.Gen

/-- The two readouts side by side: columns 0–63 the first, columns 64–127 the second. -/
def joined (u d : (⟨S32x64, .f32⟩ : BufTy).Contents (Elt Ideal)) : (⟨S32x128, .f32⟩ : BufTy).Contents (Elt Ideal) :=
  concatenate S32x128 1 [⟨S32x64, u⟩, ⟨S32x64, d⟩] concatenates_S32x64_S32x64_S32x128_d1

/-- Minus the sum of the squared differences of the two readouts. -/
def penalty (u d : (⟨S32x64, .f32⟩ : BufTy).Contents (Elt Ideal)) : (⟨S_, .f32⟩ : BufTy).Contents (Elt Ideal) :=
  Host.negf (F := Ideal) (Host.reduceAdd (F := Ideal) (mulf (subf u d) (subf u d)) (constant (F := Ideal) S_ .f32 0x00000000#32) reducesTo_S32x64_S_d0_1 h_S_)

end Cert.Tail

end
-- ==== Proof.KI.Closing.lean ====
/-
  The closing host operations. After the three regions the program adds the three up partial sums into one readout and the
  three down partial sums into another, joins the two side by side for its first result, and takes minus the sum of the
  squared differences for its second. Read off the last host stretch: the two results are `joined` and `penalty` of the two
  sums of the regions' outputs.
-/
import proofs.«126384_j71554155151373_1_alg».proof.Proof.KI.Entry
import proofs.«126384_j71554155151373_1_alg».proof.Proof.Val.Tail

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (H0 : Half0 Ideal) (H1 : Half1 Ideal) (H2 : Half2 Ideal)
variable (m : (ℓ : Loc nD τ sig) → Buf (Elt Ideal) ℓ)

/-- The up readout as the program forms it: region 0's first output, plus region 1's second, plus region 2's second. -/
def upSum (c : Dev nD) : FVec Ideal S32x64 .f32 :=
  addf (addf (show FVec Ideal S32x64 .f32 from bnd4 H0 H1 H2 m c (Proc.devRef .tc main_v3_0)) (show FVec Ideal S32x64 .f32 from bnd4 H0 H1 H2 m c (Proc.devRef .tc main_v4_1))) (show FVec Ideal S32x64 .f32 from bnd4 H0 H1 H2 m c (Proc.devRef .tc main_v5_1))
/-- The down readout as the program forms it: region 0's second output, plus region 1's first, plus region 2's first. -/
def downSum (c : Dev nD) : FVec Ideal S32x64 .f32 :=
  addf (addf (show FVec Ideal S32x64 .f32 from bnd4 H0 H1 H2 m c (Proc.devRef .tc main_v3_1)) (show FVec Ideal S32x64 .f32 from bnd4 H0 H1 H2 m c (Proc.devRef .tc main_v4_0))) (show FVec Ideal S32x64 .f32 from bnd4 H0 H1 H2 m c (Proc.devRef .tc main_v5_0))

/-- The first result: the two readouts side by side. -/
theorem end_joined (c : Dev nD) :
    bnd5 H0 H1 H2 m c (Proc.devRef .tc main_v10) = Cert.Tail.joined (upSum H0 H1 H2 m c) (downSum H0 H1 H2 m c) := by
  show StableHlo.after hostOps3 (bnd4 H0 H1 H2 m c) (Proc.devRef .tc main_v10) = _
  after_results
  rfl

/-- The second result: minus the sum of the squared differences of the two readouts. -/
theorem end_penalty (c : Dev nD) :
    bnd5 H0 H1 H2 m c (Proc.devRef .tc main_v14) = Cert.Tail.penalty (upSum H0 H1 H2 m c) (downSum H0 H1 H2 m c) := by
  show StableHlo.after hostOps3 (bnd4 H0 H1 H2 m c) (Proc.devRef .tc main_v14) = _
  after_results
  rfl

end Cert.KernelIdeal.Hand

end
-- ==== Proof.KI.R0Acc.lean ====
import proofs.«126384_j71554155151373_1_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the accumulation's equations over the payload functions

Each case's pieces, read back, are one explicit term in the payload functions, the point's input blocks and what the
point before left in the accumulators: every store fills its buffer whole, so the last store's payload is what the
buffer holds, and a load of a buffer just stored whole reads that store's payload. -/

theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole buffer through its whole-shape rectangle at zero offsets reads what the buffer holds. -/
theorem readAt_unread_whole {S : Shape} {e : EltTy} {m : Memref sig .tc .vmem S e} (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread]; exact View.ld_unit_zero h inb X

section Cases
variable (c : Dev nD) (i : grid0.Coords) (arg2 : Memref sig .tc .vmem S16x200x2 .f32) (harg2 : arg2.IsWhole) (arg3 : Memref sig .tc .vmem S16x200x2 .f32) (harg3 : arg3.IsWhole) (arg4 : Memref sig .tc .vmem S64x2 .f32) (harg4 : arg4.IsWhole) (arg5 : Memref sig .tc .vmem S1x1 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (arg9 : Memref sig .tc .vmem S16x64 .f32) (harg9 : arg9.IsWhole)
  (x2 : Vec F S16x200x2 .f32) (x3 : Vec F S16x200x2 .f32) (x4 : Vec F S64x2 .f32) (x5 : Vec F S1x1 .f32)

/-- First case: the accumulators are zeroed, then the tile's sums added. -/
theorem sout0_A_0_eq (hc0 : cond0_0 i) (hc1 : ¬cond0_1 i) :
    sout0_A_0 c i arg2 harg2 arg3 harg3 arg4 harg4 arg5 harg5 arg6 harg6 arg7 harg7 arg8 harg8 arg9 harg9 x2 x3 x4 x5 hc0 hc1 = k0_pay9 (k0_pay1 (F := F)) (k0_pay7 x4 x2) (k0_pay8 x4 x5 x2) (Scalar.ofBits .f32 0x3F800000#32) := by
  unfold sout0_A_0
  rw [View.read_writes_junk_eq_canon]
  unfold kernelRun0_A
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

theorem sout0_A_1_eq (hc0 : cond0_0 i) (hc1 : ¬cond0_1 i) :
    sout0_A_1 c i arg2 harg2 arg3 harg3 arg4 harg4 arg5 harg5 arg6 harg6 arg7 harg7 arg8 harg8 arg9 harg9 x2 x3 x4 x5 hc0 hc1 = k0_pay10 (k0_pay3 x4) (k0_pay4 x4) (k0_pay5 x5) x3 (k0_pay2 (F := F)) := by
  unfold sout0_A_1
  rw [View.read_writes_junk_eq_canon]
  unfold kernelRun0_A
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

variable (xs0 xs1 : Vec F S16x64 .f32)

/-- Middle case: the tile's sums are added to what the point before left. -/
theorem sout0_B_0_eq (hc0 : ¬cond0_0 i) (hc1 : ¬cond0_1 i) :
    sout0_B_0 c i arg2 harg2 arg3 harg3 arg4 harg4 arg5 harg5 arg6 harg6 arg7 harg7 arg8 harg8 arg9 harg9 x2 x3 x4 x5 xs0 xs1 hc0 hc1 = k0_pay9 xs0 (k0_pay7 x4 x2) (k0_pay8 x4 x5 x2) (Scalar.ofBits .f32 0x3F800000#32) := by
  unfold sout0_B_0
  rw [View.read_writes_junk_eq_canon]
  unfold kernelRun0_B
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

theorem sout0_B_1_eq (hc0 : ¬cond0_0 i) (hc1 : ¬cond0_1 i) :
    sout0_B_1 c i arg2 harg2 arg3 harg3 arg4 harg4 arg5 harg5 arg6 harg6 arg7 harg7 arg8 harg8 arg9 harg9 x2 x3 x4 x5 xs0 xs1 hc0 hc1 = k0_pay10 (k0_pay3 x4) (k0_pay4 x4) (k0_pay5 x5) x3 xs1 := by
  unfold sout0_B_1
  rw [View.read_writes_junk_eq_canon]
  unfold kernelRun0_B
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

/-- Last case: the same, and each output buffer receives its accumulator. -/
theorem sout0_C_0_eq (hc0 : ¬cond0_0 i) (hc1 : cond0_1 i) :
    sout0_C_0 c i arg2 harg2 arg3 harg3 arg4 harg4 arg5 harg5 arg6 harg6 arg7 harg7 arg8 harg8 arg9 harg9 x2 x3 x4 x5 xs0 xs1 hc0 hc1 = k0_pay9 xs0 (k0_pay7 x4 x2) (k0_pay8 x4 x5 x2) (Scalar.ofBits .f32 0x3F800000#32) := by
  unfold sout0_C_0
  rw [View.read_writes_junk_eq_canon]
  unfold kernelRun0_C
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

theorem sout0_C_1_eq (hc0 : ¬cond0_0 i) (hc1 : cond0_1 i) :
    sout0_C_1 c i arg2 harg2 arg3 harg3 arg4 harg4 arg5 harg5 arg6 harg6 arg7 harg7 arg8 harg8 arg9 harg9 x2 x3 x4 x5 xs0 xs1 hc0 hc1 = k0_pay10 (k0_pay3 x4) (k0_pay4 x4) (k0_pay5 x5) x3 xs1 := by
  unfold sout0_C_1
  rw [View.read_writes_junk_eq_canon]
  unfold kernelRun0_C
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

theorem out0_C_4_eq (hc0 : ¬cond0_0 i) (hc1 : cond0_1 i) :
    out0_C_4 c i arg2 harg2 arg3 harg3 arg4 harg4 arg5 harg5 arg6 harg6 arg7 harg7 arg8 harg8 arg9 harg9 x2 x3 x4 x5 xs0 xs1 hc0 hc1 = k0_pay9 xs0 (k0_pay7 x4 x2) (k0_pay8 x4 x5 x2) (Scalar.ofBits .f32 0x3F800000#32) := by
  unfold out0_C_4
  rw [View.read_writes_junk_eq_canon]
  unfold kernelRun0_C
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

theorem out0_C_5_eq (hc0 : ¬cond0_0 i) (hc1 : cond0_1 i) :
    out0_C_5 c i arg2 harg2 arg3 harg3 arg4 harg4 arg5 harg5 arg6 harg6 arg7 harg7 arg8 harg8 arg9 harg9 x2 x3 x4 x5 xs0 xs1 hc0 hc1 = k0_pay10 (k0_pay3 x4) (k0_pay4 x4) (k0_pay5 x5) x3 xs1 := by
  unfold out0_C_5
  rw [View.read_writes_junk_eq_canon]
  unfold kernelRun0_C
  dsimp only
  sl_unfold_words
  simp only [View.canon_cons_unit_zero (S := S16x64) zeros2, View.readCov_cons_toLoadRect, View.readCov_unit_zero (S := S16x64) _ zeros2,
    readAt_unread_whole (S := S16x64) _ _ zeros2, readAt_unread_whole (S := S64x2) _ _ zeros2, readAt_unread_whole (S := S1x1) _ _ zeros2,
    readAt_unread_whole (S := S16x200x2) _ _ zeros3]
  try rfl

end Cases

section
variable (V : (c : Dev nD) → (b : Ref sig .tc) → Buf (Elt F) ((c : Thread nD τ).loc b))

/-- At a point whose second coordinate is `0` the accumulators hold the tile's sums added to zero. -/
theorem acc0_scratch_first (c : Dev nD) (t : Fin cfg0.N) (h : t.val % 100 = 0) :
    ((acc0 V c t.val t.isLt).2.2.1, (acc0 V c t.val t.isLt).2.2.2)
      = (k0_pay9 (k0_pay1 (F := F)) (k0_pay7 (iblk0 V c 2 t) (iblk0 V c 0 t)) (k0_pay8 (iblk0 V c 2 t) (iblk0 V c 3 t) (iblk0 V c 0 t)) (Scalar.ofBits .f32 0x3F800000#32),
         k0_pay10 (k0_pay3 (iblk0 V c 2 t)) (k0_pay4 (iblk0 V c 2 t)) (k0_pay5 (iblk0 V c 3 t)) (iblk0 V c 1 t) (k0_pay2 (F := F))) := by
  rw [acc0_A V c t h]; unfold stepA; dsimp only
  rw [sout0_A_0_eq, sout0_A_1_eq]

/-- At any other point they hold the tile's sums added to what the point before left. -/
theorem acc0_scratch_step (c : Dev nD) (t : Fin cfg0.N) (h : t.val % 100 ≠ 0) :
    ((acc0 V c t.val t.isLt).2.2.1, (acc0 V c t.val t.isLt).2.2.2)
      = (k0_pay9 (acc0 V c (t.val - 1) (pred_lt t)).2.2.1 (k0_pay7 (iblk0 V c 2 t) (iblk0 V c 0 t)) (k0_pay8 (iblk0 V c 2 t) (iblk0 V c 3 t) (iblk0 V c 0 t)) (Scalar.ofBits .f32 0x3F800000#32),
         k0_pay10 (k0_pay3 (iblk0 V c 2 t)) (k0_pay4 (iblk0 V c 2 t)) (k0_pay5 (iblk0 V c 3 t)) (iblk0 V c 1 t) (acc0 V c (t.val - 1) (pred_lt t)).2.2.2) := by
  by_cases h1 : t.val % 100 = 99
  · rw [acc0_C V c t h h1]; unfold stepC; dsimp only
    rw [sout0_C_0_eq, sout0_C_1_eq]
  · rw [acc0_B V c t h h1]; unfold stepB; dsimp only
    rw [sout0_B_0_eq, sout0_B_1_eq]

/-- At a point whose second coordinate is `99` each output buffer holds its accumulator. -/
theorem acc0_out_last (c : Dev nD) (t : Fin cfg0.N) (h : t.val % 100 = 99) :
    (acc0 V c t.val t.isLt).1 = (acc0 V c t.val t.isLt).2.2.1 ∧ (acc0 V c t.val t.isLt).2.1 = (acc0 V c t.val t.isLt).2.2.2 := by
  have h0 : ¬t.val % 100 = 0 := by omega
  rw [acc0_C V c t h0 h]; unfold stepC; dsimp only
  rw [out0_C_4_eq, out0_C_5_eq, sout0_C_0_eq, sout0_C_1_eq]
  exact ⟨rfl, rfl⟩

end

end Cert.KernelIdeal.Hand

end
-- ==== Proof.Val.Coords.lean ====
/-
  Rows and points from tiles. Batch tile `bt` (of 2) and row `bb` (of 16) inside it give row `16·bt + bb` of 32; point tile
  `j` and point `q` (of 200) inside it give point `200·j + q`, of 20000 for the 100 tiles of a direct array and of 10000 for
  the 50 tiles of a derived one.
-/

namespace Cert.Coords

/-- Row `16·bt + bb`. -/
def row (bt : Fin 2) (bb : Fin 16) : Fin 32 := ⟨16 * bt.val + bb.val, by omega⟩
/-- Point `200·j + q` among 20000 (written `j·200 + q`). -/
def pnt100 (j : Fin 100) (q : Fin 200) : Fin 20000 := ⟨j.val * 200 + q.val, by omega⟩
/-- Point `200·j + q` among 10000 (written `j·200 + q`). -/
def pnt50 (j : Fin 50) (q : Fin 200) : Fin 10000 := ⟨j.val * 200 + q.val, by omega⟩

@[simp] theorem row_val (bt : Fin 2) (bb : Fin 16) : (row bt bb).val = 16 * bt.val + bb.val := rfl
@[simp] theorem pnt100_val (j : Fin 100) (q : Fin 200) : (pnt100 j q).val = j.val * 200 + q.val := rfl
@[simp] theorem pnt50_val (j : Fin 50) (q : Fin 200) : (pnt50 j q).val = j.val * 200 + q.val := rfl

/-- Every row is the row of its batch tile. -/
theorem row_of (r : Fin 32) : r = row ⟨r.val / 16, by omega⟩ ⟨r.val % 16, by omega⟩ := Fin.ext (by simp only [row_val]; omega)

end Cert.Coords
-- ==== Proof.KI.Blocks0.lean ====
/-
  Where region 0's blocks sit. At grid point `t = 100·bt + j` the batch tile is `bt` and the point tile `j`: a point window's
  block is rows `16·bt … +15`, points `200·j … +199` of its array; the centers' and the radius' windows are their whole
  arrays at every point; an output's block is rows `16·bt … +15`, all 64 columns, and is written back at the last point of
  its batch tile only, so the two batch tiles' blocks tile the output.
-/
import proofs.«126384_j71554155151373_1_alg».proof.Proof.KI.R0Base
import proofs.«126384_j71554155151373_1_alg».proof.Proof.Val.Coords
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Coords

variable {F : FTy → Type} [FloatOps F]
variable (V : (c : Dev nD) → (b : Ref sig .tc) → Buf (Elt F) ((c : Thread nD τ).loc b))

/-- The printed index maps of region 0's windows, decided over the grid. -/
theorem where0 : ∀ t : Fin cfg0.N,
    win0_0.index t (0 : Fin 3) = t.val / 100 ∧ win0_0.index t (1 : Fin 3) = t.val % 100 ∧ win0_0.index t (2 : Fin 3) = 0
    ∧ win0_1.index t (0 : Fin 3) = t.val / 100 ∧ win0_1.index t (1 : Fin 3) = t.val % 100 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 100 ∧ win0_4.index t (1 : Fin 2) = 0
    ∧ win0_5.index t (0 : Fin 2) = t.val / 100 ∧ win0_5.index t (1 : Fin 2) = 0 :=
  (by decide +kernel : ∀ t : Fin grid0.N, _)

/-- Grid point `100·bt + j`. -/
def point0 (bt : Fin 2) (j : Fin 100) : Fin cfg0.N := ⟨100 * bt.val + j.val, by have : cfg0.N = 200 := N_0; omega⟩
@[simp] theorem point0_val (bt : Fin 2) (j : Fin 100) : (point0 bt j).val = 100 * bt.val + j.val := rfl

/-- The up points' block at point `100·bt + j`, entry by entry: row `16·bt + bb`, point `200·j + q` of the array. -/
theorem iblk0_up (c : Dev nD) (bt : Fin 2) (j : Fin 100) (bb : Fin 16) (q : Fin 200) (e : Fin 2) :
    iblk0 V c 0 (point0 bt j) (ix3 bb q e) = V c main_arg0 (ix3 (row bt bb) (pnt100 j q) e) := by
  show V c main_arg0 (((cfg0.win 0).blk (point0 bt j)).view.emb (ix3 bb q e)) = _
  refine congrArg _ ?_
  obtain ⟨f0, f1, f2, f3, f4, f5, f6, f7, f8, f9, f10, f11, f12, f13⟩ := where0 (point0 bt j)
  have hbt : bt.val < 2 := bt.isLt
  have hj : j.val < 100 := j.isLt
  simp only [point0_val] at *
  funext a; apply Fin.ext
  match a with
  | ⟨0, _⟩ => show win0_0.index (point0 bt j) (0 : Fin 3) * 16 + 1 * bb.val = 16 * bt.val + bb.val; omega
  | ⟨1, _⟩ => show win0_0.index (point0 bt j) (1 : Fin 3) * 200 + 1 * q.val = j.val * 200 + q.val; omega
  | ⟨2, _⟩ => show win0_0.index (point0 bt j) (2 : Fin 3) * 2 + 1 * e.val = e.val; omega

/-- The down points' block at point `100·bt + j`, entry by entry: row `16·bt + bb`, point `200·j + q` of the array. -/
theorem iblk0_down (c : Dev nD) (bt : Fin 2) (j : Fin 100) (bb : Fin 16) (q : Fin 200) (e : Fin 2) :
    iblk0 V c 1 (point0 bt j) (ix3 bb q e) = V c main_arg1 (ix3 (row bt bb) (pnt100 j q) e) := by
  show V c main_arg1 (((cfg0.win 1).blk (point0 bt j)).view.emb (ix3 bb q e)) = _
  refine congrArg _ ?_
  obtain ⟨f0, f1, f2, f3, f4, f5, f6, f7, f8, f9, f10, f11, f12, f13⟩ := where0 (point0 bt j)
  have hbt : bt.val < 2 := bt.isLt
  have hj : j.val < 100 := j.isLt
  simp only [point0_val] at *
  funext a; apply Fin.ext
  match a with
  | ⟨0, _⟩ => show win0_1.index (point0 bt j) (0 : Fin 3) * 16 + 1 * bb.val = 16 * bt.val + bb.val; omega
  | ⟨1, _⟩ => show win0_1.index (point0 bt j) (1 : Fin 3) * 200 + 1 * q.val = j.val * 200 + q.val; omega
  | ⟨2, _⟩ => show win0_1.index (point0 bt j) (2 : Fin 3) * 2 + 1 * e.val = e.val; omega

/-- The centers' block at any point is the centers' array. -/
theorem iblk0_centers (c : Dev nD) (t : Fin cfg0.N) (k : Fin 64) (e : Fin 2) :
    iblk0 V c 2 t (ix2 k e) = V c main_arg4 (ix2 k e) := by
  show V c main_arg4 (((cfg0.win 2).blk t).view.emb (ix2 k e)) = _
  refine congrArg _ ?_
  obtain ⟨f0, f1, f2, f3, f4, f5, f6, f7, f8, f9, f10, f11, f12, f13⟩ := where0 t
  funext a; apply Fin.ext
  match a with
  | ⟨0, _⟩ => show win0_2.index t (0 : Fin 2) * 64 + 1 * k.val = k.val; omega
  | ⟨1, _⟩ => show win0_2.index t (1 : Fin 2) * 2 + 1 * e.val = e.val; omega

/-- The radius' block at any point is the 1×1 array the host prepared. -/
theorem iblk0_radius (c : Dev nD) (t : Fin cfg0.N) :
    iblk0 V c 3 t (ix2 0 0) = V c main_v2 (ix2 0 0) := by
  show V c main_v2 (((cfg0.win 3).blk t).view.emb (ix2 0 0)) = _
  refine congrArg _ ?_
  obtain ⟨f0, f1, f2, f3, f4, f5, f6, f7, f8, f9, f10, f11, f12, f13⟩ := where0 t
  funext a; apply Fin.ext
  match a with
  | ⟨0, _⟩ => show win0_3.index t (0 : Fin 2) * 1 + 1 * 0 = 0; omega
  | ⟨1, _⟩ => show win0_3.index t (1 : Fin 2) * 1 + 1 * 0 = 0; omega

/-- Where an entry of output window 4's block at point `100·bt + j` sits in the output array. -/
theorem place0_4 (bt : Fin 2) (j : Fin 100) (bb : Fin 16) (k : Fin 64) :
    ((cfg0.win 4).blk (point0 bt j)).view.emb (ix2 bb k) = ix2 (row bt bb) k := by
  obtain ⟨f0, f1, f2, f3, f4, f5, f6, f7, f8, f9, f10, f11, f12, f13⟩ := where0 (point0 bt j)
  have hbt : bt.val < 2 := bt.isLt
  have hj : j.val < 100 := j.isLt
  simp only [point0_val] at *
  funext a; apply Fin.ext
  match a with
  | ⟨0, _⟩ => show win0_4.index (point0 bt j) (0 : Fin 2) * 16 + 1 * bb.val = 16 * bt.val + bb.val; omega
  | ⟨1, _⟩ => show win0_4.index (point0 bt j) (1 : Fin 2) * 64 + 1 * k.val = k.val; omega

/-- An index of the output array is in point `t`'s block of window 4 iff each coordinate is in the block's range. -/
theorem mem_blk0_4 (t : Fin cfg0.N) (i : S32x64.Idx) :
    i ∈ ((cfg0.win 4).blk t).view.set ↔ ∀ a : Fin 2, win0_4.index t a * S16x64.size a ≤ (i a).val ∧ (i a).val < win0_4.index t a * S16x64.size a + S16x64.size a := by
  show i ∈ ((View.whole main_v3_0).slice (win0_4.rect t)).set ↔ _
  rw [View.set_slice_whole, Rect.mem_set_unit]
  exact Iff.rfl

/-- Every entry of the output array is in the block of the last point of its batch tile, which is written back. -/
theorem cover0_4 (i : S32x64.Idx) :
    ∃ t : Fin cfg0.N, (cfg0.win 4).flush t = true ∧ i ∈ ((cfg0.win 4).blk t).view.set := by
  have hi0 : (i 0).val < 32 := (i 0).isLt
  have hi1 : (i 1).val < 64 := (i 1).isLt
  have hN : cfg0.N = 200 := N_0
  refine ⟨⟨100 * ((i 0).val / 16) + 99, by omega⟩, (flush0_4 _).mpr (by show (100 * ((i 0).val / 16) + 99) % 100 = 99; omega), ?_⟩
  rw [mem_blk0_4]
  obtain ⟨f0, f1, f2, f3, f4, f5, f6, f7, f8, f9, f10, f11, f12, f13⟩ := where0 ⟨100 * ((i 0).val / 16) + 99, by omega⟩
  intro a
  match a with
  | ⟨0, _⟩ =>
    show win0_4.index _ (0 : Fin 2) * 16 ≤ (i 0).val ∧ (i 0).val < win0_4.index _ (0 : Fin 2) * 16 + 16
    have e : (100 * ((i 0).val / 16) + 99) / 100 = (i 0).val / 16 := by omega
    simp only [] at *
    omega
  | ⟨1, _⟩ =>
    show win0_4.index _ (1 : Fin 2) * 64 ≤ (i 1).val ∧ (i 1).val < win0_4.index _ (1 : Fin 2) * 64 + 64
    omega

/-- Where an entry of output window 5's block at point `100·bt + j` sits in the output array. -/
theorem place0_5 (bt : Fin 2) (j : Fin 100) (bb : Fin 16) (k : Fin 64) :
    ((cfg0.win 5).blk (point0 bt j)).view.emb (ix2 bb k) = ix2 (row bt bb) k := by
  obtain ⟨f0, f1, f2, f3, f4, f5, f6, f7, f8, f9, f10, f11, f12, f13⟩ := where0 (point0 bt j)
  have hbt : bt.val < 2 := bt.isLt
  have hj : j.val < 100 := j.isLt
  simp only [point0_val] at *
  funext a; apply Fin.ext
  match a with
  | ⟨0, _⟩ => show win0_5.index (point0 bt j) (0 : Fin 2) * 16 + 1 * bb.val = 16 * bt.val + bb.val; omega
  | ⟨1, _⟩ => show win0_5.index (point0 bt j) (1 : Fin 2) * 64 + 1 * k.val = k.val; omega

/-- An index of the output array is in point `t`'s block of window 5 iff each coordinate is in the block's range. -/
theorem mem_blk0_5 (t : Fin cfg0.N) (i : S32x64.Idx) :
    i ∈ ((cfg0.win 5).blk t).view.set ↔ ∀ a : Fin 2, win0_5.index t a * S16x64.size a ≤ (i a).val ∧ (i a).val < win0_5.index t a * S16x64.size a + S16x64.size a := by
  show i ∈ ((View.whole main_v3_1).slice (win0_5.rect t)).set ↔ _
  rw [View.set_slice_whole, Rect.mem_set_unit]
  exact Iff.rfl

/-- Every entry of the output array is in the block of the last point of its batch tile, which is written back. -/
theorem cover0_5 (i : S32x64.Idx) :
    ∃ t : Fin cfg0.N, (cfg0.win 5).flush t = true ∧ i ∈ ((cfg0.win 5).blk t).view.set := by
  have hi0 : (i 0).val < 32 := (i 0).isLt
  have hi1 : (i 1).val < 64 := (i 1).isLt
  have hN : cfg0.N = 200 := N_0
  refine ⟨⟨100 * ((i 0).val / 16) + 99, by omega⟩, (flush0_5 _).mpr (by show (100 * ((i 0).val / 16) + 99) % 100 = 99; omega), ?_⟩
  rw [mem_blk0_5]
  obtain ⟨f0, f1, f2, f3, f4, f5, f6, f7, f8, f9, f10, f11, f12, f13⟩ := where0 ⟨100 * ((i 0).val / 16) + 99, by omega⟩
  intro a
  match a with
  | ⟨0, _⟩ =>
    show win0_5.index _ (0 : Fin 2) * 16 ≤ (i 0).val ∧ (i 0).val < win0_5.index _ (0 : Fin 2) * 16 + 16
    have e : (100 * ((i 0).val / 16) + 99) / 100 = (i 0).val / 16 := by omega
    simp only [] at *
    omega
  | ⟨1, _⟩ =>
    show win0_5.index _ (1 : Fin 2) * 64 ≤ (i 1).val ∧ (i 1).val < win0_5.index _ (1 : Fin 2) * 64 + 64
    omega

end Cert.KernelIdeal.Hand

end
-- ==== Proof.Val.PayLayout.lean ====
/-
  Layout operations of the three kernels read at an index given by coordinates.

  Every kernel takes a coordinate of its points by cutting the last axis of a [rows, points, 2] block to width one and
  dropping that axis, takes a coordinate of the centers the same way from the [centers, 2] block, puts the points'
  coordinate back on a trailing unit axis and the centers' on two leading unit axes, and broadcasts both to
  [rows, points, centers]; after the pointwise arithmetic it sums over the points' axis. Each lemma here reads one of
  these operations at an index written with its coordinates, as the operand at an index written the same way, for any
  extents. The lane sum, and the four composite reads the kernels share (a coordinate of the points, a coordinate of the
  centers, a [16, 200] array over the centers, a [64] array over the rows and points), are stated at the kernels' own shapes.
-/
import proofs.«126384_j71554155151373_1_alg».proof.Proof.Gen.KernelIdeal
import Idealize.ShloMosaic.Lib.ValueIdx
import Idealize.ShloMosaic.Lib.ValueLayout
import Idealize.ShloMosaic.PureOps.Ideal.Laws

namespace Cert.KernelIdeal.PayValue

open Cert.KernelIdeal Cert.KernelIdeal.Gen Idealize.ShloMosaic Idealize.ShloMosaic.ValueIdx

variable {α : Type}

/-! ## Casts that drop or add unit axes -/

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[1, 1, a]` reads, at `(u, v, i)`, the operand at `i`, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts to [rows, points, centers] -/

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A cut along the last axis of a rank-3 array -/

/-- A rank-3 array cut along axis 2 from `o` reads, at `(p, q, j)`, the source at `(p, q, e)` with `e = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (e : Fin n2) (he : e.val = o + j.val) :
    extractStridedSlice ⟨3, ![n0, n1, m]⟩ ![0, 0, o] X h (ix3 p q j) = X (ix3 p q e) :=
  extractStridedSlice_apply _ _ _ _ _ (fun ax => by
    match ax with
    | ⟨0, _⟩ => exact (Nat.zero_add _).symm
    | ⟨1, _⟩ => exact (Nat.zero_add _).symm
    | ⟨2, _⟩ => exact he)

/-! ## The absolute value and the lane sum on the extended reals -/

/-- An absolute value at an index is the larger of the element and its negation. -/
theorem absf_apply {s : Shape} {φ : FTy} (v : FVec Ideal s φ) (i : s.Idx) : absf v i = max (v i) (-(v i)) := rfl

/-- The sum over the points' axis of a [16, 200, 64] array, read at `(p, k)`: the sum over the 200 points `q` of the
    array at `(p, q, k)`. The accumulator's word is the sum's neutral one and contributes nothing. -/
theorem laneSum_apply (v : FVec Ideal ⟨3, ![16, 200, 64]⟩ .f32)
    (h : (⟨3, ![16, 200, 64]⟩ : Shape).Reduces [1] ⟨2, ![16, 64]⟩) (hφ : FKind.Formats .f32)
    (hacc : (0x00000000#32 : BitVec 32) = 0x00000000#32) (p : Fin 16) (k : Fin 64) :
    multiReduction (F := Ideal) .add [1] ⟨2, ![16, 64]⟩ v 0x00000000#32 h hφ hacc (ix2 p k)
      = ∑ q : Fin 200, v (ix3 p q k) := by
  refine (Ideal.multiReduction_add_single v 0x00000000#32 h hφ hacc (ix2 p k)).trans ?_
  refine Finset.sum_congr rfl fun q _ => congrArg v ?_
  funext ax
  match ax with
  | ⟨0, _⟩ => rfl
  | ⟨1, _⟩ => rfl
  | ⟨2, _⟩ => rfl

/-! ## The composite reads the three kernels share -/

/-- A [16, 200] array put on a trailing unit axis and broadcast over the 64 centers reads, at `(p, q, k)`, the array
    at `(p, q)`. -/
theorem overCenters_apply (v : FVec Ideal S16x200 .f32) (p : Fin 16) (q : Fin 200) (k : Fin 64) :
    broadcastTo S16x200x64 (shapeCast S16x200x1 v shapeCasts_S16x200_S16x200x1) broadcasts_S16x200x1_S16x200x64 (ix3 p q k)
      = v (ix2 p q) :=
  (broadcastTo_ab1_abc_apply _ _ p q k).trans (shapeCast_ab_ab1_apply v _ p q 0)

/-- A [64] array put on two leading unit axes and broadcast over the 16 rows and 200 points reads, at `(p, q, k)`, the
    array at `k`. -/
theorem overPoints_apply (c : FVec Ideal S64 .f32) (p : Fin 16) (q : Fin 200) (k : Fin 64) :
    broadcastTo S16x200x64 (shapeCast S1x1x64 c shapeCasts_S64_S1x1x64) broadcasts_S1x1x64_S16x200x64 (ix3 p q k)
      = c (ix1 k) :=
  (broadcastTo_11c_abc_apply _ _ p q k).trans (shapeCast_a_11a_apply c _ 0 0 k)

/-- Coordinate `e` of the points: the [16, 200, 2] block cut to width one from `e` along its last axis, that axis
    dropped, reads at `(p, q)` the block at `(p, q, e)`. -/
theorem pointCoord_apply (x : Vec Ideal S16x200x2 .f32) (o : ℕ) (h : S16x200x2.Slices ![0, 0, o] S16x200x1)
    (e : Fin 2) (he : e.val = o) (p : Fin 16) (q : Fin 200) :
    shapeCast S16x200 (extractStridedSlice S16x200x1 ![0, 0, o] x h) shapeCasts_S16x200x1_S16x200 (ix2 p q)
      = x (ix3 p q e) :=
  (shapeCast_ab1_ab_apply _ _ p q).trans (slice3_axis2_apply o x h p q 0 e (by rw [he]; rfl))

/-- Coordinate `e` of the centers: the [64, 2] block cut to width one from `e` along its last axis, that axis dropped,
    reads at `k` the block at `(k, e)`. -/
theorem centerCoord_apply (cen : Vec Ideal S64x2 .f32) (o : ℕ) (h : S64x2.Slices ![0, o] S64x1)
    (e : Fin 2) (he : e.val = o) (k : Fin 64) :
    shapeCast S64 (extractStridedSlice S64x1 ![0, o] cen h) shapeCasts_S64x1_S64 (ix1 k) = cen (ix2 k e) :=
  (shapeCast_a1_a_apply _ _ k).trans (slice2_axis1_apply o cen h k 0 e (by rw [he]; rfl))

/-- The radius block's one entry. -/
theorem radiusEntry_apply (r : Vec Ideal S1x1 .f32) (h : ∀ a, (![0, 0] : Fin 2 → Nat) a < S1x1.size a) :
    extractAt ![0, 0] r h = r (ix2 0 0) := by
  unfold extractAt
  refine congrArg r ?_
  funext ax
  match ax with
  | ⟨0, _⟩ => rfl
  | ⟨1, _⟩ => rfl

end Cert.KernelIdeal.PayValue
-- ==== Proof.Val.PayDirect.lean ====
/-
  The direct kernel's stored values read at an index, on the extended reals.

  At every grid point the kernel holds a [16, 200, 2] block of UP points, one of DOWN points, the [64, 2] centers and the
  radius magnitude `ρ` (the [1, 1] block's one entry). At `(p, q, k)` — batch row `p`, point `q`, center `k` — it forms
  the L1 distance `d` of the point `(a, b)` (the block at `(p, q, 0)` and `(p, q, 1)`) to the center `(cx, cy)` (the centers
  at `(k, 0)` and `(k, 1)`), then `1 / (1 + d) - 1 / (1 + |ρ - d|)`: the rational hat of `Cert.Spec`, term for term. It
  sums the hat over the 200 points and adds the sum to the accumulator it loaded. So each accumulator's stored value at
  `(p, k)` is its loaded value there plus the sum over the block's 200 points of the hat at center `k`
  (`up0_apply`, `down0_apply`); at the first point of a row of the grid both accumulators are first set to zero
  (`zero_up0`, `zero_down0`). Only the order in which the kernel itself adds is used: nothing is rearranged.
-/
import proofs.«126384_j71554155151373_1_alg».proof.Proof.Gen.KernelIdeal.Skeleton
import proofs.«126384_j71554155151373_1_alg».proof.Proof.Val.Spec
import proofs.«126384_j71554155151373_1_alg».proof.Proof.Val.PayLayout

noncomputable section

namespace Cert.KernelIdeal.PayValue

open Cert.KernelIdeal Cert.KernelIdeal.Gen Cert.Spec Idealize.ShloMosaic Idealize.ShloMosaic.ValueIdx

/-! ## The zero fills -/

/-- The UP accumulator's fill is zero everywhere. -/
theorem zero_up0 (bb : Fin 16) (k : Fin 64) : k0_pay1 (F := Ideal) (ix2 bb k) = 0 := by
  unfold k0_pay1
  rw [shapeCast_self]
  exact Ideal.ofBits_zero_f32

/-- The DOWN accumulator's fill is zero everywhere. -/
theorem zero_down0 (bb : Fin 16) (k : Fin 64) : k0_pay2 (F := Ideal) (ix2 bb k) = 0 := by
  unfold k0_pay2
  rw [shapeCast_self]
  exact Ideal.ofBits_zero_f32

/-! ## The centers' coordinates and the radius -/

/-- The centers' first coordinates: `cx k`. -/
theorem cx0_apply (cen : Vec Ideal S64x2 .f32) (k : Fin 64) : k0_pay3 cen (ix1 k) = cen (ix2 k 0) :=
  centerCoord_apply cen 0 _ 0 rfl k

/-- The centers' second coordinates: `cy k`. -/
theorem cy0_apply (cen : Vec Ideal S64x2 .f32) (k : Fin 64) : k0_pay4 cen (ix1 k) = cen (ix2 k 1) :=
  centerCoord_apply cen 1 _ 1 rfl k

/-- The radius magnitude. -/
theorem rad0_apply (r : Vec Ideal S1x1 .f32) : k0_pay5 r = r (ix2 0 0) :=
  radiusEntry_apply r _

/-! ## The UP side: distance, the two quotients, the accumulated sum -/

/-- The L1 distance of UP point `q` of row `bb` to center `k`. -/
theorem dist0_apply (cen : Vec Ideal S64x2 .f32) (x : Vec Ideal S16x200x2 .f32) (bb : Fin 16) (q : Fin 200) (k : Fin 64) :
    k0_pay6 cen x (ix3 bb q k) = dist (x (ix3 bb q 0)) (x (ix3 bb q 1)) (cen (ix2 k 0)) (cen (ix2 k 1)) := by
  unfold k0_pay6 Spec.dist
  simp only [addf_apply, absf_apply, subf_apply, overCenters_apply, overPoints_apply]
  rw [pointCoord_apply x 0 _ 0 rfl, pointCoord_apply x 1 _ 1 rfl, cx0_apply, cy0_apply]

/-- The hat's first quotient, `1 / (1 + d)`. -/
theorem recip0_apply (cen : Vec Ideal S64x2 .f32) (x : Vec Ideal S16x200x2 .f32) (bb : Fin 16) (q : Fin 200) (k : Fin 64) :
    k0_pay7 cen x (ix3 bb q k)
      = Ideal.div one (one + dist (x (ix3 bb q 0)) (x (ix3 bb q 1)) (cen (ix2 k 0)) (cen (ix2 k 1))) := by
  unfold k0_pay7
  simp only [divf_apply, addf_apply, broadcast_apply, dist0_apply]
  rfl

/-- The second quotient's divisor, `1 + |ρ - d|`. -/
theorem gap0_apply (cen : Vec Ideal S64x2 .f32) (r : Vec Ideal S1x1 .f32) (x : Vec Ideal S16x200x2 .f32)
    (bb : Fin 16) (q : Fin 200) (k : Fin 64) :
    k0_pay8 cen r x (ix3 bb q k)
      = one + max (r (ix2 0 0) - dist (x (ix3 bb q 0)) (x (ix3 bb q 1)) (cen (ix2 k 0)) (cen (ix2 k 1)))
          (-(r (ix2 0 0) - dist (x (ix3 bb q 0)) (x (ix3 bb q 1)) (cen (ix2 k 0)) (cen (ix2 k 1)))) := by
  unfold k0_pay8
  simp only [addf_apply, absf_apply, subf_apply, broadcast_apply, dist0_apply, rad0_apply]
  rfl

/-- THE UP ACCUMULATOR'S STORE at `(bb, k)`: what it held plus the sum of the hats of the block's 200 UP points at
    center `k`. -/
theorem up0_apply (prev : Vec Ideal S16x64 .f32) (cen : Vec Ideal S64x2 .f32) (r : Vec Ideal S1x1 .f32)
    (x : Vec Ideal S16x200x2 .f32) (bb : Fin 16) (k : Fin 64) :
    k0_pay9 prev (k0_pay7 cen x) (k0_pay8 cen r x) (Scalar.ofBits .f32 0x3F800000#32) (ix2 bb k)
      = prev (ix2 bb k)
        + ∑ q : Fin 200, hat (r (ix2 0 0)) (x (ix3 bb q 0)) (x (ix3 bb q 1)) (cen (ix2 k 0)) (cen (ix2 k 1)) := by
  unfold k0_pay9
  simp only [shapeCast_self, addf_apply]
  refine congrArg (prev (ix2 bb k) + ·) ((laneSum_apply _ _ _ _ bb k).trans ?_)
  refine Finset.sum_congr rfl fun q _ => ?_
  simp only [subf_apply, divf_apply, broadcast_apply, recip0_apply, gap0_apply]
  rfl

/-! ## The DOWN side: the same chain in one stored value -/

/-- THE DOWN ACCUMULATOR'S STORE at `(bb, k)`: what it held plus the sum of the hats of the block's 200 DOWN points at
    center `k`. -/
theorem down0_apply (prev : Vec Ideal S16x64 .f32) (cen : Vec Ideal S64x2 .f32) (r : Vec Ideal S1x1 .f32)
    (x : Vec Ideal S16x200x2 .f32) (bb : Fin 16) (k : Fin 64) :
    k0_pay10 (k0_pay3 cen) (k0_pay4 cen) (k0_pay5 r) x prev (ix2 bb k)
      = prev (ix2 bb k)
        + ∑ q : Fin 200, hat (r (ix2 0 0)) (x (ix3 bb q 0)) (x (ix3 bb q 1)) (cen (ix2 k 0)) (cen (ix2 k 1)) := by
  unfold k0_pay10
  simp only [shapeCast_self, addf_apply]
  refine congrArg (prev (ix2 bb k) + ·) ((laneSum_apply _ _ _ _ bb k).trans ?_)
  refine Finset.sum_congr rfl fun q _ => ?_
  simp only [subf_apply, divf_apply, addf_apply, absf_apply, broadcast_apply, overCenters_apply, overPoints_apply]
  rw [pointCoord_apply x 0 _ 0 rfl, pointCoord_apply x 1 _ 1 rfl, cx0_apply, cy0_apply, rad0_apply]
  rfl

end Cert.KernelIdeal.PayValue

end
-- ==== Proof.Val.SumLaws.lean ====
/-
  Three laws of finite sums in a commutative additive monoid, the only algebra the certificate needs of the sum over a
  row's 40000 points: the sum over `Fin 40000` is the sum over the first 20000 indices plus the sums over the next two
  stretches of 10000; and a sum over `n * k` consecutive indices is the sum over `n` tiles of `k` consecutive indices
  each. Commutativity and associativity of the addition are all that is used; nothing is assumed finite.
-/
import Mathlib.Algebra.BigOperators.Fin
import Mathlib.Data.Fintype.BigOperators
import Mathlib.Logic.Equiv.Fin.Basic

open scoped BigOperators

namespace Cert.SumLaws

variable {M : Type*} [AddCommMonoid M]

/-- A sum over `a + b + c` consecutive indices is the sum over the first `a`, plus the next `b`, plus the last `c`. -/
theorem sum_three (a b c : ℕ) (g : Fin (a + b + c) → M) :
    ∑ p, g p = ∑ p : Fin a, g ⟨p.val, by omega⟩ + ∑ p : Fin b, g ⟨a + p.val, by omega⟩
      + ∑ p : Fin c, g ⟨a + b + p.val, by omega⟩ := by
  rw [Fin.sum_univ_add, Fin.sum_univ_add]
  rfl

/-- The 40000 points of a row: the 20000 direct points, then the two stretches of 10000 derived points. -/
theorem sum_three_parts (g : Fin 40000 → M) :
    ∑ p, g p = ∑ p : Fin 20000, g ⟨p.val, by omega⟩ + ∑ p : Fin 10000, g ⟨20000 + p.val, by omega⟩
      + ∑ p : Fin 10000, g ⟨30000 + p.val, by omega⟩ :=
  sum_three 20000 10000 10000 g

/-- Position `q` of tile `j`, of `n` tiles of `k` positions each, is below `n * k`. -/
theorem tile_lt {n k : ℕ} (j : Fin n) (q : Fin k) : j.val * k + q.val < n * k :=
  calc j.val * k + q.val < j.val * k + k := Nat.add_lt_add_left q.isLt _
    _ = (j.val + 1) * k := (Nat.succ_mul _ _).symm
    _ ≤ n * k := Nat.mul_le_mul_right k j.isLt

/-- A sum over `n * k` consecutive indices, tile by tile: tile `j` holds the indices `j * k + q`, `q < k`. -/
theorem sum_tiles (n k : ℕ) (g : Fin (n * k) → M) :
    ∑ p, g p = ∑ j : Fin n, ∑ q : Fin k, g ⟨j.val * k + q.val, tile_lt j q⟩ := by
  rw [← (finProdFinEquiv (m := n) (n := k)).sum_comp g, Fintype.sum_prod_type]
  refine Finset.sum_congr rfl fun j _ => Finset.sum_congr rfl fun q _ => congrArg g (Fin.ext ?_)
  show q.val + k * j.val = j.val * k + q.val
  rw [Nat.mul_comm, Nat.add_comm]

/-- The 20000 direct points of a row as 100 tiles of 200. -/
theorem sum_tiles_direct (g : Fin 20000 → M) :
    ∑ p, g p = ∑ j : Fin 100, ∑ q : Fin 200, g ⟨j.val * 200 + q.val, by omega⟩ :=
  sum_tiles 100 200 g

/-- The 10000 derived points of a row as 50 tiles of 200. -/
theorem sum_tiles_derived (g : Fin 10000 → M) :
    ∑ p, g p = ∑ j : Fin 50, ∑ q : Fin 200, g ⟨j.val * 200 + q.val, by omega⟩ :=
  sum_tiles 50 200 g

end Cert.SumLaws
-- ==== Proof.Val.Tiles.lean ====
/-
  The readouts' partial sums cut into point tiles. The 20000 direct points of a batch row are 100 tiles of 200, the
  10000 derived points 50 tiles of 200; the sum over the points is the sum over the tiles of each tile's sum. The kernels
  add one tile's sum per grid point, so these are the terms their accumulators collect.
-/
import proofs.«126384_j71554155151373_1_alg».proof.Proof.Val.Spec
import proofs.«126384_j71554155151373_1_alg».proof.Proof.Val.Coords
import proofs.«126384_j71554155151373_1_alg».proof.Proof.Val.SumLaws

noncomputable section

namespace Cert.Tiles

open Idealize.ShloMosaic Idealize.ShloMosaic.ValueIdx Cert.Spec Cert.Coords

/-- A function of a row and a center, read at an index of a readout array. -/
def onIdx (f : Fin 32 → Fin 64 → EReal) : SReadout.Idx → EReal := fun i => f ⟨(i 0).val, (i 0).isLt⟩ ⟨(i 1).val, (i 1).isLt⟩
theorem onIdx_ix2 (f : Fin 32 → Fin 64 → EReal) (r : Fin 32) (k : Fin 64) : onIdx f (ix2 r k) = f r k := rfl

/-- Point tile `j`'s 200 direct points of row `16·bt + bb`: the sum of their hats at center `k`. -/
def tileDirect (pts : SDirect.Idx → EReal) (cen : SCenters.Idx → EReal) (r : EReal)
    (bt : Fin 2) (j : Fin 100) (bb : Fin 16) (k : Fin 64) : EReal :=
  ∑ q : Fin 200, hat r (pts (ix3 (row bt bb) (pnt100 j q) 0)) (pts (ix3 (row bt bb) (pnt100 j q) 1)) (cen (ix2 k 0)) (cen (ix2 k 1))

/-- Point tile `j`'s 200 derived points `(e, 1 - e)`, `e` the coordinate `a` of each row of `ext`: the sum of their hats. -/
def tileDerived (a : Fin 2) (ext : SDerived.Idx → EReal) (cen : SCenters.Idx → EReal) (r : EReal)
    (bt : Fin 2) (j : Fin 50) (bb : Fin 16) (k : Fin 64) : EReal :=
  ∑ q : Fin 200, hat r (ext (ix3 (row bt bb) (pnt50 j q) a)) (one - ext (ix3 (row bt bb) (pnt50 j q) a)) (cen (ix2 k 0)) (cen (ix2 k 1))

/-- The direct sum of a row is the sum of its 100 tiles' sums. -/
theorem direct_eq_tiles (pts : SDirect.Idx → EReal) (cen : SCenters.Idx → EReal) (r : EReal) (bt : Fin 2) (bb : Fin 16) (k : Fin 64) :
    direct pts cen r (row bt bb) k = ∑ j : Fin 100, tileDirect pts cen r bt j bb k := by
  unfold direct tileDirect
  rw [Cert.SumLaws.sum_tiles_direct]
  rfl

/-- The derived sum of a row is the sum of its 50 tiles' sums. -/
theorem derived_eq_tiles (a : Fin 2) (ext : SDerived.Idx → EReal) (cen : SCenters.Idx → EReal) (r : EReal) (bt : Fin 2) (bb : Fin 16) (k : Fin 64) :
    derived a ext cen r (row bt bb) k = ∑ j : Fin 50, tileDerived a ext cen r bt j bb k := by
  unfold derived tileDerived
  rw [Cert.SumLaws.sum_tiles_derived]
  rfl

end Cert.Tiles

end
-- ==== Proof.Val.Fold.lean ====
/-
  An accumulator that starts at its first term and adds one term per step holds, after step `p`, the sum of the first
  `p + 1` terms. Only the monoid laws of addition are used.
-/
import Mathlib.Algebra.BigOperators.Fin

namespace Cert.Fold

/-- `s 0 = f 0` and `s (p + 1) = s p + f (p + 1)` give `s p = ∑ j ≤ p, f j`, over indices below `n`. -/
theorem acc_eq_sum {M : Type*} [AddCommMonoid M] (n : ℕ) (s f : Fin n → M)
    (h0 : ∀ h : 0 < n, s ⟨0, h⟩ = f ⟨0, h⟩)
    (hs : ∀ (p : ℕ) (h : p + 1 < n), s ⟨p + 1, h⟩ = s ⟨p, by omega⟩ + f ⟨p + 1, h⟩) :
    ∀ (p : ℕ) (h : p < n), s ⟨p, h⟩ = ∑ j : Fin (p + 1), f ⟨j.val, by omega⟩ := by
  intro p
  induction p with
  | zero =>
    intro h
    rw [h0 h, Fin.sum_univ_one]
    rfl
  | succ p ih =>
    intro h
    rw [hs p h, ih (by omega), Fin.sum_univ_castSucc (n := p + 1)]
    rfl

/-- At the last index the sum runs over all of `Fin n`. -/
theorem acc_last_eq_sum {M : Type*} [AddCommMonoid M] (n : ℕ) (s f : Fin (n + 1) → M)
    (h0 : s ⟨0, by omega⟩ = f ⟨0, by omega⟩)
    (hs : ∀ (p : ℕ) (h : p + 1 < n + 1), s ⟨p + 1, h⟩ = s ⟨p, by omega⟩ + f ⟨p + 1, h⟩) :
    s ⟨n, by omega⟩ = ∑ j : Fin (n + 1), f j := by
  rw [acc_eq_sum (n + 1) s f (fun _ => h0) hs n (by omega)]

end Cert.Fold
-- ==== Proof.KI.Accum0.lean ====
/-
  Region 0's accumulators, on the extended reals. Within batch tile `bt` the kernel zeroes its two scratch accumulators at the
  tile's first grid point and adds one point tile's sums at every point, so after point `100·bt + p` each accumulator holds, at
  row `bb` and center `k`, the sum over the point tiles `0 … p` of that tile's 200 hats; at the batch tile's last point it
  copies the accumulators to the two outputs' blocks, which the pipeline writes back. So each output array ends holding,
  at row `16·bt + bb`, the whole sum over its side's points: the specification's partial sum.
-/
import proofs.«126384_j71554155151373_1_alg».proof.Proof.KI.R0Acc
import proofs.«126384_j71554155151373_1_alg».proof.Proof.KI.Blocks0
import proofs.«126384_j71554155151373_1_alg».proof.Proof.Val.PayDirect
import proofs.«126384_j71554155151373_1_alg».proof.Proof.Val.Tiles
import proofs.«126384_j71554155151373_1_alg».proof.Proof.Val.Fold

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec Cert.Coords Cert.Tiles Cert.KernelIdeal.PayValue

variable (V : (c : Dev nD) → (b : Ref sig .tc) → Buf (Elt Ideal) ((c : Thread nD τ).loc b))

/-- The accumulation at two spellings of one position. -/
theorem acc0_congr (c : Dev nD) {n n' : ℕ} (h : n = n') (hn : n < cfg0.N) (hn' : n' < cfg0.N) :
    acc0 V c n hn = acc0 V c n' hn' := by subst h; rfl

/-- The last point tile of a batch tile. -/
abbrev lastTile0 : Fin 100 := ⟨99, by decide⟩

/-! ## The up accumulator -/

/-- After point `100·bt + p`: the sum of the point tiles `0 … p`. -/
theorem scratch0_up (c : Dev nD) (bt : Fin 2) (bb : Fin 16) (k : Fin 64) (p : ℕ) (hp : p < 100) :
    (acc0 V c (point0 bt ⟨p, hp⟩).val (point0 bt ⟨p, hp⟩).isLt).2.2.1 (ix2 bb k)
      = ∑ j : Fin (p + 1), tileDirect (V c main_arg0) (V c main_arg4) (V c main_v2 (ix2 0 0)) bt ⟨j.val, by omega⟩ bb k := by
  refine Cert.Fold.acc_eq_sum 100 (fun p' => (acc0 V c (point0 bt p').val (point0 bt p').isLt).2.2.1 (ix2 bb k))
    (fun j => tileDirect (V c main_arg0) (V c main_arg4) (V c main_v2 (ix2 0 0)) bt j bb k) (fun h => ?_) (fun p' h => ?_) p hp
  · -- the batch tile's first point: the accumulator zeroed, then the first tile's sum
    have hfirst := acc0_scratch_first V c (point0 bt ⟨0, h⟩) (by show (100 * bt.val + 0) % 100 = 0; omega)
    show (acc0 V c (point0 bt ⟨0, h⟩).val (point0 bt ⟨0, h⟩).isLt).2.2.1 (ix2 bb k) = _
    rw [show (acc0 V c (point0 bt ⟨0, h⟩).val (point0 bt ⟨0, h⟩).isLt).2.2.1 = _ from congrArg Prod.fst hfirst]
    refine (up0_apply _ _ _ _ bb k).trans ?_
    rw [zero_up0 bb k, zero_add]
    unfold tileDirect
    refine Finset.sum_congr rfl fun q _ => ?_
    rw [iblk0_up V c bt ⟨0, h⟩ bb q 0, iblk0_up V c bt ⟨0, h⟩ bb q 1, iblk0_centers V c, iblk0_centers V c, iblk0_radius V c]
  · -- a later point: what the point before left, plus this tile's sum
    have hstep := acc0_scratch_step V c (point0 bt ⟨p' + 1, h⟩) (by show (100 * bt.val + (p' + 1)) % 100 ≠ 0; omega)
    show (acc0 V c (point0 bt ⟨p' + 1, h⟩).val (point0 bt ⟨p' + 1, h⟩).isLt).2.2.1 (ix2 bb k)
      = (acc0 V c (point0 bt ⟨p', by omega⟩).val (point0 bt ⟨p', by omega⟩).isLt).2.2.1 (ix2 bb k) + _
    rw [show (acc0 V c (point0 bt ⟨p' + 1, h⟩).val (point0 bt ⟨p' + 1, h⟩).isLt).2.2.1 = _ from congrArg Prod.fst hstep]
    refine (up0_apply _ _ _ _ bb k).trans ?_
    rw [acc0_congr V c (show (point0 bt ⟨p' + 1, h⟩).val - 1 = (point0 bt ⟨p', by omega⟩).val from by simp only [point0_val]; omega) _ (point0 bt ⟨p', by omega⟩).isLt]
    refine congrArg _ ?_
    unfold tileDirect
    refine Finset.sum_congr rfl fun q _ => ?_
    rw [iblk0_up V c bt ⟨p' + 1, h⟩ bb q 0, iblk0_up V c bt ⟨p' + 1, h⟩ bb q 1, iblk0_centers V c, iblk0_centers V c, iblk0_radius V c]

/-- What the last point of batch tile `bt` writes back to output window 4: the whole sum over the side's points. -/
theorem flushed0_up (c : Dev nD) (t : Fin cfg0.N) (hf : (cfg0.win 4).flush t = true) :
    (dat0 V c).flushed 4 t = ((cfg0.win 4).blk t).view.read (Elt Ideal)
      (onIdx (fun r k => direct (V c main_arg0) (V c main_arg4) (V c main_v2 (ix2 0 0)) r k)) := by
  have hN : cfg0.N = 200 := N_0
  have hlast : t.val % 100 = 99 := (flush0_4 t).mp hf
  obtain ⟨bt, ht⟩ : ∃ bt : Fin 2, t = point0 bt lastTile0 :=
    ⟨⟨t.val / 100, by have := t.isLt; omega⟩, Fin.ext (by simp only [point0_val]; omega)⟩
  clear hlast hf
  subst ht
  funext y
  obtain ⟨bb, k, rfl⟩ : ∃ (bb : Fin 16) (k : Fin 64), y = ix2 bb k := ⟨y 0, y 1, eq_ix2 y⟩
  rw [View.read_apply, place0_4 bt lastTile0 bb k]
  show (cfg0.win 4).cut (grid0.coords (point0 bt lastTile0)) ((dat0 V c).after 4 (point0 bt lastTile0)) (ix2 bb k) = _
  rw [after0_4]
  show (acc0 V c (point0 bt lastTile0).val (point0 bt lastTile0).isLt).1 (ix2 bb k) = _
  rw [(acc0_out_last V c (point0 bt lastTile0) (by show (100 * bt.val + 99) % 100 = 99; omega)).1]
  rw [scratch0_up V c bt bb k 99 (by omega)]
  rw [onIdx_ix2, direct_eq_tiles]
  rfl

/-- The output array of window 4 after the region: the side's partial sum, row by row. -/
theorem array0_up (c : Dev nD) :
    (dat0 V c).arrAt 4 cfg0.N = onIdx (fun r k => direct (V c main_arg0) (V c main_arg4) (V c main_v2 (ix2 0 0)) r k) :=
  (dat0 V c).arrAt_eq_of_cover 4 _ (fun t hf => flushed0_up V c t hf) (cover0_4)

/-! ## The down accumulator -/

/-- After point `100·bt + p`: the sum of the point tiles `0 … p`. -/
theorem scratch0_down (c : Dev nD) (bt : Fin 2) (bb : Fin 16) (k : Fin 64) (p : ℕ) (hp : p < 100) :
    (acc0 V c (point0 bt ⟨p, hp⟩).val (point0 bt ⟨p, hp⟩).isLt).2.2.2 (ix2 bb k)
      = ∑ j : Fin (p + 1), tileDirect (V c main_arg1) (V c main_arg4) (V c main_v2 (ix2 0 0)) bt ⟨j.val, by omega⟩ bb k := by
  refine Cert.Fold.acc_eq_sum 100 (fun p' => (acc0 V c (point0 bt p').val (point0 bt p').isLt).2.2.2 (ix2 bb k))
    (fun j => tileDirect (V c main_arg1) (V c main_arg4) (V c main_v2 (ix2 0 0)) bt j bb k) (fun h => ?_) (fun p' h => ?_) p hp
  · -- the batch tile's first point: the accumulator zeroed, then the first tile's sum
    have hfirst := acc0_scratch_first V c (point0 bt ⟨0, h⟩) (by show (100 * bt.val + 0) % 100 = 0; omega)
    show (acc0 V c (point0 bt ⟨0, h⟩).val (point0 bt ⟨0, h⟩).isLt).2.2.2 (ix2 bb k) = _
    rw [show (acc0 V c (point0 bt ⟨0, h⟩).val (point0 bt ⟨0, h⟩).isLt).2.2.2 = _ from congrArg Prod.snd hfirst]
    refine (down0_apply _ _ _ _ bb k).trans ?_
    rw [zero_down0 bb k, zero_add]
    unfold tileDirect
    refine Finset.sum_congr rfl fun q _ => ?_
    rw [iblk0_down V c bt ⟨0, h⟩ bb q 0, iblk0_down V c bt ⟨0, h⟩ bb q 1, iblk0_centers V c, iblk0_centers V c, iblk0_radius V c]
  · -- a later point: what the point before left, plus this tile's sum
    have hstep := acc0_scratch_step V c (point0 bt ⟨p' + 1, h⟩) (by show (100 * bt.val + (p' + 1)) % 100 ≠ 0; omega)
    show (acc0 V c (point0 bt ⟨p' + 1, h⟩).val (point0 bt ⟨p' + 1, h⟩).isLt).2.2.2 (ix2 bb k)
      = (acc0 V c (point0 bt ⟨p', by omega⟩).val (point0 bt ⟨p', by omega⟩).isLt).2.2.2 (ix2 bb k) + _
    rw [show (acc0 V c (point0 bt ⟨p' + 1, h⟩).val (point0 bt ⟨p' + 1, h⟩).isLt).2.2.2 = _ from congrArg Prod.snd hstep]
    refine (down0_apply _ _ _ _ bb k).trans ?_
    rw [acc0_congr V c (show (point0 bt ⟨p' + 1, h⟩).val - 1 = (point0 bt ⟨p', by omega⟩).val from by simp only [point0_val]; omega) _ (point0 bt ⟨p', by omega⟩).isLt]
    refine congrArg _ ?_
    unfold tileDirect
    refine Finset.sum_congr rfl fun q _ => ?_
    rw [iblk0_down V c bt ⟨p' + 1, h⟩ bb q 0, iblk0_down V c bt ⟨p' + 1, h⟩ bb q 1, iblk0_centers V c, iblk0_centers V c, iblk0_radius V c]

/-- What the last point of batch tile `bt` writes back to output window 5: the whole sum over the side's points. -/
theorem flushed0_down (c : Dev nD) (t : Fin cfg0.N) (hf : (cfg0.win 5).flush t = true) :
    (dat0 V c).flushed 5 t = ((cfg0.win 5).blk t).view.read (Elt Ideal)
      (onIdx (fun r k => direct (V c main_arg1) (V c main_arg4) (V c main_v2 (ix2 0 0)) r k)) := by
  have hN : cfg0.N = 200 := N_0
  have hlast : t.val % 100 = 99 := (flush0_5 t).mp hf
  obtain ⟨bt, ht⟩ : ∃ bt : Fin 2, t = point0 bt lastTile0 :=
    ⟨⟨t.val / 100, by have := t.isLt; omega⟩, Fin.ext (by simp only [point0_val]; omega)⟩
  clear hlast hf
  subst ht
  funext y
  obtain ⟨bb, k, rfl⟩ : ∃ (bb : Fin 16) (k : Fin 64), y = ix2 bb k := ⟨y 0, y 1, eq_ix2 y⟩
  rw [View.read_apply, place0_5 bt lastTile0 bb k]
  show (cfg0.win 5).cut (grid0.coords (point0 bt lastTile0)) ((dat0 V c).after 5 (point0 bt lastTile0)) (ix2 bb k) = _
  rw [after0_5]
  show (acc0 V c (point0 bt lastTile0).val (point0 bt lastTile0).isLt).2.1 (ix2 bb k) = _
  rw [(acc0_out_last V c (point0 bt lastTile0) (by show (100 * bt.val + 99) % 100 = 99; omega)).2]
  rw [scratch0_down V c bt bb k 99 (by omega)]
  rw [onIdx_ix2, direct_eq_tiles]
  rfl

/-- The output array of window 5 after the region: the side's partial sum, row by row. -/
theorem array0_down (c : Dev nD) :
    (dat0 V c).arrAt 5 cfg0.N = onIdx (fun r k => direct (V c main_arg1) (V c main_arg4) (V c main_v2 (ix2 0 0)) r k) :=
  (dat0 V c).arrAt_eq_of_cover 5 _ (fun t hf => flushed0_down V c t hf) (cover0_5)

end Cert.KernelIdeal.Hand

end
-- ==== Proof.KI.R1Acc.lean ====
import proofs.«126384_j71554155151373_1_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the accumulation over the payload terms

What each case leaves in the two accumulators (and, in the last case, in the two outputs) as ONE term in the
skeleton's payload functions, the point's input blocks and what the point before left. -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first case: the accumulators are zeroed, read back, and the tile's partial sums added -/

theorem sout1_A_0_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i) (x0 : Vec F S16x200x2 .f32) (x1 : Vec F S64x2 .f32) (x2 : Vec F S1x1 .f32) :
    sout1_A_0 c i arg2 harg2 arg3 harg3 arg4 harg4 arg5 harg5 arg6 harg6 arg7 harg7 arg8 harg8 hc0 hc1 x0 x1 x2 = k1_pay11 k1_pay1 (k1_pay8 x1 x0) (k1_pay9 x1 x2 x0) k1_pay10 := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout1_A_1_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond1_0 i) (hc1 : ¬cond1_1 i) (x0 : Vec F S16x200x2 .f32) (x1 : Vec F S64x2 .f32) (x2 : Vec F S1x1 .f32) :
    sout1_A_1 c i arg2 harg2 arg3 harg3 arg4 harg4 arg5 harg5 arg6 harg6 arg7 harg7 arg8 harg8 hc0 hc1 x0 x1 x2 = k1_pay12 (k1_pay3 x1) (k1_pay4 x1) (k1_pay5 x2) (k1_pay6 x0) k1_pay2 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

/-! ## The middle case: the tile's partial sums added to what the point before left -/

theorem sout1_B_0_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i) (x0 : Vec F S16x200x2 .f32) (x1 : Vec F S64x2 .f32) (x2 : Vec F S1x1 .f32) (xs0 xs1 : Vec F S16x64 .f32) :
    sout1_B_0 c i arg2 harg2 arg3 harg3 arg4 harg4 arg5 harg5 arg6 harg6 arg7 harg7 arg8 harg8 hc0 hc1 x0 x1 x2 xs0 xs1 = k1_pay11 xs0 (k1_pay8 x1 x0) (k1_pay9 x1 x2 x0) k1_pay10 := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout1_B_1_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : ¬cond1_1 i) (x0 : Vec F S16x200x2 .f32) (x1 : Vec F S64x2 .f32) (x2 : Vec F S1x1 .f32) (xs0 xs1 : Vec F S16x64 .f32) :
    sout1_B_1 c i arg2 harg2 arg3 harg3 arg4 harg4 arg5 harg5 arg6 harg6 arg7 harg7 arg8 harg8 hc0 hc1 x0 x1 x2 xs0 xs1 = k1_pay12 (k1_pay3 x1) (k1_pay4 x1) (k1_pay5 x2) (k1_pay6 x0) xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

/-! ## The last case: the same, and the accumulators copied to the outputs -/

theorem sout1_C_0_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i) (x0 : Vec F S16x200x2 .f32) (x1 : Vec F S64x2 .f32) (x2 : Vec F S1x1 .f32) (xs0 xs1 : Vec F S16x64 .f32) :
    sout1_C_0 c i arg2 harg2 arg3 harg3 arg4 harg4 arg5 harg5 arg6 harg6 arg7 harg7 arg8 harg8 hc0 hc1 x0 x1 x2 xs0 xs1 = k1_pay11 xs0 (k1_pay8 x1 x0) (k1_pay9 x1 x2 x0) k1_pay10 := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout1_C_1_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i) (x0 : Vec F S16x200x2 .f32) (x1 : Vec F S64x2 .f32) (x2 : Vec F S1x1 .f32) (xs0 xs1 : Vec F S16x64 .f32) :
    sout1_C_1 c i arg2 harg2 arg3 harg3 arg4 harg4 arg5 harg5 arg6 harg6 arg7 harg7 arg8 harg8 hc0 hc1 x0 x1 x2 xs0 xs1 = k1_pay12 (k1_pay3 x1) (k1_pay4 x1) (k1_pay5 x2) (k1_pay6 x0) xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem out1_C_3_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i) (x0 : Vec F S16x200x2 .f32) (x1 : Vec F S64x2 .f32) (x2 : Vec F S1x1 .f32) (xs0 xs1 : Vec F S16x64 .f32) :
    out1_C_3 c i arg2 harg2 arg3 harg3 arg4 harg4 arg5 harg5 arg6 harg6 arg7 harg7 arg8 harg8 hc0 hc1 x0 x1 x2 xs0 xs1 = k1_pay11 xs0 (k1_pay8 x1 x0) (k1_pay9 x1 x2 x0) k1_pay10 := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem out1_C_4_eq (c : Dev nD) (i : grid1.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond1_0 i) (hc1 : cond1_1 i) (x0 : Vec F S16x200x2 .f32) (x1 : Vec F S64x2 .f32) (x2 : Vec F S1x1 .f32) (xs0 xs1 : Vec F S16x64 .f32) :
    out1_C_4 c i arg2 harg2 arg3 harg3 arg4 harg4 arg5 harg5 arg6 harg6 arg7 harg7 arg8 harg8 hc0 hc1 x0 x1 x2 xs0 xs1 = k1_pay12 (k1_pay3 x1) (k1_pay4 x1) (k1_pay5 x2) (k1_pay6 x0) xs1 := by
  unfold out1_C_4
  rw [View.read_writes_eq_canon _ _ _ (cover1_C_4 c i arg2 harg2 arg3 harg3 arg4 harg4 arg5 harg5 arg6 harg6 arg7 harg7 arg8 harg8 hc0 hc1 x0 x1 x2 xs0 xs1)]
  unfold kernelRun1_C
  dsimp only
  sl_unfold_words
  rw [View.canon_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

section
variable (V : (c : Dev nD) → (b : Ref sig .tc) → Buf (Elt F) ((c : Thread nD τ).loc b))

/-! ## Point by point -/

/-- Where the second coordinate is 0 the accumulators restart from the zero payloads. -/
theorem acc1_scratch_first (c : Dev nD) (t : Fin cfg1.N) (h : t.val % 50 = 0) :
    ((acc1 V c t.val t.isLt).2.2.1, (acc1 V c t.val t.isLt).2.2.2)
      = (k1_pay11 k1_pay1 (k1_pay8 (iblk1 V c 1 t) (iblk1 V c 0 t)) (k1_pay9 (iblk1 V c 1 t) (iblk1 V c 2 t) (iblk1 V c 0 t)) k1_pay10,
         k1_pay12 (k1_pay3 (iblk1 V c 1 t)) (k1_pay4 (iblk1 V c 1 t)) (k1_pay5 (iblk1 V c 2 t)) (k1_pay6 (iblk1 V c 0 t)) k1_pay2) := by
  have h1 : ¬t.val % 50 = 49 := by omega
  rw [acc1_A V c t h h1]; unfold accA; dsimp only
  rw [sout1_A_0_eq, sout1_A_1_eq]

/-- Elsewhere they continue from what the point before left. -/
theorem acc1_scratch_step (c : Dev nD) (t : Fin cfg1.N) (h : t.val % 50 ≠ 0) :
    ((acc1 V c t.val t.isLt).2.2.1, (acc1 V c t.val t.isLt).2.2.2)
      = (k1_pay11 (acc1 V c (t.val - 1) (Nat.lt_of_le_of_lt (Nat.sub_le _ _) t.isLt)).2.2.1 (k1_pay8 (iblk1 V c 1 t) (iblk1 V c 0 t)) (k1_pay9 (iblk1 V c 1 t) (iblk1 V c 2 t) (iblk1 V c 0 t)) k1_pay10,
         k1_pay12 (k1_pay3 (iblk1 V c 1 t)) (k1_pay4 (iblk1 V c 1 t)) (k1_pay5 (iblk1 V c 2 t)) (k1_pay6 (iblk1 V c 0 t)) (acc1 V c (t.val - 1) (Nat.lt_of_le_of_lt (Nat.sub_le _ _) t.isLt)).2.2.2) := by
  by_cases h1 : t.val % 50 = 49
  · rw [acc1_C V c t h h1]; unfold accC; dsimp only
    rw [sout1_C_0_eq, sout1_C_1_eq]
  · rw [acc1_B V c t h h1]; unfold accB; dsimp only
    rw [sout1_B_0_eq, sout1_B_1_eq]

/-- Where the second coordinate is 49 the two outputs' staging buffers hold the accumulators. -/
theorem acc1_out_last (c : Dev nD) (t : Fin cfg1.N) (h : t.val % 50 = 49) :
    (acc1 V c t.val t.isLt).1 = (acc1 V c t.val t.isLt).2.2.1 ∧ (acc1 V c t.val t.isLt).2.1 = (acc1 V c t.val t.isLt).2.2.2 := by
  have h0 : ¬t.val % 50 = 0 := by omega
  rw [acc1_C V c t h0 h]; unfold accC; dsimp only
  rw [out1_C_3_eq, out1_C_4_eq, sout1_C_0_eq, sout1_C_1_eq]
  exact ⟨rfl, rfl⟩

end

end Cert.KernelIdeal.Hand

end
-- ==== Proof.KI.Blocks1.lean ====
/-
  Where region 1's blocks sit. At grid point `t = 50·bt + j` the batch tile is `bt` and the point tile `j`: a point window's
  block is rows `16·bt … +15`, points `200·j … +199` of its array; the centers' and the radius' windows are their whole
  arrays at every point; an output's block is rows `16·bt … +15`, all 64 columns, and is written back at the last point of
  its batch tile only, so the two batch tiles' blocks tile the output.
-/
import proofs.«126384_j71554155151373_1_alg».proof.Proof.KI.R1Base
import proofs.«126384_j71554155151373_1_alg».proof.Proof.Val.Coords
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Coords

variable {F : FTy → Type} [FloatOps F]
variable (V : (c : Dev nD) → (b : Ref sig .tc) → Buf (Elt F) ((c : Thread nD τ).loc b))

/-- The printed index maps of region 1's windows, decided over the grid. -/
theorem where1 : ∀ t : Fin cfg1.N,
    win1_0.index t (0 : Fin 3) = t.val / 50 ∧ win1_0.index t (1 : Fin 3) = t.val % 50 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 50 ∧ win1_3.index t (1 : Fin 2) = 0
    ∧ win1_4.index t (0 : Fin 2) = t.val / 50 ∧ win1_4.index t (1 : Fin 2) = 0 :=
  (by decide +kernel : ∀ t : Fin grid1.N, _)

/-- Grid point `50·bt + j`. -/
def point1 (bt : Fin 2) (j : Fin 50) : Fin cfg1.N := ⟨50 * bt.val + j.val, by have : cfg1.N = 100 := N_1; omega⟩
@[simp] theorem point1_val (bt : Fin 2) (j : Fin 50) : (point1 bt j).val = 50 * bt.val + j.val := rfl

/-- The ext points' block at point `50·bt + j`, entry by entry: row `16·bt + bb`, point `200·j + q` of the array. -/
theorem iblk1_ext (c : Dev nD) (bt : Fin 2) (j : Fin 50) (bb : Fin 16) (q : Fin 200) (e : Fin 2) :
    iblk1 V c 0 (point1 bt j) (ix3 bb q e) = V c main_arg2 (ix3 (row bt bb) (pnt50 j q) e) := by
  show V c main_arg2 (((cfg1.win 0).blk (point1 bt j)).view.emb (ix3 bb q e)) = _
  refine congrArg _ ?_
  obtain ⟨f0, f1, f2, f3, f4, f5, f6, f7, f8, f9, f10⟩ := where1 (point1 bt j)
  have hbt : bt.val < 2 := bt.isLt
  have hj : j.val < 50 := j.isLt
  simp only [point1_val] at *
  funext a; apply Fin.ext
  match a with
  | ⟨0, _⟩ => show win1_0.index (point1 bt j) (0 : Fin 3) * 16 + 1 * bb.val = 16 * bt.val + bb.val; omega
  | ⟨1, _⟩ => show win1_0.index (point1 bt j) (1 : Fin 3) * 200 + 1 * q.val = j.val * 200 + q.val; omega
  | ⟨2, _⟩ => show win1_0.index (point1 bt j) (2 : Fin 3) * 2 + 1 * e.val = e.val; omega

/-- The centers' block at any point is the centers' array. -/
theorem iblk1_centers (c : Dev nD) (t : Fin cfg1.N) (k : Fin 64) (e : Fin 2) :
    iblk1 V c 1 t (ix2 k e) = V c main_arg4 (ix2 k e) := by
  show V c main_arg4 (((cfg1.win 1).blk t).view.emb (ix2 k e)) = _
  refine congrArg _ ?_
  obtain ⟨f0, f1, f2, f3, f4, f5, f6, f7, f8, f9, f10⟩ := where1 t
  funext a; apply Fin.ext
  match a with
  | ⟨0, _⟩ => show win1_1.index t (0 : Fin 2) * 64 + 1 * k.val = k.val; omega
  | ⟨1, _⟩ => show win1_1.index t (1 : Fin 2) * 2 + 1 * e.val = e.val; omega

/-- The radius' block at any point is the 1×1 array the host prepared. -/
theorem iblk1_radius (c : Dev nD) (t : Fin cfg1.N) :
    iblk1 V c 2 t (ix2 0 0) = V c main_v2 (ix2 0 0) := by
  show V c main_v2 (((cfg1.win 2).blk t).view.emb (ix2 0 0)) = _
  refine congrArg _ ?_
  obtain ⟨f0, f1, f2, f3, f4, f5, f6, f7, f8, f9, f10⟩ := where1 t
  funext a; apply Fin.ext
  match a with
  | ⟨0, _⟩ => show win1_2.index t (0 : Fin 2) * 1 + 1 * 0 = 0; omega
  | ⟨1, _⟩ => show win1_2.index t (1 : Fin 2) * 1 + 1 * 0 = 0; omega

/-- Where an entry of output window 3's block at point `50·bt + j` sits in the output array. -/
theorem place1_3 (bt : Fin 2) (j : Fin 50) (bb : Fin 16) (k : Fin 64) :
    ((cfg1.win 3).blk (point1 bt j)).view.emb (ix2 bb k) = ix2 (row bt bb) k := by
  obtain ⟨f0, f1, f2, f3, f4, f5, f6, f7, f8, f9, f10⟩ := where1 (point1 bt j)
  have hbt : bt.val < 2 := bt.isLt
  have hj : j.val < 50 := j.isLt
  simp only [point1_val] at *
  funext a; apply Fin.ext
  match a with
  | ⟨0, _⟩ => show win1_3.index (point1 bt j) (0 : Fin 2) * 16 + 1 * bb.val = 16 * bt.val + bb.val; omega
  | ⟨1, _⟩ => show win1_3.index (point1 bt j) (1 : Fin 2) * 64 + 1 * k.val = k.val; omega

/-- An index of the output array is in point `t`'s block of window 3 iff each coordinate is in the block's range. -/
theorem mem_blk1_3 (t : Fin cfg1.N) (i : S32x64.Idx) :
    i ∈ ((cfg1.win 3).blk t).view.set ↔ ∀ a : Fin 2, win1_3.index t a * S16x64.size a ≤ (i a).val ∧ (i a).val < win1_3.index t a * S16x64.size a + S16x64.size a := by
  show i ∈ ((View.whole main_v4_0).slice (win1_3.rect t)).set ↔ _
  rw [View.set_slice_whole, Rect.mem_set_unit]
  exact Iff.rfl

/-- Every entry of the output array is in the block of the last point of its batch tile, which is written back. -/
theorem cover1_3 (i : S32x64.Idx) :
    ∃ t : Fin cfg1.N, (cfg1.win 3).flush t = true ∧ i ∈ ((cfg1.win 3).blk t).view.set := by
  have hi0 : (i 0).val < 32 := (i 0).isLt
  have hi1 : (i 1).val < 64 := (i 1).isLt
  have hN : cfg1.N = 100 := N_1
  refine ⟨⟨50 * ((i 0).val / 16) + 49, by omega⟩, (flush1_3 _).mpr (by show (50 * ((i 0).val / 16) + 49) % 50 = 49; omega), ?_⟩
  rw [mem_blk1_3]
  obtain ⟨f0, f1, f2, f3, f4, f5, f6, f7, f8, f9, f10⟩ := where1 ⟨50 * ((i 0).val / 16) + 49, by omega⟩
  intro a
  match a with
  | ⟨0, _⟩ =>
    show win1_3.index _ (0 : Fin 2) * 16 ≤ (i 0).val ∧ (i 0).val < win1_3.index _ (0 : Fin 2) * 16 + 16
    have e : (50 * ((i 0).val / 16) + 49) / 50 = (i 0).val / 16 := by omega
    simp only [] at *
    omega
  | ⟨1, _⟩ =>
    show win1_3.index _ (1 : Fin 2) * 64 ≤ (i 1).val ∧ (i 1).val < win1_3.index _ (1 : Fin 2) * 64 + 64
    omega

/-- Where an entry of output window 4's block at point `50·bt + j` sits in the output array. -/
theorem place1_4 (bt : Fin 2) (j : Fin 50) (bb : Fin 16) (k : Fin 64) :
    ((cfg1.win 4).blk (point1 bt j)).view.emb (ix2 bb k) = ix2 (row bt bb) k := by
  obtain ⟨f0, f1, f2, f3, f4, f5, f6, f7, f8, f9, f10⟩ := where1 (point1 bt j)
  have hbt : bt.val < 2 := bt.isLt
  have hj : j.val < 50 := j.isLt
  simp only [point1_val] at *
  funext a; apply Fin.ext
  match a with
  | ⟨0, _⟩ => show win1_4.index (point1 bt j) (0 : Fin 2) * 16 + 1 * bb.val = 16 * bt.val + bb.val; omega
  | ⟨1, _⟩ => show win1_4.index (point1 bt j) (1 : Fin 2) * 64 + 1 * k.val = k.val; omega

/-- An index of the output array is in point `t`'s block of window 4 iff each coordinate is in the block's range. -/
theorem mem_blk1_4 (t : Fin cfg1.N) (i : S32x64.Idx) :
    i ∈ ((cfg1.win 4).blk t).view.set ↔ ∀ a : Fin 2, win1_4.index t a * S16x64.size a ≤ (i a).val ∧ (i a).val < win1_4.index t a * S16x64.size a + S16x64.size a := by
  show i ∈ ((View.whole main_v4_1).slice (win1_4.rect t)).set ↔ _
  rw [View.set_slice_whole, Rect.mem_set_unit]
  exact Iff.rfl

/-- Every entry of the output array is in the block of the last point of its batch tile, which is written back. -/
theorem cover1_4 (i : S32x64.Idx) :
    ∃ t : Fin cfg1.N, (cfg1.win 4).flush t = true ∧ i ∈ ((cfg1.win 4).blk t).view.set := by
  have hi0 : (i 0).val < 32 := (i 0).isLt
  have hi1 : (i 1).val < 64 := (i 1).isLt
  have hN : cfg1.N = 100 := N_1
  refine ⟨⟨50 * ((i 0).val / 16) + 49, by omega⟩, (flush1_4 _).mpr (by show (50 * ((i 0).val / 16) + 49) % 50 = 49; omega), ?_⟩
  rw [mem_blk1_4]
  obtain ⟨f0, f1, f2, f3, f4, f5, f6, f7, f8, f9, f10⟩ := where1 ⟨50 * ((i 0).val / 16) + 49, by omega⟩
  intro a
  match a with
  | ⟨0, _⟩ =>
    show win1_4.index _ (0 : Fin 2) * 16 ≤ (i 0).val ∧ (i 0).val < win1_4.index _ (0 : Fin 2) * 16 + 16
    have e : (50 * ((i 0).val / 16) + 49) / 50 = (i 0).val / 16 := by omega
    simp only [] at *
    omega
  | ⟨1, _⟩ =>
    show win1_4.index _ (1 : Fin 2) * 64 ≤ (i 1).val ∧ (i 1).val < win1_4.index _ (1 : Fin 2) * 64 + 64
    omega

end Cert.KernelIdeal.Hand

end
-- ==== Proof.Val.PayPair1.lean ====
/-
  The pair kernel's stored values read at an index, on the extended reals: the first of its two launches.

  At every grid point the kernel holds a [16, 200, 2] block of rows `(x, y)`, the [64, 2] centers and the radius magnitude
  `ρ` (the [1, 1] block's one entry). From a row's first coordinate `x` it derives the point `(x, 1 - x)` and from its second
  coordinate `y` the point `(y, 1 - y)`. At `(p, q, k)` — batch row `p`, row `q` of the block, center `k` — it forms the L1
  distance `d` of the derived point to the center `(cx, cy)` (the centers at `(k, 0)` and `(k, 1)`), then
  `1 / (1 + d) - 1 / (1 + |ρ - d|)`: the rational hat of `Cert.Spec`, term for term. It sums the hat over the block's 200
  rows and adds the sum to the accumulator it loaded. The kernel's first accumulator is the DOWN one and takes the points
  of the first coordinates (`down1_apply`); its second is the UP one and takes the points of the second coordinates
  (`up1_apply`). At the first point of a row of the grid both are first set to zero (`zero_down1`, `zero_up1`). Only
  the order in which the kernel itself adds is used: nothing is rearranged.
-/
import proofs.«126384_j71554155151373_1_alg».proof.Proof.Gen.KernelIdeal.Skeleton
import proofs.«126384_j71554155151373_1_alg».proof.Proof.Val.Spec
import proofs.«126384_j71554155151373_1_alg».proof.Proof.Val.PayLayout

noncomputable section

namespace Cert.KernelIdeal.PayValue

open Cert.KernelIdeal Cert.KernelIdeal.Gen Cert.Spec Idealize.ShloMosaic Idealize.ShloMosaic.ValueIdx

/-! ## The zero fills -/

/-- The DOWN accumulator's fill is zero everywhere. -/
theorem zero_down1 (bb : Fin 16) (k : Fin 64) : k1_pay1 (F := Ideal) (ix2 bb k) = 0 := by
  unfold k1_pay1
  rw [shapeCast_self]
  exact Ideal.ofBits_zero_f32

/-- The UP accumulator's fill is zero everywhere. -/
theorem zero_up1 (bb : Fin 16) (k : Fin 64) : k1_pay2 (F := Ideal) (ix2 bb k) = 0 := by
  unfold k1_pay2
  rw [shapeCast_self]
  exact Ideal.ofBits_zero_f32

/-! ## The centers' coordinates, the radius, the rows' second coordinates, the number one over the block -/

/-- The centers' first coordinates: `cx k`. -/
theorem cx1_apply (cen : Vec Ideal S64x2 .f32) (k : Fin 64) : k1_pay3 cen (ix1 k) = cen (ix2 k 0) :=
  centerCoord_apply cen 0 _ 0 rfl k

/-- The centers' second coordinates: `cy k`. -/
theorem cy1_apply (cen : Vec Ideal S64x2 .f32) (k : Fin 64) : k1_pay4 cen (ix1 k) = cen (ix2 k 1) :=
  centerCoord_apply cen 1 _ 1 rfl k

/-- The radius magnitude. -/
theorem rad1_apply (r : Vec Ideal S1x1 .f32) : k1_pay5 r = r (ix2 0 0) :=
  radiusEntry_apply r _

/-- The rows' second coordinates: `y` of row `q` of batch row `bb`. -/
theorem second1_apply (x : Vec Ideal S16x200x2 .f32) (bb : Fin 16) (q : Fin 200) :
    k1_pay6 x (ix2 bb q) = x (ix3 bb q 1) :=
  pointCoord_apply x 1 _ 1 rfl bb q

/-- The number one at every `(p, q, k)`. -/
theorem ones1_apply (i : S16x200x64.Idx) : k1_pay10 (F := Ideal) i = one := rfl

/-! ## The DOWN side (first coordinates): distance, the two quotients, the accumulated sum -/

/-- The L1 distance of the point `(x, 1 - x)` of row `q` of batch row `bb` to center `k`. -/
theorem dist1_apply (cen : Vec Ideal S64x2 .f32) (x : Vec Ideal S16x200x2 .f32) (bb : Fin 16) (q : Fin 200) (k : Fin 64) :
    k1_pay7 cen x (ix3 bb q k)
      = dist (x (ix3 bb q 0)) (one - x (ix3 bb q 0)) (cen (ix2 k 0)) (cen (ix2 k 1)) := by
  unfold k1_pay7 Spec.dist
  simp only [addf_apply, absf_apply, subf_apply, broadcast_apply, overCenters_apply, overPoints_apply]
  rw [pointCoord_apply x 0 _ 0 rfl, cx1_apply, cy1_apply]
  rfl

/-- The hat's first quotient, `1 / (1 + d)`. -/
theorem recip1_apply (cen : Vec Ideal S64x2 .f32) (x : Vec Ideal S16x200x2 .f32) (bb : Fin 16) (q : Fin 200) (k : Fin 64) :
    k1_pay8 cen x (ix3 bb q k)
      = Ideal.div one (one + dist (x (ix3 bb q 0)) (one - x (ix3 bb q 0)) (cen (ix2 k 0)) (cen (ix2 k 1))) := by
  unfold k1_pay8
  simp only [divf_apply, addf_apply, broadcast_apply, dist1_apply]
  rfl

/-- The second quotient's divisor, `1 + |ρ - d|`. -/
theorem gap1_apply (cen : Vec Ideal S64x2 .f32) (r : Vec Ideal S1x1 .f32) (x : Vec Ideal S16x200x2 .f32)
    (bb : Fin 16) (q : Fin 200) (k : Fin 64) :
    k1_pay9 cen r x (ix3 bb q k)
      = one + max (r (ix2 0 0) - dist (x (ix3 bb q 0)) (one - x (ix3 bb q 0)) (cen (ix2 k 0)) (cen (ix2 k 1)))
          (-(r (ix2 0 0) - dist (x (ix3 bb q 0)) (one - x (ix3 bb q 0)) (cen (ix2 k 0)) (cen (ix2 k 1)))) := by
  unfold k1_pay9
  simp only [addf_apply, absf_apply, subf_apply, broadcast_apply, dist1_apply, rad1_apply]
  rfl

/-- THE DOWN ACCUMULATOR'S STORE at `(bb, k)`: what it held plus the sum, over the block's 200 rows, of the hats of the
    points `(x, 1 - x)` at center `k`. -/
theorem down1_apply (prev : Vec Ideal S16x64 .f32) (cen : Vec Ideal S64x2 .f32) (r : Vec Ideal S1x1 .f32)
    (x : Vec Ideal S16x200x2 .f32) (bb : Fin 16) (k : Fin 64) :
    k1_pay11 prev (k1_pay8 cen x) (k1_pay9 cen r x) (k1_pay10) (ix2 bb k)
      = prev (ix2 bb k)
        + ∑ q : Fin 200, hat (r (ix2 0 0)) (x (ix3 bb q 0)) (one - x (ix3 bb q 0)) (cen (ix2 k 0)) (cen (ix2 k 1)) := by
  unfold k1_pay11
  simp only [shapeCast_self, addf_apply]
  refine congrArg (prev (ix2 bb k) + ·) ((laneSum_apply _ _ _ _ bb k).trans ?_)
  refine Finset.sum_congr rfl fun q _ => ?_
  simp only [subf_apply, divf_apply, recip1_apply, gap1_apply, ones1_apply]
  rfl

/-! ## The UP side (second coordinates): the same chain in one stored value -/

/-- THE UP ACCUMULATOR'S STORE at `(bb, k)`: what it held plus the sum, over the block's 200 rows, of the hats of the
    points `(y, 1 - y)` at center `k`. -/
theorem up1_apply (prev : Vec Ideal S16x64 .f32) (cen : Vec Ideal S64x2 .f32) (r : Vec Ideal S1x1 .f32)
    (x : Vec Ideal S16x200x2 .f32) (bb : Fin 16) (k : Fin 64) :
    k1_pay12 (k1_pay3 cen) (k1_pay4 cen) (k1_pay5 r) (k1_pay6 x) prev (ix2 bb k)
      = prev (ix2 bb k)
        + ∑ q : Fin 200, hat (r (ix2 0 0)) (x (ix3 bb q 1)) (one - x (ix3 bb q 1)) (cen (ix2 k 0)) (cen (ix2 k 1)) := by
  unfold k1_pay12
  simp only [shapeCast_self, addf_apply]
  refine congrArg (prev (ix2 bb k) + ·) ((laneSum_apply _ _ _ _ bb k).trans ?_)
  refine Finset.sum_congr rfl fun q _ => ?_
  simp only [subf_apply, divf_apply, addf_apply, absf_apply, broadcast_apply, overCenters_apply, overPoints_apply]
  rw [second1_apply, cx1_apply, cy1_apply, rad1_apply]
  rfl

end Cert.KernelIdeal.PayValue

end
-- ==== Proof.KI.Accum1.lean ====
/-
  Region 1's accumulators, on the extended reals. Within batch tile `bt` the kernel zeroes its two scratch accumulators at the
  tile's first grid point and adds one point tile's sums at every point, so after point `50·bt + p` each accumulator holds, at
  row `bb` and center `k`, the sum over the point tiles `0 … p` of that tile's 200 hats; at the batch tile's last point it
  copies the accumulators to the two outputs' blocks, which the pipeline writes back. So each output array ends holding,
  at row `16·bt + bb`, the whole sum over its side's points: the specification's partial sum.
-/
import proofs.«126384_j71554155151373_1_alg».proof.Proof.KI.R1Acc
import proofs.«126384_j71554155151373_1_alg».proof.Proof.KI.Blocks1
import proofs.«126384_j71554155151373_1_alg».proof.Proof.Val.PayPair1
import proofs.«126384_j71554155151373_1_alg».proof.Proof.Val.Tiles
import proofs.«126384_j71554155151373_1_alg».proof.Proof.Val.Fold

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec Cert.Coords Cert.Tiles Cert.KernelIdeal.PayValue

variable (V : (c : Dev nD) → (b : Ref sig .tc) → Buf (Elt Ideal) ((c : Thread nD τ).loc b))

/-- The accumulation at two spellings of one position. -/
theorem acc1_congr (c : Dev nD) {n n' : ℕ} (h : n = n') (hn : n < cfg1.N) (hn' : n' < cfg1.N) :
    acc1 V c n hn = acc1 V c n' hn' := by subst h; rfl

/-- The last point tile of a batch tile. -/
abbrev lastTile1 : Fin 50 := ⟨49, by decide⟩

/-! ## The down accumulator -/

/-- After point `50·bt + p`: the sum of the point tiles `0 … p`. -/
theorem scratch1_down (c : Dev nD) (bt : Fin 2) (bb : Fin 16) (k : Fin 64) (p : ℕ) (hp : p < 50) :
    (acc1 V c (point1 bt ⟨p, hp⟩).val (point1 bt ⟨p, hp⟩).isLt).2.2.1 (ix2 bb k)
      = ∑ j : Fin (p + 1), tileDerived 0 (V c main_arg2) (V c main_arg4) (V c main_v2 (ix2 0 0)) bt ⟨j.val, by omega⟩ bb k := by
  refine Cert.Fold.acc_eq_sum 50 (fun p' => (acc1 V c (point1 bt p').val (point1 bt p').isLt).2.2.1 (ix2 bb k))
    (fun j => tileDerived 0 (V c main_arg2) (V c main_arg4) (V c main_v2 (ix2 0 0)) bt j bb k) (fun h => ?_) (fun p' h => ?_) p hp
  · -- the batch tile's first point: the accumulator zeroed, then the first tile's sum
    have hfirst := acc1_scratch_first V c (point1 bt ⟨0, h⟩) (by show (50 * bt.val + 0) % 50 = 0; omega)
    show (acc1 V c (point1 bt ⟨0, h⟩).val (point1 bt ⟨0, h⟩).isLt).2.2.1 (ix2 bb k) = _
    rw [show (acc1 V c (point1 bt ⟨0, h⟩).val (point1 bt ⟨0, h⟩).isLt).2.2.1 = _ from congrArg Prod.fst hfirst]
    refine (down1_apply _ _ _ _ bb k).trans ?_
    rw [zero_down1 bb k, zero_add]
    unfold tileDerived
    refine Finset.sum_congr rfl fun q _ => ?_
    rw [iblk1_ext V c bt ⟨0, h⟩ bb q 0, iblk1_centers V c, iblk1_centers V c, iblk1_radius V c]
  · -- a later point: what the point before left, plus this tile's sum
    have hstep := acc1_scratch_step V c (point1 bt ⟨p' + 1, h⟩) (by show (50 * bt.val + (p' + 1)) % 50 ≠ 0; omega)
    show (acc1 V c (point1 bt ⟨p' + 1, h⟩).val (point1 bt ⟨p' + 1, h⟩).isLt).2.2.1 (ix2 bb k)
      = (acc1 V c (point1 bt ⟨p', by omega⟩).val (point1 bt ⟨p', by omega⟩).isLt).2.2.1 (ix2 bb k) + _
    rw [show (acc1 V c (point1 bt ⟨p' + 1, h⟩).val (point1 bt ⟨p' + 1, h⟩).isLt).2.2.1 = _ from congrArg Prod.fst hstep]
    refine (down1_apply _ _ _ _ bb k).trans ?_
    rw [acc1_congr V c (show (point1 bt ⟨p' + 1, h⟩).val - 1 = (point1 bt ⟨p', by omega⟩).val from by simp only [point1_val]; omega) _ (point1 bt ⟨p', by omega⟩).isLt]
    refine congrArg _ ?_
    unfold tileDerived
    refine Finset.sum_congr rfl fun q _ => ?_
    rw [iblk1_ext V c bt ⟨p' + 1, h⟩ bb q 0, iblk1_centers V c, iblk1_centers V c, iblk1_radius V c]

/-- What the last point of batch tile `bt` writes back to output window 3: the whole sum over the side's points. -/
theorem flushed1_down (c : Dev nD) (t : Fin cfg1.N) (hf : (cfg1.win 3).flush t = true) :
    (dat1 V c).flushed 3 t = ((cfg1.win 3).blk t).view.read (Elt Ideal)
      (onIdx (fun r k => derived 0 (V c main_arg2) (V c main_arg4) (V c main_v2 (ix2 0 0)) r k)) := by
  have hN : cfg1.N = 100 := N_1
  have hlast : t.val % 50 = 49 := (flush1_3 t).mp hf
  obtain ⟨bt, ht⟩ : ∃ bt : Fin 2, t = point1 bt lastTile1 :=
    ⟨⟨t.val / 50, by have := t.isLt; omega⟩, Fin.ext (by simp only [point1_val]; omega)⟩
  clear hlast hf
  subst ht
  funext y
  obtain ⟨bb, k, rfl⟩ : ∃ (bb : Fin 16) (k : Fin 64), y = ix2 bb k := ⟨y 0, y 1, eq_ix2 y⟩
  rw [View.read_apply, place1_3 bt lastTile1 bb k]
  show (cfg1.win 3).cut (grid1.coords (point1 bt lastTile1)) ((dat1 V c).after 3 (point1 bt lastTile1)) (ix2 bb k) = _
  rw [after1_3]
  show (acc1 V c (point1 bt lastTile1).val (point1 bt lastTile1).isLt).1 (ix2 bb k) = _
  rw [(acc1_out_last V c (point1 bt lastTile1) (by show (50 * bt.val + 49) % 50 = 49; omega)).1]
  rw [scratch1_down V c bt bb k 49 (by omega)]
  rw [onIdx_ix2, derived_eq_tiles]
  rfl

/-- The output array of window 3 after the region: the side's partial sum, row by row. -/
theorem array1_down (c : Dev nD) :
    (dat1 V c).arrAt 3 cfg1.N = onIdx (fun r k => derived 0 (V c main_arg2) (V c main_arg4) (V c main_v2 (ix2 0 0)) r k) :=
  (dat1 V c).arrAt_eq_of_cover 3 _ (fun t hf => flushed1_down V c t hf) (cover1_3)

/-! ## The up accumulator -/

/-- After point `50·bt + p`: the sum of the point tiles `0 … p`. -/
theorem scratch1_up (c : Dev nD) (bt : Fin 2) (bb : Fin 16) (k : Fin 64) (p : ℕ) (hp : p < 50) :
    (acc1 V c (point1 bt ⟨p, hp⟩).val (point1 bt ⟨p, hp⟩).isLt).2.2.2 (ix2 bb k)
      = ∑ j : Fin (p + 1), tileDerived 1 (V c main_arg2) (V c main_arg4) (V c main_v2 (ix2 0 0)) bt ⟨j.val, by omega⟩ bb k := by
  refine Cert.Fold.acc_eq_sum 50 (fun p' => (acc1 V c (point1 bt p').val (point1 bt p').isLt).2.2.2 (ix2 bb k))
    (fun j => tileDerived 1 (V c main_arg2) (V c main_arg4) (V c main_v2 (ix2 0 0)) bt j bb k) (fun h => ?_) (fun p' h => ?_) p hp
  · -- the batch tile's first point: the accumulator zeroed, then the first tile's sum
    have hfirst := acc1_scratch_first V c (point1 bt ⟨0, h⟩) (by show (50 * bt.val + 0) % 50 = 0; omega)
    show (acc1 V c (point1 bt ⟨0, h⟩).val (point1 bt ⟨0, h⟩).isLt).2.2.2 (ix2 bb k) = _
    rw [show (acc1 V c (point1 bt ⟨0, h⟩).val (point1 bt ⟨0, h⟩).isLt).2.2.2 = _ from congrArg Prod.snd hfirst]
    refine (up1_apply _ _ _ _ bb k).trans ?_
    rw [zero_up1 bb k, zero_add]
    unfold tileDerived
    refine Finset.sum_congr rfl fun q _ => ?_
    rw [iblk1_ext V c bt ⟨0, h⟩ bb q 1, iblk1_centers V c, iblk1_centers V c, iblk1_radius V c]
  · -- a later point: what the point before left, plus this tile's sum
    have hstep := acc1_scratch_step V c (point1 bt ⟨p' + 1, h⟩) (by show (50 * bt.val + (p' + 1)) % 50 ≠ 0; omega)
    show (acc1 V c (point1 bt ⟨p' + 1, h⟩).val (point1 bt ⟨p' + 1, h⟩).isLt).2.2.2 (ix2 bb k)
      = (acc1 V c (point1 bt ⟨p', by omega⟩).val (point1 bt ⟨p', by omega⟩).isLt).2.2.2 (ix2 bb k) + _
    rw [show (acc1 V c (point1 bt ⟨p' + 1, h⟩).val (point1 bt ⟨p' + 1, h⟩).isLt).2.2.2 = _ from congrArg Prod.snd hstep]
    refine (up1_apply _ _ _ _ bb k).trans ?_
    rw [acc1_congr V c (show (point1 bt ⟨p' + 1, h⟩).val - 1 = (point1 bt ⟨p', by omega⟩).val from by simp only [point1_val]; omega) _ (point1 bt ⟨p', by omega⟩).isLt]
    refine congrArg _ ?_
    unfold tileDerived
    refine Finset.sum_congr rfl fun q _ => ?_
    rw [iblk1_ext V c bt ⟨p' + 1, h⟩ bb q 1, iblk1_centers V c, iblk1_centers V c, iblk1_radius V c]

/-- What the last point of batch tile `bt` writes back to output window 4: the whole sum over the side's points. -/
theorem flushed1_up (c : Dev nD) (t : Fin cfg1.N) (hf : (cfg1.win 4).flush t = true) :
    (dat1 V c).flushed 4 t = ((cfg1.win 4).blk t).view.read (Elt Ideal)
      (onIdx (fun r k => derived 1 (V c main_arg2) (V c main_arg4) (V c main_v2 (ix2 0 0)) r k)) := by
  have hN : cfg1.N = 100 := N_1
  have hlast : t.val % 50 = 49 := (flush1_4 t).mp hf
  obtain ⟨bt, ht⟩ : ∃ bt : Fin 2, t = point1 bt lastTile1 :=
    ⟨⟨t.val / 50, by have := t.isLt; omega⟩, Fin.ext (by simp only [point1_val]; omega)⟩
  clear hlast hf
  subst ht
  funext y
  obtain ⟨bb, k, rfl⟩ : ∃ (bb : Fin 16) (k : Fin 64), y = ix2 bb k := ⟨y 0, y 1, eq_ix2 y⟩
  rw [View.read_apply, place1_4 bt lastTile1 bb k]
  show (cfg1.win 4).cut (grid1.coords (point1 bt lastTile1)) ((dat1 V c).after 4 (point1 bt lastTile1)) (ix2 bb k) = _
  rw [after1_4]
  show (acc1 V c (point1 bt lastTile1).val (point1 bt lastTile1).isLt).2.1 (ix2 bb k) = _
  rw [(acc1_out_last V c (point1 bt lastTile1) (by show (50 * bt.val + 49) % 50 = 49; omega)).2]
  rw [scratch1_up V c bt bb k 49 (by omega)]
  rw [onIdx_ix2, derived_eq_tiles]
  rfl

/-- The output array of window 4 after the region: the side's partial sum, row by row. -/
theorem array1_up (c : Dev nD) :
    (dat1 V c).arrAt 4 cfg1.N = onIdx (fun r k => derived 1 (V c main_arg2) (V c main_arg4) (V c main_v2 (ix2 0 0)) r k) :=
  (dat1 V c).arrAt_eq_of_cover 4 _ (fun t hf => flushed1_up V c t hf) (cover1_4)

end Cert.KernelIdeal.Hand

end
-- ==== Proof.KI.R2Acc.lean ====
import proofs.«126384_j71554155151373_1_alg».proof.Proof.KI.R2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the accumulation over the payload terms

What each case leaves in the two accumulators (and, in the last case, in the two outputs) as ONE term in the
skeleton's payload functions, the point's input blocks and what the point before left. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The first case: the accumulators are zeroed, read back, and the tile's partial sums added -/

theorem sout2_A_0_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i) (x0 : Vec F S16x200x2 .f32) (x1 : Vec F S64x2 .f32) (x2 : Vec F S1x1 .f32) :
    sout2_A_0 c i arg2 harg2 arg3 harg3 arg4 harg4 arg5 harg5 arg6 harg6 arg7 harg7 arg8 harg8 hc0 hc1 x0 x1 x2 = k2_pay11 k2_pay1 (k2_pay8 x1 x0) (k2_pay9 x1 x2 x0) k2_pay10 := by
  unfold sout2_A_0
  rw [View.read_writes_eq_canon _ _ _ (scover2_A_0 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout2_A_1_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : cond2_0 i) (hc1 : ¬cond2_1 i) (x0 : Vec F S16x200x2 .f32) (x1 : Vec F S64x2 .f32) (x2 : Vec F S1x1 .f32) :
    sout2_A_1 c i arg2 harg2 arg3 harg3 arg4 harg4 arg5 harg5 arg6 harg6 arg7 harg7 arg8 harg8 hc0 hc1 x0 x1 x2 = k2_pay12 (k2_pay3 x1) (k2_pay4 x1) (k2_pay5 x2) (k2_pay6 x0) k2_pay2 := by
  unfold sout2_A_1
  rw [View.read_writes_eq_canon _ _ _ (scover2_A_1 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

/-! ## The middle case: the tile's partial sums added to what the point before left -/

theorem sout2_B_0_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i) (x0 : Vec F S16x200x2 .f32) (x1 : Vec F S64x2 .f32) (x2 : Vec F S1x1 .f32) (xs0 xs1 : Vec F S16x64 .f32) :
    sout2_B_0 c i arg2 harg2 arg3 harg3 arg4 harg4 arg5 harg5 arg6 harg6 arg7 harg7 arg8 harg8 hc0 hc1 x0 x1 x2 xs0 xs1 = k2_pay11 xs0 (k2_pay8 x1 x0) (k2_pay9 x1 x2 x0) k2_pay10 := by
  unfold sout2_B_0
  rw [View.read_writes_eq_canon _ _ _ (scover2_B_0 c i arg2 harg2 arg3 harg3 arg4 harg4 arg5 harg5 arg6 harg6 arg7 harg7 arg8 harg8 hc0 hc1 x0 x1 x2 xs0 xs1)]
  unfold kernelRun2_B
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout2_B_1_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : ¬cond2_1 i) (x0 : Vec F S16x200x2 .f32) (x1 : Vec F S64x2 .f32) (x2 : Vec F S1x1 .f32) (xs0 xs1 : Vec F S16x64 .f32) :
    sout2_B_1 c i arg2 harg2 arg3 harg3 arg4 harg4 arg5 harg5 arg6 harg6 arg7 harg7 arg8 harg8 hc0 hc1 x0 x1 x2 xs0 xs1 = k2_pay12 (k2_pay3 x1) (k2_pay4 x1) (k2_pay5 x2) (k2_pay6 x0) xs1 := by
  unfold sout2_B_1
  rw [View.read_writes_eq_canon _ _ _ (scover2_B_1 c i arg2 harg2 arg3 harg3 arg4 harg4 arg5 harg5 arg6 harg6 arg7 harg7 arg8 harg8 hc0 hc1 x0 x1 x2 xs0 xs1)]
  unfold kernelRun2_B
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

/-! ## The last case: the same, and the accumulators copied to the outputs -/

theorem sout2_C_0_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i) (x0 : Vec F S16x200x2 .f32) (x1 : Vec F S64x2 .f32) (x2 : Vec F S1x1 .f32) (xs0 xs1 : Vec F S16x64 .f32) :
    sout2_C_0 c i arg2 harg2 arg3 harg3 arg4 harg4 arg5 harg5 arg6 harg6 arg7 harg7 arg8 harg8 hc0 hc1 x0 x1 x2 xs0 xs1 = k2_pay11 xs0 (k2_pay8 x1 x0) (k2_pay9 x1 x2 x0) k2_pay10 := by
  unfold sout2_C_0
  rw [View.read_writes_eq_canon _ _ _ (scover2_C_0 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem sout2_C_1_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i) (x0 : Vec F S16x200x2 .f32) (x1 : Vec F S64x2 .f32) (x2 : Vec F S1x1 .f32) (xs0 xs1 : Vec F S16x64 .f32) :
    sout2_C_1 c i arg2 harg2 arg3 harg3 arg4 harg4 arg5 harg5 arg6 harg6 arg7 harg7 arg8 harg8 hc0 hc1 x0 x1 x2 xs0 xs1 = k2_pay12 (k2_pay3 x1) (k2_pay4 x1) (k2_pay5 x2) (k2_pay6 x0) xs1 := by
  unfold sout2_C_1
  rw [View.read_writes_eq_canon _ _ _ (scover2_C_1 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S16x64) hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem out2_C_3_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i) (x0 : Vec F S16x200x2 .f32) (x1 : Vec F S64x2 .f32) (x2 : Vec F S1x1 .f32) (xs0 xs1 : Vec F S16x64 .f32) :
    out2_C_3 c i arg2 harg2 arg3 harg3 arg4 harg4 arg5 harg5 arg6 harg6 arg7 harg7 arg8 harg8 hc0 hc1 x0 x1 x2 xs0 xs1 = k2_pay11 xs0 (k2_pay8 x1 x0) (k2_pay9 x1 x2 x0) k2_pay10 := by
  unfold out2_C_3
  rw [View.read_writes_eq_canon _ _ _ (cover2_C_3 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

theorem out2_C_4_eq (c : Dev nD) (i : grid2.Coords) (arg2 : Memref sig .tc .vmem S16x200x2 .f32) (harg2 : arg2.IsWhole) (arg3 : Memref sig .tc .vmem S64x2 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S16x64 .f32) (harg6 : arg6.IsWhole) (arg7 : Memref sig .tc .vmem S16x64 .f32) (harg7 : arg7.IsWhole) (arg8 : Memref sig .tc .vmem S16x64 .f32) (harg8 : arg8.IsWhole) (hc0 : ¬cond2_0 i) (hc1 : cond2_1 i) (x0 : Vec F S16x200x2 .f32) (x1 : Vec F S64x2 .f32) (x2 : Vec F S1x1 .f32) (xs0 xs1 : Vec F S16x64 .f32) :
    out2_C_4 c i arg2 harg2 arg3 harg3 arg4 harg4 arg5 harg5 arg6 harg6 arg7 harg7 arg8 harg8 hc0 hc1 x0 x1 x2 xs0 xs1 = k2_pay12 (k2_pay3 x1) (k2_pay4 x1) (k2_pay5 x2) (k2_pay6 x0) xs1 := by
  unfold out2_C_4
  rw [View.read_writes_eq_canon _ _ _ (cover2_C_4 c i arg2 harg2 arg3 harg3 arg4 harg4 arg5 harg5 arg6 harg6 arg7 harg7 arg8 harg8 hc0 hc1 x0 x1 x2 xs0 xs1)]
  unfold kernelRun2_C
  dsimp only
  sl_unfold_words
  rw [View.canon_unit_zero (S := S16x64) hz2, View.readCov_unit_zero (S := S16x64) _ hz2]
  simp only [View.readAt_eq_ld, harg2.read_unread, harg3.read_unread, harg4.read_unread, harg7.read_unread, harg8.read_unread, View.ld_unit_zero (S := S16x200x2) hz3, View.ld_unit_zero (S := S64x2) hz2, View.ld_unit_zero (S := S1x1) hz2, View.ld_unit_zero (S := S16x64) hz2]

section
variable (V : (c : Dev nD) → (b : Ref sig .tc) → Buf (Elt F) ((c : Thread nD τ).loc b))

/-! ## Point by point -/

/-- Where the second coordinate is 0 the accumulators restart from the zero payloads. -/
theorem acc2_scratch_first (c : Dev nD) (t : Fin cfg2.N) (h : t.val % 50 = 0) :
    ((acc2 V c t.val t.isLt).2.2.1, (acc2 V c t.val t.isLt).2.2.2)
      = (k2_pay11 k2_pay1 (k2_pay8 (iblk2 V c 1 t) (iblk2 V c 0 t)) (k2_pay9 (iblk2 V c 1 t) (iblk2 V c 2 t) (iblk2 V c 0 t)) k2_pay10,
         k2_pay12 (k2_pay3 (iblk2 V c 1 t)) (k2_pay4 (iblk2 V c 1 t)) (k2_pay5 (iblk2 V c 2 t)) (k2_pay6 (iblk2 V c 0 t)) k2_pay2) := by
  have h1 : ¬t.val % 50 = 49 := by omega
  rw [acc2_A V c t h h1]; unfold acc2A; dsimp only
  rw [sout2_A_0_eq, sout2_A_1_eq]

/-- Elsewhere they continue from what the point before left. -/
theorem acc2_scratch_step (c : Dev nD) (t : Fin cfg2.N) (h : t.val % 50 ≠ 0) :
    ((acc2 V c t.val t.isLt).2.2.1, (acc2 V c t.val t.isLt).2.2.2)
      = (k2_pay11 (acc2 V c (t.val - 1) (Nat.lt_of_le_of_lt (Nat.sub_le _ _) t.isLt)).2.2.1 (k2_pay8 (iblk2 V c 1 t) (iblk2 V c 0 t)) (k2_pay9 (iblk2 V c 1 t) (iblk2 V c 2 t) (iblk2 V c 0 t)) k2_pay10,
         k2_pay12 (k2_pay3 (iblk2 V c 1 t)) (k2_pay4 (iblk2 V c 1 t)) (k2_pay5 (iblk2 V c 2 t)) (k2_pay6 (iblk2 V c 0 t)) (acc2 V c (t.val - 1) (Nat.lt_of_le_of_lt (Nat.sub_le _ _) t.isLt)).2.2.2) := by
  by_cases h1 : t.val % 50 = 49
  · rw [acc2_C V c t h h1]; unfold acc2C; dsimp only
    rw [sout2_C_0_eq, sout2_C_1_eq]
  · rw [acc2_B V c t h h1]; unfold acc2B; dsimp only
    rw [sout2_B_0_eq, sout2_B_1_eq]

/-- Where the second coordinate is 49 the two outputs' staging buffers hold the accumulators. -/
theorem acc2_out_last (c : Dev nD) (t : Fin cfg2.N) (h : t.val % 50 = 49) :
    (acc2 V c t.val t.isLt).1 = (acc2 V c t.val t.isLt).2.2.1 ∧ (acc2 V c t.val t.isLt).2.1 = (acc2 V c t.val t.isLt).2.2.2 := by
  have h0 : ¬t.val % 50 = 0 := by omega
  rw [acc2_C V c t h0 h]; unfold acc2C; dsimp only
  rw [out2_C_3_eq, out2_C_4_eq, sout2_C_0_eq, sout2_C_1_eq]
  exact ⟨rfl, rfl⟩

end

end Cert.KernelIdeal.Hand

end
-- ==== Proof.KI.Blocks2.lean ====
/-
  Where region 2's blocks sit. At grid point `t = 50·bt + j` the batch tile is `bt` and the point tile `j`: a point window's
  block is rows `16·bt … +15`, points `200·j … +199` of its array; the centers' and the radius' windows are their whole
  arrays at every point; an output's block is rows `16·bt … +15`, all 64 columns, and is written back at the last point of
  its batch tile only, so the two batch tiles' blocks tile the output.
-/
import proofs.«126384_j71554155151373_1_alg».proof.Proof.KI.R2Base
import proofs.«126384_j71554155151373_1_alg».proof.Proof.Val.Coords
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Coords

variable {F : FTy → Type} [FloatOps F]
variable (V : (c : Dev nD) → (b : Ref sig .tc) → Buf (Elt F) ((c : Thread nD τ).loc b))

/-- The printed index maps of region 2's windows, decided over the grid. -/
theorem where2 : ∀ t : Fin cfg2.N,
    win2_0.index t (0 : Fin 3) = t.val / 50 ∧ win2_0.index t (1 : Fin 3) = t.val % 50 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 50 ∧ win2_3.index t (1 : Fin 2) = 0
    ∧ win2_4.index t (0 : Fin 2) = t.val / 50 ∧ win2_4.index t (1 : Fin 2) = 0 :=
  (by decide +kernel : ∀ t : Fin grid2.N, _)

/-- Grid point `50·bt + j`. -/
def point2 (bt : Fin 2) (j : Fin 50) : Fin cfg2.N := ⟨50 * bt.val + j.val, by have : cfg2.N = 100 := N_2; omega⟩
@[simp] theorem point2_val (bt : Fin 2) (j : Fin 50) : (point2 bt j).val = 50 * bt.val + j.val := rfl

/-- The ext points' block at point `50·bt + j`, entry by entry: row `16·bt + bb`, point `200·j + q` of the array. -/
theorem iblk2_ext (c : Dev nD) (bt : Fin 2) (j : Fin 50) (bb : Fin 16) (q : Fin 200) (e : Fin 2) :
    iblk2 V c 0 (point2 bt j) (ix3 bb q e) = V c main_arg3 (ix3 (row bt bb) (pnt50 j q) e) := by
  show V c main_arg3 (((cfg2.win 0).blk (point2 bt j)).view.emb (ix3 bb q e)) = _
  refine congrArg _ ?_
  obtain ⟨f0, f1, f2, f3, f4, f5, f6, f7, f8, f9, f10⟩ := where2 (point2 bt j)
  have hbt : bt.val < 2 := bt.isLt
  have hj : j.val < 50 := j.isLt
  simp only [point2_val] at *
  funext a; apply Fin.ext
  match a with
  | ⟨0, _⟩ => show win2_0.index (point2 bt j) (0 : Fin 3) * 16 + 1 * bb.val = 16 * bt.val + bb.val; omega
  | ⟨1, _⟩ => show win2_0.index (point2 bt j) (1 : Fin 3) * 200 + 1 * q.val = j.val * 200 + q.val; omega
  | ⟨2, _⟩ => show win2_0.index (point2 bt j) (2 : Fin 3) * 2 + 1 * e.val = e.val; omega

/-- The centers' block at any point is the centers' array. -/
theorem iblk2_centers (c : Dev nD) (t : Fin cfg2.N) (k : Fin 64) (e : Fin 2) :
    iblk2 V c 1 t (ix2 k e) = V c main_arg4 (ix2 k e) := by
  show V c main_arg4 (((cfg2.win 1).blk t).view.emb (ix2 k e)) = _
  refine congrArg _ ?_
  obtain ⟨f0, f1, f2, f3, f4, f5, f6, f7, f8, f9, f10⟩ := where2 t
  funext a; apply Fin.ext
  match a with
  | ⟨0, _⟩ => show win2_1.index t (0 : Fin 2) * 64 + 1 * k.val = k.val; omega
  | ⟨1, _⟩ => show win2_1.index t (1 : Fin 2) * 2 + 1 * e.val = e.val; omega

/-- The radius' block at any point is the 1×1 array the host prepared. -/
theorem iblk2_radius (c : Dev nD) (t : Fin cfg2.N) :
    iblk2 V c 2 t (ix2 0 0) = V c main_v2 (ix2 0 0) := by
  show V c main_v2 (((cfg2.win 2).blk t).view.emb (ix2 0 0)) = _
  refine congrArg _ ?_
  obtain ⟨f0, f1, f2, f3, f4, f5, f6, f7, f8, f9, f10⟩ := where2 t
  funext a; apply Fin.ext
  match a with
  | ⟨0, _⟩ => show win2_2.index t (0 : Fin 2) * 1 + 1 * 0 = 0; omega
  | ⟨1, _⟩ => show win2_2.index t (1 : Fin 2) * 1 + 1 * 0 = 0; omega

/-- Where an entry of output window 3's block at point `50·bt + j` sits in the output array. -/
theorem place2_3 (bt : Fin 2) (j : Fin 50) (bb : Fin 16) (k : Fin 64) :
    ((cfg2.win 3).blk (point2 bt j)).view.emb (ix2 bb k) = ix2 (row bt bb) k := by
  obtain ⟨f0, f1, f2, f3, f4, f5, f6, f7, f8, f9, f10⟩ := where2 (point2 bt j)
  have hbt : bt.val < 2 := bt.isLt
  have hj : j.val < 50 := j.isLt
  simp only [point2_val] at *
  funext a; apply Fin.ext
  match a with
  | ⟨0, _⟩ => show win2_3.index (point2 bt j) (0 : Fin 2) * 16 + 1 * bb.val = 16 * bt.val + bb.val; omega
  | ⟨1, _⟩ => show win2_3.index (point2 bt j) (1 : Fin 2) * 64 + 1 * k.val = k.val; omega

/-- An index of the output array is in point `t`'s block of window 3 iff each coordinate is in the block's range. -/
theorem mem_blk2_3 (t : Fin cfg2.N) (i : S32x64.Idx) :
    i ∈ ((cfg2.win 3).blk t).view.set ↔ ∀ a : Fin 2, win2_3.index t a * S16x64.size a ≤ (i a).val ∧ (i a).val < win2_3.index t a * S16x64.size a + S16x64.size a := by
  show i ∈ ((View.whole main_v5_0).slice (win2_3.rect t)).set ↔ _
  rw [View.set_slice_whole, Rect.mem_set_unit]
  exact Iff.rfl

/-- Every entry of the output array is in the block of the last point of its batch tile, which is written back. -/
theorem cover2_3 (i : S32x64.Idx) :
    ∃ t : Fin cfg2.N, (cfg2.win 3).flush t = true ∧ i ∈ ((cfg2.win 3).blk t).view.set := by
  have hi0 : (i 0).val < 32 := (i 0).isLt
  have hi1 : (i 1).val < 64 := (i 1).isLt
  have hN : cfg2.N = 100 := N_2
  refine ⟨⟨50 * ((i 0).val / 16) + 49, by omega⟩, (flush2_3 _).mpr (by show (50 * ((i 0).val / 16) + 49) % 50 = 49; omega), ?_⟩
  rw [mem_blk2_3]
  obtain ⟨f0, f1, f2, f3, f4, f5, f6, f7, f8, f9, f10⟩ := where2 ⟨50 * ((i 0).val / 16) + 49, by omega⟩
  intro a
  match a with
  | ⟨0, _⟩ =>
    show win2_3.index _ (0 : Fin 2) * 16 ≤ (i 0).val ∧ (i 0).val < win2_3.index _ (0 : Fin 2) * 16 + 16
    have e : (50 * ((i 0).val / 16) + 49) / 50 = (i 0).val / 16 := by omega
    simp only [] at *
    omega
  | ⟨1, _⟩ =>
    show win2_3.index _ (1 : Fin 2) * 64 ≤ (i 1).val ∧ (i 1).val < win2_3.index _ (1 : Fin 2) * 64 + 64
    omega

/-- Where an entry of output window 4's block at point `50·bt + j` sits in the output array. -/
theorem place2_4 (bt : Fin 2) (j : Fin 50) (bb : Fin 16) (k : Fin 64) :
    ((cfg2.win 4).blk (point2 bt j)).view.emb (ix2 bb k) = ix2 (row bt bb) k := by
  obtain ⟨f0, f1, f2, f3, f4, f5, f6, f7, f8, f9, f10⟩ := where2 (point2 bt j)
  have hbt : bt.val < 2 := bt.isLt
  have hj : j.val < 50 := j.isLt
  simp only [point2_val] at *
  funext a; apply Fin.ext
  match a with
  | ⟨0, _⟩ => show win2_4.index (point2 bt j) (0 : Fin 2) * 16 + 1 * bb.val = 16 * bt.val + bb.val; omega
  | ⟨1, _⟩ => show win2_4.index (point2 bt j) (1 : Fin 2) * 64 + 1 * k.val = k.val; omega

/-- An index of the output array is in point `t`'s block of window 4 iff each coordinate is in the block's range. -/
theorem mem_blk2_4 (t : Fin cfg2.N) (i : S32x64.Idx) :
    i ∈ ((cfg2.win 4).blk t).view.set ↔ ∀ a : Fin 2, win2_4.index t a * S16x64.size a ≤ (i a).val ∧ (i a).val < win2_4.index t a * S16x64.size a + S16x64.size a := by
  show i ∈ ((View.whole main_v5_1).slice (win2_4.rect t)).set ↔ _
  rw [View.set_slice_whole, Rect.mem_set_unit]
  exact Iff.rfl

/-- Every entry of the output array is in the block of the last point of its batch tile, which is written back. -/
theorem cover2_4 (i : S32x64.Idx) :
    ∃ t : Fin cfg2.N, (cfg2.win 4).flush t = true ∧ i ∈ ((cfg2.win 4).blk t).view.set := by
  have hi0 : (i 0).val < 32 := (i 0).isLt
  have hi1 : (i 1).val < 64 := (i 1).isLt
  have hN : cfg2.N = 100 := N_2
  refine ⟨⟨50 * ((i 0).val / 16) + 49, by omega⟩, (flush2_4 _).mpr (by show (50 * ((i 0).val / 16) + 49) % 50 = 49; omega), ?_⟩
  rw [mem_blk2_4]
  obtain ⟨f0, f1, f2, f3, f4, f5, f6, f7, f8, f9, f10⟩ := where2 ⟨50 * ((i 0).val / 16) + 49, by omega⟩
  intro a
  match a with
  | ⟨0, _⟩ =>
    show win2_4.index _ (0 : Fin 2) * 16 ≤ (i 0).val ∧ (i 0).val < win2_4.index _ (0 : Fin 2) * 16 + 16
    have e : (50 * ((i 0).val / 16) + 49) / 50 = (i 0).val / 16 := by omega
    simp only [] at *
    omega
  | ⟨1, _⟩ =>
    show win2_4.index _ (1 : Fin 2) * 64 ≤ (i 1).val ∧ (i 1).val < win2_4.index _ (1 : Fin 2) * 64 + 64
    omega

end Cert.KernelIdeal.Hand

end
-- ==== Proof.Val.PayPair2.lean ====
/-
  The pair kernel's stored values read at an index, on the extended reals: the second of its two launches.

  At every grid point the kernel holds a [16, 200, 2] block of rows `(x, y)`, the [64, 2] centers and the radius magnitude
  `ρ` (the [1, 1] block's one entry). From a row's first coordinate `x` it derives the point `(x, 1 - x)` and from its second
  coordinate `y` the point `(y, 1 - y)`. At `(p, q, k)` — batch row `p`, row `q` of the block, center `k` — it forms the L1
  distance `d` of the derived point to the center `(cx, cy)` (the centers at `(k, 0)` and `(k, 1)`), then
  `1 / (1 + d) - 1 / (1 + |ρ - d|)`: the rational hat of `Cert.Spec`, term for term. It sums the hat over the block's 200
  rows and adds the sum to the accumulator it loaded. The kernel's first accumulator is the DOWN one and takes the points
  of the first coordinates (`down2_apply`); its second is the UP one and takes the points of the second coordinates
  (`up2_apply`). At the first point of a row of the grid both are first set to zero (`zero_down2`, `zero_up2`). Only
  the order in which the kernel itself adds is used: nothing is rearranged.
-/
import proofs.«126384_j71554155151373_1_alg».proof.Proof.Gen.KernelIdeal.Skeleton
import proofs.«126384_j71554155151373_1_alg».proof.Proof.Val.Spec
import proofs.«126384_j71554155151373_1_alg».proof.Proof.Val.PayLayout

noncomputable section

namespace Cert.KernelIdeal.PayValue

open Cert.KernelIdeal Cert.KernelIdeal.Gen Cert.Spec Idealize.ShloMosaic Idealize.ShloMosaic.ValueIdx

/-! ## The zero fills -/

/-- The DOWN accumulator's fill is zero everywhere. -/
theorem zero_down2 (bb : Fin 16) (k : Fin 64) : k2_pay1 (F := Ideal) (ix2 bb k) = 0 := by
  unfold k2_pay1
  rw [shapeCast_self]
  exact Ideal.ofBits_zero_f32

/-- The UP accumulator's fill is zero everywhere. -/
theorem zero_up2 (bb : Fin 16) (k : Fin 64) : k2_pay2 (F := Ideal) (ix2 bb k) = 0 := by
  unfold k2_pay2
  rw [shapeCast_self]
  exact Ideal.ofBits_zero_f32

/-! ## The centers' coordinates, the radius, the rows' second coordinates, the number one over the block -/

/-- The centers' first coordinates: `cx k`. -/
theorem cx2_apply (cen : Vec Ideal S64x2 .f32) (k : Fin 64) : k2_pay3 cen (ix1 k) = cen (ix2 k 0) :=
  centerCoord_apply cen 0 _ 0 rfl k

/-- The centers' second coordinates: `cy k`. -/
theorem cy2_apply (cen : Vec Ideal S64x2 .f32) (k : Fin 64) : k2_pay4 cen (ix1 k) = cen (ix2 k 1) :=
  centerCoord_apply cen 1 _ 1 rfl k

/-- The radius magnitude. -/
theorem rad2_apply (r : Vec Ideal S1x1 .f32) : k2_pay5 r = r (ix2 0 0) :=
  radiusEntry_apply r _

/-- The rows' second coordinates: `y` of row `q` of batch row `bb`. -/
theorem second2_apply (x : Vec Ideal S16x200x2 .f32) (bb : Fin 16) (q : Fin 200) :
    k2_pay6 x (ix2 bb q) = x (ix3 bb q 1) :=
  pointCoord_apply x 1 _ 1 rfl bb q

/-- The number one at every `(p, q, k)`. -/
theorem ones2_apply (i : S16x200x64.Idx) : k2_pay10 (F := Ideal) i = one := rfl

/-! ## The DOWN side (first coordinates): distance, the two quotients, the accumulated sum -/

/-- The L1 distance of the point `(x, 1 - x)` of row `q` of batch row `bb` to center `k`. -/
theorem dist2_apply (cen : Vec Ideal S64x2 .f32) (x : Vec Ideal S16x200x2 .f32) (bb : Fin 16) (q : Fin 200) (k : Fin 64) :
    k2_pay7 cen x (ix3 bb q k)
      = dist (x (ix3 bb q 0)) (one - x (ix3 bb q 0)) (cen (ix2 k 0)) (cen (ix2 k 1)) := by
  unfold k2_pay7 Spec.dist
  simp only [addf_apply, absf_apply, subf_apply, broadcast_apply, overCenters_apply, overPoints_apply]
  rw [pointCoord_apply x 0 _ 0 rfl, cx2_apply, cy2_apply]
  rfl

/-- The hat's first quotient, `1 / (1 + d)`. -/
theorem recip2_apply (cen : Vec Ideal S64x2 .f32) (x : Vec Ideal S16x200x2 .f32) (bb : Fin 16) (q : Fin 200) (k : Fin 64) :
    k2_pay8 cen x (ix3 bb q k)
      = Ideal.div one (one + dist (x (ix3 bb q 0)) (one - x (ix3 bb q 0)) (cen (ix2 k 0)) (cen (ix2 k 1))) := by
  unfold k2_pay8
  simp only [divf_apply, addf_apply, broadcast_apply, dist2_apply]
  rfl

/-- The second quotient's divisor, `1 + |ρ - d|`. -/
theorem gap2_apply (cen : Vec Ideal S64x2 .f32) (r : Vec Ideal S1x1 .f32) (x : Vec Ideal S16x200x2 .f32)
    (bb : Fin 16) (q : Fin 200) (k : Fin 64) :
    k2_pay9 cen r x (ix3 bb q k)
      = one + max (r (ix2 0 0) - dist (x (ix3 bb q 0)) (one - x (ix3 bb q 0)) (cen (ix2 k 0)) (cen (ix2 k 1)))
          (-(r (ix2 0 0) - dist (x (ix3 bb q 0)) (one - x (ix3 bb q 0)) (cen (ix2 k 0)) (cen (ix2 k 1)))) := by
  unfold k2_pay9
  simp only [addf_apply, absf_apply, subf_apply, broadcast_apply, dist2_apply, rad2_apply]
  rfl

/-- THE DOWN ACCUMULATOR'S STORE at `(bb, k)`: what it held plus the sum, over the block's 200 rows, of the hats of the
    points `(x, 1 - x)` at center `k`. -/
theorem down2_apply (prev : Vec Ideal S16x64 .f32) (cen : Vec Ideal S64x2 .f32) (r : Vec Ideal S1x1 .f32)
    (x : Vec Ideal S16x200x2 .f32) (bb : Fin 16) (k : Fin 64) :
    k2_pay11 prev (k2_pay8 cen x) (k2_pay9 cen r x) (k2_pay10) (ix2 bb k)
      = prev (ix2 bb k)
        + ∑ q : Fin 200, hat (r (ix2 0 0)) (x (ix3 bb q 0)) (one - x (ix3 bb q 0)) (cen (ix2 k 0)) (cen (ix2 k 1)) := by
  unfold k2_pay11
  simp only [shapeCast_self, addf_apply]
  refine congrArg (prev (ix2 bb k) + ·) ((laneSum_apply _ _ _ _ bb k).trans ?_)
  refine Finset.sum_congr rfl fun q _ => ?_
  simp only [subf_apply, divf_apply, recip2_apply, gap2_apply, ones2_apply]
  rfl

/-! ## The UP side (second coordinates): the same chain in one stored value -/

/-- THE UP ACCUMULATOR'S STORE at `(bb, k)`: what it held plus the sum, over the block's 200 rows, of the hats of the
    points `(y, 1 - y)` at center `k`. -/
theorem up2_apply (prev : Vec Ideal S16x64 .f32) (cen : Vec Ideal S64x2 .f32) (r : Vec Ideal S1x1 .f32)
    (x : Vec Ideal S16x200x2 .f32) (bb : Fin 16) (k : Fin 64) :
    k2_pay12 (k2_pay3 cen) (k2_pay4 cen) (k2_pay5 r) (k2_pay6 x) prev (ix2 bb k)
      = prev (ix2 bb k)
        + ∑ q : Fin 200, hat (r (ix2 0 0)) (x (ix3 bb q 1)) (one - x (ix3 bb q 1)) (cen (ix2 k 0)) (cen (ix2 k 1)) := by
  unfold k2_pay12
  simp only [shapeCast_self, addf_apply]
  refine congrArg (prev (ix2 bb k) + ·) ((laneSum_apply _ _ _ _ bb k).trans ?_)
  refine Finset.sum_congr rfl fun q _ => ?_
  simp only [subf_apply, divf_apply, addf_apply, absf_apply, broadcast_apply, overCenters_apply, overPoints_apply]
  rw [second2_apply, cx2_apply, cy2_apply, rad2_apply]
  rfl

end Cert.KernelIdeal.PayValue

end
-- ==== Proof.KI.Accum2.lean ====
/-
  Region 2's accumulators, on the extended reals. Within batch tile `bt` the kernel zeroes its two scratch accumulators at the
  tile's first grid point and adds one point tile's sums at every point, so after point `50·bt + p` each accumulator holds, at
  row `bb` and center `k`, the sum over the point tiles `0 … p` of that tile's 200 hats; at the batch tile's last point it
  copies the accumulators to the two outputs' blocks, which the pipeline writes back. So each output array ends holding,
  at row `16·bt + bb`, the whole sum over its side's points: the specification's partial sum.
-/
import proofs.«126384_j71554155151373_1_alg».proof.Proof.KI.R2Acc
import proofs.«126384_j71554155151373_1_alg».proof.Proof.KI.Blocks2
import proofs.«126384_j71554155151373_1_alg».proof.Proof.Val.PayPair2
import proofs.«126384_j71554155151373_1_alg».proof.Proof.Val.Tiles
import proofs.«126384_j71554155151373_1_alg».proof.Proof.Val.Fold

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec Cert.Coords Cert.Tiles Cert.KernelIdeal.PayValue

variable (V : (c : Dev nD) → (b : Ref sig .tc) → Buf (Elt Ideal) ((c : Thread nD τ).loc b))

/-- The accumulation at two spellings of one position. -/
theorem acc2_congr (c : Dev nD) {n n' : ℕ} (h : n = n') (hn : n < cfg2.N) (hn' : n' < cfg2.N) :
    acc2 V c n hn = acc2 V c n' hn' := by subst h; rfl

/-- The last point tile of a batch tile. -/
abbrev lastTile2 : Fin 50 := ⟨49, by decide⟩

/-! ## The down accumulator -/

/-- After point `50·bt + p`: the sum of the point tiles `0 … p`. -/
theorem scratch2_down (c : Dev nD) (bt : Fin 2) (bb : Fin 16) (k : Fin 64) (p : ℕ) (hp : p < 50) :
    (acc2 V c (point2 bt ⟨p, hp⟩).val (point2 bt ⟨p, hp⟩).isLt).2.2.1 (ix2 bb k)
      = ∑ j : Fin (p + 1), tileDerived 0 (V c main_arg3) (V c main_arg4) (V c main_v2 (ix2 0 0)) bt ⟨j.val, by omega⟩ bb k := by
  refine Cert.Fold.acc_eq_sum 50 (fun p' => (acc2 V c (point2 bt p').val (point2 bt p').isLt).2.2.1 (ix2 bb k))
    (fun j => tileDerived 0 (V c main_arg3) (V c main_arg4) (V c main_v2 (ix2 0 0)) bt j bb k) (fun h => ?_) (fun p' h => ?_) p hp
  · -- the batch tile's first point: the accumulator zeroed, then the first tile's sum
    have hfirst := acc2_scratch_first V c (point2 bt ⟨0, h⟩) (by show (50 * bt.val + 0) % 50 = 0; omega)
    show (acc2 V c (point2 bt ⟨0, h⟩).val (point2 bt ⟨0, h⟩).isLt).2.2.1 (ix2 bb k) = _
    rw [show (acc2 V c (point2 bt ⟨0, h⟩).val (point2 bt ⟨0, h⟩).isLt).2.2.1 = _ from congrArg Prod.fst hfirst]
    refine (down2_apply _ _ _ _ bb k).trans ?_
    rw [zero_down2 bb k, zero_add]
    unfold tileDerived
    refine Finset.sum_congr rfl fun q _ => ?_
    rw [iblk2_ext V c bt ⟨0, h⟩ bb q 0, iblk2_centers V c, iblk2_centers V c, iblk2_radius V c]
  · -- a later point: what the point before left, plus this tile's sum
    have hstep := acc2_scratch_step V c (point2 bt ⟨p' + 1, h⟩) (by show (50 * bt.val + (p' + 1)) % 50 ≠ 0; omega)
    show (acc2 V c (point2 bt ⟨p' + 1, h⟩).val (point2 bt ⟨p' + 1, h⟩).isLt).2.2.1 (ix2 bb k)
      = (acc2 V c (point2 bt ⟨p', by omega⟩).val (point2 bt ⟨p', by omega⟩).isLt).2.2.1 (ix2 bb k) + _
    rw [show (acc2 V c (point2 bt ⟨p' + 1, h⟩).val (point2 bt ⟨p' + 1, h⟩).isLt).2.2.1 = _ from congrArg Prod.fst hstep]
    refine (down2_apply _ _ _ _ bb k).trans ?_
    rw [acc2_congr V c (show (point2 bt ⟨p' + 1, h⟩).val - 1 = (point2 bt ⟨p', by omega⟩).val from by simp only [point2_val]; omega) _ (point2 bt ⟨p', by omega⟩).isLt]
    refine congrArg _ ?_
    unfold tileDerived
    refine Finset.sum_congr rfl fun q _ => ?_
    rw [iblk2_ext V c bt ⟨p' + 1, h⟩ bb q 0, iblk2_centers V c, iblk2_centers V c, iblk2_radius V c]

/-- What the last point of batch tile `bt` writes back to output window 3: the whole sum over the side's points. -/
theorem flushed2_down (c : Dev nD) (t : Fin cfg2.N) (hf : (cfg2.win 3).flush t = true) :
    (dat2 V c).flushed 3 t = ((cfg2.win 3).blk t).view.read (Elt Ideal)
      (onIdx (fun r k => derived 0 (V c main_arg3) (V c main_arg4) (V c main_v2 (ix2 0 0)) r k)) := by
  have hN : cfg2.N = 100 := N_2
  have hlast : t.val % 50 = 49 := (flush2_3 t).mp hf
  obtain ⟨bt, ht⟩ : ∃ bt : Fin 2, t = point2 bt lastTile2 :=
    ⟨⟨t.val / 50, by have := t.isLt; omega⟩, Fin.ext (by simp only [point2_val]; omega)⟩
  clear hlast hf
  subst ht
  funext y
  obtain ⟨bb, k, rfl⟩ : ∃ (bb : Fin 16) (k : Fin 64), y = ix2 bb k := ⟨y 0, y 1, eq_ix2 y⟩
  rw [View.read_apply, place2_3 bt lastTile2 bb k]
  show (cfg2.win 3).cut (grid2.coords (point2 bt lastTile2)) ((dat2 V c).after 3 (point2 bt lastTile2)) (ix2 bb k) = _
  rw [after2_3]
  show (acc2 V c (point2 bt lastTile2).val (point2 bt lastTile2).isLt).1 (ix2 bb k) = _
  rw [(acc2_out_last V c (point2 bt lastTile2) (by show (50 * bt.val + 49) % 50 = 49; omega)).1]
  rw [scratch2_down V c bt bb k 49 (by omega)]
  rw [onIdx_ix2, derived_eq_tiles]
  rfl

/-- The output array of window 3 after the region: the side's partial sum, row by row. -/
theorem array2_down (c : Dev nD) :
    (dat2 V c).arrAt 3 cfg2.N = onIdx (fun r k => derived 0 (V c main_arg3) (V c main_arg4) (V c main_v2 (ix2 0 0)) r k) :=
  (dat2 V c).arrAt_eq_of_cover 3 _ (fun t hf => flushed2_down V c t hf) (cover2_3)

/-! ## The up accumulator -/

/-- After point `50·bt + p`: the sum of the point tiles `0 … p`. -/
theorem scratch2_up (c : Dev nD) (bt : Fin 2) (bb : Fin 16) (k : Fin 64) (p : ℕ) (hp : p < 50) :
    (acc2 V c (point2 bt ⟨p, hp⟩).val (point2 bt ⟨p, hp⟩).isLt).2.2.2 (ix2 bb k)
      = ∑ j : Fin (p + 1), tileDerived 1 (V c main_arg3) (V c main_arg4) (V c main_v2 (ix2 0 0)) bt ⟨j.val, by omega⟩ bb k := by
  refine Cert.Fold.acc_eq_sum 50 (fun p' => (acc2 V c (point2 bt p').val (point2 bt p').isLt).2.2.2 (ix2 bb k))
    (fun j => tileDerived 1 (V c main_arg3) (V c main_arg4) (V c main_v2 (ix2 0 0)) bt j bb k) (fun h => ?_) (fun p' h => ?_) p hp
  · -- the batch tile's first point: the accumulator zeroed, then the first tile's sum
    have hfirst := acc2_scratch_first V c (point2 bt ⟨0, h⟩) (by show (50 * bt.val + 0) % 50 = 0; omega)
    show (acc2 V c (point2 bt ⟨0, h⟩).val (point2 bt ⟨0, h⟩).isLt).2.2.2 (ix2 bb k) = _
    rw [show (acc2 V c (point2 bt ⟨0, h⟩).val (point2 bt ⟨0, h⟩).isLt).2.2.2 = _ from congrArg Prod.snd hfirst]
    refine (up2_apply _ _ _ _ bb k).trans ?_
    rw [zero_up2 bb k, zero_add]
    unfold tileDerived
    refine Finset.sum_congr rfl fun q _ => ?_
    rw [iblk2_ext V c bt ⟨0, h⟩ bb q 1, iblk2_centers V c, iblk2_centers V c, iblk2_radius V c]
  · -- a later point: what the point before left, plus this tile's sum
    have hstep := acc2_scratch_step V c (point2 bt ⟨p' + 1, h⟩) (by show (50 * bt.val + (p' + 1)) % 50 ≠ 0; omega)
    show (acc2 V c (point2 bt ⟨p' + 1, h⟩).val (point2 bt ⟨p' + 1, h⟩).isLt).2.2.2 (ix2 bb k)
      = (acc2 V c (point2 bt ⟨p', by omega⟩).val (point2 bt ⟨p', by omega⟩).isLt).2.2.2 (ix2 bb k) + _
    rw [show (acc2 V c (point2 bt ⟨p' + 1, h⟩).val (point2 bt ⟨p' + 1, h⟩).isLt).2.2.2 = _ from congrArg Prod.snd hstep]
    refine (up2_apply _ _ _ _ bb k).trans ?_
    rw [acc2_congr V c (show (point2 bt ⟨p' + 1, h⟩).val - 1 = (point2 bt ⟨p', by omega⟩).val from by simp only [point2_val]; omega) _ (point2 bt ⟨p', by omega⟩).isLt]
    refine congrArg _ ?_
    unfold tileDerived
    refine Finset.sum_congr rfl fun q _ => ?_
    rw [iblk2_ext V c bt ⟨p' + 1, h⟩ bb q 1, iblk2_centers V c, iblk2_centers V c, iblk2_radius V c]

/-- What the last point of batch tile `bt` writes back to output window 4: the whole sum over the side's points. -/
theorem flushed2_up (c : Dev nD) (t : Fin cfg2.N) (hf : (cfg2.win 4).flush t = true) :
    (dat2 V c).flushed 4 t = ((cfg2.win 4).blk t).view.read (Elt Ideal)
      (onIdx (fun r k => derived 1 (V c main_arg3) (V c main_arg4) (V c main_v2 (ix2 0 0)) r k)) := by
  have hN : cfg2.N = 100 := N_2
  have hlast : t.val % 50 = 49 := (flush2_4 t).mp hf
  obtain ⟨bt, ht⟩ : ∃ bt : Fin 2, t = point2 bt lastTile2 :=
    ⟨⟨t.val / 50, by have := t.isLt; omega⟩, Fin.ext (by simp only [point2_val]; omega)⟩
  clear hlast hf
  subst ht
  funext y
  obtain ⟨bb, k, rfl⟩ : ∃ (bb : Fin 16) (k : Fin 64), y = ix2 bb k := ⟨y 0, y 1, eq_ix2 y⟩
  rw [View.read_apply, place2_4 bt lastTile2 bb k]
  show (cfg2.win 4).cut (grid2.coords (point2 bt lastTile2)) ((dat2 V c).after 4 (point2 bt lastTile2)) (ix2 bb k) = _
  rw [after2_4]
  show (acc2 V c (point2 bt lastTile2).val (point2 bt lastTile2).isLt).2.1 (ix2 bb k) = _
  rw [(acc2_out_last V c (point2 bt lastTile2) (by show (50 * bt.val + 49) % 50 = 49; omega)).2]
  rw [scratch2_up V c bt bb k 49 (by omega)]
  rw [onIdx_ix2, derived_eq_tiles]
  rfl

/-- The output array of window 4 after the region: the side's partial sum, row by row. -/
theorem array2_up (c : Dev nD) :
    (dat2 V c).arrAt 4 cfg2.N = onIdx (fun r k => derived 1 (V c main_arg3) (V c main_arg4) (V c main_v2 (ix2 0 0)) r k) :=
  (dat2 V c).arrAt_eq_of_cover 4 _ (fun t hf => flushed2_up V c t hf) (cover2_4)

end Cert.KernelIdeal.Hand

end
-- ==== Proof.KI.Value.lean ====
/-
  The kernel program's two readouts are the specification's. Each of the three regions leaves, in each of its two output
  arrays, one partial sum of the specification — the direct points' for the first region, the derived points' of the first
  and of the second derived array for the other two — of the arrays and the radius magnitude it was entered with, which are
  the launch arrays and `|radius[0]|`; the program adds the three up partial sums and the three down partial sums in the
  order the specification writes them.
-/
import proofs.«126384_j71554155151373_1_alg».proof.Proof.KI.Halves
import proofs.«126384_j71554155151373_1_alg».proof.Proof.KI.Closing
import proofs.«126384_j71554155151373_1_alg».proof.Proof.KI.Accum0
import proofs.«126384_j71554155151373_1_alg».proof.Proof.KI.Accum1
import proofs.«126384_j71554155151373_1_alg».proof.Proof.KI.Accum2

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ)

/-- Region 0's entry contents of a buffer the first host stretch does not write. -/
theorem entry0 (c : Dev nD) (b : Ref sig .tc) (hb : b ∉ hostOps0_W) : at1 m c b = m ((c : Thread nD τ).loc b) := at1_launch m c b hb

/-- The up readout the program forms is the specification's, of the launch arrays. -/
theorem up_value (c : Dev nD) :
    upSum half0 half1 half2 m c = upReadout (m ((c : Thread nD τ).loc main_arg0)) (m ((c : Thread nD τ).loc main_arg2))
      (m ((c : Thread nD τ).loc main_arg3)) (m ((c : Thread nD τ).loc main_arg4)) (m ((c : Thread nD τ).loc main_arg5)) := by
  funext i
  have e0 := (congrFun (out_v3_0 half0 half1 half2 m c) i).trans (congrFun (array0_up (at1 m) c) i)
  have e1 := (congrFun (out_v4_1 half0 half1 half2 m c) i).trans (congrFun (array1_up (at2 half0 m) c) i)
  have e2 := (congrFun (out_v5_1 half0 half1 half2 m c) i).trans (congrFun (array2_up (at3 half0 half1 m) c) i)
  unfold upSum
  rw [ValueIdx.addf_apply, ValueIdx.addf_apply, e0, e1, e2]
  rw [entry0 m c main_arg0 (by decide), entry0 m c main_arg4 (by decide), at2_points, at2_centers, at2_radius,
    at3_points, at3_centers, at3_radius, radius_entry]
  rfl

/-- The down readout the program forms is the specification's, of the launch arrays. -/
theorem down_value (c : Dev nD) :
    downSum half0 half1 half2 m c = downReadout (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  have e0 := (congrFun (out_v3_1 half0 half1 half2 m c) i).trans (congrFun (array0_down (at1 m) c) i)
  have e1 := (congrFun (out_v4_0 half0 half1 half2 m c) i).trans (congrFun (array1_down (at2 half0 m) c) i)
  have e2 := (congrFun (out_v5_0 half0 half1 half2 m c) i).trans (congrFun (array2_down (at3 half0 half1 m) c) i)
  unfold downSum
  rw [ValueIdx.addf_apply, ValueIdx.addf_apply, e0, e1, e2]
  rw [entry0 m c main_arg1 (by decide), entry0 m c main_arg4 (by decide), at2_points, at2_centers, at2_radius,
    at3_points, at3_centers, at3_radius, radius_entry]
  rfl

/-- THE VALUE RUN of the idealized kernel program: it terminates with its first result the two specified readouts side by
    side, its second minus the sum of their squared differences, and every argument array as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v10)
        = Cert.Tail.joined
            (upReadout (m ((c : Thread nD τ).loc main_arg0)) (m ((c : Thread nD τ).loc main_arg2)) (m ((c : Thread nD τ).loc main_arg3)) (m ((c : Thread nD τ).loc main_arg4)) (m ((c : Thread nD τ).loc main_arg5)))
            (downReadout (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v14)
        = Cert.Tail.penalty
            (upReadout (m ((c : Thread nD τ).loc main_arg0)) (m ((c : Thread nD τ).loc main_arg2)) (m ((c : Thread nD τ).loc main_arg3)) (m ((c : Thread nD τ).loc main_arg4)) (m ((c : Thread nD τ).loc main_arg5)))
            (downReadout (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v10 (by decide))).trans ((end_joined half0 half1 half2 m c).trans (by rw [up_value, down_value])),
     (h c _ (mem_uc main_v14 (by decide))).trans ((end_penalty half0 half1 half2 m c).trans (by rw [up_value, down_value])),
     (h c _ (mem_uc main_arg0 (by decide))).trans (end_main_arg0 half0 half1 half2 m c),
     (h c _ (mem_uc main_arg1 (by decide))).trans (end_main_arg1 half0 half1 half2 m c),
     (h c _ (mem_uc main_arg2 (by decide))).trans (end_main_arg2 half0 half1 half2 m c),
     (h c _ (mem_uc main_arg3 (by decide))).trans (end_main_arg3 half0 half1 half2 m c),
     (h c _ (mem_uc main_arg4 (by decide))).trans (end_main_arg4 half0 half1 half2 m c),
     (h c _ (mem_uc main_arg5 (by decide))).trans (end_main_arg5 half0 half1 half2 m c)⟩)
    (run_all half0 half1 half2 m ρ)

end Cert.KernelIdeal.Hand

end
-- ==== Proof.Val.RefPieces.lean ====
/-
  The reference's joins and its rank-0 reshape, read at an index by hand.

  A row's 40000 points are three arrays laid end to end along the point axis: positions 0–19999 read the first array,
  positions 20000–29999 the second at the position less 20000, positions 30000–39999 the third at the position less
  30000. A derived point `(e, 1 - e)` is two one-column arrays side by side along the coordinate axis: coordinate 0
  reads the first, coordinate 1 the second. The radius, a one-entry array recast to a scalar, is its one entry.
-/
import proofs.«126384_j71554155151373_1_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-! ## Three arrays end to end along the point axis -/

/-- A position below 20000 reads the first array at that position. -/
theorem points_direct (x : S32x20000x2.Idx → α) (y z : S32x10000x2.Idx → α) (b : Fin 32) (q : Fin 20000) (c : Fin 2) :
    concatenate S32x40000x2 1 [⟨S32x20000x2, x⟩, ⟨S32x10000x2, y⟩, ⟨S32x10000x2, z⟩]
        concatenates_S32x20000x2_S32x10000x2_S32x10000x2_S32x40000x2_d1 (ix3 b (⟨q.val, by omega⟩ : Fin 40000) c)
      = x (ix3 b q c) :=
  concatenate_apply_piece (t := S32x40000x2) 1 [⟨S32x20000x2, x⟩, ⟨S32x10000x2, y⟩, ⟨S32x10000x2, z⟩]
      concatenates_S32x20000x2_S32x10000x2_S32x10000x2_S32x40000x2_d1
    (ix3 b (⟨q.val, by omega⟩ : Fin 40000) c) 0 (by simp) S32x20000x2 x rfl rfl 0 rfl (ix3 b q c)
    (fun d hd => by match d with | ⟨0, _⟩ => rfl | ⟨1, _⟩ => exact absurd rfl hd | ⟨2, _⟩ => rfl)
    (by show 0 + q.val = q.val; omega)

/-- Position `20000 + q`, `q < 10000`, reads the second array at `q`. -/
theorem points_ext0 (x : S32x20000x2.Idx → α) (y z : S32x10000x2.Idx → α) (b : Fin 32) (q : Fin 10000) (c : Fin 2) :
    concatenate S32x40000x2 1 [⟨S32x20000x2, x⟩, ⟨S32x10000x2, y⟩, ⟨S32x10000x2, z⟩]
        concatenates_S32x20000x2_S32x10000x2_S32x10000x2_S32x40000x2_d1 (ix3 b (⟨20000 + q.val, by omega⟩ : Fin 40000) c)
      = y (ix3 b q c) :=
  concatenate_apply_piece (t := S32x40000x2) 1 [⟨S32x20000x2, x⟩, ⟨S32x10000x2, y⟩, ⟨S32x10000x2, z⟩]
      concatenates_S32x20000x2_S32x10000x2_S32x10000x2_S32x40000x2_d1
    (ix3 b (⟨20000 + q.val, by omega⟩ : Fin 40000) c) 1 (by simp) S32x10000x2 y rfl rfl 20000 rfl (ix3 b q c)
    (fun d hd => by match d with | ⟨0, _⟩ => rfl | ⟨1, _⟩ => exact absurd rfl hd | ⟨2, _⟩ => rfl)
    (by show 20000 + q.val = 20000 + q.val; rfl)

/-- Position `30000 + q`, `q < 10000`, reads the third array at `q`. -/
theorem points_ext1 (x : S32x20000x2.Idx → α) (y z : S32x10000x2.Idx → α) (b : Fin 32) (q : Fin 10000) (c : Fin 2) :
    concatenate S32x40000x2 1 [⟨S32x20000x2, x⟩, ⟨S32x10000x2, y⟩, ⟨S32x10000x2, z⟩]
        concatenates_S32x20000x2_S32x10000x2_S32x10000x2_S32x40000x2_d1 (ix3 b (⟨30000 + q.val, by omega⟩ : Fin 40000) c)
      = z (ix3 b q c) :=
  concatenate_apply_piece (t := S32x40000x2) 1 [⟨S32x20000x2, x⟩, ⟨S32x10000x2, y⟩, ⟨S32x10000x2, z⟩]
      concatenates_S32x20000x2_S32x10000x2_S32x10000x2_S32x40000x2_d1
    (ix3 b (⟨30000 + q.val, by omega⟩ : Fin 40000) c) 2 (by simp) S32x10000x2 z rfl rfl 30000 rfl (ix3 b q c)
    (fun d hd => by match d with | ⟨0, _⟩ => rfl | ⟨1, _⟩ => exact absurd rfl hd | ⟨2, _⟩ => rfl)
    (by show 30000 + q.val = 30000 + q.val; rfl)

/-! ## Two one-column arrays side by side along the coordinate axis -/

/-- Coordinate 0 of the pair reads the first column. -/
theorem pair_fst (u v : S32x10000x1.Idx → α) (b : Fin 32) (q : Fin 10000) :
    concatenate S32x10000x2 2 [⟨S32x10000x1, u⟩, ⟨S32x10000x1, v⟩] concatenates_S32x10000x1_S32x10000x1_S32x10000x2_d2
        (ix3 b q (0 : Fin 2))
      = u (ix3 b q (0 : Fin 1)) :=
  concatenate_pair_apply_left (t := S32x10000x2) 2 u v concatenates_S32x10000x1_S32x10000x1_S32x10000x2_d2
    (ix3 b q (0 : Fin 2)) rfl (ix3 b q (0 : Fin 1))
    (fun d => by match d with | ⟨0, _⟩ => rfl | ⟨1, _⟩ => rfl | ⟨2, _⟩ => rfl)

/-- Coordinate 1 of the pair reads the second column. -/
theorem pair_snd (u v : S32x10000x1.Idx → α) (b : Fin 32) (q : Fin 10000) :
    concatenate S32x10000x2 2 [⟨S32x10000x1, u⟩, ⟨S32x10000x1, v⟩] concatenates_S32x10000x1_S32x10000x1_S32x10000x2_d2
        (ix3 b q (1 : Fin 2))
      = v (ix3 b q (0 : Fin 1)) :=
  concatenate_pair_apply_right (t := S32x10000x2) 2 u v concatenates_S32x10000x1_S32x10000x1_S32x10000x2_d2
    (ix3 b q (1 : Fin 2)) rfl rfl (ix3 b q (0 : Fin 1))
    (fun d hd => by match d with | ⟨0, _⟩ => rfl | ⟨1, _⟩ => rfl | ⟨2, _⟩ => exact absurd rfl hd)
    rfl

/-! ## The radius as a scalar -/

/-- A one-entry array recast to a scalar is its one entry. -/
theorem scalar_of_one (x : S1.Idx → α) (j : S_.Idx) : shapeCast S_ x shapeCasts_S1_S_ j = x (ix1 (0 : Fin 1)) := by
  refine shapeCast_apply x shapeCasts_S1_S_ j (ix1 (0 : Fin 1)) ?_
  have h1 : (S1.rowMajor (ix1 (0 : Fin 1))).val < 1 :=
    Nat.lt_of_lt_of_eq (S1.rowMajor (ix1 (0 : Fin 1))).isLt (by decide : S1.numel = 1)
  have h0 : (S_.rowMajor j).val < 1 := Nat.lt_of_lt_of_eq (S_.rowMajor j).isLt (by decide : S_.numel = 1)
  omega

end Cert.ReferenceIdeal.RefValue

end
-- ==== Proof.Val.RefColumns.lean ====
/-
  The derived points of the reference. From the array `ext` (f32[32, 10000, 2]) and a coordinate `j` the reference builds
  the points `(e, 1 - e)`, `e = ext[b, q, j]`: it slices coordinate `j` out, drops the unit axis, subtracts from the
  constant one, puts the unit axis back on both and joins the two columns. Read at `(b, q, 0)` the result is `ext[b, q, j]`
  and at `(b, q, 1)` it is `1 - ext[b, q, j]`; the only arithmetic is that row-major position `b · 10000 + q` of a
  [32, 10000] array is row `b`, column `q`. Four instances: `ext0` and `ext1`, first and second coordinate.
-/
import proofs.«126384_j71554155151373_1_alg».proof.Proof.Gen.ReferenceIdeal.Read
import proofs.«126384_j71554155151373_1_alg».proof.Proof.Val.Spec
import proofs.«126384_j71554155151373_1_alg».proof.Proof.Val.RefPieces

noncomputable section

namespace Cert.ReferenceIdeal.RefValue

open Cert.ReferenceIdeal Cert.ReferenceIdeal.Gen Cert.ReferenceIdeal.Read Idealize.ShloMosaic Idealize.ShloMosaic.ValueIdx

/-- Coordinate `0` of `ext0` as a column: entry `(b, q)` is `ext0[b, q, 0]`. -/
theorem ext0_col0 (x2 : (⟨S32x10000x2, .f32⟩ : BufTy).Contents (Elt Ideal)) (b : Fin 32) (q : Fin 10000) :
    val_main_v10 (F := Ideal) x2 (ix3 b q (0 : Fin 1)) = x2 (ix3 b q (0 : Fin 2)) := by
  rw [val_main_v10_apply, val_main_v1_apply, val_main_v0_apply]
  refine congrArg x2 (funext fun a => Fin.ext ?_)
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- One minus coordinate `0` of `ext0` as a column: entry `(b, q)` is `1 - ext0[b, q, 0]`. -/
theorem ext0_one_sub_col0 (x2 : (⟨S32x10000x2, .f32⟩ : BufTy).Contents (Elt Ideal)) (b : Fin 32) (q : Fin 10000) :
    val_main_v11 (F := Ideal) x2 (ix3 b q (0 : Fin 1)) = Cert.Spec.one - x2 (ix3 b q (0 : Fin 2)) := by
  rw [val_main_v11_apply, val_main_v9_apply, val_main_v8_apply, val_main_cst_apply, val_main_v1_apply, val_main_v0_apply]
  refine congrArg (fun y => Cert.Spec.one - y) (congrArg x2 (funext fun a => Fin.ext ?_))
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- The derived points `(e, 1 - e)`, `e` coordinate `0` of `ext0`: their first coordinate. -/
theorem ext0_first_fst (x2 : (⟨S32x10000x2, .f32⟩ : BufTy).Contents (Elt Ideal)) (b : Fin 32) (q : Fin 10000) :
    val_main_v12 (F := Ideal) x2 (ix3 b q (0 : Fin 2)) = x2 (ix3 b q (0 : Fin 2)) := by
  unfold val_main_v12
  rw [pair_fst]
  exact ext0_col0 x2 b q

/-- The derived points `(e, 1 - e)`, `e` coordinate `0` of `ext0`: their second coordinate. -/
theorem ext0_first_snd (x2 : (⟨S32x10000x2, .f32⟩ : BufTy).Contents (Elt Ideal)) (b : Fin 32) (q : Fin 10000) :
    val_main_v12 (F := Ideal) x2 (ix3 b q (1 : Fin 2)) = Cert.Spec.one - x2 (ix3 b q (0 : Fin 2)) := by
  unfold val_main_v12
  rw [pair_snd]
  exact ext0_one_sub_col0 x2 b q

/-- Coordinate `1` of `ext0` as a column: entry `(b, q)` is `ext0[b, q, 1]`. -/
theorem ext0_col1 (x2 : (⟨S32x10000x2, .f32⟩ : BufTy).Contents (Elt Ideal)) (b : Fin 32) (q : Fin 10000) :
    val_main_v15 (F := Ideal) x2 (ix3 b q (0 : Fin 1)) = x2 (ix3 b q (1 : Fin 2)) := by
  rw [val_main_v15_apply, val_main_v3_apply, val_main_v2_apply]
  refine congrArg x2 (funext fun a => Fin.ext ?_)
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- One minus coordinate `1` of `ext0` as a column: entry `(b, q)` is `1 - ext0[b, q, 1]`. -/
theorem ext0_one_sub_col1 (x2 : (⟨S32x10000x2, .f32⟩ : BufTy).Contents (Elt Ideal)) (b : Fin 32) (q : Fin 10000) :
    val_main_v16 (F := Ideal) x2 (ix3 b q (0 : Fin 1)) = Cert.Spec.one - x2 (ix3 b q (1 : Fin 2)) := by
  rw [val_main_v16_apply, val_main_v14_apply, val_main_v13_apply, val_main_cst_0_apply, val_main_v3_apply, val_main_v2_apply]
  refine congrArg (fun y => Cert.Spec.one - y) (congrArg x2 (funext fun a => Fin.ext ?_))
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- The derived points `(e, 1 - e)`, `e` coordinate `1` of `ext0`: their first coordinate. -/
theorem ext0_second_fst (x2 : (⟨S32x10000x2, .f32⟩ : BufTy).Contents (Elt Ideal)) (b : Fin 32) (q : Fin 10000) :
    val_main_v17 (F := Ideal) x2 (ix3 b q (0 : Fin 2)) = x2 (ix3 b q (1 : Fin 2)) := by
  unfold val_main_v17
  rw [pair_fst]
  exact ext0_col1 x2 b q

/-- The derived points `(e, 1 - e)`, `e` coordinate `1` of `ext0`: their second coordinate. -/
theorem ext0_second_snd (x2 : (⟨S32x10000x2, .f32⟩ : BufTy).Contents (Elt Ideal)) (b : Fin 32) (q : Fin 10000) :
    val_main_v17 (F := Ideal) x2 (ix3 b q (1 : Fin 2)) = Cert.Spec.one - x2 (ix3 b q (1 : Fin 2)) := by
  unfold val_main_v17
  rw [pair_snd]
  exact ext0_one_sub_col1 x2 b q

/-- Coordinate `0` of `ext1` as a column: entry `(b, q)` is `ext1[b, q, 0]`. -/
theorem ext1_col0 (x3 : (⟨S32x10000x2, .f32⟩ : BufTy).Contents (Elt Ideal)) (b : Fin 32) (q : Fin 10000) :
    val_main_v20 (F := Ideal) x3 (ix3 b q (0 : Fin 1)) = x3 (ix3 b q (0 : Fin 2)) := by
  rw [val_main_v20_apply, val_main_v5_apply, val_main_v4_apply]
  refine congrArg x3 (funext fun a => Fin.ext ?_)
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- One minus coordinate `0` of `ext1` as a column: entry `(b, q)` is `1 - ext1[b, q, 0]`. -/
theorem ext1_one_sub_col0 (x3 : (⟨S32x10000x2, .f32⟩ : BufTy).Contents (Elt Ideal)) (b : Fin 32) (q : Fin 10000) :
    val_main_v21 (F := Ideal) x3 (ix3 b q (0 : Fin 1)) = Cert.Spec.one - x3 (ix3 b q (0 : Fin 2)) := by
  rw [val_main_v21_apply, val_main_v19_apply, val_main_v18_apply, val_main_cst_1_apply, val_main_v5_apply, val_main_v4_apply]
  refine congrArg (fun y => Cert.Spec.one - y) (congrArg x3 (funext fun a => Fin.ext ?_))
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- The derived points `(e, 1 - e)`, `e` coordinate `0` of `ext1`: their first coordinate. -/
theorem ext1_first_fst (x3 : (⟨S32x10000x2, .f32⟩ : BufTy).Contents (Elt Ideal)) (b : Fin 32) (q : Fin 10000) :
    val_main_v22 (F := Ideal) x3 (ix3 b q (0 : Fin 2)) = x3 (ix3 b q (0 : Fin 2)) := by
  unfold val_main_v22
  rw [pair_fst]
  exact ext1_col0 x3 b q

/-- The derived points `(e, 1 - e)`, `e` coordinate `0` of `ext1`: their second coordinate. -/
theorem ext1_first_snd (x3 : (⟨S32x10000x2, .f32⟩ : BufTy).Contents (Elt Ideal)) (b : Fin 32) (q : Fin 10000) :
    val_main_v22 (F := Ideal) x3 (ix3 b q (1 : Fin 2)) = Cert.Spec.one - x3 (ix3 b q (0 : Fin 2)) := by
  unfold val_main_v22
  rw [pair_snd]
  exact ext1_one_sub_col0 x3 b q

/-- Coordinate `1` of `ext1` as a column: entry `(b, q)` is `ext1[b, q, 1]`. -/
theorem ext1_col1 (x3 : (⟨S32x10000x2, .f32⟩ : BufTy).Contents (Elt Ideal)) (b : Fin 32) (q : Fin 10000) :
    val_main_v25 (F := Ideal) x3 (ix3 b q (0 : Fin 1)) = x3 (ix3 b q (1 : Fin 2)) := by
  rw [val_main_v25_apply, val_main_v7_apply, val_main_v6_apply]
  refine congrArg x3 (funext fun a => Fin.ext ?_)
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- One minus coordinate `1` of `ext1` as a column: entry `(b, q)` is `1 - ext1[b, q, 1]`. -/
theorem ext1_one_sub_col1 (x3 : (⟨S32x10000x2, .f32⟩ : BufTy).Contents (Elt Ideal)) (b : Fin 32) (q : Fin 10000) :
    val_main_v26 (F := Ideal) x3 (ix3 b q (0 : Fin 1)) = Cert.Spec.one - x3 (ix3 b q (1 : Fin 2)) := by
  rw [val_main_v26_apply, val_main_v24_apply, val_main_v23_apply, val_main_cst_2_apply, val_main_v7_apply, val_main_v6_apply]
  refine congrArg (fun y => Cert.Spec.one - y) (congrArg x3 (funext fun a => Fin.ext ?_))
  have hb := b.isLt
  have hq := q.isLt
  match a with
  | ⟨0, _⟩ => show (b.val * 10000 + q.val) / 10000 = b.val; omega
  | ⟨1, _⟩ => show (b.val * 10000 + q.val) / 1 % 10000 = q.val; omega
  | ⟨2, _⟩ => rfl

/-- The derived points `(e, 1 - e)`, `e` coordinate `1` of `ext1`: their first coordinate. -/
theorem ext1_second_fst (x3 : (⟨S32x10000x2, .f32⟩ : BufTy).Contents (Elt Ideal)) (b : Fin 32) (q : Fin 10000) :
    val_main_v27 (F := Ideal) x3 (ix3 b q (0 : Fin 2)) = x3 (ix3 b q (1 : Fin 2)) := by
  unfold val_main_v27
  rw [pair_fst]
  exact ext1_col1 x3 b q

/-- The derived points `(e, 1 - e)`, `e` coordinate `1` of `ext1`: their second coordinate. -/
theorem ext1_second_snd (x3 : (⟨S32x10000x2, .f32⟩ : BufTy).Contents (Elt Ideal)) (b : Fin 32) (q : Fin 10000) :
    val_main_v27 (F := Ideal) x3 (ix3 b q (1 : Fin 2)) = Cert.Spec.one - x3 (ix3 b q (1 : Fin 2)) := by
  unfold val_main_v27
  rw [pair_snd]
  exact ext1_one_sub_col1 x3 b q

end Cert.ReferenceIdeal.RefValue

end
-- ==== Proof.Val.RefUp.lean ====
/-
  The UP readout of the reference is the specification's.

  At `(b, k)` the reference's readout is zero plus the sum over the 40000 positions `p` of a row of
  `1 / (1 + d) - 1 / (1 + |r - d|)`, `d = 0 + (|a - cx| + |b' - cy|)` the L1 distance of the point `(a, b')` at position `p` to
  center `k` and `r = |radius[0]|`: the rational hat of the specification, once the broadcasts are read at their indices
  and the two zeros the sums start from are dropped. The positions split into the 20000 direct points of `beta_0_up` and the two
  stretches of 10000 derived points `(e, 1 - e)`, `e` the second coordinate of a row of `ext0`, then of `ext1`; the
  three partial sums are the specification's `direct` and `derived 1`, in its order of addition.
-/
import proofs.«126384_j71554155151373_1_alg».proof.Proof.Gen.ReferenceIdeal.Read
import proofs.«126384_j71554155151373_1_alg».proof.Proof.Val.Spec
import proofs.«126384_j71554155151373_1_alg».proof.Proof.Val.SumLaws
import proofs.«126384_j71554155151373_1_alg».proof.Proof.Val.RefPieces
import proofs.«126384_j71554155151373_1_alg».proof.Proof.Val.RefColumns

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S32x20000x2, .f32⟩ : BufTy).Contents (Elt Ideal)) (x2 x3 : (⟨S32x10000x2, .f32⟩ : BufTy).Contents (Elt Ideal))
  (x4 : (⟨S64x2, .f32⟩ : BufTy).Contents (Elt Ideal)) (x5 : (⟨S1, .f32⟩ : BufTy).Contents (Elt Ideal))

/-! ## Where the broadcasts read -/

/-- Coordinate `c` of the point at position `p` of row `b`, whatever the center. -/
theorem up_point_idx (b : Fin 32) (p : Fin 40000) (k : Fin 64) (c : Fin 2) :
    idx_main_v30 (idx_main_v32 (idx_main_v36 (ix3 b p k) c)) = ix3 b p c :=
  funext fun a => by match a with | ⟨0, _⟩ => rfl | ⟨1, _⟩ => rfl | ⟨2, _⟩ => rfl

/-- Coordinate `c` of center `k`, whatever the row and the position. -/
theorem up_center_idx (b : Fin 32) (p : Fin 40000) (k : Fin 64) (c : Fin 2) :
    idx_main_v31 (idx_main_v33 (idx_main_v36 (ix3 b p k) c)) = ix2 k c :=
  funext fun a => by match a with | ⟨0, _⟩ => rfl | ⟨1, _⟩ => rfl

/-! ## The hat at a position -/

/-- One coordinate's share of the L1 distance: `|point[c] - center[c]|`. -/
theorem up_coord (b : Fin 32) (p : Fin 40000) (k : Fin 64) (c : Fin 2) :
    val_main_v35 (F := Ideal) x0 x2 x3 x4 (idx_main_v36 (ix3 b p k) c)
      = max (val_main_v29 (F := Ideal) x0 x2 x3 (ix3 b p c) - x4 (ix2 k c))
          (-(val_main_v29 (F := Ideal) x0 x2 x3 (ix3 b p c) - x4 (ix2 k c))) := by
  rw [val_main_v35_apply, val_main_v34_apply, val_main_v32_apply, val_main_v30_apply, val_main_v33_apply, val_main_v31_apply,
    up_point_idx, up_center_idx]
  rfl

/-- The L1 distance of the point at position `p` of row `b` to center `k` (the sum over the two coordinates starts from zero). -/
theorem up_dist (b : Fin 32) (p : Fin 40000) (k : Fin 64) :
    val_main_v36 (F := Ideal) x0 x2 x3 x4 (ix3 b p k)
      = Cert.Spec.dist (val_main_v29 (F := Ideal) x0 x2 x3 (ix3 b p (0 : Fin 2))) (val_main_v29 (F := Ideal) x0 x2 x3 (ix3 b p (1 : Fin 2)))
          (x4 (ix2 k (0 : Fin 2))) (x4 (ix2 k (1 : Fin 2))) := by
  rw [val_main_v36_apply, val_main_cst_3_apply, Fin.sum_univ_two, up_coord, up_coord]
  simp only [Ideal.ofBits_def, Ideal.ofBits_zero_f32, zero_add]
  rfl

/-- The radius magnitude `|radius[0]|`. -/
theorem up_rad (j : S_.Idx) : val_main_v38 (F := Ideal) x5 j = Cert.Spec.rad x5 := by
  rw [val_main_v38_apply]
  unfold val_main_v37
  rw [scalar_of_one]
  rfl

/-- The rational hat of the point at position `p` of row `b` at center `k`. -/
theorem up_hat (b : Fin 32) (p : Fin 40000) (k : Fin 64) :
    val_main_v50 (F := Ideal) x0 x2 x3 x4 x5 (ix3 b p k)
      = Cert.Spec.hat (Cert.Spec.rad x5) (val_main_v29 (F := Ideal) x0 x2 x3 (ix3 b p (0 : Fin 2)))
          (val_main_v29 (F := Ideal) x0 x2 x3 (ix3 b p (1 : Fin 2))) (x4 (ix2 k (0 : Fin 2))) (x4 (ix2 k (1 : Fin 2))) := by
  rw [val_main_v50_apply, val_main_v42_apply, val_main_v49_apply, val_main_v41_apply, val_main_cst_5_apply, val_main_v40_apply, val_main_v39_apply, val_main_cst_4_apply,
    val_main_v48_apply, val_main_cst_7_apply, val_main_v47_apply, val_main_v46_apply, val_main_cst_6_apply, val_main_v45_apply, val_main_v44_apply, val_main_v43_apply,
    up_rad, up_dist]
  rfl

/-! ## The three stretches of positions -/

/-- Positions 0–19999 are the points of `beta_0_up`. -/
theorem up_at_direct (b : Fin 32) (q : Fin 20000) (c : Fin 2) :
    val_main_v29 (F := Ideal) x0 x2 x3 (ix3 b (⟨q.val, by omega⟩ : Fin 40000) c) = x0 (ix3 b q c) := by
  unfold val_main_v29
  exact points_direct x0 _ _ b q c

/-- Positions 20000–29999 are the derived points of `ext0`: first coordinate. -/
theorem up_at_ext0_fst (b : Fin 32) (q : Fin 10000) :
    val_main_v29 (F := Ideal) x0 x2 x3 (ix3 b (⟨20000 + q.val, by omega⟩ : Fin 40000) (0 : Fin 2)) = x2 (ix3 b q (1 : Fin 2)) := by
  unfold val_main_v29
  rw [points_ext0]
  exact ext0_second_fst x2 b q

/-- Positions 20000–29999 are the derived points of `ext0`: second coordinate. -/
theorem up_at_ext0_snd (b : Fin 32) (q : Fin 10000) :
    val_main_v29 (F := Ideal) x0 x2 x3 (ix3 b (⟨20000 + q.val, by omega⟩ : Fin 40000) (1 : Fin 2))
      = Cert.Spec.one - x2 (ix3 b q (1 : Fin 2)) := by
  unfold val_main_v29
  rw [points_ext0]
  exact ext0_second_snd x2 b q

/-- Positions 30000–39999 are the derived points of `ext1`: first coordinate. -/
theorem up_at_ext1_fst (b : Fin 32) (q : Fin 10000) :
    val_main_v29 (F := Ideal) x0 x2 x3 (ix3 b (⟨30000 + q.val, by omega⟩ : Fin 40000) (0 : Fin 2)) = x3 (ix3 b q (1 : Fin 2)) := by
  unfold val_main_v29
  rw [points_ext1]
  exact ext1_second_fst x3 b q

/-- Positions 30000–39999 are the derived points of `ext1`: second coordinate. -/
theorem up_at_ext1_snd (b : Fin 32) (q : Fin 10000) :
    val_main_v29 (F := Ideal) x0 x2 x3 (ix3 b (⟨30000 + q.val, by omega⟩ : Fin 40000) (1 : Fin 2))
      = Cert.Spec.one - x3 (ix3 b q (1 : Fin 2)) := by
  unfold val_main_v29
  rw [points_ext1]
  exact ext1_second_snd x3 b q

/-! ## The readout -/

/-- The reference's UP readout at `(b, k)`: the direct points' sum plus the two derived stretches' sums. -/
theorem up_at (b : Fin 32) (k : Fin 64) :
    val_main_v51 (F := Ideal) x0 x2 x3 x4 x5 (ix2 b k)
      = Cert.Spec.direct x0 x4 (Cert.Spec.rad x5) b k + Cert.Spec.derived 1 x2 x4 (Cert.Spec.rad x5) b k
          + Cert.Spec.derived 1 x3 x4 (Cert.Spec.rad x5) b k := by
  have hidx : ∀ p : Fin 40000, idx_main_v51 (ix2 b k) p = ix3 b p k := fun p =>
    funext fun a => by match a with | ⟨0, _⟩ => rfl | ⟨1, _⟩ => rfl | ⟨2, _⟩ => rfl
  rw [val_main_v51_apply, val_main_cst_8_apply]
  simp only [hidx, up_hat]
  rw [Cert.SumLaws.sum_three_parts]
  simp only [up_at_direct, up_at_ext0_fst, up_at_ext0_snd, up_at_ext1_fst, up_at_ext1_snd,
    Ideal.ofBits_def, Ideal.ofBits_zero_f32, zero_add]
  rfl

/-- **The reference's UP readout is the specification's.** -/
theorem up_eq : val_main_v51 (F := Ideal) x0 x2 x3 x4 x5 = Cert.Spec.upReadout x0 x2 x3 x4 x5 := by
  funext i
  obtain ⟨b, k, rfl⟩ : ∃ (b : Fin 32) (k : Fin 64), i = ix2 b k := ⟨i 0, i 1, eq_ix2 i⟩
  exact up_at x0 x2 x3 x4 x5 b k

end Cert.ReferenceIdeal.RefValue

end
-- ==== Proof.Val.RefDown.lean ====
/-
  The DOWN readout of the reference is the specification's.

  At `(b, k)` the reference's readout is zero plus the sum over the 40000 positions `p` of a row of
  `1 / (1 + d) - 1 / (1 + |r - d|)`, `d = 0 + (|a - cx| + |b' - cy|)` the L1 distance of the point `(a, b')` at position `p` to
  center `k` and `r = |radius[0]|`: the rational hat of the specification, once the broadcasts are read at their indices
  and the two zeros the sums start from are dropped. The positions split into the 20000 direct points of `beta_0_down` and the two
  stretches of 10000 derived points `(e, 1 - e)`, `e` the first coordinate of a row of `ext0`, then of `ext1`; the
  three partial sums are the specification's `direct` and `derived 0`, in its order of addition.
-/
import proofs.«126384_j71554155151373_1_alg».proof.Proof.Gen.ReferenceIdeal.Read
import proofs.«126384_j71554155151373_1_alg».proof.Proof.Val.Spec
import proofs.«126384_j71554155151373_1_alg».proof.Proof.Val.SumLaws
import proofs.«126384_j71554155151373_1_alg».proof.Proof.Val.RefPieces
import proofs.«126384_j71554155151373_1_alg».proof.Proof.Val.RefColumns

noncomputable section

namespace Cert.ReferenceIdeal.RefValue

open Cert.ReferenceIdeal Cert.ReferenceIdeal.Gen Cert.ReferenceIdeal.Read Idealize.ShloMosaic Idealize.ShloMosaic.ValueIdx
open scoped BigOperators

variable (x1 : (⟨S32x20000x2, .f32⟩ : BufTy).Contents (Elt Ideal)) (x2 x3 : (⟨S32x10000x2, .f32⟩ : BufTy).Contents (Elt Ideal))
  (x4 : (⟨S64x2, .f32⟩ : BufTy).Contents (Elt Ideal)) (x5 : (⟨S1, .f32⟩ : BufTy).Contents (Elt Ideal))

/-! ## Where the broadcasts read -/

/-- Coordinate `c` of the point at position `p` of row `b`, whatever the center. -/
theorem down_point_idx (b : Fin 32) (p : Fin 40000) (k : Fin 64) (c : Fin 2) :
    idx_main_v52 (idx_main_v54 (idx_main_v58 (ix3 b p k) c)) = ix3 b p c :=
  funext fun a => by match a with | ⟨0, _⟩ => rfl | ⟨1, _⟩ => rfl | ⟨2, _⟩ => rfl

/-- Coordinate `c` of center `k`, whatever the row and the position. -/
theorem down_center_idx (b : Fin 32) (p : Fin 40000) (k : Fin 64) (c : Fin 2) :
    idx_main_v53 (idx_main_v55 (idx_main_v58 (ix3 b p k) c)) = ix2 k c :=
  funext fun a => by match a with | ⟨0, _⟩ => rfl | ⟨1, _⟩ => rfl

/-! ## The hat at a position -/

/-- One coordinate's share of the L1 distance: `|point[c] - center[c]|`. -/
theorem down_coord (b : Fin 32) (p : Fin 40000) (k : Fin 64) (c : Fin 2) :
    val_main_v57 (F := Ideal) x1 x2 x3 x4 (idx_main_v58 (ix3 b p k) c)
      = max (val_main_v28 (F := Ideal) x1 x2 x3 (ix3 b p c) - x4 (ix2 k c))
          (-(val_main_v28 (F := Ideal) x1 x2 x3 (ix3 b p c) - x4 (ix2 k c))) := by
  rw [val_main_v57_apply, val_main_v56_apply, val_main_v54_apply, val_main_v52_apply, val_main_v55_apply, val_main_v53_apply,
    down_point_idx, down_center_idx]
  rfl

/-- The L1 distance of the point at position `p` of row `b` to center `k` (the sum over the two coordinates starts from zero). -/
theorem down_dist (b : Fin 32) (p : Fin 40000) (k : Fin 64) :
    val_main_v58 (F := Ideal) x1 x2 x3 x4 (ix3 b p k)
      = Cert.Spec.dist (val_main_v28 (F := Ideal) x1 x2 x3 (ix3 b p (0 : Fin 2))) (val_main_v28 (F := Ideal) x1 x2 x3 (ix3 b p (1 : Fin 2)))
          (x4 (ix2 k (0 : Fin 2))) (x4 (ix2 k (1 : Fin 2))) := by
  rw [val_main_v58_apply, val_main_cst_9_apply, Fin.sum_univ_two, down_coord, down_coord]
  simp only [Ideal.ofBits_def, Ideal.ofBits_zero_f32, zero_add]
  rfl

/-- The radius magnitude `|radius[0]|`. -/
theorem down_rad (j : S_.Idx) : val_main_v60 (F := Ideal) x5 j = Cert.Spec.rad x5 := by
  rw [val_main_v60_apply]
  unfold val_main_v59
  rw [scalar_of_one]
  rfl

/-- The rational hat of the point at position `p` of row `b` at center `k`. -/
theorem down_hat (b : Fin 32) (p : Fin 40000) (k : Fin 64) :
    val_main_v72 (F := Ideal) x1 x2 x3 x4 x5 (ix3 b p k)
      = Cert.Spec.hat (Cert.Spec.rad x5) (val_main_v28 (F := Ideal) x1 x2 x3 (ix3 b p (0 : Fin 2)))
          (val_main_v28 (F := Ideal) x1 x2 x3 (ix3 b p (1 : Fin 2))) (x4 (ix2 k (0 : Fin 2))) (x4 (ix2 k (1 : Fin 2))) := by
  rw [val_main_v72_apply, val_main_v64_apply, val_main_v71_apply, val_main_v63_apply, val_main_cst_11_apply, val_main_v62_apply, val_main_v61_apply, val_main_cst_10_apply,
    val_main_v70_apply, val_main_cst_13_apply, val_main_v69_apply, val_main_v68_apply, val_main_cst_12_apply, val_main_v67_apply, val_main_v66_apply, val_main_v65_apply,
    down_rad, down_dist]
  rfl

/-! ## The three stretches of positions -/

/-- Positions 0–19999 are the points of `beta_0_down`. -/
theorem down_at_direct (b : Fin 32) (q : Fin 20000) (c : Fin 2) :
    val_main_v28 (F := Ideal) x1 x2 x3 (ix3 b (⟨q.val, by omega⟩ : Fin 40000) c) = x1 (ix3 b q c) := by
  unfold val_main_v28
  exact points_direct x1 _ _ b q c

/-- Positions 20000–29999 are the derived points of `ext0`: first coordinate. -/
theorem down_at_ext0_fst (b : Fin 32) (q : Fin 10000) :
    val_main_v28 (F := Ideal) x1 x2 x3 (ix3 b (⟨20000 + q.val, by omega⟩ : Fin 40000) (0 : Fin 2)) = x2 (ix3 b q (0 : Fin 2)) := by
  unfold val_main_v28
  rw [points_ext0]
  exact ext0_first_fst x2 b q

/-- Positions 20000–29999 are the derived points of `ext0`: second coordinate. -/
theorem down_at_ext0_snd (b : Fin 32) (q : Fin 10000) :
    val_main_v28 (F := Ideal) x1 x2 x3 (ix3 b (⟨20000 + q.val, by omega⟩ : Fin 40000) (1 : Fin 2))
      = Cert.Spec.one - x2 (ix3 b q (0 : Fin 2)) := by
  unfold val_main_v28
  rw [points_ext0]
  exact ext0_first_snd x2 b q

/-- Positions 30000–39999 are the derived points of `ext1`: first coordinate. -/
theorem down_at_ext1_fst (b : Fin 32) (q : Fin 10000) :
    val_main_v28 (F := Ideal) x1 x2 x3 (ix3 b (⟨30000 + q.val, by omega⟩ : Fin 40000) (0 : Fin 2)) = x3 (ix3 b q (0 : Fin 2)) := by
  unfold val_main_v28
  rw [points_ext1]
  exact ext1_first_fst x3 b q

/-- Positions 30000–39999 are the derived points of `ext1`: second coordinate. -/
theorem down_at_ext1_snd (b : Fin 32) (q : Fin 10000) :
    val_main_v28 (F := Ideal) x1 x2 x3 (ix3 b (⟨30000 + q.val, by omega⟩ : Fin 40000) (1 : Fin 2))
      = Cert.Spec.one - x3 (ix3 b q (0 : Fin 2)) := by
  unfold val_main_v28
  rw [points_ext1]
  exact ext1_first_snd x3 b q

/-! ## The readout -/

/-- The reference's DOWN readout at `(b, k)`: the direct points' sum plus the two derived stretches' sums. -/
theorem down_at (b : Fin 32) (k : Fin 64) :
    val_main_v73 (F := Ideal) x1 x2 x3 x4 x5 (ix2 b k)
      = Cert.Spec.direct x1 x4 (Cert.Spec.rad x5) b k + Cert.Spec.derived 0 x2 x4 (Cert.Spec.rad x5) b k
          + Cert.Spec.derived 0 x3 x4 (Cert.Spec.rad x5) b k := by
  have hidx : ∀ p : Fin 40000, idx_main_v73 (ix2 b k) p = ix3 b p k := fun p =>
    funext fun a => by match a with | ⟨0, _⟩ => rfl | ⟨1, _⟩ => rfl | ⟨2, _⟩ => rfl
  rw [val_main_v73_apply, val_main_cst_14_apply]
  simp only [hidx, down_hat]
  rw [Cert.SumLaws.sum_three_parts]
  simp only [down_at_direct, down_at_ext0_fst, down_at_ext0_snd, down_at_ext1_fst, down_at_ext1_snd,
    Ideal.ofBits_def, Ideal.ofBits_zero_f32, zero_add]
  rfl

/-- **The reference's DOWN readout is the specification's.** -/
theorem down_eq : val_main_v73 (F := Ideal) x1 x2 x3 x4 x5 = Cert.Spec.downReadout x1 x2 x3 x4 x5 := by
  funext i
  obtain ⟨b, k, rfl⟩ : ∃ (b : Fin 32) (k : Fin 64), i = ix2 b k := ⟨i 0, i 1, eq_ix2 i⟩
  exact down_at x1 x2 x3 x4 x5 b k

end Cert.ReferenceIdeal.RefValue

end
-- ==== Proof.Val.RefValue.lean ====
/-
  The reference's two results, stated over the specification's readouts.

  The reference ends with the steps both programs share: its first result is the UP and DOWN readouts side by side, its
  second minus the sum, started from zero, of their squared differences. These steps are the functions `joined` and
  `penalty` applied to the reference's own readouts — the same operations in the same order, so by unfolding the
  reference's last few stages, and no further than the two readouts — and the readouts are the specification's
  (`up_eq`, `down_eq`).
-/
import proofs.«126384_j71554155151373_1_alg».proof.Proof.Gen.ReferenceIdeal.Read
import proofs.«126384_j71554155151373_1_alg».proof.Proof.Val.Spec
import proofs.«126384_j71554155151373_1_alg».proof.Proof.Val.Tail
import proofs.«126384_j71554155151373_1_alg».proof.Proof.Val.SumLaws
import proofs.«126384_j71554155151373_1_alg».proof.Proof.Val.RefUp
import proofs.«126384_j71554155151373_1_alg».proof.Proof.Val.RefDown

noncomputable section

namespace Cert.ReferenceIdeal.RefValue

open Cert.ReferenceIdeal Cert.ReferenceIdeal.Gen Cert.ReferenceIdeal.Read Idealize.ShloMosaic Idealize.ShloMosaic.ValueIdx

variable (x0 x1 : (⟨S32x20000x2, .f32⟩ : BufTy).Contents (Elt Ideal)) (x2 x3 : (⟨S32x10000x2, .f32⟩ : BufTy).Contents (Elt Ideal))
  (x4 : (⟨S64x2, .f32⟩ : BufTy).Contents (Elt Ideal)) (x5 : (⟨S1, .f32⟩ : BufTy).Contents (Elt Ideal))

/-- The reference's first result is its two readouts side by side. -/
theorem out0_joined :
    val_main_v78 (F := Ideal) x0 x1 x2 x3 x4 x5
      = Cert.Tail.joined (val_main_v51 (F := Ideal) x0 x2 x3 x4 x5) (val_main_v73 (F := Ideal) x1 x2 x3 x4 x5) := rfl

/-- The reference's second result is minus the sum of the squared differences of its two readouts. -/
theorem out1_penalty :
    val_main_v77 (F := Ideal) x0 x1 x2 x3 x4 x5
      = Cert.Tail.penalty (val_main_v51 (F := Ideal) x0 x2 x3 x4 x5) (val_main_v73 (F := Ideal) x1 x2 x3 x4 x5) := rfl

/-- **The reference's first result**: the specification's readouts side by side. -/
theorem out0_eq :
    val_main_v78 (F := Ideal) x0 x1 x2 x3 x4 x5
      = Cert.Tail.joined (Cert.Spec.upReadout x0 x2 x3 x4 x5) (Cert.Spec.downReadout x1 x2 x3 x4 x5) := by
  rw [out0_joined, up_eq, down_eq]

/-- **The reference's second result**: minus the sum of the squared differences of the specification's readouts. -/
theorem out1_eq :
    val_main_v77 (F := Ideal) x0 x1 x2 x3 x4 x5
      = Cert.Tail.penalty (Cert.Spec.upReadout x0 x2 x3 x4 x5) (Cert.Spec.downReadout x1 x2 x3 x4 x5) := by
  rw [out1_penalty, up_eq, down_eq]

end Cert.ReferenceIdeal.RefValue

end
-- ==== Proof.lean ====
/-
  The certificate of a set readout over variable-length point sequences.

  For a batch row `b` and a center `k` the readout of a side is the sum, over the side's 40000 points `(a, b')`, of the
  rational hat `1/(1 + d) - 1/(1 + |r - d|)`, `d = |a - cx| + |b' - cy|` the L1 distance to the center and `r = |radius[0]|`.
  The reference concatenates each side's points — the 20000 given ones, then `(e, 1 - e)` for a coordinate `e` of each row of
  the two derived arrays — and sums once over the 40000. The kernel program never builds the concatenation: three kernels
  stream tiles of 200 points, each adding its tile's sums into two accumulators it carries across the grid and copies out
  at a batch tile's last point, and the host adds the three partial sums per side. On the extended reals the two agree by
  nothing more than the commutativity and associativity of addition (a sum over 40000 points cut into three ranges, a
  range cut into tiles) and `0 + x = x`; no input need be finite for that, and the precondition is not opened.

  The three frames: the two kernel programs' from the run over their five segments (a host stretch, the three kernel
  regions, a host stretch), each region's proof its own — the body's run case by case (first point of a batch tile, a
  middle point, the last point), the accumulators' contents point by point as the invariant; the reference's from its run.
  The idealized kernel program is the printed program read on the extended reals: no rewrite to account for.
-/
import proofs.«126384_j71554155151373_1_alg».proof.Defs
import proofs.«126384_j71554155151373_1_alg».proof.Proof.Gen.Kernel
import proofs.«126384_j71554155151373_1_alg».proof.Proof.Gen.KernelIdeal
import proofs.«126384_j71554155151373_1_alg».proof.Proof.Gen.ReferenceIdeal
import proofs.«126384_j71554155151373_1_alg».proof.Proof.Gen.Pre_finite_inputs
import proofs.«126384_j71554155151373_1_alg».proof.Proof.Gen.ReferenceIdeal.Run
import proofs.«126384_j71554155151373_1_alg».proof.Proof.Gen.ReferenceIdeal.Read
import proofs.«126384_j71554155151373_1_alg».proof.Proof.K.Halves
import proofs.«126384_j71554155151373_1_alg».proof.Proof.KI.Value
import proofs.«126384_j71554155151373_1_alg».proof.Proof.Val.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Hand.frame m ρ

/-- So does the kernel program read on the extended reals. -/
theorem frame_kernelIdeal : Cert.frame_KernelIdeal := fun m ρ _ => Cert.KernelIdeal.Hand.frame m ρ

/-- And the reference: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the two specified readouts side by side and minus the
    sum of their squared differences: the kernel program by its value run, the reference by its own run read index by index. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v78_eq, Cert.ReferenceIdeal.RefValue.out0_eq,
      (hagree c).1, (hagree c).2.1, (hagree c).2.2.1, (hagree c).2.2.2.1, (hagree c).2.2.2.2.1, (hagree c).2.2.2.2.2]
  · rw [(h c).2.1, Cert.ReferenceIdeal.Read.val_main_v77_eq, Cert.ReferenceIdeal.RefValue.out1_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
